-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v486) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x192 : Shape := ⟨4, ![8, 128, 128, 192]⟩
abbrev S_ : Shape := ⟨0, ![]⟩

class Facts : Prop where
  bcast_S_S8x128x128x192 : S_.BroadcastsInDim S8x128x128x192 (![] : Fin 0 → Fin S8x128x128x192.rank)
  reducesTo_S8x128x128x192_S_d0_1_2_3 : S8x128x128x192.ReducesTo [0, 1, 2, 3] S_
  h_S_ : 0 < S_.numel

variable [Facts]

def fn {F : FTy → Type} [FloatOps F] (main_arg0 : FVec F S8x128x128x192 .f32) (main_arg1 : FVec F S8x128x128x192 .f32) : IVec S_ 1 :=
  let main_v0 : FVec F S8x128x128x192 .f32 := Host.absf main_arg0
  let main_cst : FVec F S_ .f32 := constant S_ .f32 0x7F800000#32
  let main_v1 : FVec F S8x128x128x192 .f32 := broadcastInDim S8x128x128x192 ![] bcast_S_S8x128x128x192 main_cst
  let main_v2 : IVec S8x128x128x192 1 := cmpf .olt main_v0 main_v1
  let main_c : IVec S_ 1 := constantI S_ 1 1#1
  let main_v3 : IVec S_ 1 := (fun x v => Host.reduce IntOp.andi x v reducesTo_S8x128x128x192_S_d0_1_2_3 h_S_) main_v2 main_c
  let main_v4 : FVec F S8x128x128x192 .f32 := Host.absf main_arg1
  let main_cst_0 : FVec F S_ .f32 := constant S_ .f32 0x7F800000#32
  let main_v5 : FVec F S8x128x128x192 .f32 := broadcastInDim S8x128x128x192 ![] bcast_S_S8x128x128x192 main_cst_0
  let main_v6 : IVec S8x128x128x192 1 := cmpf .olt main_v4 main_v5
  let main_c_1 : IVec S_ 1 := constantI S_ 1 1#1
  let main_v7 : IVec S_ 1 := (fun x v => Host.reduce IntOp.andi x v reducesTo_S8x128x128x192_S_d0_1_2_3 h_S_) main_v6 main_c_1
  let main_v8 : IVec S_ 1 := andi main_v3 main_v7
  main_v8
-- ==== Kernel.lean ====
abbrev S8x128x128x192 : Shape := ⟨4, ![8, 128, 128, 192]⟩
abbrev S_ : Shape := ⟨0, ![]⟩
abbrev S8x128x136x200 : Shape := ⟨4, ![8, 128, 136, 200]⟩
abbrev S8x80x128x192 : Shape := ⟨4, ![8, 80, 128, 192]⟩
abbrev S1x128x32x192 : Shape := ⟨4, ![1, 128, 32, 192]⟩
abbrev S1x128x32x200 : Shape := ⟨4, ![1, 128, 32, 200]⟩
abbrev S1x128x8x200 : Shape := ⟨4, ![1, 128, 8, 200]⟩
abbrev S1x80x32x192 : Shape := ⟨4, ![1, 80, 32, 192]⟩
abbrev S128x40x200 : Shape := ⟨3, ![128, 40, 200]⟩
abbrev S128x32x200 : Shape := ⟨3, ![128, 32, 200]⟩
abbrev S128x8x200 : Shape := ⟨3, ![128, 8, 200]⟩
abbrev S128x40x192 : Shape := ⟨3, ![128, 40, 192]⟩
abbrev S128x32x192 : Shape := ⟨3, ![128, 32, 192]⟩
abbrev S32x192 : Shape := ⟨2, ![32, 192]⟩
abbrev S1x1x32x192 : Shape := ⟨4, ![1, 1, 32, 192]⟩

abbrev nBuf : Space → Nat
  | .hbm => 8
  | .vmem => 9
  | .smem => 0
  | _ => 0

abbrev bufTy : (tb : Table) → Fin (tcTables nBuf tb) → BufTy
  | .hbm, ⟨0, _⟩ => ⟨S8x128x128x192, .f32⟩
  | .hbm, ⟨1, _⟩ => ⟨S8x128x128x192, .f32⟩
  | .hbm, ⟨2, _⟩ => ⟨S8x128x128x192, .bf16⟩
  | .hbm, ⟨3, _⟩ => ⟨S8x128x128x192, .bf16⟩
  | .hbm, ⟨4, _⟩ => ⟨S_, .i32⟩
  | .hbm, ⟨5, _⟩ => ⟨S_, .bf16⟩
  | .hbm, ⟨6, _⟩ => ⟨S8x128x136x200, .bf16⟩
  | .hbm, ⟨7, _⟩ => ⟨S8x80x128x192, .f32⟩
  | .local _ .vmem, ⟨0, _⟩ => ⟨S1x128x32x192, .bf16⟩
  | .local _ .vmem, ⟨1, _⟩ => ⟨S1x128x32x192, .bf16⟩
  | .local _ .vmem, ⟨2, _⟩ => ⟨S1x128x32x200, .bf16⟩
  | .local _ .vmem, ⟨3, _⟩ => ⟨S1x128x32x200, .bf16⟩
  | .local _ .vmem, ⟨4, _⟩ => ⟨S1x128x8x200, .bf16⟩
  | .local _ .vmem, ⟨5, _⟩ => ⟨S1x128x8x200, .bf16⟩
  | .local _ .vmem, ⟨6, _⟩ => ⟨S1x80x32x192, .f32⟩
  | .local _ .vmem, ⟨7, _⟩ => ⟨S1x80x32x192, .f32⟩
  | .local _ .vmem, ⟨8, _⟩ => ⟨S128x40x200, .bf16⟩
  | _, _ => ⟨S8x128x128x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c0_i32 : BitVec 32 := 0#32
  let c0_i32_0 : BitVec 32 := 0#32
  let c0_i32_1 : BitVec 32 := 0#32
  ![arg0.toNat, c0_i32.toNat, v1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x128x32x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x32x200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x8x200 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x80x32x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  pads_S8x128x128x192_S8x128x136x200_000_000_440_440 : S8x128x128x192.Pads (![0, 0, 4, 4] : Fin 4 → Nat) ![0, 0, 4, 4] ![0, 0, 0, 0] S8x128x136x200
  h_S_ : 0 < S_.numel
  inb_S1x128x32x200_S1x128x32x200_0_0_0_0 : ∀ a, (![0, 0, 0, 0] : Fin 4 → Nat) a + S1x128x32x200.size a ≤ S1x128x32x200.size a
  h_S1x128x32x200 : 0 < S1x128x32x200.numel
  shapeCasts_S1x128x32x200_S128x32x200 : S1x128x32x200.ShapeCasts S128x32x200
  inb_S128x40x200_S128x32x200_0_0_0 : ∀ a, (![0, 0, 0] : Fin 3 → Nat) a + S128x32x200.size a ≤ S128x40x200.size a
  h_S128x32x200 : 0 < S128x32x200.numel
  shapeCasts_S128x32x200_S128x32x200 : S128x32x200.ShapeCasts S128x32x200
  packedbf16_S128x40x200_S128x32x200_0_0_0 : (Rect.unit (s := S128x40x200) ![0, 0, 0] S128x32x200.size inb_S128x40x200_S128x32x200_0_0_0).PackedRows (EltTy.packing .bf16)
  inb_S1x128x8x200_S1x128x8x200_0_0_0_0 : ∀ a, (![0, 0, 0, 0] : Fin 4 → Nat) a + S1x128x8x200.size a ≤ S1x128x8x200.size a
  h_S1x128x8x200 : 0 < S1x128x8x200.numel
  shapeCasts_S1x128x8x200_S128x8x200 : S1x128x8x200.ShapeCasts S128x8x200
  inb_S128x40x200_S128x8x200_0_32_0 : ∀ a, (![0, 32, 0] : Fin 3 → Nat) a + S128x8x200.size a ≤ S128x40x200.size a
  h_S128x8x200 : 0 < S128x8x200.numel
  shapeCasts_S128x8x200_S128x8x200 : S128x8x200.ShapeCasts S128x8x200
  packedbf16_S128x40x200_S128x8x200_0_32_0 : (Rect.unit (s := S128x40x200) ![0, 32, 0] S128x8x200.size inb_S128x40x200_S128x8x200_0_32_0).PackedRows (EltTy.packing .bf16)
  inb_S128x40x200_S128x40x192_0_0_0 : ∀ a, (![0, 0, 0] : Fin 3 → Nat) a + S128x40x192.size a ≤ S128x40x200.size a
  h_S128x40x192 : 0 < S128x40x192.numel
  inb_S1x128x32x192_S1x128x32x192_0_0_0_0 : ∀ a, (![0, 0, 0, 0] : Fin 4 → Nat) a + S1x128x32x192.size a ≤ S1x128x32x192.size a
  h_S1x128x32x192 : 0 < S1x128x32x192.numel
  shapeCasts_S1x128x32x192_S128x32x192 : S1x128x32x192.ShapeCasts S128x32x192
  slices_S128x40x192_o0_0_0_S128x32x192 : S128x40x192.Slices ![0, 0, 0] S128x32x192
  reduces_S128x32x192_S32x192 : S128x32x192.Reduces [0] S32x192
  inb_S1x80x32x192_S1x1x32x192_0_0_0_0 : ∀ a, (![0, 0, 0, 0] : Fin 4 → Nat) a + S1x1x32x192.size a ≤ S1x80x32x192.size a
  h_S1x1x32x192 : 0 < S1x1x32x192.numel
  shapeCasts_S1x1x32x192_S32x192 : S1x1x32x192.ShapeCasts S32x192
  shapeCasts_S32x192_S1x1x32x192 : S32x192.ShapeCasts S1x1x32x192
  slices_S128x40x192_o0_1_0_S128x32x192 : S128x40x192.Slices ![0, 1, 0] S128x32x192
  inb_S1x80x32x192_S1x1x32x192_0_9_0_0 : ∀ a, (![0, 9, 0, 0] : Fin 4 → Nat) a + S1x1x32x192.size a ≤ S1x80x32x192.size a
  slices_S128x40x192_o0_2_0_S128x32x192 : S128x40x192.Slices ![0, 2, 0] S128x32x192
  inb_S1x80x32x192_S1x1x32x192_0_18_0_0 : ∀ a, (![0, 18, 0, 0] : Fin 4 → Nat) a + S1x1x32x192.size a ≤ S1x80x32x192.size a
  slices_S128x40x192_o0_3_0_S128x32x192 : S128x40x192.Slices ![0, 3, 0] S128x32x192
  inb_S1x80x32x192_S1x1x32x192_0_27_0_0 : ∀ a, (![0, 27, 0, 0] : Fin 4 → Nat) a + S1x1x32x192.size a ≤ S1x80x32x192.size a
  slices_S128x40x192_o0_4_0_S128x32x192 : S128x40x192.Slices ![0, 4, 0] S128x32x192
  inb_S1x80x32x192_S1x1x32x192_0_36_0_0 : ∀ a, (![0, 36, 0, 0] : Fin 4 → Nat) a + S1x1x32x192.size a ≤ S1x80x32x192.size a
  slices_S128x40x192_o0_5_0_S128x32x192 : S128x40x192.Slices ![0, 5, 0] S128x32x192
  inb_S1x80x32x192_S1x1x32x192_0_44_0_0 : ∀ a, (![0, 44, 0, 0] : Fin 4 → Nat) a + S1x1x32x192.size a ≤ S1x80x32x192.size a
  slices_S128x40x192_o0_6_0_S128x32x192 : S128x40x192.Slices ![0, 6, 0] S128x32x192
  inb_S1x80x32x192_S1x1x32x192_0_53_0_0 : ∀ a, (![0, 53, 0, 0] : Fin 4 → Nat) a + S1x1x32x192.size a ≤ S1x80x32x192.size a
  slices_S128x40x192_o0_7_0_S128x32x192 : S128x40x192.Slices ![0, 7, 0] S128x32x192
  inb_S1x80x32x192_S1x1x32x192_0_62_0_0 : ∀ a, (![0, 62, 0, 0] : Fin 4 → Nat) a + S1x1x32x192.size a ≤ S1x80x32x192.size a
  slices_S128x40x192_o0_8_0_S128x32x192 : S128x40x192.Slices ![0, 8, 0] S128x32x192
  inb_S1x80x32x192_S1x1x32x192_0_71_0_0 : ∀ a, (![0, 71, 0, 0] : Fin 4 → Nat) a + S1x1x32x192.size a ≤ S1x80x32x192.size a
  inb_S128x40x200_S128x40x192_0_0_1 : ∀ a, (![0, 0, 1] : Fin 3 → Nat) a + S128x40x192.size a ≤ S128x40x200.size a
  inb_S1x80x32x192_S1x1x32x192_0_1_0_0 : ∀ a, (![0, 1, 0, 0] : Fin 4 → Nat) a + S1x1x32x192.size a ≤ S1x80x32x192.size a
  inb_S1x80x32x192_S1x1x32x192_0_10_0_0 : ∀ a, (![0, 10, 0, 0] : Fin 4 → Nat) a + S1x1x32x192.size a ≤ S1x80x32x192.size a
  inb_S1x80x32x192_S1x1x32x192_0_19_0_0 : ∀ a, (![0, 19, 0, 0] : Fin 4 → Nat) a + S1x1x32x192.size a ≤ S1x80x32x192.size a
  inb_S1x80x32x192_S1x1x32x192_0_28_0_0 : ∀ a, (![0, 28, 0, 0] : Fin 4 → Nat) a + S1x1x32x192.size a ≤ S1x80x32x192.size a
  inb_S1x80x32x192_S1x1x32x192_0_37_0_0 : ∀ a, (![0, 37, 0, 0] : Fin 4 → Nat) a + S1x1x32x192.size a ≤ S1x80x32x192.size a
  inb_S1x80x32x192_S1x1x32x192_0_45_0_0 : ∀ a, (![0, 45, 0, 0] : Fin 4 → Nat) a + S1x1x32x192.size a ≤ S1x80x32x192.size a
  inb_S1x80x32x192_S1x1x32x192_0_54_0_0 : ∀ a, (![0, 54, 0, 0] : Fin 4 → Nat) a + S1x1x32x192.size a ≤ S1x80x32x192.size a
  inb_S1x80x32x192_S1x1x32x192_0_63_0_0 : ∀ a, (![0, 63, 0, 0] : Fin 4 → Nat) a + S1x1x32x192.size a ≤ S1x80x32x192.size a
  inb_S1x80x32x192_S1x1x32x192_0_72_0_0 : ∀ a, (![0, 72, 0, 0] : Fin 4 → Nat) a + S1x1x32x192.size a ≤ S1x80x32x192.size a
  inb_S128x40x200_S128x40x192_0_0_2 : ∀ a, (![0, 0, 2] : Fin 3 → Nat) a + S128x40x192.size a ≤ S128x40x200.size a
  inb_S1x80x32x192_S1x1x32x192_0_2_0_0 : ∀ a, (![0, 2, 0, 0] : Fin 4 → Nat) a + S1x1x32x192.size a ≤ S1x80x32x192.size a
  inb_S1x80x32x192_S1x1x32x192_0_11_0_0 : ∀ a, (![0, 11, 0, 0] : Fin 4 → Nat) a + S1x1x32x192.size a ≤ S1x80x32x192.size a
  inb_S1x80x32x192_S1x1x32x192_0_20_0_0 : ∀ a, (![0, 20, 0, 0] : Fin 4 → Nat) a + S1x1x32x192.size a ≤ S1x80x32x192.size a
  inb_S1x80x32x192_S1x1x32x192_0_29_0_0 : ∀ a, (![0, 29, 0, 0] : Fin 4 → Nat) a + S1x1x32x192.size a ≤ S1x80x32x192.size a
  inb_S1x80x32x192_S1x1x32x192_0_38_0_0 : ∀ a, (![0, 38, 0, 0] : Fin 4 → Nat) a + S1x1x32x192.size a ≤ S1x80x32x192.size a
  inb_S1x80x32x192_S1x1x32x192_0_46_0_0 : ∀ a, (![0, 46, 0, 0] : Fin 4 → Nat) a + S1x1x32x192.size a ≤ S1x80x32x192.size a
  inb_S1x80x32x192_S1x1x32x192_0_55_0_0 : ∀ a, (![0, 55, 0, 0] : Fin 4 → Nat) a + S1x1x32x192.size a ≤ S1x80x32x192.size a
  inb_S1x80x32x192_S1x1x32x192_0_64_0_0 : ∀ a, (![0, 64, 0, 0] : Fin 4 → Nat) a + S1x1x32x192.size a ≤ S1x80x32x192.size a
  inb_S1x80x32x192_S1x1x32x192_0_73_0_0 : ∀ a, (![0, 73, 0, 0] : Fin 4 → Nat) a + S1x1x32x192.size a ≤ S1x80x32x192.size a
  inb_S128x40x200_S128x40x192_0_0_3 : ∀ a, (![0, 0, 3] : Fin 3 → Nat) a + S128x40x192.size a ≤ S128x40x200.size a
  inb_S1x80x32x192_S1x1x32x192_0_3_0_0 : ∀ a, (![0, 3, 0, 0] : Fin 4 → Nat) a + S1x1x32x192.size a ≤ S1x80x32x192.size a
  inb_S1x80x32x192_S1x1x32x192_0_12_0_0 : ∀ a, (![0, 12, 0, 0] : Fin 4 → Nat) a + S1x1x32x192.size a ≤ S1x80x32x192.size a
  inb_S1x80x32x192_S1x1x32x192_0_21_0_0 : ∀ a, (![0, 21, 0, 0] : Fin 4 → Nat) a + S1x1x32x192.size a ≤ S1x80x32x192.size a
  inb_S1x80x32x192_S1x1x32x192_0_30_0_0 : ∀ a, (![0, 30, 0, 0] : Fin 4 → Nat) a + S1x1x32x192.size a ≤ S1x80x32x192.size a
  inb_S1x80x32x192_S1x1x32x192_0_39_0_0 : ∀ a, (![0, 39, 0, 0] : Fin 4 → Nat) a + S1x1x32x192.size a ≤ S1x80x32x192.size a
  inb_S1x80x32x192_S1x1x32x192_0_47_0_0 : ∀ a, (![0, 47, 0, 0] : Fin 4 → Nat) a + S1x1x32x192.size a ≤ S1x80x32x192.size a
  inb_S1x80x32x192_S1x1x32x192_0_56_0_0 : ∀ a, (![0, 56, 0, 0] : Fin 4 → Nat) a + S1x1x32x192.size a ≤ S1x80x32x192.size a
  inb_S1x80x32x192_S1x1x32x192_0_65_0_0 : ∀ a, (![0, 65, 0, 0] : Fin 4 → Nat) a + S1x1x32x192.size a ≤ S1x80x32x192.size a
  inb_S1x80x32x192_S1x1x32x192_0_74_0_0 : ∀ a, (![0, 74, 0, 0] : Fin 4 → Nat) a + S1x1x32x192.size a ≤ S1x80x32x192.size a
  inb_S128x40x200_S128x40x192_0_0_4 : ∀ a, (![0, 0, 4] : Fin 3 → Nat) a + S128x40x192.size a ≤ S128x40x200.size a
  inb_S1x80x32x192_S1x1x32x192_0_4_0_0 : ∀ a, (![0, 4, 0, 0] : Fin 4 → Nat) a + S1x1x32x192.size a ≤ S1x80x32x192.size a
  inb_S1x80x32x192_S1x1x32x192_0_13_0_0 : ∀ a, (![0, 13, 0, 0] : Fin 4 → Nat) a + S1x1x32x192.size a ≤ S1x80x32x192.size a
  inb_S1x80x32x192_S1x1x32x192_0_22_0_0 : ∀ a, (![0, 22, 0, 0] : Fin 4 → Nat) a + S1x1x32x192.size a ≤ S1x80x32x192.size a
  inb_S1x80x32x192_S1x1x32x192_0_31_0_0 : ∀ a, (![0, 31, 0, 0] : Fin 4 → Nat) a + S1x1x32x192.size a ≤ S1x80x32x192.size a
  inb_S1x80x32x192_S1x1x32x192_0_48_0_0 : ∀ a, (![0, 48, 0, 0] : Fin 4 → Nat) a + S1x1x32x192.size a ≤ S1x80x32x192.size a
  inb_S1x80x32x192_S1x1x32x192_0_57_0_0 : ∀ a, (![0, 57, 0, 0] : Fin 4 → Nat) a + S1x1x32x192.size a ≤ S1x80x32x192.size a
  inb_S1x80x32x192_S1x1x32x192_0_66_0_0 : ∀ a, (![0, 66, 0, 0] : Fin 4 → Nat) a + S1x1x32x192.size a ≤ S1x80x32x192.size a
  inb_S1x80x32x192_S1x1x32x192_0_75_0_0 : ∀ a, (![0, 75, 0, 0] : Fin 4 → Nat) a + S1x1x32x192.size a ≤ S1x80x32x192.size a
  inb_S128x40x200_S128x40x192_0_0_5 : ∀ a, (![0, 0, 5] : Fin 3 → Nat) a + S128x40x192.size a ≤ S128x40x200.size a
  inb_S1x80x32x192_S1x1x32x192_0_5_0_0 : ∀ a, (![0, 5, 0, 0] : Fin 4 → Nat) a + S1x1x32x192.size a ≤ S1x80x32x192.size a
  inb_S1x80x32x192_S1x1x32x192_0_14_0_0 : ∀ a, (![0, 14, 0, 0] : Fin 4 → Nat) a + S1x1x32x192.size a ≤ S1x80x32x192.size a
  inb_S1x80x32x192_S1x1x32x192_0_23_0_0 : ∀ a, (![0, 23, 0, 0] : Fin 4 → Nat) a + S1x1x32x192.size a ≤ S1x80x32x192.size a
  inb_S1x80x32x192_S1x1x32x192_0_32_0_0 : ∀ a, (![0, 32, 0, 0] : Fin 4 → Nat) a + S1x1x32x192.size a ≤ S1x80x32x192.size a
  inb_S1x80x32x192_S1x1x32x192_0_40_0_0 : ∀ a, (![0, 40, 0, 0] : Fin 4 → Nat) a + S1x1x32x192.size a ≤ S1x80x32x192.size a
  inb_S1x80x32x192_S1x1x32x192_0_49_0_0 : ∀ a, (![0, 49, 0, 0] : Fin 4 → Nat) a + S1x1x32x192.size a ≤ S1x80x32x192.size a
  inb_S1x80x32x192_S1x1x32x192_0_58_0_0 : ∀ a, (![0, 58, 0, 0] : Fin 4 → Nat) a + S1x1x32x192.size a ≤ S1x80x32x192.size a
  inb_S1x80x32x192_S1x1x32x192_0_67_0_0 : ∀ a, (![0, 67, 0, 0] : Fin 4 → Nat) a + S1x1x32x192.size a ≤ S1x80x32x192.size a
  inb_S1x80x32x192_S1x1x32x192_0_76_0_0 : ∀ a, (![0, 76, 0, 0] : Fin 4 → Nat) a + S1x1x32x192.size a ≤ S1x80x32x192.size a
  inb_S128x40x200_S128x40x192_0_0_6 : ∀ a, (![0, 0, 6] : Fin 3 → Nat) a + S128x40x192.size a ≤ S128x40x200.size a
  inb_S1x80x32x192_S1x1x32x192_0_6_0_0 : ∀ a, (![0, 6, 0, 0] : Fin 4 → Nat) a + S1x1x32x192.size a ≤ S1x80x32x192.size a
  inb_S1x80x32x192_S1x1x32x192_0_15_0_0 : ∀ a, (![0, 15, 0, 0] : Fin 4 → Nat) a + S1x1x32x192.size a ≤ S1x80x32x192.size a
  inb_S1x80x32x192_S1x1x32x192_0_24_0_0 : ∀ a, (![0, 24, 0, 0] : Fin 4 → Nat) a + S1x1x32x192.size a ≤ S1x80x32x192.size a
  inb_S1x80x32x192_S1x1x32x192_0_33_0_0 : ∀ a, (![0, 33, 0, 0] : Fin 4 → Nat) a + S1x1x32x192.size a ≤ S1x80x32x192.size a
  inb_S1x80x32x192_S1x1x32x192_0_41_0_0 : ∀ a, (![0, 41, 0, 0] : Fin 4 → Nat) a + S1x1x32x192.size a ≤ S1x80x32x192.size a
  inb_S1x80x32x192_S1x1x32x192_0_50_0_0 : ∀ a, (![0, 50, 0, 0] : Fin 4 → Nat) a + S1x1x32x192.size a ≤ S1x80x32x192.size a
  inb_S1x80x32x192_S1x1x32x192_0_59_0_0 : ∀ a, (![0, 59, 0, 0] : Fin 4 → Nat) a + S1x1x32x192.size a ≤ S1x80x32x192.size a
  inb_S1x80x32x192_S1x1x32x192_0_68_0_0 : ∀ a, (![0, 68, 0, 0] : Fin 4 → Nat) a + S1x1x32x192.size a ≤ S1x80x32x192.size a
  inb_S1x80x32x192_S1x1x32x192_0_77_0_0 : ∀ a, (![0, 77, 0, 0] : Fin 4 → Nat) a + S1x1x32x192.size a ≤ S1x80x32x192.size a
  inb_S128x40x200_S128x40x192_0_0_7 : ∀ a, (![0, 0, 7] : Fin 3 → Nat) a + S128x40x192.size a ≤ S128x40x200.size a
  inb_S1x80x32x192_S1x1x32x192_0_7_0_0 : ∀ a, (![0, 7, 0, 0] : Fin 4 → Nat) a + S1x1x32x192.size a ≤ S1x80x32x192.size a
  inb_S1x80x32x192_S1x1x32x192_0_16_0_0 : ∀ a, (![0, 16, 0, 0] : Fin 4 → Nat) a + S1x1x32x192.size a ≤ S1x80x32x192.size a
  inb_S1x80x32x192_S1x1x32x192_0_25_0_0 : ∀ a, (![0, 25, 0, 0] : Fin 4 → Nat) a + S1x1x32x192.size a ≤ S1x80x32x192.size a
  inb_S1x80x32x192_S1x1x32x192_0_34_0_0 : ∀ a, (![0, 34, 0, 0] : Fin 4 → Nat) a + S1x1x32x192.size a ≤ S1x80x32x192.size a
  inb_S1x80x32x192_S1x1x32x192_0_42_0_0 : ∀ a, (![0, 42, 0, 0] : Fin 4 → Nat) a + S1x1x32x192.size a ≤ S1x80x32x192.size a
  inb_S1x80x32x192_S1x1x32x192_0_51_0_0 : ∀ a, (![0, 51, 0, 0] : Fin 4 → Nat) a + S1x1x32x192.size a ≤ S1x80x32x192.size a
  inb_S1x80x32x192_S1x1x32x192_0_60_0_0 : ∀ a, (![0, 60, 0, 0] : Fin 4 → Nat) a + S1x1x32x192.size a ≤ S1x80x32x192.size a
  inb_S1x80x32x192_S1x1x32x192_0_69_0_0 : ∀ a, (![0, 69, 0, 0] : Fin 4 → Nat) a + S1x1x32x192.size a ≤ S1x80x32x192.size a
  inb_S1x80x32x192_S1x1x32x192_0_78_0_0 : ∀ a, (![0, 78, 0, 0] : Fin 4 → Nat) a + S1x1x32x192.size a ≤ S1x80x32x192.size a
  inb_S128x40x200_S128x40x192_0_0_8 : ∀ a, (![0, 0, 8] : Fin 3 → Nat) a + S128x40x192.size a ≤ S128x40x200.size a
  inb_S1x80x32x192_S1x1x32x192_0_8_0_0 : ∀ a, (![0, 8, 0, 0] : Fin 4 → Nat) a + S1x1x32x192.size a ≤ S1x80x32x192.size a
  inb_S1x80x32x192_S1x1x32x192_0_17_0_0 : ∀ a, (![0, 17, 0, 0] : Fin 4 → Nat) a + S1x1x32x192.size a ≤ S1x80x32x192.size a
  inb_S1x80x32x192_S1x1x32x192_0_26_0_0 : ∀ a, (![0, 26, 0, 0] : Fin 4 → Nat) a + S1x1x32x192.size a ≤ S1x80x32x192.size a
  inb_S1x80x32x192_S1x1x32x192_0_35_0_0 : ∀ a, (![0, 35, 0, 0] : Fin 4 → Nat) a + S1x1x32x192.size a ≤ S1x80x32x192.size a
  inb_S1x80x32x192_S1x1x32x192_0_43_0_0 : ∀ a, (![0, 43, 0, 0] : Fin 4 → Nat) a + S1x1x32x192.size a ≤ S1x80x32x192.size a
  inb_S1x80x32x192_S1x1x32x192_0_52_0_0 : ∀ a, (![0, 52, 0, 0] : Fin 4 → Nat) a + S1x1x32x192.size a ≤ S1x80x32x192.size a
  inb_S1x80x32x192_S1x1x32x192_0_61_0_0 : ∀ a, (![0, 61, 0, 0] : Fin 4 → Nat) a + S1x1x32x192.size a ≤ S1x80x32x192.size a
  inb_S1x80x32x192_S1x1x32x192_0_70_0_0 : ∀ a, (![0, 70, 0, 0] : Fin 4 → Nat) a + S1x1x32x192.size a ≤ S1x80x32x192.size a
  inb_S1x80x32x192_S1x1x32x192_0_79_0_0 : ∀ a, (![0, 79, 0, 0] : Fin 4 → Nat) a + S1x1x32x192.size a ≤ S1x80x32x192.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x32x192.size a ≤ S8x128x128x192.size a
  hwx0_0 : ∀ i : grid0.Coords, EltTy.bits .bf16 = 32 ∨ (Rect.block (s := S8x128x128x192) S1x128x32x192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1x128x32x200.size a < S8x128x136x200.size a
  hwx0_1 : ∀ i : grid0.Coords, EltTy.bits .bf16 = 32 ∨ (Rect.unit (s := S8x128x136x200) (fun a => cc0_transform_1 i a * S1x128x32x200.size a) (fun a => (Pipeline.Clip.of (cc0_transform_1 i a) (S1x128x32x200.size a) (S8x128x136x200.size a)).extent (S1x128x32x200.size a)) fun a => Pipeline.Clip.inb (Pipeline.Clip.ok_of (hstart0_1 i a))).WholeWords (EltTy.packing .bf16)
  hwxs0_1 : ∀ i : grid0.Coords, EltTy.bits .bf16 = 32 ∨ (Rect.unit (s := S1x128x32x200) (fun _ => 0) (fun a => (Pipeline.Clip.of (cc0_transform_1 i a) (S1x128x32x200.size a) (S8x128x136x200.size a)).extent (S1x128x32x200.size a)) fun a => (Nat.zero_add _).trans_le (Pipeline.Clip.extent_le (Pipeline.Clip.ok_of (hstart0_1 i a)))).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x8x200.size a ≤ S8x128x136x200.size a
  hwx0_2 : ∀ i : grid0.Coords, EltTy.bits .bf16 = 32 ∨ (Rect.block (s := S8x128x136x200) S1x128x8x200.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x80x32x192.size a ≤ S8x80x128x192.size a
  hwx0_3 : ∀ i : grid0.Coords, EltTy.bits .f32 = 32 ∨ (Rect.block (s := S8x80x128x192) S1x80x32x192.size (cc0_transform_3 i) (hinb0_3 i)).WholeWords (EltTy.packing .f32)

variable [Facts₀]

abbrev win0_0 : Pipeline.Window sig grid0 :=
  Pipeline.Window.ofSpec (Memref.whole main_v0) S1x128x32x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_v2) S1x128x32x200.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v2) S1x128x8x200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x80x32x192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x128x128x192 : Shape := ⟨4, ![8, 128, 128, 192]⟩
abbrev S_ : Shape := ⟨0, ![]⟩
abbrev S8x128x136x200 : Shape := ⟨4, ![8, 128, 136, 200]⟩
abbrev S8x128x192 : Shape := ⟨3, ![8, 128, 192]⟩
abbrev S8x1x128x192 : Shape := ⟨4, ![8, 1, 128, 192]⟩
abbrev S8x16x128x192 : Shape := ⟨4, ![8, 16, 128, 192]⟩
abbrev S8x80x128x192 : Shape := ⟨4, ![8, 80, 128, 192]⟩

abbrev nBuf : Space → Nat
  | .hbm => 651
  | .vmem => 0
  | .smem => 0
  | _ => 0

abbrev hbmTy0_0 (i : Nat) : BufTy := match i % 128 with
  | 0 => ⟨S8x128x128x192, .f32⟩
  | 1 => ⟨S8x128x128x192, .f32⟩
  | 2 => ⟨S_, .i32⟩
  | 3 => ⟨S_, .f32⟩
  | 4 => ⟨S8x128x136x200, .f32⟩
  | 5 => ⟨S8x128x128x192, .f32⟩
  | 6 => ⟨S8x128x128x192, .f32⟩
  | 7 => ⟨S_, .f32⟩
  | 8 => ⟨S8x128x192, .f32⟩
  | 9 => ⟨S_, .f32⟩
  | 10 => ⟨S8x128x192, .f32⟩
  | 11 => ⟨S8x128x192, .f32⟩
  | 12 => ⟨S8x128x128x192, .f32⟩
  | 13 => ⟨S8x128x128x192, .f32⟩
  | 14 => ⟨S_, .f32⟩
  | 15 => ⟨S8x128x192, .f32⟩
  | 16 => ⟨S_, .f32⟩
  | 17 => ⟨S8x128x192, .f32⟩
  | 18 => ⟨S8x128x192, .f32⟩
  | 19 => ⟨S8x128x128x192, .f32⟩
  | 20 => ⟨S8x128x128x192, .f32⟩
  | 21 => ⟨S_, .f32⟩
  | 22 => ⟨S8x128x192, .f32⟩
  | 23 => ⟨S_, .f32⟩
  | 24 => ⟨S8x128x192, .f32⟩
  | 25 => ⟨S8x128x192, .f32⟩
  | 26 => ⟨S8x128x128x192, .f32⟩
  | 27 => ⟨S8x128x128x192, .f32⟩
  | 28 => ⟨S_, .f32⟩
  | 29 => ⟨S8x128x192, .f32⟩
  | 30 => ⟨S_, .f32⟩
  | 31 => ⟨S8x128x192, .f32⟩
  | 32 => ⟨S8x128x192, .f32⟩
  | 33 => ⟨S8x128x128x192, .f32⟩
  | 34 => ⟨S8x128x128x192, .f32⟩
  | 35 => ⟨S_, .f32⟩
  | 36 => ⟨S8x128x192, .f32⟩
  | 37 => ⟨S_, .f32⟩
  | 38 => ⟨S8x128x192, .f32⟩
  | 39 => ⟨S8x128x192, .f32⟩
  | 40 => ⟨S8x128x128x192, .f32⟩
  | 41 => ⟨S8x128x128x192, .f32⟩
  | 42 => ⟨S_, .f32⟩
  | 43 => ⟨S8x128x192, .f32⟩
  | 44 => ⟨S_, .f32⟩
  | 45 => ⟨S8x128x192, .f32⟩
  | 46 => ⟨S8x128x192, .f32⟩
  | 47 => ⟨S8x128x128x192, .f32⟩
  | 48 => ⟨S8x128x128x192, .f32⟩
  | 49 => ⟨S_, .f32⟩
  | 50 => ⟨S8x128x192, .f32⟩
  | 51 => ⟨S_, .f32⟩
  | 52 => ⟨S8x128x192, .f32⟩
  | 53 => ⟨S8x128x192, .f32⟩
  | 54 => ⟨S8x128x128x192, .f32⟩
  | 55 => ⟨S8x128x128x192, .f32⟩
  | 56 => ⟨S_, .f32⟩
  | 57 => ⟨S8x128x192, .f32⟩
  | 58 => ⟨S_, .f32⟩
  | 59 => ⟨S8x128x192, .f32⟩
  | 60 => ⟨S8x128x192, .f32⟩
  | 61 => ⟨S8x128x128x192, .f32⟩
  | 62 => ⟨S8x128x128x192, .f32⟩
  | 63 => ⟨S_, .f32⟩
  | 64 => ⟨S8x128x192, .f32⟩
  | 65 => ⟨S_, .f32⟩
  | 66 => ⟨S8x128x192, .f32⟩
  | 67 => ⟨S8x128x192, .f32⟩
  | 68 => ⟨S8x128x128x192, .f32⟩
  | 69 => ⟨S8x128x128x192, .f32⟩
  | 70 => ⟨S_, .f32⟩
  | 71 => ⟨S8x128x192, .f32⟩
  | 72 => ⟨S_, .f32⟩
  | 73 => ⟨S8x128x192, .f32⟩
  | 74 => ⟨S8x128x192, .f32⟩
  | 75 => ⟨S8x128x128x192, .f32⟩
  | 76 => ⟨S8x128x128x192, .f32⟩
  | 77 => ⟨S_, .f32⟩
  | 78 => ⟨S8x128x192, .f32⟩
  | 79 => ⟨S_, .f32⟩
  | 80 => ⟨S8x128x192, .f32⟩
  | 81 => ⟨S8x128x192, .f32⟩
  | 82 => ⟨S8x128x128x192, .f32⟩
  | 83 => ⟨S8x128x128x192, .f32⟩
  | 84 => ⟨S_, .f32⟩
  | 85 => ⟨S8x128x192, .f32⟩
  | 86 => ⟨S_, .f32⟩
  | 87 => ⟨S8x128x192, .f32⟩
  | 88 => ⟨S8x128x192, .f32⟩
  | 89 => ⟨S8x128x128x192, .f32⟩
  | 90 => ⟨S8x128x128x192, .f32⟩
  | 91 => ⟨S_, .f32⟩
  | 92 => ⟨S8x128x192, .f32⟩
  | 93 => ⟨S_, .f32⟩
  | 94 => ⟨S8x128x192, .f32⟩
  | 95 => ⟨S8x128x192, .f32⟩
  | 96 => ⟨S8x128x128x192, .f32⟩
  | 97 => ⟨S8x128x128x192, .f32⟩
  | 98 => ⟨S_, .f32⟩
  | 99 => ⟨S8x128x192, .f32⟩
  | 100 => ⟨S_, .f32⟩
  | 101 => ⟨S8x128x192, .f32⟩
  | 102 => ⟨S8x128x192, .f32⟩
  | 103 => ⟨S8x128x128x192, .f32⟩
  | 104 => ⟨S8x128x128x192, .f32⟩
  | 105 => ⟨S_, .f32⟩
  | 106 => ⟨S8x128x192, .f32⟩
  | 107 => ⟨S_, .f32⟩
  | 108 => ⟨S8x128x192, .f32⟩
  | 109 => ⟨S8x128x192, .f32⟩
  | 110 => ⟨S8x128x128x192, .f32⟩
  | 111 => ⟨S8x128x128x192, .f32⟩
  | 112 => ⟨S_, .f32⟩
  | 113 => ⟨S8x128x192, .f32⟩
  | 114 => ⟨S_, .f32⟩
  | 115 => ⟨S8x128x192, .f32⟩
  | 116 => ⟨S8x128x192, .f32⟩
  | 117 => ⟨S8x128x128x192, .f32⟩
  | 118 => ⟨S8x128x128x192, .f32⟩
  | 119 => ⟨S_, .f32⟩
  | 120 => ⟨S8x128x192, .f32⟩
  | 121 => ⟨S_, .f32⟩
  | 122 => ⟨S8x128x192, .f32⟩
  | 123 => ⟨S8x128x192, .f32⟩
  | 124 => ⟨S8x128x128x192, .f32⟩
  | 125 => ⟨S8x128x128x192, .f32⟩
  | 126 => ⟨S_, .f32⟩
  | 127 => ⟨S8x128x192, .f32⟩
  | _ => ⟨S8x128x128x192, .f32⟩

abbrev hbmTy0_1 (i : Nat) : BufTy := match i % 128 with
  | 0 => ⟨S_, .f32⟩
  | 1 => ⟨S8x128x192, .f32⟩
  | 2 => ⟨S8x128x192, .f32⟩
  | 3 => ⟨S8x128x128x192, .f32⟩
  | 4 => ⟨S8x128x128x192, .f32⟩
  | 5 => ⟨S_, .f32⟩
  | 6 => ⟨S8x128x192, .f32⟩
  | 7 => ⟨S_, .f32⟩
  | 8 => ⟨S8x128x192, .f32⟩
  | 9 => ⟨S8x128x192, .f32⟩
  | 10 => ⟨S8x128x128x192, .f32⟩
  | 11 => ⟨S8x128x128x192, .f32⟩
  | 12 => ⟨S_, .f32⟩
  | 13 => ⟨S8x128x192, .f32⟩
  | 14 => ⟨S_, .f32⟩
  | 15 => ⟨S8x128x192, .f32⟩
  | 16 => ⟨S8x128x192, .f32⟩
  | 17 => ⟨S8x128x128x192, .f32⟩
  | 18 => ⟨S8x128x128x192, .f32⟩
  | 19 => ⟨S_, .f32⟩
  | 20 => ⟨S8x128x192, .f32⟩
  | 21 => ⟨S_, .f32⟩
  | 22 => ⟨S8x128x192, .f32⟩
  | 23 => ⟨S8x128x192, .f32⟩
  | 24 => ⟨S8x128x128x192, .f32⟩
  | 25 => ⟨S8x128x128x192, .f32⟩
  | 26 => ⟨S_, .f32⟩
  | 27 => ⟨S8x128x192, .f32⟩
  | 28 => ⟨S_, .f32⟩
  | 29 => ⟨S8x128x192, .f32⟩
  | 30 => ⟨S8x128x192, .f32⟩
  | 31 => ⟨S8x128x128x192, .f32⟩
  | 32 => ⟨S8x128x128x192, .f32⟩
  | 33 => ⟨S_, .f32⟩
  | 34 => ⟨S8x128x192, .f32⟩
  | 35 => ⟨S_, .f32⟩
  | 36 => ⟨S8x128x192, .f32⟩
  | 37 => ⟨S8x128x192, .f32⟩
  | 38 => ⟨S8x128x128x192, .f32⟩
  | 39 => ⟨S8x128x128x192, .f32⟩
  | 40 => ⟨S_, .f32⟩
  | 41 => ⟨S8x128x192, .f32⟩
  | 42 => ⟨S_, .f32⟩
  | 43 => ⟨S8x128x192, .f32⟩
  | 44 => ⟨S8x128x192, .f32⟩
  | 45 => ⟨S8x128x128x192, .f32⟩
  | 46 => ⟨S8x128x128x192, .f32⟩
  | 47 => ⟨S_, .f32⟩
  | 48 => ⟨S8x128x192, .f32⟩
  | 49 => ⟨S_, .f32⟩
  | 50 => ⟨S8x128x192, .f32⟩
  | 51 => ⟨S8x128x192, .f32⟩
  | 52 => ⟨S8x128x128x192, .f32⟩
  | 53 => ⟨S8x128x128x192, .f32⟩
  | 54 => ⟨S_, .f32⟩
  | 55 => ⟨S8x128x192, .f32⟩
  | 56 => ⟨S_, .f32⟩
  | 57 => ⟨S8x128x192, .f32⟩
  | 58 => ⟨S8x128x192, .f32⟩
  | 59 => ⟨S8x128x128x192, .f32⟩
  | 60 => ⟨S8x128x128x192, .f32⟩
  | 61 => ⟨S_, .f32⟩
  | 62 => ⟨S8x128x192, .f32⟩
  | 63 => ⟨S_, .f32⟩
  | 64 => ⟨S8x128x192, .f32⟩
  | 65 => ⟨S8x128x192, .f32⟩
  | 66 => ⟨S8x128x128x192, .f32⟩
  | 67 => ⟨S8x128x128x192, .f32⟩
  | 68 => ⟨S_, .f32⟩
  | 69 => ⟨S8x128x192, .f32⟩
  | 70 => ⟨S_, .f32⟩
  | 71 => ⟨S8x128x192, .f32⟩
  | 72 => ⟨S8x128x192, .f32⟩
  | 73 => ⟨S8x128x128x192, .f32⟩
  | 74 => ⟨S8x128x128x192, .f32⟩
  | 75 => ⟨S_, .f32⟩
  | 76 => ⟨S8x128x192, .f32⟩
  | 77 => ⟨S_, .f32⟩
  | 78 => ⟨S8x128x192, .f32⟩
  | 79 => ⟨S8x128x192, .f32⟩
  | 80 => ⟨S8x128x128x192, .f32⟩
  | 81 => ⟨S8x128x128x192, .f32⟩
  | 82 => ⟨S_, .f32⟩
  | 83 => ⟨S8x128x192, .f32⟩
  | 84 => ⟨S_, .f32⟩
  | 85 => ⟨S8x128x192, .f32⟩
  | 86 => ⟨S8x128x192, .f32⟩
  | 87 => ⟨S8x128x128x192, .f32⟩
  | 88 => ⟨S8x128x128x192, .f32⟩
  | 89 => ⟨S_, .f32⟩
  | 90 => ⟨S8x128x192, .f32⟩
  | 91 => ⟨S_, .f32⟩
  | 92 => ⟨S8x128x192, .f32⟩
  | 93 => ⟨S8x128x192, .f32⟩
  | 94 => ⟨S8x128x128x192, .f32⟩
  | 95 => ⟨S8x128x128x192, .f32⟩
  | 96 => ⟨S_, .f32⟩
  | 97 => ⟨S8x128x192, .f32⟩
  | 98 => ⟨S_, .f32⟩
  | 99 => ⟨S8x128x192, .f32⟩
  | 100 => ⟨S8x128x192, .f32⟩
  | 101 => ⟨S8x128x128x192, .f32⟩
  | 102 => ⟨S8x128x128x192, .f32⟩
  | 103 => ⟨S_, .f32⟩
  | 104 => ⟨S8x128x192, .f32⟩
  | 105 => ⟨S_, .f32⟩
  | 106 => ⟨S8x128x192, .f32⟩
  | 107 => ⟨S8x128x192, .f32⟩
  | 108 => ⟨S8x128x128x192, .f32⟩
  | 109 => ⟨S8x128x128x192, .f32⟩
  | 110 => ⟨S_, .f32⟩
  | 111 => ⟨S8x128x192, .f32⟩
  | 112 => ⟨S_, .f32⟩
  | 113 => ⟨S8x128x192, .f32⟩
  | 114 => ⟨S8x128x192, .f32⟩
  | 115 => ⟨S8x128x128x192, .f32⟩
  | 116 => ⟨S8x128x128x192, .f32⟩
  | 117 => ⟨S_, .f32⟩
  | 118 => ⟨S8x128x192, .f32⟩
  | 119 => ⟨S_, .f32⟩
  | 120 => ⟨S8x128x192, .f32⟩
  | 121 => ⟨S8x128x192, .f32⟩
  | 122 => ⟨S8x128x128x192, .f32⟩
  | 123 => ⟨S8x128x128x192, .f32⟩
  | 124 => ⟨S_, .f32⟩
  | 125 => ⟨S8x128x192, .f32⟩
  | 126 => ⟨S_, .f32⟩
  | 127 => ⟨S8x128x192, .f32⟩
  | _ => ⟨S8x128x128x192, .f32⟩

abbrev hbmTy0_2 (i : Nat) : BufTy := match i % 128 with
  | 0 => ⟨S8x128x192, .f32⟩
  | 1 => ⟨S8x128x128x192, .f32⟩
  | 2 => ⟨S8x128x128x192, .f32⟩
  | 3 => ⟨S_, .f32⟩
  | 4 => ⟨S8x128x192, .f32⟩
  | 5 => ⟨S_, .f32⟩
  | 6 => ⟨S8x128x192, .f32⟩
  | 7 => ⟨S8x128x192, .f32⟩
  | 8 => ⟨S8x128x128x192, .f32⟩
  | 9 => ⟨S8x128x128x192, .f32⟩
  | 10 => ⟨S_, .f32⟩
  | 11 => ⟨S8x128x192, .f32⟩
  | 12 => ⟨S_, .f32⟩
  | 13 => ⟨S8x128x192, .f32⟩
  | 14 => ⟨S8x128x192, .f32⟩
  | 15 => ⟨S8x128x128x192, .f32⟩
  | 16 => ⟨S8x128x128x192, .f32⟩
  | 17 => ⟨S_, .f32⟩
  | 18 => ⟨S8x128x192, .f32⟩
  | 19 => ⟨S_, .f32⟩
  | 20 => ⟨S8x128x192, .f32⟩
  | 21 => ⟨S8x128x192, .f32⟩
  | 22 => ⟨S8x128x128x192, .f32⟩
  | 23 => ⟨S8x128x128x192, .f32⟩
  | 24 => ⟨S_, .f32⟩
  | 25 => ⟨S8x128x192, .f32⟩
  | 26 => ⟨S_, .f32⟩
  | 27 => ⟨S8x128x192, .f32⟩
  | 28 => ⟨S8x128x192, .f32⟩
  | 29 => ⟨S8x128x128x192, .f32⟩
  | 30 => ⟨S8x128x128x192, .f32⟩
  | 31 => ⟨S_, .f32⟩
  | 32 => ⟨S8x128x192, .f32⟩
  | 33 => ⟨S_, .f32⟩
  | 34 => ⟨S8x128x192, .f32⟩
  | 35 => ⟨S8x128x192, .f32⟩
  | 36 => ⟨S8x128x128x192, .f32⟩
  | 37 => ⟨S8x128x128x192, .f32⟩
  | 38 => ⟨S_, .f32⟩
  | 39 => ⟨S8x128x192, .f32⟩
  | 40 => ⟨S_, .f32⟩
  | 41 => ⟨S8x128x192, .f32⟩
  | 42 => ⟨S8x128x192, .f32⟩
  | 43 => ⟨S8x128x128x192, .f32⟩
  | 44 => ⟨S8x128x128x192, .f32⟩
  | 45 => ⟨S_, .f32⟩
  | 46 => ⟨S8x128x192, .f32⟩
  | 47 => ⟨S_, .f32⟩
  | 48 => ⟨S8x128x192, .f32⟩
  | 49 => ⟨S8x128x192, .f32⟩
  | 50 => ⟨S8x128x128x192, .f32⟩
  | 51 => ⟨S8x128x128x192, .f32⟩
  | 52 => ⟨S_, .f32⟩
  | 53 => ⟨S8x128x192, .f32⟩
  | 54 => ⟨S_, .f32⟩
  | 55 => ⟨S8x128x192, .f32⟩
  | 56 => ⟨S8x128x192, .f32⟩
  | 57 => ⟨S8x128x128x192, .f32⟩
  | 58 => ⟨S8x128x128x192, .f32⟩
  | 59 => ⟨S_, .f32⟩
  | 60 => ⟨S8x128x192, .f32⟩
  | 61 => ⟨S_, .f32⟩
  | 62 => ⟨S8x128x192, .f32⟩
  | 63 => ⟨S8x128x192, .f32⟩
  | 64 => ⟨S8x128x128x192, .f32⟩
  | 65 => ⟨S8x128x128x192, .f32⟩
  | 66 => ⟨S_, .f32⟩
  | 67 => ⟨S8x128x192, .f32⟩
  | 68 => ⟨S_, .f32⟩
  | 69 => ⟨S8x128x192, .f32⟩
  | 70 => ⟨S8x128x192, .f32⟩
  | 71 => ⟨S8x128x128x192, .f32⟩
  | 72 => ⟨S8x128x128x192, .f32⟩
  | 73 => ⟨S_, .f32⟩
  | 74 => ⟨S8x128x192, .f32⟩
  | 75 => ⟨S_, .f32⟩
  | 76 => ⟨S8x128x192, .f32⟩
  | 77 => ⟨S8x128x192, .f32⟩
  | 78 => ⟨S8x128x128x192, .f32⟩
  | 79 => ⟨S8x128x128x192, .f32⟩
  | 80 => ⟨S_, .f32⟩
  | 81 => ⟨S8x128x192, .f32⟩
  | 82 => ⟨S_, .f32⟩
  | 83 => ⟨S8x128x192, .f32⟩
  | 84 => ⟨S8x128x192, .f32⟩
  | 85 => ⟨S8x128x128x192, .f32⟩
  | 86 => ⟨S8x128x128x192, .f32⟩
  | 87 => ⟨S_, .f32⟩
  | 88 => ⟨S8x128x192, .f32⟩
  | 89 => ⟨S_, .f32⟩
  | 90 => ⟨S8x128x192, .f32⟩
  | 91 => ⟨S8x128x192, .f32⟩
  | 92 => ⟨S8x128x128x192, .f32⟩
  | 93 => ⟨S8x128x128x192, .f32⟩
  | 94 => ⟨S_, .f32⟩
  | 95 => ⟨S8x128x192, .f32⟩
  | 96 => ⟨S_, .f32⟩
  | 97 => ⟨S8x128x192, .f32⟩
  | 98 => ⟨S8x128x192, .f32⟩
  | 99 => ⟨S8x128x128x192, .f32⟩
  | 100 => ⟨S8x128x128x192, .f32⟩
  | 101 => ⟨S_, .f32⟩
  | 102 => ⟨S8x128x192, .f32⟩
  | 103 => ⟨S_, .f32⟩
  | 104 => ⟨S8x128x192, .f32⟩
  | 105 => ⟨S8x128x192, .f32⟩
  | 106 => ⟨S8x128x128x192, .f32⟩
  | 107 => ⟨S8x128x128x192, .f32⟩
  | 108 => ⟨S_, .f32⟩
  | 109 => ⟨S8x128x192, .f32⟩
  | 110 => ⟨S_, .f32⟩
  | 111 => ⟨S8x128x192, .f32⟩
  | 112 => ⟨S8x128x192, .f32⟩
  | 113 => ⟨S8x128x128x192, .f32⟩
  | 114 => ⟨S8x128x128x192, .f32⟩
  | 115 => ⟨S_, .f32⟩
  | 116 => ⟨S8x128x192, .f32⟩
  | 117 => ⟨S_, .f32⟩
  | 118 => ⟨S8x128x192, .f32⟩
  | 119 => ⟨S8x128x192, .f32⟩
  | 120 => ⟨S8x128x128x192, .f32⟩
  | 121 => ⟨S8x128x128x192, .f32⟩
  | 122 => ⟨S_, .f32⟩
  | 123 => ⟨S8x128x192, .f32⟩
  | 124 => ⟨S_, .f32⟩
  | 125 => ⟨S8x128x192, .f32⟩
  | 126 => ⟨S8x128x192, .f32⟩
  | 127 => ⟨S8x128x128x192, .f32⟩
  | _ => ⟨S8x128x128x192, .f32⟩

abbrev hbmTy0_3 (i : Nat) : BufTy := match i % 128 with
  | 0 => ⟨S8x128x128x192, .f32⟩
  | 1 => ⟨S_, .f32⟩
  | 2 => ⟨S8x128x192, .f32⟩
  | 3 => ⟨S_, .f32⟩
  | 4 => ⟨S8x128x192, .f32⟩
  | 5 => ⟨S8x128x192, .f32⟩
  | 6 => ⟨S8x128x128x192, .f32⟩
  | 7 => ⟨S8x128x128x192, .f32⟩
  | 8 => ⟨S_, .f32⟩
  | 9 => ⟨S8x128x192, .f32⟩
  | 10 => ⟨S_, .f32⟩
  | 11 => ⟨S8x128x192, .f32⟩
  | 12 => ⟨S8x128x192, .f32⟩
  | 13 => ⟨S8x128x128x192, .f32⟩
  | 14 => ⟨S8x128x128x192, .f32⟩
  | 15 => ⟨S_, .f32⟩
  | 16 => ⟨S8x128x192, .f32⟩
  | 17 => ⟨S_, .f32⟩
  | 18 => ⟨S8x128x192, .f32⟩
  | 19 => ⟨S8x128x192, .f32⟩
  | 20 => ⟨S8x128x128x192, .f32⟩
  | 21 => ⟨S8x128x128x192, .f32⟩
  | 22 => ⟨S_, .f32⟩
  | 23 => ⟨S8x128x192, .f32⟩
  | 24 => ⟨S_, .f32⟩
  | 25 => ⟨S8x128x192, .f32⟩
  | 26 => ⟨S8x128x192, .f32⟩
  | 27 => ⟨S8x128x128x192, .f32⟩
  | 28 => ⟨S8x128x128x192, .f32⟩
  | 29 => ⟨S_, .f32⟩
  | 30 => ⟨S8x128x192, .f32⟩
  | 31 => ⟨S_, .f32⟩
  | 32 => ⟨S8x128x192, .f32⟩
  | 33 => ⟨S8x128x192, .f32⟩
  | 34 => ⟨S8x128x128x192, .f32⟩
  | 35 => ⟨S8x128x128x192, .f32⟩
  | 36 => ⟨S_, .f32⟩
  | 37 => ⟨S8x128x192, .f32⟩
  | 38 => ⟨S_, .f32⟩
  | 39 => ⟨S8x128x192, .f32⟩
  | 40 => ⟨S8x128x192, .f32⟩
  | 41 => ⟨S8x128x128x192, .f32⟩
  | 42 => ⟨S8x128x128x192, .f32⟩
  | 43 => ⟨S_, .f32⟩
  | 44 => ⟨S8x128x192, .f32⟩
  | 45 => ⟨S_, .f32⟩
  | 46 => ⟨S8x128x192, .f32⟩
  | 47 => ⟨S8x128x192, .f32⟩
  | 48 => ⟨S8x128x128x192, .f32⟩
  | 49 => ⟨S8x128x128x192, .f32⟩
  | 50 => ⟨S_, .f32⟩
  | 51 => ⟨S8x128x192, .f32⟩
  | 52 => ⟨S_, .f32⟩
  | 53 => ⟨S8x128x192, .f32⟩
  | 54 => ⟨S8x128x192, .f32⟩
  | 55 => ⟨S8x128x128x192, .f32⟩
  | 56 => ⟨S8x128x128x192, .f32⟩
  | 57 => ⟨S_, .f32⟩
  | 58 => ⟨S8x128x192, .f32⟩
  | 59 => ⟨S_, .f32⟩
  | 60 => ⟨S8x128x192, .f32⟩
  | 61 => ⟨S8x128x192, .f32⟩
  | 62 => ⟨S8x128x128x192, .f32⟩
  | 63 => ⟨S8x128x128x192, .f32⟩
  | 64 => ⟨S_, .f32⟩
  | 65 => ⟨S8x128x192, .f32⟩
  | 66 => ⟨S_, .f32⟩
  | 67 => ⟨S8x128x192, .f32⟩
  | 68 => ⟨S8x128x192, .f32⟩
  | 69 => ⟨S8x128x128x192, .f32⟩
  | 70 => ⟨S8x128x128x192, .f32⟩
  | 71 => ⟨S_, .f32⟩
  | 72 => ⟨S8x128x192, .f32⟩
  | 73 => ⟨S_, .f32⟩
  | 74 => ⟨S8x128x192, .f32⟩
  | 75 => ⟨S8x128x192, .f32⟩
  | 76 => ⟨S8x128x128x192, .f32⟩
  | 77 => ⟨S8x128x128x192, .f32⟩
  | 78 => ⟨S_, .f32⟩
  | 79 => ⟨S8x128x192, .f32⟩
  | 80 => ⟨S_, .f32⟩
  | 81 => ⟨S8x128x192, .f32⟩
  | 82 => ⟨S8x128x192, .f32⟩
  | 83 => ⟨S8x128x128x192, .f32⟩
  | 84 => ⟨S8x128x128x192, .f32⟩
  | 85 => ⟨S_, .f32⟩
  | 86 => ⟨S8x128x192, .f32⟩
  | 87 => ⟨S_, .f32⟩
  | 88 => ⟨S8x128x192, .f32⟩
  | 89 => ⟨S8x128x192, .f32⟩
  | 90 => ⟨S8x128x128x192, .f32⟩
  | 91 => ⟨S8x128x128x192, .f32⟩
  | 92 => ⟨S_, .f32⟩
  | 93 => ⟨S8x128x192, .f32⟩
  | 94 => ⟨S_, .f32⟩
  | 95 => ⟨S8x128x192, .f32⟩
  | 96 => ⟨S8x128x192, .f32⟩
  | 97 => ⟨S8x128x128x192, .f32⟩
  | 98 => ⟨S8x128x128x192, .f32⟩
  | 99 => ⟨S_, .f32⟩
  | 100 => ⟨S8x128x192, .f32⟩
  | 101 => ⟨S_, .f32⟩
  | 102 => ⟨S8x128x192, .f32⟩
  | 103 => ⟨S8x128x192, .f32⟩
  | 104 => ⟨S8x128x128x192, .f32⟩
  | 105 => ⟨S8x128x128x192, .f32⟩
  | 106 => ⟨S_, .f32⟩
  | 107 => ⟨S8x128x192, .f32⟩
  | 108 => ⟨S_, .f32⟩
  | 109 => ⟨S8x128x192, .f32⟩
  | 110 => ⟨S8x128x192, .f32⟩
  | 111 => ⟨S8x128x128x192, .f32⟩
  | 112 => ⟨S8x128x128x192, .f32⟩
  | 113 => ⟨S_, .f32⟩
  | 114 => ⟨S8x128x192, .f32⟩
  | 115 => ⟨S_, .f32⟩
  | 116 => ⟨S8x128x192, .f32⟩
  | 117 => ⟨S8x128x192, .f32⟩
  | 118 => ⟨S8x128x128x192, .f32⟩
  | 119 => ⟨S8x128x128x192, .f32⟩
  | 120 => ⟨S_, .f32⟩
  | 121 => ⟨S8x128x192, .f32⟩
  | 122 => ⟨S_, .f32⟩
  | 123 => ⟨S8x128x192, .f32⟩
  | 124 => ⟨S8x128x192, .f32⟩
  | 125 => ⟨S8x128x128x192, .f32⟩
  | 126 => ⟨S8x128x128x192, .f32⟩
  | 127 => ⟨S_, .f32⟩
  | _ => ⟨S8x128x128x192, .f32⟩

abbrev hbmTy0_4 (i : Nat) : BufTy := match i % 128 with
  | 0 => ⟨S8x128x192, .f32⟩
  | 1 => ⟨S_, .f32⟩
  | 2 => ⟨S8x128x192, .f32⟩
  | 3 => ⟨S8x128x192, .f32⟩
  | 4 => ⟨S8x128x128x192, .f32⟩
  | 5 => ⟨S8x128x128x192, .f32⟩
  | 6 => ⟨S_, .f32⟩
  | 7 => ⟨S8x128x192, .f32⟩
  | 8 => ⟨S_, .f32⟩
  | 9 => ⟨S8x128x192, .f32⟩
  | 10 => ⟨S8x128x192, .f32⟩
  | 11 => ⟨S8x128x128x192, .f32⟩
  | 12 => ⟨S8x128x128x192, .f32⟩
  | 13 => ⟨S_, .f32⟩
  | 14 => ⟨S8x128x192, .f32⟩
  | 15 => ⟨S_, .f32⟩
  | 16 => ⟨S8x128x192, .f32⟩
  | 17 => ⟨S8x128x192, .f32⟩
  | 18 => ⟨S8x128x128x192, .f32⟩
  | 19 => ⟨S8x128x128x192, .f32⟩
  | 20 => ⟨S_, .f32⟩
  | 21 => ⟨S8x128x192, .f32⟩
  | 22 => ⟨S_, .f32⟩
  | 23 => ⟨S8x128x192, .f32⟩
  | 24 => ⟨S8x128x192, .f32⟩
  | 25 => ⟨S8x128x128x192, .f32⟩
  | 26 => ⟨S8x128x128x192, .f32⟩
  | 27 => ⟨S_, .f32⟩
  | 28 => ⟨S8x128x192, .f32⟩
  | 29 => ⟨S_, .f32⟩
  | 30 => ⟨S8x128x192, .f32⟩
  | 31 => ⟨S8x128x192, .f32⟩
  | 32 => ⟨S8x128x128x192, .f32⟩
  | 33 => ⟨S8x128x128x192, .f32⟩
  | 34 => ⟨S_, .f32⟩
  | 35 => ⟨S8x128x192, .f32⟩
  | 36 => ⟨S_, .f32⟩
  | 37 => ⟨S8x128x192, .f32⟩
  | 38 => ⟨S8x128x192, .f32⟩
  | 39 => ⟨S8x128x128x192, .f32⟩
  | 40 => ⟨S8x128x128x192, .f32⟩
  | 41 => ⟨S_, .f32⟩
  | 42 => ⟨S8x128x192, .f32⟩
  | 43 => ⟨S_, .f32⟩
  | 44 => ⟨S8x128x192, .f32⟩
  | 45 => ⟨S8x128x192, .f32⟩
  | 46 => ⟨S8x128x128x192, .f32⟩
  | 47 => ⟨S8x128x128x192, .f32⟩
  | 48 => ⟨S_, .f32⟩
  | 49 => ⟨S8x128x192, .f32⟩
  | 50 => ⟨S_, .f32⟩
  | 51 => ⟨S8x128x192, .f32⟩
  | 52 => ⟨S8x128x192, .f32⟩
  | 53 => ⟨S8x1x128x192, .f32⟩
  | 54 => ⟨S8x1x128x192, .f32⟩
  | 55 => ⟨S8x1x128x192, .f32⟩
  | 56 => ⟨S8x1x128x192, .f32⟩
  | 57 => ⟨S8x1x128x192, .f32⟩
  | 58 => ⟨S8x1x128x192, .f32⟩
  | 59 => ⟨S8x1x128x192, .f32⟩
  | 60 => ⟨S8x1x128x192, .f32⟩
  | 61 => ⟨S8x1x128x192, .f32⟩
  | 62 => ⟨S8x1x128x192, .f32⟩
  | 63 => ⟨S8x1x128x192, .f32⟩
  | 64 => ⟨S8x1x128x192, .f32⟩
  | 65 => ⟨S8x1x128x192, .f32⟩
  | 66 => ⟨S8x1x128x192, .f32⟩
  | 67 => ⟨S8x1x128x192, .f32⟩
  | 68 => ⟨S8x1x128x192, .f32⟩
  | 69 => ⟨S8x1x128x192, .f32⟩
  | 70 => ⟨S8x1x128x192, .f32⟩
  | 71 => ⟨S8x1x128x192, .f32⟩
  | 72 => ⟨S8x1x128x192, .f32⟩
  | 73 => ⟨S8x1x128x192, .f32⟩
  | 74 => ⟨S8x1x128x192, .f32⟩
  | 75 => ⟨S8x1x128x192, .f32⟩
  | 76 => ⟨S8x1x128x192, .f32⟩
  | 77 => ⟨S8x1x128x192, .f32⟩
  | 78 => ⟨S8x1x128x192, .f32⟩
  | 79 => ⟨S8x1x128x192, .f32⟩
  | 80 => ⟨S8x1x128x192, .f32⟩
  | 81 => ⟨S8x1x128x192, .f32⟩
  | 82 => ⟨S8x1x128x192, .f32⟩
  | 83 => ⟨S8x1x128x192, .f32⟩
  | 84 => ⟨S8x1x128x192, .f32⟩
  | 85 => ⟨S8x1x128x192, .f32⟩
  | 86 => ⟨S8x1x128x192, .f32⟩
  | 87 => ⟨S8x1x128x192, .f32⟩
  | 88 => ⟨S8x1x128x192, .f32⟩
  | 89 => ⟨S8x1x128x192, .f32⟩
  | 90 => ⟨S8x1x128x192, .f32⟩
  | 91 => ⟨S8x1x128x192, .f32⟩
  | 92 => ⟨S8x1x128x192, .f32⟩
  | 93 => ⟨S8x1x128x192, .f32⟩
  | 94 => ⟨S8x1x128x192, .f32⟩
  | 95 => ⟨S8x1x128x192, .f32⟩
  | 96 => ⟨S8x1x128x192, .f32⟩
  | 97 => ⟨S8x1x128x192, .f32⟩
  | 98 => ⟨S8x1x128x192, .f32⟩
  | 99 => ⟨S8x1x128x192, .f32⟩
  | 100 => ⟨S8x1x128x192, .f32⟩
  | 101 => ⟨S8x1x128x192, .f32⟩
  | 102 => ⟨S8x1x128x192, .f32⟩
  | 103 => ⟨S8x1x128x192, .f32⟩
  | 104 => ⟨S8x1x128x192, .f32⟩
  | 105 => ⟨S8x1x128x192, .f32⟩
  | 106 => ⟨S8x1x128x192, .f32⟩
  | 107 => ⟨S8x1x128x192, .f32⟩
  | 108 => ⟨S8x1x128x192, .f32⟩
  | 109 => ⟨S8x1x128x192, .f32⟩
  | 110 => ⟨S8x1x128x192, .f32⟩
  | 111 => ⟨S8x1x128x192, .f32⟩
  | 112 => ⟨S8x1x128x192, .f32⟩
  | 113 => ⟨S8x1x128x192, .f32⟩
  | 114 => ⟨S8x1x128x192, .f32⟩
  | 115 => ⟨S8x1x128x192, .f32⟩
  | 116 => ⟨S8x1x128x192, .f32⟩
  | 117 => ⟨S8x1x128x192, .f32⟩
  | 118 => ⟨S8x1x128x192, .f32⟩
  | 119 => ⟨S8x1x128x192, .f32⟩
  | 120 => ⟨S8x1x128x192, .f32⟩
  | 121 => ⟨S8x1x128x192, .f32⟩
  | 122 => ⟨S8x1x128x192, .f32⟩
  | 123 => ⟨S8x1x128x192, .f32⟩
  | 124 => ⟨S8x1x128x192, .f32⟩
  | 125 => ⟨S8x1x128x192, .f32⟩
  | 126 => ⟨S8x1x128x192, .f32⟩
  | 127 => ⟨S8x1x128x192, .f32⟩
  | _ => ⟨S8x128x128x192, .f32⟩

abbrev hbmTy0_5 (i : Nat) : BufTy := match i % 128 with
  | 0 => ⟨S8x1x128x192, .f32⟩
  | 1 => ⟨S8x1x128x192, .f32⟩
  | 2 => ⟨S8x1x128x192, .f32⟩
  | 3 => ⟨S8x1x128x192, .f32⟩
  | 4 => ⟨S8x1x128x192, .f32⟩
  | 5 => ⟨S8x16x128x192, .f32⟩
  | 6 => ⟨S8x16x128x192, .f32⟩
  | 7 => ⟨S8x16x128x192, .f32⟩
  | 8 => ⟨S8x16x128x192, .f32⟩
  | 9 => ⟨S8x16x128x192, .f32⟩
  | 10 => ⟨S8x80x128x192, .f32⟩
  | _ => ⟨S8x128x128x192, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8x128x128x192, .f32⟩

abbrev bufTy : (tb : Table) → Fin (tcTables nBuf tb) → BufTy
  | .hbm, ⟨i, _⟩ => hbmTy i
  | _, _ => ⟨S8x128x128x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_9 : Ref sig .tc := ⟨.hbm, 42, rfl⟩
abbrev main_v28 : Ref sig .tc := ⟨.hbm, 43, rfl⟩
abbrev main_cst_10 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_11 : Ref sig .tc := ⟨.hbm, 49, rfl⟩
abbrev main_v33 : Ref sig .tc := ⟨.hbm, 50, rfl⟩
abbrev main_cst_12 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_13 : Ref sig .tc := ⟨.hbm, 56, rfl⟩
abbrev main_v38 : Ref sig .tc := ⟨.hbm, 57, rfl⟩
abbrev main_cst_14 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_15 : Ref sig .tc := ⟨.hbm, 63, rfl⟩
abbrev main_v43 : Ref sig .tc := ⟨.hbm, 64, rfl⟩
abbrev main_cst_16 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_17 : Ref sig .tc := ⟨.hbm, 70, rfl⟩
abbrev main_v48 : Ref sig .tc := ⟨.hbm, 71, rfl⟩
abbrev main_cst_18 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_19 : Ref sig .tc := ⟨.hbm, 77, rfl⟩
abbrev main_v53 : Ref sig .tc := ⟨.hbm, 78, rfl⟩
abbrev main_cst_20 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_21 : Ref sig .tc := ⟨.hbm, 84, rfl⟩
abbrev main_v58 : Ref sig .tc := ⟨.hbm, 85, rfl⟩
abbrev main_cst_22 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_23 : Ref sig .tc := ⟨.hbm, 91, rfl⟩
abbrev main_v63 : Ref sig .tc := ⟨.hbm, 92, rfl⟩
abbrev main_cst_24 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_25 : Ref sig .tc := ⟨.hbm, 98, rfl⟩
abbrev main_v68 : Ref sig .tc := ⟨.hbm, 99, rfl⟩
abbrev main_cst_26 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_27 : Ref sig .tc := ⟨.hbm, 105, rfl⟩
abbrev main_v73 : Ref sig .tc := ⟨.hbm, 106, rfl⟩
abbrev main_cst_28 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_29 : Ref sig .tc := ⟨.hbm, 112, rfl⟩
abbrev main_v78 : Ref sig .tc := ⟨.hbm, 113, rfl⟩
abbrev main_cst_30 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_31 : Ref sig .tc := ⟨.hbm, 119, rfl⟩
abbrev main_v83 : Ref sig .tc := ⟨.hbm, 120, rfl⟩
abbrev main_cst_32 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_33 : Ref sig .tc := ⟨.hbm, 126, rfl⟩
abbrev main_v88 : Ref sig .tc := ⟨.hbm, 127, rfl⟩
abbrev main_cst_34 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_35 : Ref sig .tc := ⟨.hbm, 133, rfl⟩
abbrev main_v93 : Ref sig .tc := ⟨.hbm, 134, rfl⟩
abbrev main_cst_36 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_37 : Ref sig .tc := ⟨.hbm, 140, rfl⟩
abbrev main_v98 : Ref sig .tc := ⟨.hbm, 141, rfl⟩
abbrev main_cst_38 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_39 : Ref sig .tc := ⟨.hbm, 147, rfl⟩
abbrev main_v103 : Ref sig .tc := ⟨.hbm, 148, rfl⟩
abbrev main_cst_40 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_41 : Ref sig .tc := ⟨.hbm, 154, rfl⟩
abbrev main_v108 : Ref sig .tc := ⟨.hbm, 155, rfl⟩
abbrev main_cst_42 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_cst_43 : Ref sig .tc := ⟨.hbm, 161, rfl⟩
abbrev main_v113 : Ref sig .tc := ⟨.hbm, 162, rfl⟩
abbrev main_cst_44 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_cst_45 : Ref sig .tc := ⟨.hbm, 168, rfl⟩
abbrev main_v118 : Ref sig .tc := ⟨.hbm, 169, rfl⟩
abbrev main_cst_46 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_cst_47 : Ref sig .tc := ⟨.hbm, 175, rfl⟩
abbrev main_v123 : Ref sig .tc := ⟨.hbm, 176, rfl⟩
abbrev main_cst_48 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_cst_49 : Ref sig .tc := ⟨.hbm, 182, rfl⟩
abbrev main_v128 : Ref sig .tc := ⟨.hbm, 183, rfl⟩
abbrev main_cst_50 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_cst_51 : Ref sig .tc := ⟨.hbm, 189, rfl⟩
abbrev main_v133 : Ref sig .tc := ⟨.hbm, 190, rfl⟩
abbrev main_cst_52 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_cst_53 : Ref sig .tc := ⟨.hbm, 196, rfl⟩
abbrev main_v138 : Ref sig .tc := ⟨.hbm, 197, rfl⟩
abbrev main_cst_54 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_cst_55 : Ref sig .tc := ⟨.hbm, 203, rfl⟩
abbrev main_v143 : Ref sig .tc := ⟨.hbm, 204, rfl⟩
abbrev main_cst_56 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_cst_57 : Ref sig .tc := ⟨.hbm, 210, rfl⟩
abbrev main_v148 : Ref sig .tc := ⟨.hbm, 211, rfl⟩
abbrev main_cst_58 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_cst_59 : Ref sig .tc := ⟨.hbm, 217, rfl⟩
abbrev main_v153 : Ref sig .tc := ⟨.hbm, 218, rfl⟩
abbrev main_cst_60 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_cst_61 : Ref sig .tc := ⟨.hbm, 224, rfl⟩
abbrev main_v158 : Ref sig .tc := ⟨.hbm, 225, rfl⟩
abbrev main_cst_62 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_cst_63 : Ref sig .tc := ⟨.hbm, 231, rfl⟩
abbrev main_v163 : Ref sig .tc := ⟨.hbm, 232, rfl⟩
abbrev main_cst_64 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_cst_65 : Ref sig .tc := ⟨.hbm, 238, rfl⟩
abbrev main_v168 : Ref sig .tc := ⟨.hbm, 239, rfl⟩
abbrev main_cst_66 : Ref sig .tc := ⟨.hbm, 240, rfl⟩
abbrev main_v169 : Ref sig .tc := ⟨.hbm, 241, rfl⟩
abbrev main_v170 : Ref sig .tc := ⟨.hbm, 242, rfl⟩
abbrev main_v171 : Ref sig .tc := ⟨.hbm, 243, rfl⟩
abbrev main_v172 : Ref sig .tc := ⟨.hbm, 244, rfl⟩
abbrev main_cst_67 : Ref sig .tc := ⟨.hbm, 245, rfl⟩
abbrev main_v173 : Ref sig .tc := ⟨.hbm, 246, rfl⟩
abbrev main_cst_68 : Ref sig .tc := ⟨.hbm, 247, rfl⟩
abbrev main_v174 : Ref sig .tc := ⟨.hbm, 248, rfl⟩
abbrev main_v175 : Ref sig .tc := ⟨.hbm, 249, rfl⟩
abbrev main_v176 : Ref sig .tc := ⟨.hbm, 250, rfl⟩
abbrev main_v177 : Ref sig .tc := ⟨.hbm, 251, rfl⟩
abbrev main_cst_69 : Ref sig .tc := ⟨.hbm, 252, rfl⟩
abbrev main_v178 : Ref sig .tc := ⟨.hbm, 253, rfl⟩
abbrev main_cst_70 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_cst_71 : Ref sig .tc := ⟨.hbm, 259, rfl⟩
abbrev main_v183 : Ref sig .tc := ⟨.hbm, 260, rfl⟩
abbrev main_cst_72 : Ref sig .tc := ⟨.hbm, 261, rfl⟩
abbrev main_v184 : Ref sig .tc := ⟨.hbm, 262, rfl⟩
abbrev main_v185 : Ref sig .tc := ⟨.hbm, 263, rfl⟩
abbrev main_v186 : Ref sig .tc := ⟨.hbm, 264, rfl⟩
abbrev main_v187 : Ref sig .tc := ⟨.hbm, 265, rfl⟩
abbrev main_cst_73 : Ref sig .tc := ⟨.hbm, 266, rfl⟩
abbrev main_v188 : Ref sig .tc := ⟨.hbm, 267, rfl⟩
abbrev main_cst_74 : Ref sig .tc := ⟨.hbm, 268, rfl⟩
abbrev main_v189 : Ref sig .tc := ⟨.hbm, 269, rfl⟩
abbrev main_v190 : Ref sig .tc := ⟨.hbm, 270, rfl⟩
abbrev main_v191 : Ref sig .tc := ⟨.hbm, 271, rfl⟩
abbrev main_v192 : Ref sig .tc := ⟨.hbm, 272, rfl⟩
abbrev main_cst_75 : Ref sig .tc := ⟨.hbm, 273, rfl⟩
abbrev main_v193 : Ref sig .tc := ⟨.hbm, 274, rfl⟩
abbrev main_cst_76 : Ref sig .tc := ⟨.hbm, 275, rfl⟩
abbrev main_v194 : Ref sig .tc := ⟨.hbm, 276, rfl⟩
abbrev main_v195 : Ref sig .tc := ⟨.hbm, 277, rfl⟩
abbrev main_v196 : Ref sig .tc := ⟨.hbm, 278, rfl⟩
abbrev main_v197 : Ref sig .tc := ⟨.hbm, 279, rfl⟩
abbrev main_cst_77 : Ref sig .tc := ⟨.hbm, 280, rfl⟩
abbrev main_v198 : Ref sig .tc := ⟨.hbm, 281, rfl⟩
abbrev main_cst_78 : Ref sig .tc := ⟨.hbm, 282, rfl⟩
abbrev main_v199 : Ref sig .tc := ⟨.hbm, 283, rfl⟩
abbrev main_v200 : Ref sig .tc := ⟨.hbm, 284, rfl⟩
abbrev main_v201 : Ref sig .tc := ⟨.hbm, 285, rfl⟩
abbrev main_v202 : Ref sig .tc := ⟨.hbm, 286, rfl⟩
abbrev main_cst_79 : Ref sig .tc := ⟨.hbm, 287, rfl⟩
abbrev main_v203 : Ref sig .tc := ⟨.hbm, 288, rfl⟩
abbrev main_cst_80 : Ref sig .tc := ⟨.hbm, 289, rfl⟩
abbrev main_v204 : Ref sig .tc := ⟨.hbm, 290, rfl⟩
abbrev main_v205 : Ref sig .tc := ⟨.hbm, 291, rfl⟩
abbrev main_v206 : Ref sig .tc := ⟨.hbm, 292, rfl⟩
abbrev main_v207 : Ref sig .tc := ⟨.hbm, 293, rfl⟩
abbrev main_cst_81 : Ref sig .tc := ⟨.hbm, 294, rfl⟩
abbrev main_v208 : Ref sig .tc := ⟨.hbm, 295, rfl⟩
abbrev main_cst_82 : Ref sig .tc := ⟨.hbm, 296, rfl⟩
abbrev main_v209 : Ref sig .tc := ⟨.hbm, 297, rfl⟩
abbrev main_v210 : Ref sig .tc := ⟨.hbm, 298, rfl⟩
abbrev main_v211 : Ref sig .tc := ⟨.hbm, 299, rfl⟩
abbrev main_v212 : Ref sig .tc := ⟨.hbm, 300, rfl⟩
abbrev main_cst_83 : Ref sig .tc := ⟨.hbm, 301, rfl⟩
abbrev main_v213 : Ref sig .tc := ⟨.hbm, 302, rfl⟩
abbrev main_cst_84 : Ref sig .tc := ⟨.hbm, 303, rfl⟩
abbrev main_v214 : Ref sig .tc := ⟨.hbm, 304, rfl⟩
abbrev main_v215 : Ref sig .tc := ⟨.hbm, 305, rfl⟩
abbrev main_v216 : Ref sig .tc := ⟨.hbm, 306, rfl⟩
abbrev main_v217 : Ref sig .tc := ⟨.hbm, 307, rfl⟩
abbrev main_cst_85 : Ref sig .tc := ⟨.hbm, 308, rfl⟩
abbrev main_v218 : Ref sig .tc := ⟨.hbm, 309, rfl⟩
abbrev main_cst_86 : Ref sig .tc := ⟨.hbm, 310, rfl⟩
abbrev main_v219 : Ref sig .tc := ⟨.hbm, 311, rfl⟩
abbrev main_v220 : Ref sig .tc := ⟨.hbm, 312, rfl⟩
abbrev main_v221 : Ref sig .tc := ⟨.hbm, 313, rfl⟩
abbrev main_v222 : Ref sig .tc := ⟨.hbm, 314, rfl⟩
abbrev main_cst_87 : Ref sig .tc := ⟨.hbm, 315, rfl⟩
abbrev main_v223 : Ref sig .tc := ⟨.hbm, 316, rfl⟩
abbrev main_cst_88 : Ref sig .tc := ⟨.hbm, 317, rfl⟩
abbrev main_v224 : Ref sig .tc := ⟨.hbm, 318, rfl⟩
abbrev main_v225 : Ref sig .tc := ⟨.hbm, 319, rfl⟩
abbrev main_v226 : Ref sig .tc := ⟨.hbm, 320, rfl⟩
abbrev main_v227 : Ref sig .tc := ⟨.hbm, 321, rfl⟩
abbrev main_cst_89 : Ref sig .tc := ⟨.hbm, 322, rfl⟩
abbrev main_v228 : Ref sig .tc := ⟨.hbm, 323, rfl⟩
abbrev main_cst_90 : Ref sig .tc := ⟨.hbm, 324, rfl⟩
abbrev main_v229 : Ref sig .tc := ⟨.hbm, 325, rfl⟩
abbrev main_v230 : Ref sig .tc := ⟨.hbm, 326, rfl⟩
abbrev main_v231 : Ref sig .tc := ⟨.hbm, 327, rfl⟩
abbrev main_v232 : Ref sig .tc := ⟨.hbm, 328, rfl⟩
abbrev main_cst_91 : Ref sig .tc := ⟨.hbm, 329, rfl⟩
abbrev main_v233 : Ref sig .tc := ⟨.hbm, 330, rfl⟩
abbrev main_cst_92 : Ref sig .tc := ⟨.hbm, 331, rfl⟩
abbrev main_v234 : Ref sig .tc := ⟨.hbm, 332, rfl⟩
abbrev main_v235 : Ref sig .tc := ⟨.hbm, 333, rfl⟩
abbrev main_v236 : Ref sig .tc := ⟨.hbm, 334, rfl⟩
abbrev main_v237 : Ref sig .tc := ⟨.hbm, 335, rfl⟩
abbrev main_cst_93 : Ref sig .tc := ⟨.hbm, 336, rfl⟩
abbrev main_v238 : Ref sig .tc := ⟨.hbm, 337, rfl⟩
abbrev main_cst_94 : Ref sig .tc := ⟨.hbm, 338, rfl⟩
abbrev main_v239 : Ref sig .tc := ⟨.hbm, 339, rfl⟩
abbrev main_v240 : Ref sig .tc := ⟨.hbm, 340, rfl⟩
abbrev main_v241 : Ref sig .tc := ⟨.hbm, 341, rfl⟩
abbrev main_v242 : Ref sig .tc := ⟨.hbm, 342, rfl⟩
abbrev main_cst_95 : Ref sig .tc := ⟨.hbm, 343, rfl⟩
abbrev main_v243 : Ref sig .tc := ⟨.hbm, 344, rfl⟩
abbrev main_cst_96 : Ref sig .tc := ⟨.hbm, 345, rfl⟩
abbrev main_v244 : Ref sig .tc := ⟨.hbm, 346, rfl⟩
abbrev main_v245 : Ref sig .tc := ⟨.hbm, 347, rfl⟩
abbrev main_v246 : Ref sig .tc := ⟨.hbm, 348, rfl⟩
abbrev main_v247 : Ref sig .tc := ⟨.hbm, 349, rfl⟩
abbrev main_cst_97 : Ref sig .tc := ⟨.hbm, 350, rfl⟩
abbrev main_v248 : Ref sig .tc := ⟨.hbm, 351, rfl⟩
abbrev main_cst_98 : Ref sig .tc := ⟨.hbm, 352, rfl⟩
abbrev main_v249 : Ref sig .tc := ⟨.hbm, 353, rfl⟩
abbrev main_v250 : Ref sig .tc := ⟨.hbm, 354, rfl⟩
abbrev main_v251 : Ref sig .tc := ⟨.hbm, 355, rfl⟩
abbrev main_v252 : Ref sig .tc := ⟨.hbm, 356, rfl⟩
abbrev main_cst_99 : Ref sig .tc := ⟨.hbm, 357, rfl⟩
abbrev main_v253 : Ref sig .tc := ⟨.hbm, 358, rfl⟩
abbrev main_cst_100 : Ref sig .tc := ⟨.hbm, 359, rfl⟩
abbrev main_v254 : Ref sig .tc := ⟨.hbm, 360, rfl⟩
abbrev main_v255 : Ref sig .tc := ⟨.hbm, 361, rfl⟩
abbrev main_v256 : Ref sig .tc := ⟨.hbm, 362, rfl⟩
abbrev main_v257 : Ref sig .tc := ⟨.hbm, 363, rfl⟩
abbrev main_cst_101 : Ref sig .tc := ⟨.hbm, 364, rfl⟩
abbrev main_v258 : Ref sig .tc := ⟨.hbm, 365, rfl⟩
abbrev main_cst_102 : Ref sig .tc := ⟨.hbm, 366, rfl⟩
abbrev main_v259 : Ref sig .tc := ⟨.hbm, 367, rfl⟩
abbrev main_v260 : Ref sig .tc := ⟨.hbm, 368, rfl⟩
abbrev main_v261 : Ref sig .tc := ⟨.hbm, 369, rfl⟩
abbrev main_v262 : Ref sig .tc := ⟨.hbm, 370, rfl⟩
abbrev main_cst_103 : Ref sig .tc := ⟨.hbm, 371, rfl⟩
abbrev main_v263 : Ref sig .tc := ⟨.hbm, 372, rfl⟩
abbrev main_cst_104 : Ref sig .tc := ⟨.hbm, 373, rfl⟩
abbrev main_v264 : Ref sig .tc := ⟨.hbm, 374, rfl⟩
abbrev main_v265 : Ref sig .tc := ⟨.hbm, 375, rfl⟩
abbrev main_v266 : Ref sig .tc := ⟨.hbm, 376, rfl⟩
abbrev main_v267 : Ref sig .tc := ⟨.hbm, 377, rfl⟩
abbrev main_cst_105 : Ref sig .tc := ⟨.hbm, 378, rfl⟩
abbrev main_v268 : Ref sig .tc := ⟨.hbm, 379, rfl⟩
abbrev main_cst_106 : Ref sig .tc := ⟨.hbm, 380, rfl⟩
abbrev main_v269 : Ref sig .tc := ⟨.hbm, 381, rfl⟩
abbrev main_v270 : Ref sig .tc := ⟨.hbm, 382, rfl⟩
abbrev main_v271 : Ref sig .tc := ⟨.hbm, 383, rfl⟩
abbrev main_v272 : Ref sig .tc := ⟨.hbm, 384, rfl⟩
abbrev main_cst_107 : Ref sig .tc := ⟨.hbm, 385, rfl⟩
abbrev main_v273 : Ref sig .tc := ⟨.hbm, 386, rfl⟩
abbrev main_cst_108 : Ref sig .tc := ⟨.hbm, 387, rfl⟩
abbrev main_v274 : Ref sig .tc := ⟨.hbm, 388, rfl⟩
abbrev main_v275 : Ref sig .tc := ⟨.hbm, 389, rfl⟩
abbrev main_v276 : Ref sig .tc := ⟨.hbm, 390, rfl⟩
abbrev main_v277 : Ref sig .tc := ⟨.hbm, 391, rfl⟩
abbrev main_cst_109 : Ref sig .tc := ⟨.hbm, 392, rfl⟩
abbrev main_v278 : Ref sig .tc := ⟨.hbm, 393, rfl⟩
abbrev main_cst_110 : Ref sig .tc := ⟨.hbm, 394, rfl⟩
abbrev main_v279 : Ref sig .tc := ⟨.hbm, 395, rfl⟩
abbrev main_v280 : Ref sig .tc := ⟨.hbm, 396, rfl⟩
abbrev main_v281 : Ref sig .tc := ⟨.hbm, 397, rfl⟩
abbrev main_v282 : Ref sig .tc := ⟨.hbm, 398, rfl⟩
abbrev main_cst_111 : Ref sig .tc := ⟨.hbm, 399, rfl⟩
abbrev main_v283 : Ref sig .tc := ⟨.hbm, 400, rfl⟩
abbrev main_cst_112 : Ref sig .tc := ⟨.hbm, 401, rfl⟩
abbrev main_v284 : Ref sig .tc := ⟨.hbm, 402, rfl⟩
abbrev main_v285 : Ref sig .tc := ⟨.hbm, 403, rfl⟩
abbrev main_v286 : Ref sig .tc := ⟨.hbm, 404, rfl⟩
abbrev main_v287 : Ref sig .tc := ⟨.hbm, 405, rfl⟩
abbrev main_cst_113 : Ref sig .tc := ⟨.hbm, 406, rfl⟩
abbrev main_v288 : Ref sig .tc := ⟨.hbm, 407, rfl⟩
abbrev main_cst_114 : Ref sig .tc := ⟨.hbm, 408, rfl⟩
abbrev main_v289 : Ref sig .tc := ⟨.hbm, 409, rfl⟩
abbrev main_v290 : Ref sig .tc := ⟨.hbm, 410, rfl⟩
abbrev main_v291 : Ref sig .tc := ⟨.hbm, 411, rfl⟩
abbrev main_v292 : Ref sig .tc := ⟨.hbm, 412, rfl⟩
abbrev main_cst_115 : Ref sig .tc := ⟨.hbm, 413, rfl⟩
abbrev main_v293 : Ref sig .tc := ⟨.hbm, 414, rfl⟩
abbrev main_cst_116 : Ref sig .tc := ⟨.hbm, 415, rfl⟩
abbrev main_v294 : Ref sig .tc := ⟨.hbm, 416, rfl⟩
abbrev main_v295 : Ref sig .tc := ⟨.hbm, 417, rfl⟩
abbrev main_v296 : Ref sig .tc := ⟨.hbm, 418, rfl⟩
abbrev main_v297 : Ref sig .tc := ⟨.hbm, 419, rfl⟩
abbrev main_cst_117 : Ref sig .tc := ⟨.hbm, 420, rfl⟩
abbrev main_v298 : Ref sig .tc := ⟨.hbm, 421, rfl⟩
abbrev main_cst_118 : Ref sig .tc := ⟨.hbm, 422, rfl⟩
abbrev main_v299 : Ref sig .tc := ⟨.hbm, 423, rfl⟩
abbrev main_v300 : Ref sig .tc := ⟨.hbm, 424, rfl⟩
abbrev main_v301 : Ref sig .tc := ⟨.hbm, 425, rfl⟩
abbrev main_v302 : Ref sig .tc := ⟨.hbm, 426, rfl⟩
abbrev main_cst_119 : Ref sig .tc := ⟨.hbm, 427, rfl⟩
abbrev main_v303 : Ref sig .tc := ⟨.hbm, 428, rfl⟩
abbrev main_cst_120 : Ref sig .tc := ⟨.hbm, 429, rfl⟩
abbrev main_v304 : Ref sig .tc := ⟨.hbm, 430, rfl⟩
abbrev main_v305 : Ref sig .tc := ⟨.hbm, 431, rfl⟩
abbrev main_v306 : Ref sig .tc := ⟨.hbm, 432, rfl⟩
abbrev main_v307 : Ref sig .tc := ⟨.hbm, 433, rfl⟩
abbrev main_cst_121 : Ref sig .tc := ⟨.hbm, 434, rfl⟩
abbrev main_v308 : Ref sig .tc := ⟨.hbm, 435, rfl⟩
abbrev main_cst_122 : Ref sig .tc := ⟨.hbm, 436, rfl⟩
abbrev main_v309 : Ref sig .tc := ⟨.hbm, 437, rfl⟩
abbrev main_v310 : Ref sig .tc := ⟨.hbm, 438, rfl⟩
abbrev main_v311 : Ref sig .tc := ⟨.hbm, 439, rfl⟩
abbrev main_v312 : Ref sig .tc := ⟨.hbm, 440, rfl⟩
abbrev main_cst_123 : Ref sig .tc := ⟨.hbm, 441, rfl⟩
abbrev main_v313 : Ref sig .tc := ⟨.hbm, 442, rfl⟩
abbrev main_cst_124 : Ref sig .tc := ⟨.hbm, 443, rfl⟩
abbrev main_v314 : Ref sig .tc := ⟨.hbm, 444, rfl⟩
abbrev main_v315 : Ref sig .tc := ⟨.hbm, 445, rfl⟩
abbrev main_v316 : Ref sig .tc := ⟨.hbm, 446, rfl⟩
abbrev main_v317 : Ref sig .tc := ⟨.hbm, 447, rfl⟩
abbrev main_cst_125 : Ref sig .tc := ⟨.hbm, 448, rfl⟩
abbrev main_v318 : Ref sig .tc := ⟨.hbm, 449, rfl⟩
abbrev main_cst_126 : Ref sig .tc := ⟨.hbm, 450, rfl⟩
abbrev main_v319 : Ref sig .tc := ⟨.hbm, 451, rfl⟩
abbrev main_v320 : Ref sig .tc := ⟨.hbm, 452, rfl⟩
abbrev main_v321 : Ref sig .tc := ⟨.hbm, 453, rfl⟩
abbrev main_v322 : Ref sig .tc := ⟨.hbm, 454, rfl⟩
abbrev main_cst_127 : Ref sig .tc := ⟨.hbm, 455, rfl⟩
abbrev main_v323 : Ref sig .tc := ⟨.hbm, 456, rfl⟩
abbrev main_cst_128 : Ref sig .tc := ⟨.hbm, 457, rfl⟩
abbrev main_v324 : Ref sig .tc := ⟨.hbm, 458, rfl⟩
abbrev main_v325 : Ref sig .tc := ⟨.hbm, 459, rfl⟩
abbrev main_v326 : Ref sig .tc := ⟨.hbm, 460, rfl⟩
abbrev main_v327 : Ref sig .tc := ⟨.hbm, 461, rfl⟩
abbrev main_cst_129 : Ref sig .tc := ⟨.hbm, 462, rfl⟩
abbrev main_v328 : Ref sig .tc := ⟨.hbm, 463, rfl⟩
abbrev main_cst_130 : Ref sig .tc := ⟨.hbm, 464, rfl⟩
abbrev main_v329 : Ref sig .tc := ⟨.hbm, 465, rfl⟩
abbrev main_v330 : Ref sig .tc := ⟨.hbm, 466, rfl⟩
abbrev main_v331 : Ref sig .tc := ⟨.hbm, 467, rfl⟩
abbrev main_v332 : Ref sig .tc := ⟨.hbm, 468, rfl⟩
abbrev main_cst_131 : Ref sig .tc := ⟨.hbm, 469, rfl⟩
abbrev main_v333 : Ref sig .tc := ⟨.hbm, 470, rfl⟩
abbrev main_cst_132 : Ref sig .tc := ⟨.hbm, 471, rfl⟩
abbrev main_v334 : Ref sig .tc := ⟨.hbm, 472, rfl⟩
abbrev main_v335 : Ref sig .tc := ⟨.hbm, 473, rfl⟩
abbrev main_v336 : Ref sig .tc := ⟨.hbm, 474, rfl⟩
abbrev main_v337 : Ref sig .tc := ⟨.hbm, 475, rfl⟩
abbrev main_cst_133 : Ref sig .tc := ⟨.hbm, 476, rfl⟩
abbrev main_v338 : Ref sig .tc := ⟨.hbm, 477, rfl⟩
abbrev main_cst_134 : Ref sig .tc := ⟨.hbm, 478, rfl⟩
abbrev main_v339 : Ref sig .tc := ⟨.hbm, 479, rfl⟩
abbrev main_v340 : Ref sig .tc := ⟨.hbm, 480, rfl⟩
abbrev main_v341 : Ref sig .tc := ⟨.hbm, 481, rfl⟩
abbrev main_v342 : Ref sig .tc := ⟨.hbm, 482, rfl⟩
abbrev main_cst_135 : Ref sig .tc := ⟨.hbm, 483, rfl⟩
abbrev main_v343 : Ref sig .tc := ⟨.hbm, 484, rfl⟩
abbrev main_cst_136 : Ref sig .tc := ⟨.hbm, 485, rfl⟩
abbrev main_v344 : Ref sig .tc := ⟨.hbm, 486, rfl⟩
abbrev main_v345 : Ref sig .tc := ⟨.hbm, 487, rfl⟩
abbrev main_v346 : Ref sig .tc := ⟨.hbm, 488, rfl⟩
abbrev main_v347 : Ref sig .tc := ⟨.hbm, 489, rfl⟩
abbrev main_cst_137 : Ref sig .tc := ⟨.hbm, 490, rfl⟩
abbrev main_v348 : Ref sig .tc := ⟨.hbm, 491, rfl⟩
abbrev main_cst_138 : Ref sig .tc := ⟨.hbm, 492, rfl⟩
abbrev main_v349 : Ref sig .tc := ⟨.hbm, 493, rfl⟩
abbrev main_v350 : Ref sig .tc := ⟨.hbm, 494, rfl⟩
abbrev main_v351 : Ref sig .tc := ⟨.hbm, 495, rfl⟩
abbrev main_v352 : Ref sig .tc := ⟨.hbm, 496, rfl⟩
abbrev main_cst_139 : Ref sig .tc := ⟨.hbm, 497, rfl⟩
abbrev main_v353 : Ref sig .tc := ⟨.hbm, 498, rfl⟩
abbrev main_cst_140 : Ref sig .tc := ⟨.hbm, 499, rfl⟩
abbrev main_v354 : Ref sig .tc := ⟨.hbm, 500, rfl⟩
abbrev main_v355 : Ref sig .tc := ⟨.hbm, 501, rfl⟩
abbrev main_v356 : Ref sig .tc := ⟨.hbm, 502, rfl⟩
abbrev main_v357 : Ref sig .tc := ⟨.hbm, 503, rfl⟩
abbrev main_cst_141 : Ref sig .tc := ⟨.hbm, 504, rfl⟩
abbrev main_v358 : Ref sig .tc := ⟨.hbm, 505, rfl⟩
abbrev main_cst_142 : Ref sig .tc := ⟨.hbm, 506, rfl⟩
abbrev main_v359 : Ref sig .tc := ⟨.hbm, 507, rfl⟩
abbrev main_v360 : Ref sig .tc := ⟨.hbm, 508, rfl⟩
abbrev main_v361 : Ref sig .tc := ⟨.hbm, 509, rfl⟩
abbrev main_v362 : Ref sig .tc := ⟨.hbm, 510, rfl⟩
abbrev main_cst_143 : Ref sig .tc := ⟨.hbm, 511, rfl⟩
abbrev main_v363 : Ref sig .tc := ⟨.hbm, 512, rfl⟩
abbrev main_cst_144 : Ref sig .tc := ⟨.hbm, 513, rfl⟩
abbrev main_v364 : Ref sig .tc := ⟨.hbm, 514, rfl⟩
abbrev main_v365 : Ref sig .tc := ⟨.hbm, 515, rfl⟩
abbrev main_v366 : Ref sig .tc := ⟨.hbm, 516, rfl⟩
abbrev main_v367 : Ref sig .tc := ⟨.hbm, 517, rfl⟩
abbrev main_cst_145 : Ref sig .tc := ⟨.hbm, 518, rfl⟩
abbrev main_v368 : Ref sig .tc := ⟨.hbm, 519, rfl⟩
abbrev main_cst_146 : Ref sig .tc := ⟨.hbm, 520, rfl⟩
abbrev main_v369 : Ref sig .tc := ⟨.hbm, 521, rfl⟩
abbrev main_v370 : Ref sig .tc := ⟨.hbm, 522, rfl⟩
abbrev main_v371 : Ref sig .tc := ⟨.hbm, 523, rfl⟩
abbrev main_v372 : Ref sig .tc := ⟨.hbm, 524, rfl⟩
abbrev main_cst_147 : Ref sig .tc := ⟨.hbm, 525, rfl⟩
abbrev main_v373 : Ref sig .tc := ⟨.hbm, 526, rfl⟩
abbrev main_cst_148 : Ref sig .tc := ⟨.hbm, 527, rfl⟩
abbrev main_v374 : Ref sig .tc := ⟨.hbm, 528, rfl⟩
abbrev main_v375 : Ref sig .tc := ⟨.hbm, 529, rfl⟩
abbrev main_v376 : Ref sig .tc := ⟨.hbm, 530, rfl⟩
abbrev main_v377 : Ref sig .tc := ⟨.hbm, 531, rfl⟩
abbrev main_cst_149 : Ref sig .tc := ⟨.hbm, 532, rfl⟩
abbrev main_v378 : Ref sig .tc := ⟨.hbm, 533, rfl⟩
abbrev main_cst_150 : Ref sig .tc := ⟨.hbm, 534, rfl⟩
abbrev main_v379 : Ref sig .tc := ⟨.hbm, 535, rfl⟩
abbrev main_v380 : Ref sig .tc := ⟨.hbm, 536, rfl⟩
abbrev main_v381 : Ref sig .tc := ⟨.hbm, 537, rfl⟩
abbrev main_v382 : Ref sig .tc := ⟨.hbm, 538, rfl⟩
abbrev main_cst_151 : Ref sig .tc := ⟨.hbm, 539, rfl⟩
abbrev main_v383 : Ref sig .tc := ⟨.hbm, 540, rfl⟩
abbrev main_cst_152 : Ref sig .tc := ⟨.hbm, 541, rfl⟩
abbrev main_v384 : Ref sig .tc := ⟨.hbm, 542, rfl⟩
abbrev main_v385 : Ref sig .tc := ⟨.hbm, 543, rfl⟩
abbrev main_v386 : Ref sig .tc := ⟨.hbm, 544, rfl⟩
abbrev main_v387 : Ref sig .tc := ⟨.hbm, 545, rfl⟩
abbrev main_cst_153 : Ref sig .tc := ⟨.hbm, 546, rfl⟩
abbrev main_v388 : Ref sig .tc := ⟨.hbm, 547, rfl⟩
abbrev main_cst_154 : Ref sig .tc := ⟨.hbm, 548, rfl⟩
abbrev main_v389 : Ref sig .tc := ⟨.hbm, 549, rfl⟩
abbrev main_v390 : Ref sig .tc := ⟨.hbm, 550, rfl⟩
abbrev main_v391 : Ref sig .tc := ⟨.hbm, 551, rfl⟩
abbrev main_v392 : Ref sig .tc := ⟨.hbm, 552, rfl⟩
abbrev main_cst_155 : Ref sig .tc := ⟨.hbm, 553, rfl⟩
abbrev main_v393 : Ref sig .tc := ⟨.hbm, 554, rfl⟩
abbrev main_cst_156 : Ref sig .tc := ⟨.hbm, 555, rfl⟩
abbrev main_v394 : Ref sig .tc := ⟨.hbm, 556, rfl⟩
abbrev main_v395 : Ref sig .tc := ⟨.hbm, 557, rfl⟩
abbrev main_v396 : Ref sig .tc := ⟨.hbm, 558, rfl⟩
abbrev main_v397 : Ref sig .tc := ⟨.hbm, 559, rfl⟩
abbrev main_cst_157 : Ref sig .tc := ⟨.hbm, 560, rfl⟩
abbrev main_v398 : Ref sig .tc := ⟨.hbm, 561, rfl⟩
abbrev main_cst_158 : Ref sig .tc := ⟨.hbm, 562, rfl⟩
abbrev main_v399 : Ref sig .tc := ⟨.hbm, 563, rfl⟩
abbrev main_v400 : Ref sig .tc := ⟨.hbm, 564, rfl⟩
abbrev main_v401 : Ref sig .tc := ⟨.hbm, 565, rfl⟩
abbrev main_v402 : Ref sig .tc := ⟨.hbm, 566, rfl⟩
abbrev main_v403 : Ref sig .tc := ⟨.hbm, 567, rfl⟩
abbrev main_v404 : Ref sig .tc := ⟨.hbm, 568, rfl⟩
abbrev main_v405 : Ref sig .tc := ⟨.hbm, 569, rfl⟩
abbrev main_v406 : Ref sig .tc := ⟨.hbm, 570, rfl⟩
abbrev main_v407 : Ref sig .tc := ⟨.hbm, 571, rfl⟩
abbrev main_v408 : Ref sig .tc := ⟨.hbm, 572, rfl⟩
abbrev main_v409 : Ref sig .tc := ⟨.hbm, 573, rfl⟩
abbrev main_v410 : Ref sig .tc := ⟨.hbm, 574, rfl⟩
abbrev main_v411 : Ref sig .tc := ⟨.hbm, 575, rfl⟩
abbrev main_v412 : Ref sig .tc := ⟨.hbm, 576, rfl⟩
abbrev main_v413 : Ref sig .tc := ⟨.hbm, 577, rfl⟩
abbrev main_v414 : Ref sig .tc := ⟨.hbm, 578, rfl⟩
abbrev main_v415 : Ref sig .tc := ⟨.hbm, 579, rfl⟩
abbrev main_v416 : Ref sig .tc := ⟨.hbm, 580, rfl⟩
abbrev main_v417 : Ref sig .tc := ⟨.hbm, 581, rfl⟩
abbrev main_v418 : Ref sig .tc := ⟨.hbm, 582, rfl⟩
abbrev main_v419 : Ref sig .tc := ⟨.hbm, 583, rfl⟩
abbrev main_v420 : Ref sig .tc := ⟨.hbm, 584, rfl⟩
abbrev main_v421 : Ref sig .tc := ⟨.hbm, 585, rfl⟩
abbrev main_v422 : Ref sig .tc := ⟨.hbm, 586, rfl⟩
abbrev main_v423 : Ref sig .tc := ⟨.hbm, 587, rfl⟩
abbrev main_v424 : Ref sig .tc := ⟨.hbm, 588, rfl⟩
abbrev main_v425 : Ref sig .tc := ⟨.hbm, 589, rfl⟩
abbrev main_v426 : Ref sig .tc := ⟨.hbm, 590, rfl⟩
abbrev main_v427 : Ref sig .tc := ⟨.hbm, 591, rfl⟩
abbrev main_v428 : Ref sig .tc := ⟨.hbm, 592, rfl⟩
abbrev main_v429 : Ref sig .tc := ⟨.hbm, 593, rfl⟩
abbrev main_v430 : Ref sig .tc := ⟨.hbm, 594, rfl⟩
abbrev main_v431 : Ref sig .tc := ⟨.hbm, 595, rfl⟩
abbrev main_v432 : Ref sig .tc := ⟨.hbm, 596, rfl⟩
abbrev main_v433 : Ref sig .tc := ⟨.hbm, 597, rfl⟩
abbrev main_v434 : Ref sig .tc := ⟨.hbm, 598, rfl⟩
abbrev main_v435 : Ref sig .tc := ⟨.hbm, 599, rfl⟩
abbrev main_v436 : Ref sig .tc := ⟨.hbm, 600, rfl⟩
abbrev main_v437 : Ref sig .tc := ⟨.hbm, 601, rfl⟩
abbrev main_v438 : Ref sig .tc := ⟨.hbm, 602, rfl⟩
abbrev main_v439 : Ref sig .tc := ⟨.hbm, 603, rfl⟩
abbrev main_v440 : Ref sig .tc := ⟨.hbm, 604, rfl⟩
abbrev main_v441 : Ref sig .tc := ⟨.hbm, 605, rfl⟩
abbrev main_v442 : Ref sig .tc := ⟨.hbm, 606, rfl⟩
abbrev main_v443 : Ref sig .tc := ⟨.hbm, 607, rfl⟩
abbrev main_v444 : Ref sig .tc := ⟨.hbm, 608, rfl⟩
abbrev main_v445 : Ref sig .tc := ⟨.hbm, 609, rfl⟩
abbrev main_v446 : Ref sig .tc := ⟨.hbm, 610, rfl⟩
abbrev main_v447 : Ref sig .tc := ⟨.hbm, 611, rfl⟩
abbrev main_v448 : Ref sig .tc := ⟨.hbm, 612, rfl⟩
abbrev main_v449 : Ref sig .tc := ⟨.hbm, 613, rfl⟩
abbrev main_v450 : Ref sig .tc := ⟨.hbm, 614, rfl⟩
abbrev main_v451 : Ref sig .tc := ⟨.hbm, 615, rfl⟩
abbrev main_v452 : Ref sig .tc := ⟨.hbm, 616, rfl⟩
abbrev main_v453 : Ref sig .tc := ⟨.hbm, 617, rfl⟩
abbrev main_v454 : Ref sig .tc := ⟨.hbm, 618, rfl⟩
abbrev main_v455 : Ref sig .tc := ⟨.hbm, 619, rfl⟩
abbrev main_v456 : Ref sig .tc := ⟨.hbm, 620, rfl⟩
abbrev main_v457 : Ref sig .tc := ⟨.hbm, 621, rfl⟩
abbrev main_v458 : Ref sig .tc := ⟨.hbm, 622, rfl⟩
abbrev main_v459 : Ref sig .tc := ⟨.hbm, 623, rfl⟩
abbrev main_v460 : Ref sig .tc := ⟨.hbm, 624, rfl⟩
abbrev main_v461 : Ref sig .tc := ⟨.hbm, 625, rfl⟩
abbrev main_v462 : Ref sig .tc := ⟨.hbm, 626, rfl⟩
abbrev main_v463 : Ref sig .tc := ⟨.hbm, 627, rfl⟩
abbrev main_v464 : Ref sig .tc := ⟨.hbm, 628, rfl⟩
abbrev main_v465 : Ref sig .tc := ⟨.hbm, 629, rfl⟩
abbrev main_v466 : Ref sig .tc := ⟨.hbm, 630, rfl⟩
abbrev main_v467 : Ref sig .tc := ⟨.hbm, 631, rfl⟩
abbrev main_v468 : Ref sig .tc := ⟨.hbm, 632, rfl⟩
abbrev main_v469 : Ref sig .tc := ⟨.hbm, 633, rfl⟩
abbrev main_v470 : Ref sig .tc := ⟨.hbm, 634, rfl⟩
abbrev main_v471 : Ref sig .tc := ⟨.hbm, 635, rfl⟩
abbrev main_v472 : Ref sig .tc := ⟨.hbm, 636, rfl⟩
abbrev main_v473 : Ref sig .tc := ⟨.hbm, 637, rfl⟩
abbrev main_v474 : Ref sig .tc := ⟨.hbm, 638, rfl⟩
abbrev main_v475 : Ref sig .tc := ⟨.hbm, 639, rfl⟩
abbrev main_v476 : Ref sig .tc := ⟨.hbm, 640, rfl⟩
abbrev main_v477 : Ref sig .tc := ⟨.hbm, 641, rfl⟩
abbrev main_v478 : Ref sig .tc := ⟨.hbm, 642, rfl⟩
abbrev main_v479 : Ref sig .tc := ⟨.hbm, 643, rfl⟩
abbrev main_v480 : Ref sig .tc := ⟨.hbm, 644, rfl⟩
abbrev main_v481 : Ref sig .tc := ⟨.hbm, 645, rfl⟩
abbrev main_v482 : Ref sig .tc := ⟨.hbm, 646, rfl⟩
abbrev main_v483 : Ref sig .tc := ⟨.hbm, 647, rfl⟩
abbrev main_v484 : Ref sig .tc := ⟨.hbm, 648, rfl⟩
abbrev main_v485 : Ref sig .tc := ⟨.hbm, 649, rfl⟩
abbrev main_v486 : Ref sig .tc := ⟨.hbm, 650, rfl⟩

abbrev nD : Nat := 1
abbrev τ : Topo := Topo.v7x

variable {F : FTy → Type} [FloatOps F]

class Facts₀ : Prop where
  pads_S8x128x128x192_S8x128x136x200_000_000_440_440 : S8x128x128x192.Pads (![0, 0, 4, 4] : Fin 4 → Nat) ![0, 0, 4, 4] ![0, 0, 0, 0] S8x128x136x200
  h_S_ : 0 < S_.numel
  slices_S8x128x136x200_S8x128x128x192_0_0_0_0 : S8x128x136x200.Slices ![0, 0, 0, 0] S8x128x128x192
  reducesTo_S8x128x128x192_S8x128x192_d1 : S8x128x128x192.ReducesTo [1] S8x128x192
  bcast_S_S8x128x192 : S_.BroadcastsInDim S8x128x192 (![] : Fin 0 → Fin S8x128x192.rank)
  slices_S8x128x136x200_S8x128x128x192_0_0_0_1 : S8x128x136x200.Slices ![0, 0, 0, 1] S8x128x128x192
  slices_S8x128x136x200_S8x128x128x192_0_0_0_2 : S8x128x136x200.Slices ![0, 0, 0, 2] S8x128x128x192
  slices_S8x128x136x200_S8x128x128x192_0_0_0_3 : S8x128x136x200.Slices ![0, 0, 0, 3] S8x128x128x192
  slices_S8x128x136x200_S8x128x128x192_0_0_0_4 : S8x128x136x200.Slices ![0, 0, 0, 4] S8x128x128x192
  slices_S8x128x136x200_S8x128x128x192_0_0_0_5 : S8x128x136x200.Slices ![0, 0, 0, 5] S8x128x128x192
  slices_S8x128x136x200_S8x128x128x192_0_0_0_6 : S8x128x136x200.Slices ![0, 0, 0, 6] S8x128x128x192
  slices_S8x128x136x200_S8x128x128x192_0_0_0_7 : S8x128x136x200.Slices ![0, 0, 0, 7] S8x128x128x192
  slices_S8x128x136x200_S8x128x128x192_0_0_0_8 : S8x128x136x200.Slices ![0, 0, 0, 8] S8x128x128x192
  slices_S8x128x136x200_S8x128x128x192_0_0_1_0 : S8x128x136x200.Slices ![0, 0, 1, 0] S8x128x128x192
  slices_S8x128x136x200_S8x128x128x192_0_0_1_1 : S8x128x136x200.Slices ![0, 0, 1, 1] S8x128x128x192
  slices_S8x128x136x200_S8x128x128x192_0_0_1_2 : S8x128x136x200.Slices ![0, 0, 1, 2] S8x128x128x192
  slices_S8x128x136x200_S8x128x128x192_0_0_1_3 : S8x128x136x200.Slices ![0, 0, 1, 3] S8x128x128x192
  slices_S8x128x136x200_S8x128x128x192_0_0_1_4 : S8x128x136x200.Slices ![0, 0, 1, 4] S8x128x128x192
  slices_S8x128x136x200_S8x128x128x192_0_0_1_5 : S8x128x136x200.Slices ![0, 0, 1, 5] S8x128x128x192
  slices_S8x128x136x200_S8x128x128x192_0_0_1_6 : S8x128x136x200.Slices ![0, 0, 1, 6] S8x128x128x192
  slices_S8x128x136x200_S8x128x128x192_0_0_1_7 : S8x128x136x200.Slices ![0, 0, 1, 7] S8x128x128x192
  slices_S8x128x136x200_S8x128x128x192_0_0_1_8 : S8x128x136x200.Slices ![0, 0, 1, 8] S8x128x128x192
  slices_S8x128x136x200_S8x128x128x192_0_0_2_0 : S8x128x136x200.Slices ![0, 0, 2, 0] S8x128x128x192
  slices_S8x128x136x200_S8x128x128x192_0_0_2_1 : S8x128x136x200.Slices ![0, 0, 2, 1] S8x128x128x192
  slices_S8x128x136x200_S8x128x128x192_0_0_2_2 : S8x128x136x200.Slices ![0, 0, 2, 2] S8x128x128x192
  slices_S8x128x136x200_S8x128x128x192_0_0_2_3 : S8x128x136x200.Slices ![0, 0, 2, 3] S8x128x128x192
  slices_S8x128x136x200_S8x128x128x192_0_0_2_4 : S8x128x136x200.Slices ![0, 0, 2, 4] S8x128x128x192
  slices_S8x128x136x200_S8x128x128x192_0_0_2_5 : S8x128x136x200.Slices ![0, 0, 2, 5] S8x128x128x192
  slices_S8x128x136x200_S8x128x128x192_0_0_2_6 : S8x128x136x200.Slices ![0, 0, 2, 6] S8x128x128x192
  slices_S8x128x136x200_S8x128x128x192_0_0_2_7 : S8x128x136x200.Slices ![0, 0, 2, 7] S8x128x128x192
  slices_S8x128x136x200_S8x128x128x192_0_0_2_8 : S8x128x136x200.Slices ![0, 0, 2, 8] S8x128x128x192
  slices_S8x128x136x200_S8x128x128x192_0_0_3_0 : S8x128x136x200.Slices ![0, 0, 3, 0] S8x128x128x192
  slices_S8x128x136x200_S8x128x128x192_0_0_3_1 : S8x128x136x200.Slices ![0, 0, 3, 1] S8x128x128x192
  slices_S8x128x136x200_S8x128x128x192_0_0_3_2 : S8x128x136x200.Slices ![0, 0, 3, 2] S8x128x128x192
  slices_S8x128x136x200_S8x128x128x192_0_0_3_3 : S8x128x136x200.Slices ![0, 0, 3, 3] S8x128x128x192
  slices_S8x128x136x200_S8x128x128x192_0_0_3_4 : S8x128x136x200.Slices ![0, 0, 3, 4] S8x128x128x192
  slices_S8x128x136x200_S8x128x128x192_0_0_3_5 : S8x128x136x200.Slices ![0, 0, 3, 5] S8x128x128x192
  slices_S8x128x136x200_S8x128x128x192_0_0_3_6 : S8x128x136x200.Slices ![0, 0, 3, 6] S8x128x128x192
  slices_S8x128x136x200_S8x128x128x192_0_0_3_7 : S8x128x136x200.Slices ![0, 0, 3, 7] S8x128x128x192
  slices_S8x128x136x200_S8x128x128x192_0_0_3_8 : S8x128x136x200.Slices ![0, 0, 3, 8] S8x128x128x192
  slices_S8x128x136x200_S8x128x128x192_0_0_4_0 : S8x128x136x200.Slices ![0, 0, 4, 0] S8x128x128x192
  slices_S8x128x136x200_S8x128x128x192_0_0_4_1 : S8x128x136x200.Slices ![0, 0, 4, 1] S8x128x128x192
  slices_S8x128x136x200_S8x128x128x192_0_0_4_2 : S8x128x136x200.Slices ![0, 0, 4, 2] S8x128x128x192
  slices_S8x128x136x200_S8x128x128x192_0_0_4_3 : S8x128x136x200.Slices ![0, 0, 4, 3] S8x128x128x192
  slices_S8x128x136x200_S8x128x128x192_0_0_4_5 : S8x128x136x200.Slices ![0, 0, 4, 5] S8x128x128x192
  slices_S8x128x136x200_S8x128x128x192_0_0_4_6 : S8x128x136x200.Slices ![0, 0, 4, 6] S8x128x128x192
  slices_S8x128x136x200_S8x128x128x192_0_0_4_7 : S8x128x136x200.Slices ![0, 0, 4, 7] S8x128x128x192
  slices_S8x128x136x200_S8x128x128x192_0_0_4_8 : S8x128x136x200.Slices ![0, 0, 4, 8] S8x128x128x192
  slices_S8x128x136x200_S8x128x128x192_0_0_5_0 : S8x128x136x200.Slices ![0, 0, 5, 0] S8x128x128x192
  slices_S8x128x136x200_S8x128x128x192_0_0_5_1 : S8x128x136x200.Slices ![0, 0, 5, 1] S8x128x128x192
  slices_S8x128x136x200_S8x128x128x192_0_0_5_2 : S8x128x136x200.Slices ![0, 0, 5, 2] S8x128x128x192
  slices_S8x128x136x200_S8x128x128x192_0_0_5_3 : S8x128x136x200.Slices ![0, 0, 5, 3] S8x128x128x192
  slices_S8x128x136x200_S8x128x128x192_0_0_5_4 : S8x128x136x200.Slices ![0, 0, 5, 4] S8x128x128x192
  slices_S8x128x136x200_S8x128x128x192_0_0_5_5 : S8x128x136x200.Slices ![0, 0, 5, 5] S8x128x128x192
  slices_S8x128x136x200_S8x128x128x192_0_0_5_6 : S8x128x136x200.Slices ![0, 0, 5, 6] S8x128x128x192
  slices_S8x128x136x200_S8x128x128x192_0_0_5_7 : S8x128x136x200.Slices ![0, 0, 5, 7] S8x128x128x192
  slices_S8x128x136x200_S8x128x128x192_0_0_5_8 : S8x128x136x200.Slices ![0, 0, 5, 8] S8x128x128x192
  slices_S8x128x136x200_S8x128x128x192_0_0_6_0 : S8x128x136x200.Slices ![0, 0, 6, 0] S8x128x128x192
  slices_S8x128x136x200_S8x128x128x192_0_0_6_1 : S8x128x136x200.Slices ![0, 0, 6, 1] S8x128x128x192
  slices_S8x128x136x200_S8x128x128x192_0_0_6_2 : S8x128x136x200.Slices ![0, 0, 6, 2] S8x128x128x192
  slices_S8x128x136x200_S8x128x128x192_0_0_6_3 : S8x128x136x200.Slices ![0, 0, 6, 3] S8x128x128x192
  slices_S8x128x136x200_S8x128x128x192_0_0_6_4 : S8x128x136x200.Slices ![0, 0, 6, 4] S8x128x128x192
  slices_S8x128x136x200_S8x128x128x192_0_0_6_5 : S8x128x136x200.Slices ![0, 0, 6, 5] S8x128x128x192
  slices_S8x128x136x200_S8x128x128x192_0_0_6_6 : S8x128x136x200.Slices ![0, 0, 6, 6] S8x128x128x192
  slices_S8x128x136x200_S8x128x128x192_0_0_6_7 : S8x128x136x200.Slices ![0, 0, 6, 7] S8x128x128x192
  slices_S8x128x136x200_S8x128x128x192_0_0_6_8 : S8x128x136x200.Slices ![0, 0, 6, 8] S8x128x128x192
  slices_S8x128x136x200_S8x128x128x192_0_0_7_0 : S8x128x136x200.Slices ![0, 0, 7, 0] S8x128x128x192
  slices_S8x128x136x200_S8x128x128x192_0_0_7_1 : S8x128x136x200.Slices ![0, 0, 7, 1] S8x128x128x192
  slices_S8x128x136x200_S8x128x128x192_0_0_7_2 : S8x128x136x200.Slices ![0, 0, 7, 2] S8x128x128x192
  slices_S8x128x136x200_S8x128x128x192_0_0_7_3 : S8x128x136x200.Slices ![0, 0, 7, 3] S8x128x128x192
  slices_S8x128x136x200_S8x128x128x192_0_0_7_4 : S8x128x136x200.Slices ![0, 0, 7, 4] S8x128x128x192
  slices_S8x128x136x200_S8x128x128x192_0_0_7_5 : S8x128x136x200.Slices ![0, 0, 7, 5] S8x128x128x192
  slices_S8x128x136x200_S8x128x128x192_0_0_7_6 : S8x128x136x200.Slices ![0, 0, 7, 6] S8x128x128x192
  slices_S8x128x136x200_S8x128x128x192_0_0_7_7 : S8x128x136x200.Slices ![0, 0, 7, 7] S8x128x128x192
  slices_S8x128x136x200_S8x128x128x192_0_0_7_8 : S8x128x136x200.Slices ![0, 0, 7, 8] S8x128x128x192
  slices_S8x128x136x200_S8x128x128x192_0_0_8_0 : S8x128x136x200.Slices ![0, 0, 8, 0] S8x128x128x192
  slices_S8x128x136x200_S8x128x128x192_0_0_8_1 : S8x128x136x200.Slices ![0, 0, 8, 1] S8x128x128x192
  slices_S8x128x136x200_S8x128x128x192_0_0_8_2 : S8x128x136x200.Slices ![0, 0, 8, 2] S8x128x128x192
  slices_S8x128x136x200_S8x128x128x192_0_0_8_3 : S8x128x136x200.Slices ![0, 0, 8, 3] S8x128x128x192
  slices_S8x128x136x200_S8x128x128x192_0_0_8_4 : S8x128x136x200.Slices ![0, 0, 8, 4] S8x128x128x192
  slices_S8x128x136x200_S8x128x128x192_0_0_8_5 : S8x128x136x200.Slices ![0, 0, 8, 5] S8x128x128x192
  slices_S8x128x136x200_S8x128x128x192_0_0_8_6 : S8x128x136x200.Slices ![0, 0, 8, 6] S8x128x128x192
  slices_S8x128x136x200_S8x128x128x192_0_0_8_7 : S8x128x136x200.Slices ![0, 0, 8, 7] S8x128x128x192
  slices_S8x128x136x200_S8x128x128x192_0_0_8_8 : S8x128x136x200.Slices ![0, 0, 8, 8] S8x128x128x192
  bcast_S8x128x192_S8x1x128x192_0_2_3 : S8x128x192.BroadcastsInDim S8x1x128x192 (![0, 2, 3] : Fin 3 → Fin S8x1x128x192.rank)
  concatenates_S8x1x128x192_S8x1x128x192_S8x1x128x192_S8x1x128x192_S8x1x128x192_S8x1x128x192_S8x1x128x192_S8x1x128x192_S8x1x128x192_S8x1x128x192_S8x1x128x192_S8x1x128x192_S8x1x128x192_S8x1x128x192_S8x1x128x192_S8x1x128x192_S8x16x128x192_d1 : Shape.Concatenates [S8x1x128x192, S8x1x128x192, S8x1x128x192, S8x1x128x192, S8x1x128x192, S8x1x128x192, S8x1x128x192, S8x1x128x192, S8x1x128x192, S8x1x128x192, S8x1x128x192, S8x1x128x192, S8x1x128x192, S8x1x128x192, S8x1x128x192, S8x1x128x192] S8x16x128x192 1
  concatenates_S8x16x128x192_S8x16x128x192_S8x16x128x192_S8x16x128x192_S8x16x128x192_S8x80x128x192_d1 : Shape.Concatenates [S8x16x128x192, S8x16x128x192, S8x16x128x192, S8x16x128x192, S8x16x128x192] S8x80x128x192 1

variable [Facts₀]

class Facts : Prop extends Facts₀ where

variable [Facts]
-- ==== Proof.K.Base.lean ====
/-
  What the frame of this program's one pallas_call is stated over: the arrays as the region
  finds them (the launch memory after the host operations before the call: the two casts, the zero
  constant and the padding), each window's block of its array at a grid point, the staging memref each
  window is on at a point, the scratch operand, how the one padded array that two input windows read
  is shared between them, and the region's invariant — the scratch buffer at some contents: the body
  overwrites all of it before reading any of it, so nothing is carried from point to point.
-/
import proofs.«122554_j9363028706363_2_alg».proof.Proof.Gen.Kernel.Launch
import proofs.«122554_j9363028706363_2_alg».proof.Proof.Gen.Kernel.Skeleton
import proofs.«122554_j9363028706363_2_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is entered: the launch memory after the host
    operations before the call. -/
abbrev V (c : Dev nD) (b : Ref sig .tc) : Buf (Elt F) ((c : Thread nD τ).loc b) :=
  StableHlo.after (List.flatten [hostOps0, hostOps0_1]) (fun b => m (c, b)) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each window's current staging memref at point `t`, as the pipeline passes it to the body, and its wholeness. -/
abbrev ms0_0 (t : Fin cfg0.N) : Memref sig .tc .vmem S1x128x32x192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x32x200 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x8x200 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x80x32x192 .f32 := win0_3.stage (cfg0.slots t 3)
abbrev hs0_3 (t : Fin cfg0.N) : (ms0_3 t).IsWhole := hstage0_3 ((cfg0.slots t 3).cast nbuf0_3)

/-- The scratch operand: a whole scoped buffer of the kernel's own, passed beside the windows. -/
abbrev scM0_0 : Memref sig .tc .vmem S128x40x200 .bf16 := Memref.whole cc0_scratch0
/-- One staging buffer of the output window, through which its contents are stated (any would do). -/
abbrev VO0_3 : View sig .tc .vmem S1x80x32x192 .f32 := (Memref.whole cc0_stg3_0 : Memref sig .tc .vmem S1x80x32x192 .f32).view

/-- How the arrays are shared among the windows reading them: the first input and the output have an
    array each, whole; the padded array is read by two input windows, a half each. -/
def qs : Fin 4 → PosShare TreeShare := fun
  | ⟨0, _⟩ => fullShare
  | ⟨1, _⟩ => fullShare.left
  | ⟨2, _⟩ => fullShare.right
  | ⟨3, _⟩ => fullShare

/-- The region's invariant on core `c`, the same before and after every point: the scratch buffer whole,
    at some contents. -/
def PhiS (c : Dev nD) : sProp 𝕄 := iprop(∃ d, owns (c : Thread nD τ) scM0_0 fullShare d)

end Cert.Kernel.Hand

end
-- ==== Proof.K.Run.lean ====
/-
  The kernel body's Hoare triple on any whole staging memrefs, found by running the body's skeleton symbolically:
  from the three input buffers at given contents, the output buffer and the scratch buffer at anything, the body
  terminates without fault, hands the inputs back unchanged, and leaves the output buffer and the scratch buffer
  at their prior contents overwritten by two lists of rectangular pieces. The lists are the witnesses the run finds.
-/
import proofs.«122554_j9363028706363_2_alg».proof.Proof.K.Base
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output buffer (eighty unit rectangles, one per displacement, last
    store first) and in the scratch buffer (the two slabs that tile it), with the proof that the body runs from
    the inputs at `x0 x1 x2` to the continuation holding the inputs as they were and those pieces written. -/
noncomputable def kernelRun0 (c : Dev nD) (i : grid0.Coords) (arg2 : Memref sig .tc .vmem S1x128x32x192 .bf16) (harg2 : arg2.IsWhole) (arg3 : Memref sig .tc .vmem S1x128x32x200 .bf16) (harg3 : arg3.IsWhole) (arg4 : Memref sig .tc .vmem S1x128x8x200 .bf16) (harg4 : arg4.IsWhole) (arg5 : Memref sig .tc .vmem S1x80x32x192 .f32) (harg5 : arg5.IsWhole) (arg6 : Memref sig .tc .vmem S128x40x200 .bf16) (harg6 : arg6.IsWhole)
    (x0 : Vec F S1x128x32x192 .bf16) (x1 : Vec F S1x128x32x200 .bf16) (x2 : Vec F S1x128x8x200 .bf16) :
    Σ' (L3 : List (View.Piece (Elt F) S1x80x32x192 .f32)), { LS0 : List (View.Piece (Elt F) S128x40x200 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc0_kernel i arg2 harg2 arg3 harg3 arg4 harg4 arg5 harg5 arg6 harg6) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-- The first input's block as the body loads it: the whole staging buffer read through its own view. -/
abbrev ldX0 (arg2 : Memref sig .tc .vmem S1x128x32x192 .bf16) (harg2 : arg2.IsWhole) (x0 : Vec F S1x128x32x192 .bf16) : Vec F S1x128x32x192 .bf16 :=
  View.readAt (Elt F) arg2.view (Rect.unit (s := S1x128x32x192) ![0, 0, 0, 0] S1x128x32x192.size inb_S1x128x32x192_S1x128x32x192_0_0_0_0).toLoadRect (harg2.unread x0)

/-- The eighty stores tile the output block: every index of it lies in some piece's rectangle. -/
theorem cover0_3 (c : Dev nD) (i : grid0.Coords) (arg2 : Memref sig .tc .vmem S1x128x32x192 .bf16) (harg2 : arg2.IsWhole) (arg3 : Memref sig .tc .vmem S1x128x32x200 .bf16) (harg3 : arg3.IsWhole) (arg4 : Memref sig .tc .vmem S1x128x8x200 .bf16) (harg4 : arg4.IsWhole) (arg5 : Memref sig .tc .vmem S1x80x32x192 .f32) (harg5 : arg5.IsWhole) (arg6 : Memref sig .tc .vmem S128x40x200 .bf16) (harg6 : arg6.IsWhole)
    (x0 : Vec F S1x128x32x192 .bf16) (x1 : Vec F S1x128x32x200 .bf16) (x2 : Vec F S1x128x8x200 .bf16) (y : S1x80x32x192.Idx) :
    ∃ pc ∈ (kernelRun0 c i arg2 harg2 arg3 harg3 arg4 harg4 arg5 harg5 arg6 harg6 x0 x1 x2).1, y ∈ pc.1.set :=
  View.cover_of_tiledL (kernelRun0 c i arg2 harg2 arg3 harg3 arg4 harg4 arg5 harg5 arg6 harg6 x0 x1 x2).1 S1x1x32x192.size (by sl_kernel_rfl) y

/-- What the body leaves in the output buffer: its pieces read back (over anything, since they cover it). -/
def out0_3 (c : Dev nD) (i : grid0.Coords) (arg2 : Memref sig .tc .vmem S1x128x32x192 .bf16) (harg2 : arg2.IsWhole) (arg3 : Memref sig .tc .vmem S1x128x32x200 .bf16) (harg3 : arg3.IsWhole) (arg4 : Memref sig .tc .vmem S1x128x8x200 .bf16) (harg4 : arg4.IsWhole) (arg5 : Memref sig .tc .vmem S1x80x32x192 .f32) (harg5 : arg5.IsWhole) (arg6 : Memref sig .tc .vmem S128x40x200 .bf16) (harg6 : arg6.IsWhole)
    (x0 : Vec F S1x128x32x192 .bf16) (x1 : Vec F S1x128x32x200 .bf16) (x2 : Vec F S1x128x8x200 .bf16) : Vec F S1x80x32x192 .f32 :=
  VO0_3.read (Elt F) (VO0_3.writes (Elt F) VO0_3.junk (kernelRun0 c i arg2 harg2 arg3 harg3 arg4 harg4 arg5 harg5 arg6 harg6 x0 x1 x2).1)

set_option maxRecDepth 65536 in
/-- The output pieces, spelt out: one unit rectangle per displacement, each payload over the loads' names. -/
theorem kernelRun0_fst (c : Dev nD) (i : grid0.Coords) (arg2 : Memref sig .tc .vmem S1x128x32x192 .bf16) (harg2 : arg2.IsWhole) (arg3 : Memref sig .tc .vmem S1x128x32x200 .bf16) (harg3 : arg3.IsWhole) (arg4 : Memref sig .tc .vmem S1x128x8x200 .bf16) (harg4 : arg4.IsWhole) (arg5 : Memref sig .tc .vmem S1x80x32x192 .f32) (harg5 : arg5.IsWhole) (arg6 : Memref sig .tc .vmem S128x40x200 .bf16) (harg6 : arg6.IsWhole)
    (x0 : Vec F S1x128x32x192 .bf16) (x1 : Vec F S1x128x32x200 .bf16) (x2 : Vec F S1x128x8x200 .bf16) :
    (kernelRun0 c i arg2 harg2 arg3 harg3 arg4 harg4 arg5 harg5 arg6 harg6 x0 x1 x2).1 =
    [⟨Rect.unit ![0, 79, 0, 0] ![1, 1, 32, 192] inb_S1x80x32x192_S1x1x32x192_0_79_0_0,
        k0_pay2 (kernelRun0.sl.v673 c arg3 harg3 arg4 harg4 arg6 x1 x2) (kernelRun0.sl.r_26 c arg2 harg2 x0)⟩,
      ⟨Rect.unit ![0, 70, 0, 0] ![1, 1, 32, 192] inb_S1x80x32x192_S1x1x32x192_0_70_0_0,
        k0_pay1 (kernelRun0.sl.r_29 c arg2 harg2 arg3 harg3 arg4 harg4 arg6 x0 x1 x2)⟩,
      ⟨Rect.unit ![0, 61, 0, 0] ![1, 1, 32, 192] inb_S1x80x32x192_S1x1x32x192_0_61_0_0,
        k0_pay111 (kernelRun0.sl.v673 c arg3 harg3 arg4 harg4 arg6 x1 x2) (kernelRun0.sl.r_26 c arg2 harg2 x0)⟩,
      ⟨Rect.unit ![0, 52, 0, 0] ![1, 1, 32, 192] inb_S1x80x32x192_S1x1x32x192_0_52_0_0,
        k0_pay110 (kernelRun0.sl.v673 c arg3 harg3 arg4 harg4 arg6 x1 x2) (kernelRun0.sl.r_26 c arg2 harg2 x0)⟩,
      ⟨Rect.unit ![0, 43, 0, 0] ![1, 1, 32, 192] inb_S1x80x32x192_S1x1x32x192_0_43_0_0,
        k0_pay109 (kernelRun0.sl.r_28 c arg2 harg2 arg3 harg3 arg4 harg4 arg6 x0 x1 x2)⟩,
      ⟨Rect.unit ![0, 35, 0, 0] ![1, 1, 32, 192] inb_S1x80x32x192_S1x1x32x192_0_35_0_0,
        k0_pay107 (kernelRun0.sl.v673 c arg3 harg3 arg4 harg4 arg6 x1 x2) (kernelRun0.sl.r_26 c arg2 harg2 x0)⟩,
      ⟨Rect.unit ![0, 26, 0, 0] ![1, 1, 32, 192] inb_S1x80x32x192_S1x1x32x192_0_26_0_0,
        k0_pay106 (kernelRun0.sl.v673 c arg3 harg3 arg4 harg4 arg6 x1 x2) (kernelRun0.sl.r_26 c arg2 harg2 x0)⟩,
      ⟨Rect.unit ![0, 17, 0, 0] ![1, 1, 32, 192] inb_S1x80x32x192_S1x1x32x192_0_17_0_0,
        k0_pay105 (kernelRun0.sl.v673 c arg3 harg3 arg4 harg4 arg6 x1 x2) (kernelRun0.sl.r_26 c arg2 harg2 x0)⟩,
      ⟨Rect.unit ![0, 8, 0, 0] ![1, 1, 32, 192] inb_S1x80x32x192_S1x1x32x192_0_8_0_0,
        k0_pay104 (kernelRun0.sl.r_27 c arg2 harg2 arg3 harg3 arg4 harg4 arg6 x0 x1 x2) kernelRun0.sl.cst_25⟩,
      ⟨Rect.unit ![0, 78, 0, 0] ![1, 1, 32, 192] inb_S1x80x32x192_S1x1x32x192_0_78_0_0,
        k0_pay101 (kernelRun0.sl.v589 c arg3 harg3 arg4 harg4 arg6 x1 x2) (kernelRun0.sl.r_23 c arg2 harg2 x0)⟩,
      ⟨Rect.unit ![0, 69, 0, 0] ![1, 1, 32, 192] inb_S1x80x32x192_S1x1x32x192_0_69_0_0,
        k0_pay100 (kernelRun0.sl.v589 c arg3 harg3 arg4 harg4 arg6 x1 x2) (kernelRun0.sl.r_23 c arg2 harg2 x0)⟩,
      ⟨Rect.unit ![0, 60, 0, 0] ![1, 1, 32, 192] inb_S1x80x32x192_S1x1x32x192_0_60_0_0,
        k0_pay99 (kernelRun0.sl.r_25 c arg2 harg2 arg3 harg3 arg4 harg4 arg6 x0 x1 x2)⟩,
      ⟨Rect.unit ![0, 51, 0, 0] ![1, 1, 32, 192] inb_S1x80x32x192_S1x1x32x192_0_51_0_0,
        k0_pay97 (kernelRun0.sl.v589 c arg3 harg3 arg4 harg4 arg6 x1 x2) (kernelRun0.sl.r_23 c arg2 harg2 x0)⟩,
      ⟨Rect.unit ![0, 42, 0, 0] ![1, 1, 32, 192] inb_S1x80x32x192_S1x1x32x192_0_42_0_0,
        k0_pay96 (kernelRun0.sl.v589 c arg3 harg3 arg4 harg4 arg6 x1 x2) (kernelRun0.sl.r_23 c arg2 harg2 x0)⟩,
      ⟨Rect.unit ![0, 34, 0, 0] ![1, 1, 32, 192] inb_S1x80x32x192_S1x1x32x192_0_34_0_0,
        k0_pay95 (kernelRun0.sl.v589 c arg3 harg3 arg4 harg4 arg6 x1 x2) (kernelRun0.sl.r_23 c arg2 harg2 x0)⟩,
      ⟨Rect.unit ![0, 25, 0, 0] ![1, 1, 32, 192] inb_S1x80x32x192_S1x1x32x192_0_25_0_0,
        k0_pay94 (kernelRun0.sl.r_24 c arg2 harg2 arg3 harg3 arg4 harg4 arg6 x0 x1 x2)⟩,
      ⟨Rect.unit ![0, 16, 0, 0] ![1, 1, 32, 192] inb_S1x80x32x192_S1x1x32x192_0_16_0_0,
        k0_pay92 (kernelRun0.sl.v589 c arg3 harg3 arg4 harg4 arg6 x1 x2)
          (ldX0 arg2 harg2 x0)⟩,
      ⟨Rect.unit ![0, 7, 0, 0] ![1, 1, 32, 192] inb_S1x80x32x192_S1x1x32x192_0_7_0_0,
        k0_pay91 (kernelRun0.sl.v589 c arg3 harg3 arg4 harg4 arg6 x1 x2)
          (ldX0 arg2 harg2 x0)⟩,
      ⟨Rect.unit ![0, 77, 0, 0] ![1, 1, 32, 192] inb_S1x80x32x192_S1x1x32x192_0_77_0_0,
        k0_pay89 (kernelRun0.sl.r_22 c arg2 harg2 arg3 harg3 arg4 harg4 arg6 x0 x1 x2) kernelRun0.sl.cst_25⟩,
      ⟨Rect.unit ![0, 68, 0, 0] ![1, 1, 32, 192] inb_S1x80x32x192_S1x1x32x192_0_68_0_0,
        k0_pay87 (kernelRun0.sl.v505 c arg3 harg3 arg4 harg4 arg6 x1 x2) (kernelRun0.sl.r_19 c arg2 harg2 x0)⟩,
      ⟨Rect.unit ![0, 59, 0, 0] ![1, 1, 32, 192] inb_S1x80x32x192_S1x1x32x192_0_59_0_0,
        k0_pay86 (kernelRun0.sl.v505 c arg3 harg3 arg4 harg4 arg6 x1 x2) (kernelRun0.sl.r_19 c arg2 harg2 x0)⟩,
      ⟨Rect.unit ![0, 50, 0, 0] ![1, 1, 32, 192] inb_S1x80x32x192_S1x1x32x192_0_50_0_0,
        k0_pay85 (kernelRun0.sl.v505 c arg3 harg3 arg4 harg4 arg6 x1 x2) (kernelRun0.sl.r_19 c arg2 harg2 x0)⟩,
      ⟨Rect.unit ![0, 41, 0, 0] ![1, 1, 32, 192] inb_S1x80x32x192_S1x1x32x192_0_41_0_0,
        k0_pay84 (kernelRun0.sl.r_21 c arg2 harg2 arg3 harg3 arg4 harg4 arg6 x0 x1 x2)⟩,
      ⟨Rect.unit ![0, 33, 0, 0] ![1, 1, 32, 192] inb_S1x80x32x192_S1x1x32x192_0_33_0_0,
        k0_pay82 (kernelRun0.sl.v505 c arg3 harg3 arg4 harg4 arg6 x1 x2) (kernelRun0.sl.r_19 c arg2 harg2 x0)⟩,
      ⟨Rect.unit ![0, 24, 0, 0] ![1, 1, 32, 192] inb_S1x80x32x192_S1x1x32x192_0_24_0_0,
        k0_pay81 (kernelRun0.sl.v505 c arg3 harg3 arg4 harg4 arg6 x1 x2) (kernelRun0.sl.r_19 c arg2 harg2 x0)⟩,
      ⟨Rect.unit ![0, 15, 0, 0] ![1, 1, 32, 192] inb_S1x80x32x192_S1x1x32x192_0_15_0_0,
        k0_pay80 (kernelRun0.sl.v505 c arg3 harg3 arg4 harg4 arg6 x1 x2) (kernelRun0.sl.r_19 c arg2 harg2 x0)⟩,
      ⟨Rect.unit ![0, 6, 0, 0] ![1, 1, 32, 192] inb_S1x80x32x192_S1x1x32x192_0_6_0_0,
        k0_pay79 (kernelRun0.sl.r_20 c arg2 harg2 arg3 harg3 arg4 harg4 arg6 x0 x1 x2)⟩,
      ⟨Rect.unit ![0, 76, 0, 0] ![1, 1, 32, 192] inb_S1x80x32x192_S1x1x32x192_0_76_0_0,
        k0_pay76 (kernelRun0.sl.v421 c arg3 harg3 arg4 harg4 arg6 x1 x2) (kernelRun0.sl.r_17 c arg2 harg2 x0)⟩,
      ⟨Rect.unit ![0, 67, 0, 0] ![1, 1, 32, 192] inb_S1x80x32x192_S1x1x32x192_0_67_0_0,
        k0_pay75 (kernelRun0.sl.v421 c arg3 harg3 arg4 harg4 arg6 x1 x2) (kernelRun0.sl.r_17 c arg2 harg2 x0)⟩,
      ⟨Rect.unit ![0, 58, 0, 0] ![1, 1, 32, 192] inb_S1x80x32x192_S1x1x32x192_0_58_0_0,
        k0_pay74 (kernelRun0.sl.r_18 c arg2 harg2 arg3 harg3 arg4 harg4 arg6 x0 x1 x2)⟩,
      ⟨Rect.unit ![0, 49, 0, 0] ![1, 1, 32, 192] inb_S1x80x32x192_S1x1x32x192_0_49_0_0,
        k0_pay72 (kernelRun0.sl.v421 c arg3 harg3 arg4 harg4 arg6 x1 x2) (kernelRun0.sl.r_17 c arg2 harg2 x0)⟩,
      ⟨Rect.unit ![0, 40, 0, 0] ![1, 1, 32, 192] inb_S1x80x32x192_S1x1x32x192_0_40_0_0,
        k0_pay71 (kernelRun0.sl.v421 c arg3 harg3 arg4 harg4 arg6 x1 x2) (kernelRun0.sl.r_17 c arg2 harg2 x0)⟩,
      ⟨Rect.unit ![0, 32, 0, 0] ![1, 1, 32, 192] inb_S1x80x32x192_S1x1x32x192_0_32_0_0,
        k0_pay70 (kernelRun0.sl.v421 c arg3 harg3 arg4 harg4 arg6 x1 x2) (kernelRun0.sl.r_17 c arg2 harg2 x0)⟩,
      ⟨Rect.unit ![0, 23, 0, 0] ![1, 1, 32, 192] inb_S1x80x32x192_S1x1x32x192_0_23_0_0,
        k0_pay69 (kernelRun0.sl.v421 c arg3 harg3 arg4 harg4 arg6 x1 x2)
          (ldX0 arg2 harg2 x0)⟩,
      ⟨Rect.unit ![0, 14, 0, 0] ![1, 1, 32, 192] inb_S1x80x32x192_S1x1x32x192_0_14_0_0,
        k0_pay68 (kernelRun0.sl.v421 c arg3 harg3 arg4 harg4 arg6 x1 x2)
          (ldX0 arg2 harg2 x0)⟩,
      ⟨Rect.unit ![0, 5, 0, 0] ![1, 1, 32, 192] inb_S1x80x32x192_S1x1x32x192_0_5_0_0,
        k0_pay67 (kernelRun0.sl.v421 c arg3 harg3 arg4 harg4 arg6 x1 x2)
          (ldX0 arg2 harg2 x0)⟩,
      ⟨Rect.unit ![0, 75, 0, 0] ![1, 1, 32, 192] inb_S1x80x32x192_S1x1x32x192_0_75_0_0,
        k0_pay65 (kernelRun0.sl.r_16 c arg2 harg2 arg3 harg3 arg4 harg4 arg6 x0 x1 x2)⟩,
      ⟨Rect.unit ![0, 66, 0, 0] ![1, 1, 32, 192] inb_S1x80x32x192_S1x1x32x192_0_66_0_0,
        k0_pay63 (kernelRun0.sl.v346 c arg3 harg3 arg4 harg4 arg6 x1 x2) (kernelRun0.sl.r_13 c arg2 harg2 x0)⟩,
      ⟨Rect.unit ![0, 57, 0, 0] ![1, 1, 32, 192] inb_S1x80x32x192_S1x1x32x192_0_57_0_0,
        k0_pay62 (kernelRun0.sl.v346 c arg3 harg3 arg4 harg4 arg6 x1 x2) (kernelRun0.sl.r_13 c arg2 harg2 x0)⟩,
      ⟨Rect.unit ![0, 48, 0, 0] ![1, 1, 32, 192] inb_S1x80x32x192_S1x1x32x192_0_48_0_0,
        k0_pay61 (kernelRun0.sl.r_15 c arg2 harg2 arg3 harg3 arg4 harg4 arg6 x0 x1 x2)⟩,
      ⟨Rect.unit ![0, 31, 0, 0] ![1, 1, 32, 192] inb_S1x80x32x192_S1x1x32x192_0_31_0_0,
        k0_pay59 (kernelRun0.sl.v346 c arg3 harg3 arg4 harg4 arg6 x1 x2) (kernelRun0.sl.r_13 c arg2 harg2 x0)⟩,
      ⟨Rect.unit ![0, 22, 0, 0] ![1, 1, 32, 192] inb_S1x80x32x192_S1x1x32x192_0_22_0_0,
        k0_pay58 (kernelRun0.sl.v346 c arg3 harg3 arg4 harg4 arg6 x1 x2) (kernelRun0.sl.r_13 c arg2 harg2 x0)⟩,
      ⟨Rect.unit ![0, 13, 0, 0] ![1, 1, 32, 192] inb_S1x80x32x192_S1x1x32x192_0_13_0_0,
        k0_pay57 (kernelRun0.sl.v346 c arg3 harg3 arg4 harg4 arg6 x1 x2) (kernelRun0.sl.r_13 c arg2 harg2 x0)⟩,
      ⟨Rect.unit ![0, 4, 0, 0] ![1, 1, 32, 192] inb_S1x80x32x192_S1x1x32x192_0_4_0_0,
        k0_pay56 (kernelRun0.sl.r_14 c arg2 harg2 arg3 harg3 arg4 harg4 arg6 x0 x1 x2) kernelRun0.sl.cst_25⟩,
      ⟨Rect.unit ![0, 74, 0, 0] ![1, 1, 32, 192] inb_S1x80x32x192_S1x1x32x192_0_74_0_0,
        k0_pay53 (kernelRun0.sl.v262 c arg3 harg3 arg4 harg4 arg6 x1 x2) (kernelRun0.sl.r_10 c arg2 harg2 x0)⟩,
      ⟨Rect.unit ![0, 65, 0, 0] ![1, 1, 32, 192] inb_S1x80x32x192_S1x1x32x192_0_65_0_0,
        k0_pay52 (kernelRun0.sl.v262 c arg3 harg3 arg4 harg4 arg6 x1 x2) (kernelRun0.sl.r_10 c arg2 harg2 x0)⟩,
      ⟨Rect.unit ![0, 56, 0, 0] ![1, 1, 32, 192] inb_S1x80x32x192_S1x1x32x192_0_56_0_0,
        k0_pay51 (kernelRun0.sl.r_12 c arg2 harg2 arg3 harg3 arg4 harg4 arg6 x0 x1 x2)⟩,
      ⟨Rect.unit ![0, 47, 0, 0] ![1, 1, 32, 192] inb_S1x80x32x192_S1x1x32x192_0_47_0_0,
        k0_pay49 (kernelRun0.sl.v262 c arg3 harg3 arg4 harg4 arg6 x1 x2) (kernelRun0.sl.r_10 c arg2 harg2 x0)⟩,
      ⟨Rect.unit ![0, 39, 0, 0] ![1, 1, 32, 192] inb_S1x80x32x192_S1x1x32x192_0_39_0_0,
        k0_pay48 (kernelRun0.sl.v262 c arg3 harg3 arg4 harg4 arg6 x1 x2) (kernelRun0.sl.r_10 c arg2 harg2 x0)⟩,
      ⟨Rect.unit ![0, 30, 0, 0] ![1, 1, 32, 192] inb_S1x80x32x192_S1x1x32x192_0_30_0_0,
        k0_pay47 (kernelRun0.sl.v262 c arg3 harg3 arg4 harg4 arg6 x1 x2) (kernelRun0.sl.r_10 c arg2 harg2 x0)⟩,
      ⟨Rect.unit ![0, 21, 0, 0] ![1, 1, 32, 192] inb_S1x80x32x192_S1x1x32x192_0_21_0_0,
        k0_pay46 (kernelRun0.sl.r_11 c arg2 harg2 arg3 harg3 arg4 harg4 arg6 x0 x1 x2)⟩,
      ⟨Rect.unit ![0, 12, 0, 0] ![1, 1, 32, 192] inb_S1x80x32x192_S1x1x32x192_0_12_0_0,
        k0_pay44 (kernelRun0.sl.v262 c arg3 harg3 arg4 harg4 arg6 x1 x2)
          (ldX0 arg2 harg2 x0)⟩,
      ⟨Rect.unit ![0, 3, 0, 0] ![1, 1, 32, 192] inb_S1x80x32x192_S1x1x32x192_0_3_0_0,
        k0_pay43 (kernelRun0.sl.v262 c arg3 harg3 arg4 harg4 arg6 x1 x2)
          (ldX0 arg2 harg2 x0)⟩,
      ⟨Rect.unit ![0, 73, 0, 0] ![1, 1, 32, 192] inb_S1x80x32x192_S1x1x32x192_0_73_0_0,
        k0_pay41 (kernelRun0.sl.r_9 c arg2 harg2 arg3 harg3 arg4 harg4 arg6 x0 x1 x2) kernelRun0.sl.cst_25⟩,
      ⟨Rect.unit ![0, 64, 0, 0] ![1, 1, 32, 192] inb_S1x80x32x192_S1x1x32x192_0_64_0_0,
        k0_pay39 (kernelRun0.sl.v178 c arg3 harg3 arg4 harg4 arg6 x1 x2) (kernelRun0.sl.r_6 c arg2 harg2 x0)⟩,
      ⟨Rect.unit ![0, 55, 0, 0] ![1, 1, 32, 192] inb_S1x80x32x192_S1x1x32x192_0_55_0_0,
        k0_pay38 (kernelRun0.sl.v178 c arg3 harg3 arg4 harg4 arg6 x1 x2) (kernelRun0.sl.r_6 c arg2 harg2 x0)⟩,
      ⟨Rect.unit ![0, 46, 0, 0] ![1, 1, 32, 192] inb_S1x80x32x192_S1x1x32x192_0_46_0_0,
        k0_pay37 (kernelRun0.sl.v178 c arg3 harg3 arg4 harg4 arg6 x1 x2) (kernelRun0.sl.r_6 c arg2 harg2 x0)⟩,
      ⟨Rect.unit ![0, 38, 0, 0] ![1, 1, 32, 192] inb_S1x80x32x192_S1x1x32x192_0_38_0_0,
        k0_pay36 (kernelRun0.sl.r_8 c arg2 harg2 arg3 harg3 arg4 harg4 arg6 x0 x1 x2)⟩,
      ⟨Rect.unit ![0, 29, 0, 0] ![1, 1, 32, 192] inb_S1x80x32x192_S1x1x32x192_0_29_0_0,
        k0_pay34 (kernelRun0.sl.v178 c arg3 harg3 arg4 harg4 arg6 x1 x2) (kernelRun0.sl.r_6 c arg2 harg2 x0)⟩,
      ⟨Rect.unit ![0, 20, 0, 0] ![1, 1, 32, 192] inb_S1x80x32x192_S1x1x32x192_0_20_0_0,
        k0_pay33 (kernelRun0.sl.v178 c arg3 harg3 arg4 harg4 arg6 x1 x2) (kernelRun0.sl.r_6 c arg2 harg2 x0)⟩,
      ⟨Rect.unit ![0, 11, 0, 0] ![1, 1, 32, 192] inb_S1x80x32x192_S1x1x32x192_0_11_0_0,
        k0_pay32 (kernelRun0.sl.v178 c arg3 harg3 arg4 harg4 arg6 x1 x2) (kernelRun0.sl.r_6 c arg2 harg2 x0)⟩,
      ⟨Rect.unit ![0, 2, 0, 0] ![1, 1, 32, 192] inb_S1x80x32x192_S1x1x32x192_0_2_0_0,
        k0_pay31 (kernelRun0.sl.r_7 c arg2 harg2 arg3 harg3 arg4 harg4 arg6 x0 x1 x2)⟩,
      ⟨Rect.unit ![0, 72, 0, 0] ![1, 1, 32, 192] inb_S1x80x32x192_S1x1x32x192_0_72_0_0,
        k0_pay28 (kernelRun0.sl.v94 c arg3 harg3 arg4 harg4 arg6 x1 x2) (kernelRun0.sl.r_4 c arg2 harg2 x0)⟩,
      ⟨Rect.unit ![0, 63, 0, 0] ![1, 1, 32, 192] inb_S1x80x32x192_S1x1x32x192_0_63_0_0,
        k0_pay27 (kernelRun0.sl.v94 c arg3 harg3 arg4 harg4 arg6 x1 x2) (kernelRun0.sl.r_4 c arg2 harg2 x0)⟩,
      ⟨Rect.unit ![0, 54, 0, 0] ![1, 1, 32, 192] inb_S1x80x32x192_S1x1x32x192_0_54_0_0,
        k0_pay26 (kernelRun0.sl.r_5 c arg2 harg2 arg3 harg3 arg4 harg4 arg6 x0 x1 x2)⟩,
      ⟨Rect.unit ![0, 45, 0, 0] ![1, 1, 32, 192] inb_S1x80x32x192_S1x1x32x192_0_45_0_0,
        k0_pay24 (kernelRun0.sl.v94 c arg3 harg3 arg4 harg4 arg6 x1 x2) (kernelRun0.sl.r_4 c arg2 harg2 x0)⟩,
      ⟨Rect.unit ![0, 37, 0, 0] ![1, 1, 32, 192] inb_S1x80x32x192_S1x1x32x192_0_37_0_0,
        k0_pay23 (kernelRun0.sl.v94 c arg3 harg3 arg4 harg4 arg6 x1 x2) (kernelRun0.sl.r_4 c arg2 harg2 x0)⟩,
      ⟨Rect.unit ![0, 28, 0, 0] ![1, 1, 32, 192] inb_S1x80x32x192_S1x1x32x192_0_28_0_0,
        k0_pay22 (kernelRun0.sl.v94 c arg3 harg3 arg4 harg4 arg6 x1 x2) (kernelRun0.sl.r_4 c arg2 harg2 x0)⟩,
      ⟨Rect.unit ![0, 19, 0, 0] ![1, 1, 32, 192] inb_S1x80x32x192_S1x1x32x192_0_19_0_0,
        k0_pay21 (kernelRun0.sl.v94 c arg3 harg3 arg4 harg4 arg6 x1 x2)
          (ldX0 arg2 harg2 x0)⟩,
      ⟨Rect.unit ![0, 10, 0, 0] ![1, 1, 32, 192] inb_S1x80x32x192_S1x1x32x192_0_10_0_0,
        k0_pay20 (kernelRun0.sl.v94 c arg3 harg3 arg4 harg4 arg6 x1 x2)
          (ldX0 arg2 harg2 x0)⟩,
      ⟨Rect.unit ![0, 1, 0, 0] ![1, 1, 32, 192] inb_S1x80x32x192_S1x1x32x192_0_1_0_0,
        k0_pay19 (kernelRun0.sl.v94 c arg3 harg3 arg4 harg4 arg6 x1 x2)
          (ldX0 arg2 harg2 x0)⟩,
      ⟨Rect.unit ![0, 71, 0, 0] ![1, 1, 32, 192] inb_S1x80x32x192_S1x1x32x192_0_71_0_0,
        k0_pay17 (kernelRun0.sl.r_3 c arg2 harg2 arg3 harg3 arg4 harg4 arg6 x0 x1 x2)⟩,
      ⟨Rect.unit ![0, 62, 0, 0] ![1, 1, 32, 192] inb_S1x80x32x192_S1x1x32x192_0_62_0_0,
        k0_pay15 (kernelRun0.sl.v10 c arg3 harg3 arg4 harg4 arg6 x1 x2) (kernelRun0.sl.r c arg2 harg2 x0)⟩,
      ⟨Rect.unit ![0, 53, 0, 0] ![1, 1, 32, 192] inb_S1x80x32x192_S1x1x32x192_0_53_0_0,
        k0_pay14 (kernelRun0.sl.v10 c arg3 harg3 arg4 harg4 arg6 x1 x2) (kernelRun0.sl.r c arg2 harg2 x0)⟩,
      ⟨Rect.unit ![0, 44, 0, 0] ![1, 1, 32, 192] inb_S1x80x32x192_S1x1x32x192_0_44_0_0,
        k0_pay13 (kernelRun0.sl.r_2 c arg2 harg2 arg3 harg3 arg4 harg4 arg6 x0 x1 x2)⟩,
      ⟨Rect.unit ![0, 36, 0, 0] ![1, 1, 32, 192] inb_S1x80x32x192_S1x1x32x192_0_36_0_0,
        k0_pay11 (kernelRun0.sl.v10 c arg3 harg3 arg4 harg4 arg6 x1 x2) (kernelRun0.sl.r c arg2 harg2 x0)⟩,
      ⟨Rect.unit ![0, 27, 0, 0] ![1, 1, 32, 192] inb_S1x80x32x192_S1x1x32x192_0_27_0_0,
        k0_pay10 (kernelRun0.sl.v10 c arg3 harg3 arg4 harg4 arg6 x1 x2) (kernelRun0.sl.r c arg2 harg2 x0)⟩,
      ⟨Rect.unit ![0, 18, 0, 0] ![1, 1, 32, 192] inb_S1x80x32x192_S1x1x32x192_0_18_0_0,
        k0_pay9 (kernelRun0.sl.v10 c arg3 harg3 arg4 harg4 arg6 x1 x2) (kernelRun0.sl.r c arg2 harg2 x0)⟩,
      ⟨Rect.unit ![0, 9, 0, 0] ![1, 1, 32, 192] inb_S1x80x32x192_S1x1x32x192_0_9_0_0,
        k0_pay8 (kernelRun0.sl.r_1 c arg2 harg2 arg3 harg3 arg4 harg4 arg6 x0 x1 x2) kernelRun0.sl.cst_25⟩,
      ⟨Rect.unit ![0, 0, 0, 0] ![1, 1, 32, 192] inb_S1x80x32x192_S1x1x32x192_0_0_0_0,
        k0_pay6 (kernelRun0.sl.v10 c arg3 harg3 arg4 harg4 arg6 x1 x2)
          (ldX0 arg2 harg2 x0)⟩] := rfl

/-- The scratch pieces: the second input's block on rows 32..40 over the first's on rows 0..32. -/
theorem kernelRun0_snd (c : Dev nD) (i : grid0.Coords) (arg2 : Memref sig .tc .vmem S1x128x32x192 .bf16) (harg2 : arg2.IsWhole) (arg3 : Memref sig .tc .vmem S1x128x32x200 .bf16) (harg3 : arg3.IsWhole) (arg4 : Memref sig .tc .vmem S1x128x8x200 .bf16) (harg4 : arg4.IsWhole) (arg5 : Memref sig .tc .vmem S1x80x32x192 .f32) (harg5 : arg5.IsWhole) (arg6 : Memref sig .tc .vmem S128x40x200 .bf16) (harg6 : arg6.IsWhole)
    (x0 : Vec F S1x128x32x192 .bf16) (x1 : Vec F S1x128x32x200 .bf16) (x2 : Vec F S1x128x8x200 .bf16) :
    (kernelRun0 c i arg2 harg2 arg3 harg3 arg4 harg4 arg5 harg5 arg6 harg6 x0 x1 x2).2.1 = kernelRun0.sl.HS0_2 c arg3 harg3 arg4 harg4 x1 x2 := rfl

end Cert.Kernel.Hand

end
-- ==== Proof.K.Data.lean ====
/-
  The proof data of the pipelined call and the body obligation: what each window's staging buffer holds before and
  after the body at every grid point, and that the body, run on those buffers, terminates without fault and leaves
  what is stated. The inputs are fetched at every point and only read, so their buffers hold their blocks before and
  after; the output buffer ends at the eighty pieces the body stores; the scratch buffer is the region's invariant.
-/
import proofs.«122554_j9363028706363_2_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At no point of the grid does the second window's block overhang its array: the row blocks of 32 end at row
    128 of the 136, so no transfer of it is cut. -/
theorem noclip0_1 : ∀ (t : Fin cfg0.N) (a : Fin (cfg0.win 1).shape.rank), (cfg0.win 1).clip (cfg0.grid.coords t) a = none :=
  (by decide +kernel : ∀ (t : Fin grid0.N) (a : Fin 4), win0_1.clip (grid0.coords t) a = none)

/-- The second window's block at point `t` on the whole staging buffer's index: the block read off its array,
    every index of the buffer being one of the (uncut) block. -/
def blk1 (c : Dev nD) (t : Fin cfg0.N) : (cfg0.win 1).block.Idx → Elt F (cfg0.win 1).elt :=
  fun j => iblk m c 1 t fun a => ⟨(j a).val, by
    show (j a).val < ((cfg0.win 1).clip (cfg0.grid.coords t) a).extent ((cfg0.win 1).size a)
    rw [noclip0_1 t a]; exact (j a).isLt⟩

/-- Filling a staging buffer with the second window's uncut block leaves that block, whatever the buffer held. -/
theorem fill1_eq (c : Dev nD) (t : Fin cfg0.N) (d : (cfg0.win 1).block.Idx → Elt F (cfg0.win 1).elt) :
    (cfg0.win 1).fill (cfg0.grid.coords t) d (iblk m c 1 t) = blk1 m c t := by
  funext j
  have hm : (cfg0.win 1).moved (cfg0.grid.coords t) j = true :=
    ((cfg0.win 1).moved_iff _ j).mpr fun a => by
      show (j a).val < ((cfg0.win 1).clip (cfg0.grid.coords t) a).extent ((cfg0.win 1).size a)
      rw [noclip0_1 t a]; exact (j a).isLt
  unfold Window.fill; rw [dif_pos hm]; rfl

/-- The proof data of the one pipeline on core `c`: the arrays as the region finds them; after the body at point
    `t` each input's buffer still at its block, the output's at the eighty pieces the body stores, read back; the
    invariant the scratch buffer at anything; the padded array shared by halves between its two windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => blk1 m c t
    | ⟨2, _⟩ => iblk m c 2 t
    | ⟨3, _⟩ => out0_3 c (grid0.coords t) (ms0_0 t) (hs0_0 t) (ms0_1 t) (hs0_1 t) (ms0_2 t) (hs0_2 t) (ms0_3 t) (hs0_3 t) scM0_0 (Memref.isWhole_whole _) (iblk m c 0 t) (blk1 m c t) (iblk m c 2 t)
  Φ _ := PhiS c
  q := qs
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = blk1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 c (grid0.coords t) (ms0_0 t) (hs0_0 t) (ms0_1 t) (hs0_1 t) (ms0_2 t) (hs0_2 t) (ms0_3 t) (hs0_3 t) scM0_0 (Memref.isWhole_whole _) (iblk m c 0 t) (blk1 m c t) (iblk m c 2 t) := by dsimp only [dats]

/-- Each input's current staging buffer holds its block at every point: every input is fetched at every point. -/
theorem before0_0 (c : Dev nD) (t : Fin cfg0.N) (d) : (dats m 0 c).before 0 t d = iblk m c 0 t :=
  ((dats m 0 c).before_fetched 0 t (fetch0_0 t) d).trans (by unfold Dat.fetched Dat.blockOf iblk; rw [A_eq]; try rfl)
theorem before0_1 (c : Dev nD) (t : Fin cfg0.N) (d) : (dats m 0 c).before 1 t d = blk1 m c t :=
  ((dats m 0 c).before_fetched 1 t (fetch0_1 t) d).trans (by
    unfold Dat.fetched; rw [show (dats m 0 c).blockOf 1 t = iblk m c 1 t from by unfold Dat.blockOf iblk; rw [A_eq]]
    exact fill1_eq m c t d)
theorem before0_2 (c : Dev nD) (t : Fin cfg0.N) (d) : (dats m 0 c).before 2 t d = iblk m c 2 t :=
  ((dats m 0 c).before_fetched 2 t (fetch0_2 t) d).trans (by unfold Dat.fetched Dat.blockOf iblk; rw [A_eq]; try rfl)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4000000 in
/-- The body at any point: the inputs' buffers hold their blocks, the output's and the scratch anything; the run
    applies; the inputs come back as they were, the output at its pieces (which cover it, so read back they are
    the stated contents whatever it held), the scratch at something; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS c from rfl, show (dats m 0 c).Φ t.castSucc = PhiS c from rfl]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  rw [show (dats m 0 c).leavesExact 3 t = owns (c : Thread nD τ) (ms0_3 t) fullShare ((dats m 0 c).after 3 t) from rfl, after0_3]
  unfold PhiS out0_3
  iintro ⟨⟨%ds, HS0⟩, Ho, ⟨%d0, H0⟩, ⟨%d1, H1⟩, ⟨%d2, H2⟩, ⟨%d3, H3⟩⟩
  iapply ((kernelRun0 c (grid0.coords t) _ _ _ _ _ _ _ _ _ _ (iblk m c 0 t) (blk1 m c t) (iblk m c 2 t)).2.2 Set.univ _)
  isplitl [H0]; · iexact H0
  isplitl [H1]; · iexact H1
  isplitl [H2]; · iexact H2
  isplitl [H3]; · iexists _; iexact H3
  isplitl [HS0]; · iexists _; iexact HS0
  iintro ⟨H0, H1, H2, ⟨%e3, H3⟩, ⟨%es0, HS0⟩⟩
  isplitl [HS0]
  · iexists _; unfold owns; iexists _; isplitr
    swap; · iexact HS0
    ipureintro; rfl
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.LibFrameShared.lean ====
/-
  The frame run of one pipelined region whose windows may share arrays.

  The pipeline library states its frame run (`Pipeline.θ_run_frame_track`) for windows on pairwise distinct
  arrays: every array is then held whole, at the full share, by the one window that stages it. When one array is
  read through several input windows that statement has no instance, and the launch theorem to cite is
  `Pipeline.θ_run_region_noSem_shared`, which asks instead how the DISTINCT buffers behind the arrays, each whole
  at the full share, are divided among the windows (`hsplit`). This file derives from it the same conclusion the
  ordinary frame run has, `Pipeline.FramePost`: after the run every window's array holds what the proof data
  compute for it, and every other unscoped buffer holds what it held when the region was entered.
-/
import Idealize.ShloMosaic.Lib.Pipeline.Frame

noncomputable section

namespace Idealize.ShloMosaic.Pipeline.SharedFrame

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- THE FRAME RUN of one region on a static grid whose windows MAY SHARE ARRAYS, with a tracking invariant; the
    kernel has no semaphore of its own and prefetches no table.

    The layout facts are those of the ordinary frame run except that the windows' arrays need not be distinct
    (`hw : WinFacts₀`). In place of "every window holds its array at the full share" the caller says how the distinct
    buffers behind the arrays, each whole at its contents `V c` at the region's entry, yield what the proof data hold
    of the arrays before point 0 (`hsplit`): a buffer read through several input windows is divided among them, each
    window taking the fraction its datum names. The invariant `Φ` is entered from the scoped buffers that are no
    staging buffer, each at some contents (`hin`), and gives them back after the last point (`hout`); nothing else
    is carried, so the unscoped buffers that are no window's array bypass the region untouched.

    Conclusion (`FramePost`): from any memory with every counter zero, every weakly fair execution of `main` on the
    TensorCores terminates, and in every final state each window's array holds `arrAt w N` (an input's entry
    contents; an output's entry contents overwritten by what the body left at each write-back) while every other
    unscoped buffer holds its entry contents `V c b`. Windows on one array thus end at the same contents. -/
theorem θ_run_frame_shared_track (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w : Fin (cfgs p).W, ((cfgs p).spec w).arr.IsWhole)
    (hstage : ∀ (w : Fin (cfgs p).W) (s : Fin ((cfgs p).spec w).nbuf), (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj))
    (hu₀ := (show (ownU _ : sProp 𝕄) ⊢ BI.own (emb₁ (initOf (cells cfgs hinj) (launchToks cfgs hinj))) from .rfl))
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr
      · iempintro
      · iexact HU)
    (hin := fun c => (show iprop((emp : sProp 𝕄) ∗ scopedRest (cfgs p).spec c) ⊢ scopedRest (cfgs p).spec c from by
        iintro ⟨-, HR⟩; iexact HR).trans (hin c))
    (hout := fun c => (hout c).trans (by
        iintro HR
        isplitr
        · iempintro
        · iexact HR))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => h c)

end Idealize.ShloMosaic.Pipeline.SharedFrame
-- ==== Proof.K.Launch.lean ====
/-
  The launch of this program's one pipelined region, whose second and third input windows read one and the same
  padded array.

  Before the region the host casts the two arguments to half precision, makes an integer zero, turns it into the
  padding value and pads the second cast array by four pixels on each side of both pixel axes; none of these
  operations writes an argument array, so the region finds both arguments as launched. The region's windows stand
  on three distinct buffers: the first cast array, the padded array and the result array. Each of the three is held
  whole when the region is entered; the padded array's points-to is divided in two halves, one for each of the two
  windows that read it, and the first input window and the output window take their arrays whole. With that division
  the shared-array frame run applies: after the run the result array holds what the proof data compute from the
  write-backs, and every unscoped buffer that no window stages, the two arguments among them, is unchanged.
-/
import proofs.«122554_j9363028706363_2_alg».proof.Proof.K.Base
import proofs.«122554_j9363028706363_2_alg».proof.Proof.LibFrameShared

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The casts and the constant allocate nothing. -/
theorem hostOps0_fresh : (hostOps0 : List (HloOp τ sig (Elt F))).Forall fun op => op.fresh = ∅ := by
  simp only [List.Forall]; repeat' constructor
/-- Neither does the padding. -/
theorem hostOps0_1_fresh : (hostOps0_1 : List (HloOp τ sig (Elt F))).Forall fun op => op.fresh = ∅ := by
  simp only [List.Forall]; repeat' constructor

/-- @main is the two stretches of host operations and then the region: holding the unscoped buffers at the launch
    contents it reaches the region holding them at the contents after both stretches. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation before the region writes the first argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-! ## The region's invariant and the buffers behind the windows -/

/-- The scoped buffers that are no staging buffer are the scratch operand alone, so holding them at some contents
    is the region's invariant. -/
theorem scopedRest0_PhiS (c : Dev nD) : (Pipeline.scopedRest spec0 c : sProp 𝕄) = PhiS (F := F) c := by
  unfold PhiS; rw [scopedRest0_eq]; simp only [scM0_0, owns_whole]; try rfl

/-- The windows stand on three distinct buffers: the first cast array, the padded array, the result array. -/
theorem arrBufs0_eq (c : Dev nD) (W : (b : Ref sig .tc) → Buf (Elt F) ((c : Thread nD τ).loc b)) :
    (Pipeline.arrBufs spec0 c W : sProp 𝕄)
      = iprop((((c : Thread nD τ).loc main_v0) ↦{fullShare} W main_v0) ∗ (((c : Thread nD τ).loc main_v2) ↦{fullShare} W main_v2)
          ∗ (((c : Thread nD τ).loc main_v3) ↦{fullShare} W main_v3)) := by
  unfold Pipeline.arrBufs
  exact bigSep_eq_bigSepL_of_eq [main_v0, main_v2, main_v3] (by decide) (by decide) _

/-! ## How the three buffers are divided among the four windows -/

/-- What the proof data hold of the arrays before point 0, from the three buffers held whole: the first input window
    and the output window take their buffers whole, and the padded array's points-to is halved, the left half to the
    window of 32 rows and the right half to the window of the 8 rows below them. Any proof data whose arrays are the
    region's entry contents and whose input shares are `qs` are served. -/
theorem hsplit0 (c : Dev nD) (dat : Dat τ (Elt F) Unit ℕ (UR sig nD τ) ℕ (cfgs 0) c)
    (hA : ∀ w, dat.A w = V m c (Pipeline.arrRef spec0 w)) (hq : ∀ w, dat.q w = qs w) :
    (Pipeline.arrBufs spec0 c (V m c) : sProp 𝕄) ⊢ dat.arrays (dat.arrAt · 0) := by
  have e : ∀ w : Fin 4, (View.loc (c : Thread nD τ) ((cfgs 0).win w).arr.view ↦[((cfgs 0).win w).arr.view.set]{dat.share w} dat.arrAt w 0 : sProp 𝕄)
      = (((c : Thread nD τ).loc (Pipeline.arrRef spec0 w)) ↦{dat.share w} V m c (Pipeline.arrRef spec0 w)) := fun w => by
    rw [(arr_whole0 w).set_eq_univ, ← hA w]; rfl
  have s0 : dat.share 0 = fullShare := by
    have h : ((cfgs 0).win 0).isOut = false := rfl
    unfold Dat.share; rw [h, if_neg Bool.false_ne_true, hq]; rfl
  have s1 : dat.share 1 = fullShare.left := by
    have h : ((cfgs 0).win 1).isOut = false := rfl
    unfold Dat.share; rw [h, if_neg Bool.false_ne_true, hq]; rfl
  have s2 : dat.share 2 = fullShare.right := by
    have h : ((cfgs 0).win 2).isOut = false := rfl
    unfold Dat.share; rw [h, if_neg Bool.false_ne_true, hq]; rfl
  have s3 : dat.share 3 = fullShare := by
    have h : ((cfgs 0).win 3).isOut = true := rfl
    unfold Dat.share; rw [h, if_pos rfl]
  rw [arrBufs0_eq]
  unfold Dat.arrays
  rw [bigSep_W0, e 0, e 1, e 2, e 3, s0, s1, s2, s3]
  iintro ⟨H0, H2, H3⟩
  ihave H2' := (pointsTo_share (PosShare.mem_left_op_right fullShare)).1 $$ H2
  icases H2' with ⟨H2l, H2r⟩
  isplitl [H0]; · iexact H0
  isplitl [H2l]; · iexact H2l
  isplitl [H2r]; · iexact H2r
  iexact H3

/-! ## The run of @main -/

set_option backward.isDefEq.respectTransparency.types false in
/-- From any memory with every counter zero, every weakly fair execution of @main on the TensorCores terminates, and
    in every final state the result array holds what the proof data compute from the write-backs of all the grid's
    points while both arguments hold what they held at launch. Asked of the proof data: their arrays are the region's
    entry contents, the two windows on the padded array hold a half of it each (`qs`), the invariant is the scratch
    buffer at some contents at every point, nothing is owed, and the body meets its obligation at every point. -/
theorem run_main (dats : (p : Fin 1) → (c : Dev nD) → Dat τ (Elt F) Unit ℕ (UR sig nD τ) ℕ (cfgs p) c)
    (hA : ∀ c w, (dats 0 c).A w = V m c (Pipeline.arrRef spec0 w))
    (hq : ∀ c w, (dats 0 c).q w = qs w)
    (hΦ : ∀ c t, (dats 0 c).Φ t = PhiS c)
    (howed : ∀ c t, (dats 0 c).owed t = 0)
    (hbody : ∀ c, Pipeline.BodyObligationLoose (dats 0 c) (defs₀ (F := F)) Variants.none () Set.univ) :
    θ_run defs (onTc (τ := τ) (main (F := F))) ⟨m, fun _ => 0, ρ⟩ (fun r => ∀ c : Dev nD,
      r.2.mem ((c.tc : Thread nD τ).loc main_v3) = (dats 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1 3,
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (Pipeline.SharedFrame.θ_run_frame_shared_track cfgs dats (0 : Fin 1) cellOf_inj winFacts₀0 block_pos0 arr_whole0 stage_whole0
      defs₀ Variants.none m ρ main hbody howed (V m) (hmain m Variants.none)
      (fun c => hsplit0 m c (dats 0 c) (hA c) (hq c))
      (fun c => Entails.of_eq ((scopedRest0_PhiS c).trans (hΦ c 0).symm))
      (fun c => Entails.of_eq ((hΦ c (Fin.last _)).trans (scopedRest0_PhiS c).symm)))

end Cert.Kernel.Hand

end
-- ==== Proof.K.Frame.lean ====
/-
  The frame of the program: it terminates from any memory without fault, its result array ends at what the proof
  data say the last write-back leaves, and its two argument arrays end as they were launched. The launch theorem
  instantiated at the proof data and the body obligation; the frame claim is its last two conjuncts.
-/
import proofs.«122554_j9363028706363_2_alg».proof.Proof.K.Data
import proofs.«122554_j9363028706363_2_alg».proof.Proof.K.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program runs; the result array ends at the proof data's final contents and both arguments end unchanged. -/
theorem run_named :
    θ_run defs (onTc (τ := τ) (main (F := F))) ⟨m, fun _ => 0, ρ⟩ (fun r => ∀ c : Dev nD,
      r.2.mem ((c.tc : Thread nD τ).loc main_v3) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_main m ρ (dats m) (A_eq m) (fun _ _ => rfl) (fun _ _ => rfl) (fun _ _ => rfl) (fun c => (body_obligation m c).loose)

/-- The frame claim: the program runs and its two argument arrays end unchanged. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_named m ρ)

end Cert.Kernel.Hand

end
-- ==== Proof.KI.Base.lean ====
/-
  What the frame of this program's one pallas_call is stated over: the arrays as the region
  finds them (the launch memory after the host operations before the call: the two casts, the zero
  constant and the padding), each window's block of its array at a grid point, the staging memref each
  window is on at a point, the scratch operand, how the one padded array that two input windows read
  is shared between them, and the region's invariant — the scratch buffer at some contents: the body
  overwrites all of it before reading any of it, so nothing is carried from point to point.
-/
import proofs.«122554_j9363028706363_2_alg».proof.Proof.Gen.KernelIdeal.Launch
import proofs.«122554_j9363028706363_2_alg».proof.Proof.Gen.KernelIdeal.Skeleton
import proofs.«122554_j9363028706363_2_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is entered: the launch memory after the host
    operations before the call. -/
abbrev V (c : Dev nD) (b : Ref sig .tc) : Buf (Elt F) ((c : Thread nD τ).loc b) :=
  StableHlo.after (List.flatten [hostOps0, hostOps0_1]) (fun b => m (c, b)) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each window's current staging memref at point `t`, as the pipeline passes it to the body, and its wholeness. -/
abbrev ms0_0 (t : Fin cfg0.N) : Memref sig .tc .vmem S1x128x32x192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x32x200 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x8x200 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x80x32x192 .f32 := win0_3.stage (cfg0.slots t 3)
abbrev hs0_3 (t : Fin cfg0.N) : (ms0_3 t).IsWhole := hstage0_3 ((cfg0.slots t 3).cast nbuf0_3)

/-- The scratch operand: a whole scoped buffer of the kernel's own, passed beside the windows. -/
abbrev scM0_0 : Memref sig .tc .vmem S128x40x200 .bf16 := Memref.whole cc0_scratch0
/-- One staging buffer of the output window, through which its contents are stated (any would do). -/
abbrev VO0_3 : View sig .tc .vmem S1x80x32x192 .f32 := (Memref.whole cc0_stg3_0 : Memref sig .tc .vmem S1x80x32x192 .f32).view

/-- How the arrays are shared among the windows reading them: the first input and the output have an
    array each, whole; the padded array is read by two input windows, a half each. -/
def qs : Fin 4 → PosShare TreeShare := fun
  | ⟨0, _⟩ => fullShare
  | ⟨1, _⟩ => fullShare.left
  | ⟨2, _⟩ => fullShare.right
  | ⟨3, _⟩ => fullShare

/-- The region's invariant on core `c`, the same before and after every point: the scratch buffer whole,
    at some contents. -/
def PhiS (c : Dev nD) : sProp 𝕄 := iprop(∃ d, owns (c : Thread nD τ) scM0_0 fullShare d)

end Cert.KernelIdeal.Hand

end
-- ==== Proof.KI.Run.lean ====
/-
  The kernel body's Hoare triple on any whole staging memrefs, found by running the body's skeleton symbolically:
  from the three input buffers at given contents, the output buffer and the scratch buffer at anything, the body
  terminates without fault, hands the inputs back unchanged, and leaves the output buffer and the scratch buffer
  at their prior contents overwritten by two lists of rectangular pieces. The lists are the witnesses the run finds.
-/
import proofs.«122554_j9363028706363_2_alg».proof.Proof.KI.Base
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output buffer (eighty unit rectangles, one per displacement, last
    store first) and in the scratch buffer (the two slabs that tile it), with the proof that the body runs from
    the inputs at `x0 x1 x2` to the continuation holding the inputs as they were and those pieces written. -/
noncomputable def kernelRun0 (c : Dev nD) (i : grid0.Coords) (arg2 : Memref sig .tc .vmem S1x128x32x192 .bf16) (harg2 : arg2.IsWhole) (arg3 : Memref sig .tc .vmem S1x128x32x200 .bf16) (harg3 : arg3.IsWhole) (arg4 : Memref sig .tc .vmem S1x128x8x200 .bf16) (harg4 : arg4.IsWhole) (arg5 : Memref sig .tc .vmem S1x80x32x192 .f32) (harg5 : arg5.IsWhole) (arg6 : Memref sig .tc .vmem S128x40x200 .bf16) (harg6 : arg6.IsWhole)
    (x0 : Vec F S1x128x32x192 .bf16) (x1 : Vec F S1x128x32x200 .bf16) (x2 : Vec F S1x128x8x200 .bf16) :
    Σ' (L3 : List (View.Piece (Elt F) S1x80x32x192 .f32)), { LS0 : List (View.Piece (Elt F) S128x40x200 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc0_kernel i arg2 harg2 arg3 harg3 arg4 harg4 arg5 harg5 arg6 harg6) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

/-- The first input's block as the body loads it: the whole staging buffer read through its own view. -/
abbrev ldX0 (arg2 : Memref sig .tc .vmem S1x128x32x192 .bf16) (harg2 : arg2.IsWhole) (x0 : Vec F S1x128x32x192 .bf16) : Vec F S1x128x32x192 .bf16 :=
  View.readAt (Elt F) arg2.view (Rect.unit (s := S1x128x32x192) ![0, 0, 0, 0] S1x128x32x192.size inb_S1x128x32x192_S1x128x32x192_0_0_0_0).toLoadRect (harg2.unread x0)

/-- The eighty stores tile the output block: every index of it lies in some piece's rectangle. -/
theorem cover0_3 (c : Dev nD) (i : grid0.Coords) (arg2 : Memref sig .tc .vmem S1x128x32x192 .bf16) (harg2 : arg2.IsWhole) (arg3 : Memref sig .tc .vmem S1x128x32x200 .bf16) (harg3 : arg3.IsWhole) (arg4 : Memref sig .tc .vmem S1x128x8x200 .bf16) (harg4 : arg4.IsWhole) (arg5 : Memref sig .tc .vmem S1x80x32x192 .f32) (harg5 : arg5.IsWhole) (arg6 : Memref sig .tc .vmem S128x40x200 .bf16) (harg6 : arg6.IsWhole)
    (x0 : Vec F S1x128x32x192 .bf16) (x1 : Vec F S1x128x32x200 .bf16) (x2 : Vec F S1x128x8x200 .bf16) (y : S1x80x32x192.Idx) :
    ∃ pc ∈ (kernelRun0 c i arg2 harg2 arg3 harg3 arg4 harg4 arg5 harg5 arg6 harg6 x0 x1 x2).1, y ∈ pc.1.set :=
  View.cover_of_tiledL (kernelRun0 c i arg2 harg2 arg3 harg3 arg4 harg4 arg5 harg5 arg6 harg6 x0 x1 x2).1 S1x1x32x192.size (by sl_kernel_rfl) y

/-- What the body leaves in the output buffer: its pieces read back (over anything, since they cover it). -/
def out0_3 (c : Dev nD) (i : grid0.Coords) (arg2 : Memref sig .tc .vmem S1x128x32x192 .bf16) (harg2 : arg2.IsWhole) (arg3 : Memref sig .tc .vmem S1x128x32x200 .bf16) (harg3 : arg3.IsWhole) (arg4 : Memref sig .tc .vmem S1x128x8x200 .bf16) (harg4 : arg4.IsWhole) (arg5 : Memref sig .tc .vmem S1x80x32x192 .f32) (harg5 : arg5.IsWhole) (arg6 : Memref sig .tc .vmem S128x40x200 .bf16) (harg6 : arg6.IsWhole)
    (x0 : Vec F S1x128x32x192 .bf16) (x1 : Vec F S1x128x32x200 .bf16) (x2 : Vec F S1x128x8x200 .bf16) : Vec F S1x80x32x192 .f32 :=
  VO0_3.read (Elt F) (VO0_3.writes (Elt F) VO0_3.junk (kernelRun0 c i arg2 harg2 arg3 harg3 arg4 harg4 arg5 harg5 arg6 harg6 x0 x1 x2).1)

set_option maxRecDepth 65536 in
/-- The output pieces, spelt out: one unit rectangle per displacement, each payload over the loads' names. -/
theorem kernelRun0_fst (c : Dev nD) (i : grid0.Coords) (arg2 : Memref sig .tc .vmem S1x128x32x192 .bf16) (harg2 : arg2.IsWhole) (arg3 : Memref sig .tc .vmem S1x128x32x200 .bf16) (harg3 : arg3.IsWhole) (arg4 : Memref sig .tc .vmem S1x128x8x200 .bf16) (harg4 : arg4.IsWhole) (arg5 : Memref sig .tc .vmem S1x80x32x192 .f32) (harg5 : arg5.IsWhole) (arg6 : Memref sig .tc .vmem S128x40x200 .bf16) (harg6 : arg6.IsWhole)
    (x0 : Vec F S1x128x32x192 .bf16) (x1 : Vec F S1x128x32x200 .bf16) (x2 : Vec F S1x128x8x200 .bf16) :
    (kernelRun0 c i arg2 harg2 arg3 harg3 arg4 harg4 arg5 harg5 arg6 harg6 x0 x1 x2).1 =
    [⟨Rect.unit ![0, 79, 0, 0] ![1, 1, 32, 192] inb_S1x80x32x192_S1x1x32x192_0_79_0_0,
        k0_pay2 (kernelRun0.sl.v673 c arg3 harg3 arg4 harg4 arg6 x1 x2) (kernelRun0.sl.r_26 c arg2 harg2 x0)⟩,
      ⟨Rect.unit ![0, 70, 0, 0] ![1, 1, 32, 192] inb_S1x80x32x192_S1x1x32x192_0_70_0_0,
        k0_pay1 (kernelRun0.sl.r_29 c arg2 harg2 arg3 harg3 arg4 harg4 arg6 x0 x1 x2)⟩,
      ⟨Rect.unit ![0, 61, 0, 0] ![1, 1, 32, 192] inb_S1x80x32x192_S1x1x32x192_0_61_0_0,
        k0_pay111 (kernelRun0.sl.v673 c arg3 harg3 arg4 harg4 arg6 x1 x2) (kernelRun0.sl.r_26 c arg2 harg2 x0)⟩,
      ⟨Rect.unit ![0, 52, 0, 0] ![1, 1, 32, 192] inb_S1x80x32x192_S1x1x32x192_0_52_0_0,
        k0_pay110 (kernelRun0.sl.v673 c arg3 harg3 arg4 harg4 arg6 x1 x2) (kernelRun0.sl.r_26 c arg2 harg2 x0)⟩,
      ⟨Rect.unit ![0, 43, 0, 0] ![1, 1, 32, 192] inb_S1x80x32x192_S1x1x32x192_0_43_0_0,
        k0_pay109 (kernelRun0.sl.r_28 c arg2 harg2 arg3 harg3 arg4 harg4 arg6 x0 x1 x2)⟩,
      ⟨Rect.unit ![0, 35, 0, 0] ![1, 1, 32, 192] inb_S1x80x32x192_S1x1x32x192_0_35_0_0,
        k0_pay107 (kernelRun0.sl.v673 c arg3 harg3 arg4 harg4 arg6 x1 x2) (kernelRun0.sl.r_26 c arg2 harg2 x0)⟩,
      ⟨Rect.unit ![0, 26, 0, 0] ![1, 1, 32, 192] inb_S1x80x32x192_S1x1x32x192_0_26_0_0,
        k0_pay106 (kernelRun0.sl.v673 c arg3 harg3 arg4 harg4 arg6 x1 x2) (kernelRun0.sl.r_26 c arg2 harg2 x0)⟩,
      ⟨Rect.unit ![0, 17, 0, 0] ![1, 1, 32, 192] inb_S1x80x32x192_S1x1x32x192_0_17_0_0,
        k0_pay105 (kernelRun0.sl.v673 c arg3 harg3 arg4 harg4 arg6 x1 x2) (kernelRun0.sl.r_26 c arg2 harg2 x0)⟩,
      ⟨Rect.unit ![0, 8, 0, 0] ![1, 1, 32, 192] inb_S1x80x32x192_S1x1x32x192_0_8_0_0,
        k0_pay104 (kernelRun0.sl.r_27 c arg2 harg2 arg3 harg3 arg4 harg4 arg6 x0 x1 x2) kernelRun0.sl.cst_25⟩,
      ⟨Rect.unit ![0, 78, 0, 0] ![1, 1, 32, 192] inb_S1x80x32x192_S1x1x32x192_0_78_0_0,
        k0_pay101 (kernelRun0.sl.v589 c arg3 harg3 arg4 harg4 arg6 x1 x2) (kernelRun0.sl.r_23 c arg2 harg2 x0)⟩,
      ⟨Rect.unit ![0, 69, 0, 0] ![1, 1, 32, 192] inb_S1x80x32x192_S1x1x32x192_0_69_0_0,
        k0_pay100 (kernelRun0.sl.v589 c arg3 harg3 arg4 harg4 arg6 x1 x2) (kernelRun0.sl.r_23 c arg2 harg2 x0)⟩,
      ⟨Rect.unit ![0, 60, 0, 0] ![1, 1, 32, 192] inb_S1x80x32x192_S1x1x32x192_0_60_0_0,
        k0_pay99 (kernelRun0.sl.r_25 c arg2 harg2 arg3 harg3 arg4 harg4 arg6 x0 x1 x2)⟩,
      ⟨Rect.unit ![0, 51, 0, 0] ![1, 1, 32, 192] inb_S1x80x32x192_S1x1x32x192_0_51_0_0,
        k0_pay97 (kernelRun0.sl.v589 c arg3 harg3 arg4 harg4 arg6 x1 x2) (kernelRun0.sl.r_23 c arg2 harg2 x0)⟩,
      ⟨Rect.unit ![0, 42, 0, 0] ![1, 1, 32, 192] inb_S1x80x32x192_S1x1x32x192_0_42_0_0,
        k0_pay96 (kernelRun0.sl.v589 c arg3 harg3 arg4 harg4 arg6 x1 x2) (kernelRun0.sl.r_23 c arg2 harg2 x0)⟩,
      ⟨Rect.unit ![0, 34, 0, 0] ![1, 1, 32, 192] inb_S1x80x32x192_S1x1x32x192_0_34_0_0,
        k0_pay95 (kernelRun0.sl.v589 c arg3 harg3 arg4 harg4 arg6 x1 x2) (kernelRun0.sl.r_23 c arg2 harg2 x0)⟩,
      ⟨Rect.unit ![0, 25, 0, 0] ![1, 1, 32, 192] inb_S1x80x32x192_S1x1x32x192_0_25_0_0,
        k0_pay94 (kernelRun0.sl.r_24 c arg2 harg2 arg3 harg3 arg4 harg4 arg6 x0 x1 x2)⟩,
      ⟨Rect.unit ![0, 16, 0, 0] ![1, 1, 32, 192] inb_S1x80x32x192_S1x1x32x192_0_16_0_0,
        k0_pay92 (kernelRun0.sl.v589 c arg3 harg3 arg4 harg4 arg6 x1 x2)
          (ldX0 arg2 harg2 x0)⟩,
      ⟨Rect.unit ![0, 7, 0, 0] ![1, 1, 32, 192] inb_S1x80x32x192_S1x1x32x192_0_7_0_0,
        k0_pay91 (kernelRun0.sl.v589 c arg3 harg3 arg4 harg4 arg6 x1 x2)
          (ldX0 arg2 harg2 x0)⟩,
      ⟨Rect.unit ![0, 77, 0, 0] ![1, 1, 32, 192] inb_S1x80x32x192_S1x1x32x192_0_77_0_0,
        k0_pay89 (kernelRun0.sl.r_22 c arg2 harg2 arg3 harg3 arg4 harg4 arg6 x0 x1 x2) kernelRun0.sl.cst_25⟩,
      ⟨Rect.unit ![0, 68, 0, 0] ![1, 1, 32, 192] inb_S1x80x32x192_S1x1x32x192_0_68_0_0,
        k0_pay87 (kernelRun0.sl.v505 c arg3 harg3 arg4 harg4 arg6 x1 x2) (kernelRun0.sl.r_19 c arg2 harg2 x0)⟩,
      ⟨Rect.unit ![0, 59, 0, 0] ![1, 1, 32, 192] inb_S1x80x32x192_S1x1x32x192_0_59_0_0,
        k0_pay86 (kernelRun0.sl.v505 c arg3 harg3 arg4 harg4 arg6 x1 x2) (kernelRun0.sl.r_19 c arg2 harg2 x0)⟩,
      ⟨Rect.unit ![0, 50, 0, 0] ![1, 1, 32, 192] inb_S1x80x32x192_S1x1x32x192_0_50_0_0,
        k0_pay85 (kernelRun0.sl.v505 c arg3 harg3 arg4 harg4 arg6 x1 x2) (kernelRun0.sl.r_19 c arg2 harg2 x0)⟩,
      ⟨Rect.unit ![0, 41, 0, 0] ![1, 1, 32, 192] inb_S1x80x32x192_S1x1x32x192_0_41_0_0,
        k0_pay84 (kernelRun0.sl.r_21 c arg2 harg2 arg3 harg3 arg4 harg4 arg6 x0 x1 x2)⟩,
      ⟨Rect.unit ![0, 33, 0, 0] ![1, 1, 32, 192] inb_S1x80x32x192_S1x1x32x192_0_33_0_0,
        k0_pay82 (kernelRun0.sl.v505 c arg3 harg3 arg4 harg4 arg6 x1 x2) (kernelRun0.sl.r_19 c arg2 harg2 x0)⟩,
      ⟨Rect.unit ![0, 24, 0, 0] ![1, 1, 32, 192] inb_S1x80x32x192_S1x1x32x192_0_24_0_0,
        k0_pay81 (kernelRun0.sl.v505 c arg3 harg3 arg4 harg4 arg6 x1 x2) (kernelRun0.sl.r_19 c arg2 harg2 x0)⟩,
      ⟨Rect.unit ![0, 15, 0, 0] ![1, 1, 32, 192] inb_S1x80x32x192_S1x1x32x192_0_15_0_0,
        k0_pay80 (kernelRun0.sl.v505 c arg3 harg3 arg4 harg4 arg6 x1 x2) (kernelRun0.sl.r_19 c arg2 harg2 x0)⟩,
      ⟨Rect.unit ![0, 6, 0, 0] ![1, 1, 32, 192] inb_S1x80x32x192_S1x1x32x192_0_6_0_0,
        k0_pay79 (kernelRun0.sl.r_20 c arg2 harg2 arg3 harg3 arg4 harg4 arg6 x0 x1 x2)⟩,
      ⟨Rect.unit ![0, 76, 0, 0] ![1, 1, 32, 192] inb_S1x80x32x192_S1x1x32x192_0_76_0_0,
        k0_pay76 (kernelRun0.sl.v421 c arg3 harg3 arg4 harg4 arg6 x1 x2) (kernelRun0.sl.r_17 c arg2 harg2 x0)⟩,
      ⟨Rect.unit ![0, 67, 0, 0] ![1, 1, 32, 192] inb_S1x80x32x192_S1x1x32x192_0_67_0_0,
        k0_pay75 (kernelRun0.sl.v421 c arg3 harg3 arg4 harg4 arg6 x1 x2) (kernelRun0.sl.r_17 c arg2 harg2 x0)⟩,
      ⟨Rect.unit ![0, 58, 0, 0] ![1, 1, 32, 192] inb_S1x80x32x192_S1x1x32x192_0_58_0_0,
        k0_pay74 (kernelRun0.sl.r_18 c arg2 harg2 arg3 harg3 arg4 harg4 arg6 x0 x1 x2)⟩,
      ⟨Rect.unit ![0, 49, 0, 0] ![1, 1, 32, 192] inb_S1x80x32x192_S1x1x32x192_0_49_0_0,
        k0_pay72 (kernelRun0.sl.v421 c arg3 harg3 arg4 harg4 arg6 x1 x2) (kernelRun0.sl.r_17 c arg2 harg2 x0)⟩,
      ⟨Rect.unit ![0, 40, 0, 0] ![1, 1, 32, 192] inb_S1x80x32x192_S1x1x32x192_0_40_0_0,
        k0_pay71 (kernelRun0.sl.v421 c arg3 harg3 arg4 harg4 arg6 x1 x2) (kernelRun0.sl.r_17 c arg2 harg2 x0)⟩,
      ⟨Rect.unit ![0, 32, 0, 0] ![1, 1, 32, 192] inb_S1x80x32x192_S1x1x32x192_0_32_0_0,
        k0_pay70 (kernelRun0.sl.v421 c arg3 harg3 arg4 harg4 arg6 x1 x2) (kernelRun0.sl.r_17 c arg2 harg2 x0)⟩,
      ⟨Rect.unit ![0, 23, 0, 0] ![1, 1, 32, 192] inb_S1x80x32x192_S1x1x32x192_0_23_0_0,
        k0_pay69 (kernelRun0.sl.v421 c arg3 harg3 arg4 harg4 arg6 x1 x2)
          (ldX0 arg2 harg2 x0)⟩,
      ⟨Rect.unit ![0, 14, 0, 0] ![1, 1, 32, 192] inb_S1x80x32x192_S1x1x32x192_0_14_0_0,
        k0_pay68 (kernelRun0.sl.v421 c arg3 harg3 arg4 harg4 arg6 x1 x2)
          (ldX0 arg2 harg2 x0)⟩,
      ⟨Rect.unit ![0, 5, 0, 0] ![1, 1, 32, 192] inb_S1x80x32x192_S1x1x32x192_0_5_0_0,
        k0_pay67 (kernelRun0.sl.v421 c arg3 harg3 arg4 harg4 arg6 x1 x2)
          (ldX0 arg2 harg2 x0)⟩,
      ⟨Rect.unit ![0, 75, 0, 0] ![1, 1, 32, 192] inb_S1x80x32x192_S1x1x32x192_0_75_0_0,
        k0_pay65 (kernelRun0.sl.r_16 c arg2 harg2 arg3 harg3 arg4 harg4 arg6 x0 x1 x2)⟩,
      ⟨Rect.unit ![0, 66, 0, 0] ![1, 1, 32, 192] inb_S1x80x32x192_S1x1x32x192_0_66_0_0,
        k0_pay63 (kernelRun0.sl.v346 c arg3 harg3 arg4 harg4 arg6 x1 x2) (kernelRun0.sl.r_13 c arg2 harg2 x0)⟩,
      ⟨Rect.unit ![0, 57, 0, 0] ![1, 1, 32, 192] inb_S1x80x32x192_S1x1x32x192_0_57_0_0,
        k0_pay62 (kernelRun0.sl.v346 c arg3 harg3 arg4 harg4 arg6 x1 x2) (kernelRun0.sl.r_13 c arg2 harg2 x0)⟩,
      ⟨Rect.unit ![0, 48, 0, 0] ![1, 1, 32, 192] inb_S1x80x32x192_S1x1x32x192_0_48_0_0,
        k0_pay61 (kernelRun0.sl.r_15 c arg2 harg2 arg3 harg3 arg4 harg4 arg6 x0 x1 x2)⟩,
      ⟨Rect.unit ![0, 31, 0, 0] ![1, 1, 32, 192] inb_S1x80x32x192_S1x1x32x192_0_31_0_0,
        k0_pay59 (kernelRun0.sl.v346 c arg3 harg3 arg4 harg4 arg6 x1 x2) (kernelRun0.sl.r_13 c arg2 harg2 x0)⟩,
      ⟨Rect.unit ![0, 22, 0, 0] ![1, 1, 32, 192] inb_S1x80x32x192_S1x1x32x192_0_22_0_0,
        k0_pay58 (kernelRun0.sl.v346 c arg3 harg3 arg4 harg4 arg6 x1 x2) (kernelRun0.sl.r_13 c arg2 harg2 x0)⟩,
      ⟨Rect.unit ![0, 13, 0, 0] ![1, 1, 32, 192] inb_S1x80x32x192_S1x1x32x192_0_13_0_0,
        k0_pay57 (kernelRun0.sl.v346 c arg3 harg3 arg4 harg4 arg6 x1 x2) (kernelRun0.sl.r_13 c arg2 harg2 x0)⟩,
      ⟨Rect.unit ![0, 4, 0, 0] ![1, 1, 32, 192] inb_S1x80x32x192_S1x1x32x192_0_4_0_0,
        k0_pay56 (kernelRun0.sl.r_14 c arg2 harg2 arg3 harg3 arg4 harg4 arg6 x0 x1 x2) kernelRun0.sl.cst_25⟩,
      ⟨Rect.unit ![0, 74, 0, 0] ![1, 1, 32, 192] inb_S1x80x32x192_S1x1x32x192_0_74_0_0,
        k0_pay53 (kernelRun0.sl.v262 c arg3 harg3 arg4 harg4 arg6 x1 x2) (kernelRun0.sl.r_10 c arg2 harg2 x0)⟩,
      ⟨Rect.unit ![0, 65, 0, 0] ![1, 1, 32, 192] inb_S1x80x32x192_S1x1x32x192_0_65_0_0,
        k0_pay52 (kernelRun0.sl.v262 c arg3 harg3 arg4 harg4 arg6 x1 x2) (kernelRun0.sl.r_10 c arg2 harg2 x0)⟩,
      ⟨Rect.unit ![0, 56, 0, 0] ![1, 1, 32, 192] inb_S1x80x32x192_S1x1x32x192_0_56_0_0,
        k0_pay51 (kernelRun0.sl.r_12 c arg2 harg2 arg3 harg3 arg4 harg4 arg6 x0 x1 x2)⟩,
      ⟨Rect.unit ![0, 47, 0, 0] ![1, 1, 32, 192] inb_S1x80x32x192_S1x1x32x192_0_47_0_0,
        k0_pay49 (kernelRun0.sl.v262 c arg3 harg3 arg4 harg4 arg6 x1 x2) (kernelRun0.sl.r_10 c arg2 harg2 x0)⟩,
      ⟨Rect.unit ![0, 39, 0, 0] ![1, 1, 32, 192] inb_S1x80x32x192_S1x1x32x192_0_39_0_0,
        k0_pay48 (kernelRun0.sl.v262 c arg3 harg3 arg4 harg4 arg6 x1 x2) (kernelRun0.sl.r_10 c arg2 harg2 x0)⟩,
      ⟨Rect.unit ![0, 30, 0, 0] ![1, 1, 32, 192] inb_S1x80x32x192_S1x1x32x192_0_30_0_0,
        k0_pay47 (kernelRun0.sl.v262 c arg3 harg3 arg4 harg4 arg6 x1 x2) (kernelRun0.sl.r_10 c arg2 harg2 x0)⟩,
      ⟨Rect.unit ![0, 21, 0, 0] ![1, 1, 32, 192] inb_S1x80x32x192_S1x1x32x192_0_21_0_0,
        k0_pay46 (kernelRun0.sl.r_11 c arg2 harg2 arg3 harg3 arg4 harg4 arg6 x0 x1 x2)⟩,
      ⟨Rect.unit ![0, 12, 0, 0] ![1, 1, 32, 192] inb_S1x80x32x192_S1x1x32x192_0_12_0_0,
        k0_pay44 (kernelRun0.sl.v262 c arg3 harg3 arg4 harg4 arg6 x1 x2)
          (ldX0 arg2 harg2 x0)⟩,
      ⟨Rect.unit ![0, 3, 0, 0] ![1, 1, 32, 192] inb_S1x80x32x192_S1x1x32x192_0_3_0_0,
        k0_pay43 (kernelRun0.sl.v262 c arg3 harg3 arg4 harg4 arg6 x1 x2)
          (ldX0 arg2 harg2 x0)⟩,
      ⟨Rect.unit ![0, 73, 0, 0] ![1, 1, 32, 192] inb_S1x80x32x192_S1x1x32x192_0_73_0_0,
        k0_pay41 (kernelRun0.sl.r_9 c arg2 harg2 arg3 harg3 arg4 harg4 arg6 x0 x1 x2) kernelRun0.sl.cst_25⟩,
      ⟨Rect.unit ![0, 64, 0, 0] ![1, 1, 32, 192] inb_S1x80x32x192_S1x1x32x192_0_64_0_0,
        k0_pay39 (kernelRun0.sl.v178 c arg3 harg3 arg4 harg4 arg6 x1 x2) (kernelRun0.sl.r_6 c arg2 harg2 x0)⟩,
      ⟨Rect.unit ![0, 55, 0, 0] ![1, 1, 32, 192] inb_S1x80x32x192_S1x1x32x192_0_55_0_0,
        k0_pay38 (kernelRun0.sl.v178 c arg3 harg3 arg4 harg4 arg6 x1 x2) (kernelRun0.sl.r_6 c arg2 harg2 x0)⟩,
      ⟨Rect.unit ![0, 46, 0, 0] ![1, 1, 32, 192] inb_S1x80x32x192_S1x1x32x192_0_46_0_0,
        k0_pay37 (kernelRun0.sl.v178 c arg3 harg3 arg4 harg4 arg6 x1 x2) (kernelRun0.sl.r_6 c arg2 harg2 x0)⟩,
      ⟨Rect.unit ![0, 38, 0, 0] ![1, 1, 32, 192] inb_S1x80x32x192_S1x1x32x192_0_38_0_0,
        k0_pay36 (kernelRun0.sl.r_8 c arg2 harg2 arg3 harg3 arg4 harg4 arg6 x0 x1 x2)⟩,
      ⟨Rect.unit ![0, 29, 0, 0] ![1, 1, 32, 192] inb_S1x80x32x192_S1x1x32x192_0_29_0_0,
        k0_pay34 (kernelRun0.sl.v178 c arg3 harg3 arg4 harg4 arg6 x1 x2) (kernelRun0.sl.r_6 c arg2 harg2 x0)⟩,
      ⟨Rect.unit ![0, 20, 0, 0] ![1, 1, 32, 192] inb_S1x80x32x192_S1x1x32x192_0_20_0_0,
        k0_pay33 (kernelRun0.sl.v178 c arg3 harg3 arg4 harg4 arg6 x1 x2) (kernelRun0.sl.r_6 c arg2 harg2 x0)⟩,
      ⟨Rect.unit ![0, 11, 0, 0] ![1, 1, 32, 192] inb_S1x80x32x192_S1x1x32x192_0_11_0_0,
        k0_pay32 (kernelRun0.sl.v178 c arg3 harg3 arg4 harg4 arg6 x1 x2) (kernelRun0.sl.r_6 c arg2 harg2 x0)⟩,
      ⟨Rect.unit ![0, 2, 0, 0] ![1, 1, 32, 192] inb_S1x80x32x192_S1x1x32x192_0_2_0_0,
        k0_pay31 (kernelRun0.sl.r_7 c arg2 harg2 arg3 harg3 arg4 harg4 arg6 x0 x1 x2)⟩,
      ⟨Rect.unit ![0, 72, 0, 0] ![1, 1, 32, 192] inb_S1x80x32x192_S1x1x32x192_0_72_0_0,
        k0_pay28 (kernelRun0.sl.v94 c arg3 harg3 arg4 harg4 arg6 x1 x2) (kernelRun0.sl.r_4 c arg2 harg2 x0)⟩,
      ⟨Rect.unit ![0, 63, 0, 0] ![1, 1, 32, 192] inb_S1x80x32x192_S1x1x32x192_0_63_0_0,
        k0_pay27 (kernelRun0.sl.v94 c arg3 harg3 arg4 harg4 arg6 x1 x2) (kernelRun0.sl.r_4 c arg2 harg2 x0)⟩,
      ⟨Rect.unit ![0, 54, 0, 0] ![1, 1, 32, 192] inb_S1x80x32x192_S1x1x32x192_0_54_0_0,
        k0_pay26 (kernelRun0.sl.r_5 c arg2 harg2 arg3 harg3 arg4 harg4 arg6 x0 x1 x2)⟩,
      ⟨Rect.unit ![0, 45, 0, 0] ![1, 1, 32, 192] inb_S1x80x32x192_S1x1x32x192_0_45_0_0,
        k0_pay24 (kernelRun0.sl.v94 c arg3 harg3 arg4 harg4 arg6 x1 x2) (kernelRun0.sl.r_4 c arg2 harg2 x0)⟩,
      ⟨Rect.unit ![0, 37, 0, 0] ![1, 1, 32, 192] inb_S1x80x32x192_S1x1x32x192_0_37_0_0,
        k0_pay23 (kernelRun0.sl.v94 c arg3 harg3 arg4 harg4 arg6 x1 x2) (kernelRun0.sl.r_4 c arg2 harg2 x0)⟩,
      ⟨Rect.unit ![0, 28, 0, 0] ![1, 1, 32, 192] inb_S1x80x32x192_S1x1x32x192_0_28_0_0,
        k0_pay22 (kernelRun0.sl.v94 c arg3 harg3 arg4 harg4 arg6 x1 x2) (kernelRun0.sl.r_4 c arg2 harg2 x0)⟩,
      ⟨Rect.unit ![0, 19, 0, 0] ![1, 1, 32, 192] inb_S1x80x32x192_S1x1x32x192_0_19_0_0,
        k0_pay21 (kernelRun0.sl.v94 c arg3 harg3 arg4 harg4 arg6 x1 x2)
          (ldX0 arg2 harg2 x0)⟩,
      ⟨Rect.unit ![0, 10, 0, 0] ![1, 1, 32, 192] inb_S1x80x32x192_S1x1x32x192_0_10_0_0,
        k0_pay20 (kernelRun0.sl.v94 c arg3 harg3 arg4 harg4 arg6 x1 x2)
          (ldX0 arg2 harg2 x0)⟩,
      ⟨Rect.unit ![0, 1, 0, 0] ![1, 1, 32, 192] inb_S1x80x32x192_S1x1x32x192_0_1_0_0,
        k0_pay19 (kernelRun0.sl.v94 c arg3 harg3 arg4 harg4 arg6 x1 x2)
          (ldX0 arg2 harg2 x0)⟩,
      ⟨Rect.unit ![0, 71, 0, 0] ![1, 1, 32, 192] inb_S1x80x32x192_S1x1x32x192_0_71_0_0,
        k0_pay17 (kernelRun0.sl.r_3 c arg2 harg2 arg3 harg3 arg4 harg4 arg6 x0 x1 x2)⟩,
      ⟨Rect.unit ![0, 62, 0, 0] ![1, 1, 32, 192] inb_S1x80x32x192_S1x1x32x192_0_62_0_0,
        k0_pay15 (kernelRun0.sl.v10 c arg3 harg3 arg4 harg4 arg6 x1 x2) (kernelRun0.sl.r c arg2 harg2 x0)⟩,
      ⟨Rect.unit ![0, 53, 0, 0] ![1, 1, 32, 192] inb_S1x80x32x192_S1x1x32x192_0_53_0_0,
        k0_pay14 (kernelRun0.sl.v10 c arg3 harg3 arg4 harg4 arg6 x1 x2) (kernelRun0.sl.r c arg2 harg2 x0)⟩,
      ⟨Rect.unit ![0, 44, 0, 0] ![1, 1, 32, 192] inb_S1x80x32x192_S1x1x32x192_0_44_0_0,
        k0_pay13 (kernelRun0.sl.r_2 c arg2 harg2 arg3 harg3 arg4 harg4 arg6 x0 x1 x2)⟩,
      ⟨Rect.unit ![0, 36, 0, 0] ![1, 1, 32, 192] inb_S1x80x32x192_S1x1x32x192_0_36_0_0,
        k0_pay11 (kernelRun0.sl.v10 c arg3 harg3 arg4 harg4 arg6 x1 x2) (kernelRun0.sl.r c arg2 harg2 x0)⟩,
      ⟨Rect.unit ![0, 27, 0, 0] ![1, 1, 32, 192] inb_S1x80x32x192_S1x1x32x192_0_27_0_0,
        k0_pay10 (kernelRun0.sl.v10 c arg3 harg3 arg4 harg4 arg6 x1 x2) (kernelRun0.sl.r c arg2 harg2 x0)⟩,
      ⟨Rect.unit ![0, 18, 0, 0] ![1, 1, 32, 192] inb_S1x80x32x192_S1x1x32x192_0_18_0_0,
        k0_pay9 (kernelRun0.sl.v10 c arg3 harg3 arg4 harg4 arg6 x1 x2) (kernelRun0.sl.r c arg2 harg2 x0)⟩,
      ⟨Rect.unit ![0, 9, 0, 0] ![1, 1, 32, 192] inb_S1x80x32x192_S1x1x32x192_0_9_0_0,
        k0_pay8 (kernelRun0.sl.r_1 c arg2 harg2 arg3 harg3 arg4 harg4 arg6 x0 x1 x2) kernelRun0.sl.cst_25⟩,
      ⟨Rect.unit ![0, 0, 0, 0] ![1, 1, 32, 192] inb_S1x80x32x192_S1x1x32x192_0_0_0_0,
        k0_pay6 (kernelRun0.sl.v10 c arg3 harg3 arg4 harg4 arg6 x1 x2)
          (ldX0 arg2 harg2 x0)⟩] := rfl

/-- The scratch pieces: the second input's block on rows 32..40 over the first's on rows 0..32. -/
theorem kernelRun0_snd (c : Dev nD) (i : grid0.Coords) (arg2 : Memref sig .tc .vmem S1x128x32x192 .bf16) (harg2 : arg2.IsWhole) (arg3 : Memref sig .tc .vmem S1x128x32x200 .bf16) (harg3 : arg3.IsWhole) (arg4 : Memref sig .tc .vmem S1x128x8x200 .bf16) (harg4 : arg4.IsWhole) (arg5 : Memref sig .tc .vmem S1x80x32x192 .f32) (harg5 : arg5.IsWhole) (arg6 : Memref sig .tc .vmem S128x40x200 .bf16) (harg6 : arg6.IsWhole)
    (x0 : Vec F S1x128x32x192 .bf16) (x1 : Vec F S1x128x32x200 .bf16) (x2 : Vec F S1x128x8x200 .bf16) :
    (kernelRun0 c i arg2 harg2 arg3 harg3 arg4 harg4 arg5 harg5 arg6 harg6 x0 x1 x2).2.1 = kernelRun0.sl.HS0_2 c arg3 harg3 arg4 harg4 x1 x2 := rfl

end Cert.KernelIdeal.Hand

end
-- ==== Proof.KI.Data.lean ====
/-
  The proof data of the pipelined call and the body obligation: what each window's staging buffer holds before and
  after the body at every grid point, and that the body, run on those buffers, terminates without fault and leaves
  what is stated. The inputs are fetched at every point and only read, so their buffers hold their blocks before and
  after; the output buffer ends at the eighty pieces the body stores; the scratch buffer is the region's invariant.
-/
import proofs.«122554_j9363028706363_2_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At no point of the grid does the second window's block overhang its array: the row blocks of 32 end at row
    128 of the 136, so no transfer of it is cut. -/
theorem noclip0_1 : ∀ (t : Fin cfg0.N) (a : Fin (cfg0.win 1).shape.rank), (cfg0.win 1).clip (cfg0.grid.coords t) a = none :=
  (by decide +kernel : ∀ (t : Fin grid0.N) (a : Fin 4), win0_1.clip (grid0.coords t) a = none)

/-- The second window's block at point `t` on the whole staging buffer's index: the block read off its array,
    every index of the buffer being one of the (uncut) block. -/
def blk1 (c : Dev nD) (t : Fin cfg0.N) : (cfg0.win 1).block.Idx → Elt F (cfg0.win 1).elt :=
  fun j => iblk m c 1 t fun a => ⟨(j a).val, by
    show (j a).val < ((cfg0.win 1).clip (cfg0.grid.coords t) a).extent ((cfg0.win 1).size a)
    rw [noclip0_1 t a]; exact (j a).isLt⟩

/-- Filling a staging buffer with the second window's uncut block leaves that block, whatever the buffer held. -/
theorem fill1_eq (c : Dev nD) (t : Fin cfg0.N) (d : (cfg0.win 1).block.Idx → Elt F (cfg0.win 1).elt) :
    (cfg0.win 1).fill (cfg0.grid.coords t) d (iblk m c 1 t) = blk1 m c t := by
  funext j
  have hm : (cfg0.win 1).moved (cfg0.grid.coords t) j = true :=
    ((cfg0.win 1).moved_iff _ j).mpr fun a => by
      show (j a).val < ((cfg0.win 1).clip (cfg0.grid.coords t) a).extent ((cfg0.win 1).size a)
      rw [noclip0_1 t a]; exact (j a).isLt
  unfold Window.fill; rw [dif_pos hm]; rfl

/-- The proof data of the one pipeline on core `c`: the arrays as the region finds them; after the body at point
    `t` each input's buffer still at its block, the output's at the eighty pieces the body stores, read back; the
    invariant the scratch buffer at anything; the padded array shared by halves between its two windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => blk1 m c t
    | ⟨2, _⟩ => iblk m c 2 t
    | ⟨3, _⟩ => out0_3 c (grid0.coords t) (ms0_0 t) (hs0_0 t) (ms0_1 t) (hs0_1 t) (ms0_2 t) (hs0_2 t) (ms0_3 t) (hs0_3 t) scM0_0 (Memref.isWhole_whole _) (iblk m c 0 t) (blk1 m c t) (iblk m c 2 t)
  Φ _ := PhiS c
  q := qs
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = blk1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 c (grid0.coords t) (ms0_0 t) (hs0_0 t) (ms0_1 t) (hs0_1 t) (ms0_2 t) (hs0_2 t) (ms0_3 t) (hs0_3 t) scM0_0 (Memref.isWhole_whole _) (iblk m c 0 t) (blk1 m c t) (iblk m c 2 t) := by dsimp only [dats]

/-- Each input's current staging buffer holds its block at every point: every input is fetched at every point. -/
theorem before0_0 (c : Dev nD) (t : Fin cfg0.N) (d) : (dats m 0 c).before 0 t d = iblk m c 0 t :=
  ((dats m 0 c).before_fetched 0 t (fetch0_0 t) d).trans (by unfold Dat.fetched Dat.blockOf iblk; rw [A_eq]; try rfl)
theorem before0_1 (c : Dev nD) (t : Fin cfg0.N) (d) : (dats m 0 c).before 1 t d = blk1 m c t :=
  ((dats m 0 c).before_fetched 1 t (fetch0_1 t) d).trans (by
    unfold Dat.fetched; rw [show (dats m 0 c).blockOf 1 t = iblk m c 1 t from by unfold Dat.blockOf iblk; rw [A_eq]]
    exact fill1_eq m c t d)
theorem before0_2 (c : Dev nD) (t : Fin cfg0.N) (d) : (dats m 0 c).before 2 t d = iblk m c 2 t :=
  ((dats m 0 c).before_fetched 2 t (fetch0_2 t) d).trans (by unfold Dat.fetched Dat.blockOf iblk; rw [A_eq]; try rfl)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4000000 in
/-- The body at any point: the inputs' buffers hold their blocks, the output's and the scratch anything; the run
    applies; the inputs come back as they were, the output at its pieces (which cover it, so read back they are
    the stated contents whatever it held), the scratch at something; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS c from rfl, show (dats m 0 c).Φ t.castSucc = PhiS c from rfl]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  rw [show (dats m 0 c).leavesExact 3 t = owns (c : Thread nD τ) (ms0_3 t) fullShare ((dats m 0 c).after 3 t) from rfl, after0_3]
  unfold PhiS out0_3
  iintro ⟨⟨%ds, HS0⟩, Ho, ⟨%d0, H0⟩, ⟨%d1, H1⟩, ⟨%d2, H2⟩, ⟨%d3, H3⟩⟩
  iapply ((kernelRun0 c (grid0.coords t) _ _ _ _ _ _ _ _ _ _ (iblk m c 0 t) (blk1 m c t) (iblk m c 2 t)).2.2 Set.univ _)
  isplitl [H0]; · iexact H0
  isplitl [H1]; · iexact H1
  isplitl [H2]; · iexact H2
  isplitl [H3]; · iexists _; iexact H3
  isplitl [HS0]; · iexists _; iexact HS0
  iintro ⟨H0, H1, H2, ⟨%e3, H3⟩, ⟨%es0, HS0⟩⟩
  isplitl [HS0]
  · iexists _; unfold owns; iexists _; isplitr
    swap; · iexact HS0
    ipureintro; rfl
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Launch.lean ====
/-
  The launch of this program's one pipelined region, whose second and third input windows read one and the same
  padded array.

  Before the region the host casts the two arguments to half precision, makes an integer zero, turns it into the
  padding value and pads the second cast array by four pixels on each side of both pixel axes; none of these
  operations writes an argument array, so the region finds both arguments as launched. The region's windows stand
  on three distinct buffers: the first cast array, the padded array and the result array. Each of the three is held
  whole when the region is entered; the padded array's points-to is divided in two halves, one for each of the two
  windows that read it, and the first input window and the output window take their arrays whole. With that division
  the shared-array frame run applies: after the run the result array holds what the proof data compute from the
  write-backs, and every unscoped buffer that no window stages, the two arguments among them, is unchanged.
-/
import proofs.«122554_j9363028706363_2_alg».proof.Proof.KI.Base
import proofs.«122554_j9363028706363_2_alg».proof.Proof.LibFrameShared

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The casts and the constant allocate nothing. -/
theorem hostOps0_fresh : (hostOps0 : List (HloOp τ sig (Elt F))).Forall fun op => op.fresh = ∅ := by
  simp only [List.Forall]; repeat' constructor
/-- Neither does the padding. -/
theorem hostOps0_1_fresh : (hostOps0_1 : List (HloOp τ sig (Elt F))).Forall fun op => op.fresh = ∅ := by
  simp only [List.Forall]; repeat' constructor

/-- @main is the two stretches of host operations and then the region: holding the unscoped buffers at the launch
    contents it reaches the region holding them at the contents after both stretches. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation before the region writes the first argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-! ## The region's invariant and the buffers behind the windows -/

/-- The scoped buffers that are no staging buffer are the scratch operand alone, so holding them at some contents
    is the region's invariant. -/
theorem scopedRest0_PhiS (c : Dev nD) : (Pipeline.scopedRest spec0 c : sProp 𝕄) = PhiS (F := F) c := by
  unfold PhiS; rw [scopedRest0_eq]; simp only [scM0_0, owns_whole]; try rfl

/-- The windows stand on three distinct buffers: the first cast array, the padded array, the result array. -/
theorem arrBufs0_eq (c : Dev nD) (W : (b : Ref sig .tc) → Buf (Elt F) ((c : Thread nD τ).loc b)) :
    (Pipeline.arrBufs spec0 c W : sProp 𝕄)
      = iprop((((c : Thread nD τ).loc main_v0) ↦{fullShare} W main_v0) ∗ (((c : Thread nD τ).loc main_v2) ↦{fullShare} W main_v2)
          ∗ (((c : Thread nD τ).loc main_v3) ↦{fullShare} W main_v3)) := by
  unfold Pipeline.arrBufs
  exact bigSep_eq_bigSepL_of_eq [main_v0, main_v2, main_v3] (by decide) (by decide) _

/-! ## How the three buffers are divided among the four windows -/

/-- What the proof data hold of the arrays before point 0, from the three buffers held whole: the first input window
    and the output window take their buffers whole, and the padded array's points-to is halved, the left half to the
    window of 32 rows and the right half to the window of the 8 rows below them. Any proof data whose arrays are the
    region's entry contents and whose input shares are `qs` are served. -/
theorem hsplit0 (c : Dev nD) (dat : Dat τ (Elt F) Unit ℕ (UR sig nD τ) ℕ (cfgs 0) c)
    (hA : ∀ w, dat.A w = V m c (Pipeline.arrRef spec0 w)) (hq : ∀ w, dat.q w = qs w) :
    (Pipeline.arrBufs spec0 c (V m c) : sProp 𝕄) ⊢ dat.arrays (dat.arrAt · 0) := by
  have e : ∀ w : Fin 4, (View.loc (c : Thread nD τ) ((cfgs 0).win w).arr.view ↦[((cfgs 0).win w).arr.view.set]{dat.share w} dat.arrAt w 0 : sProp 𝕄)
      = (((c : Thread nD τ).loc (Pipeline.arrRef spec0 w)) ↦{dat.share w} V m c (Pipeline.arrRef spec0 w)) := fun w => by
    rw [(arr_whole0 w).set_eq_univ, ← hA w]; rfl
  have s0 : dat.share 0 = fullShare := by
    have h : ((cfgs 0).win 0).isOut = false := rfl
    unfold Dat.share; rw [h, if_neg Bool.false_ne_true, hq]; rfl
  have s1 : dat.share 1 = fullShare.left := by
    have h : ((cfgs 0).win 1).isOut = false := rfl
    unfold Dat.share; rw [h, if_neg Bool.false_ne_true, hq]; rfl
  have s2 : dat.share 2 = fullShare.right := by
    have h : ((cfgs 0).win 2).isOut = false := rfl
    unfold Dat.share; rw [h, if_neg Bool.false_ne_true, hq]; rfl
  have s3 : dat.share 3 = fullShare := by
    have h : ((cfgs 0).win 3).isOut = true := rfl
    unfold Dat.share; rw [h, if_pos rfl]
  rw [arrBufs0_eq]
  unfold Dat.arrays
  rw [bigSep_W0, e 0, e 1, e 2, e 3, s0, s1, s2, s3]
  iintro ⟨H0, H2, H3⟩
  ihave H2' := (pointsTo_share (PosShare.mem_left_op_right fullShare)).1 $$ H2
  icases H2' with ⟨H2l, H2r⟩
  isplitl [H0]; · iexact H0
  isplitl [H2l]; · iexact H2l
  isplitl [H2r]; · iexact H2r
  iexact H3

/-! ## The run of @main -/

set_option backward.isDefEq.respectTransparency.types false in
/-- From any memory with every counter zero, every weakly fair execution of @main on the TensorCores terminates, and
    in every final state the result array holds what the proof data compute from the write-backs of all the grid's
    points while both arguments hold what they held at launch. Asked of the proof data: their arrays are the region's
    entry contents, the two windows on the padded array hold a half of it each (`qs`), the invariant is the scratch
    buffer at some contents at every point, nothing is owed, and the body meets its obligation at every point. -/
theorem run_main (dats : (p : Fin 1) → (c : Dev nD) → Dat τ (Elt F) Unit ℕ (UR sig nD τ) ℕ (cfgs p) c)
    (hA : ∀ c w, (dats 0 c).A w = V m c (Pipeline.arrRef spec0 w))
    (hq : ∀ c w, (dats 0 c).q w = qs w)
    (hΦ : ∀ c t, (dats 0 c).Φ t = PhiS c)
    (howed : ∀ c t, (dats 0 c).owed t = 0)
    (hbody : ∀ c, Pipeline.BodyObligationLoose (dats 0 c) (defs₀ (F := F)) Variants.none () Set.univ) :
    θ_run defs (onTc (τ := τ) (main (F := F))) ⟨m, fun _ => 0, ρ⟩ (fun r => ∀ c : Dev nD,
      r.2.mem ((c.tc : Thread nD τ).loc main_v3) = (dats 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1 3,
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (Pipeline.SharedFrame.θ_run_frame_shared_track cfgs dats (0 : Fin 1) cellOf_inj winFacts₀0 block_pos0 arr_whole0 stage_whole0
      defs₀ Variants.none m ρ main hbody howed (V m) (hmain m Variants.none)
      (fun c => hsplit0 m c (dats 0 c) (hA c) (hq c))
      (fun c => Entails.of_eq ((scopedRest0_PhiS c).trans (hΦ c 0).symm))
      (fun c => Entails.of_eq ((hΦ c (Fin.last _)).trans (scopedRest0_PhiS c).symm)))

end Cert.KernelIdeal.Hand

end
-- ==== Proof.KI.Frame.lean ====
/-
  The frame of the program: it terminates from any memory without fault, its result array ends at what the proof
  data say the last write-back leaves, and its two argument arrays end as they were launched. The launch theorem
  instantiated at the proof data and the body obligation; the frame claim is its last two conjuncts.
-/
import proofs.«122554_j9363028706363_2_alg».proof.Proof.KI.Data
import proofs.«122554_j9363028706363_2_alg».proof.Proof.KI.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program runs; the result array ends at the proof data's final contents and both arguments end unchanged. -/
theorem run_named :
    θ_run defs (onTc (τ := τ) (main (F := F))) ⟨m, fun _ => 0, ρ⟩ (fun r => ∀ c : Dev nD,
      r.2.mem ((c.tc : Thread nD τ).loc main_v3) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_main m ρ (dats m) (A_eq m) (fun _ _ => rfl) (fun _ _ => rfl) (fun _ _ => rfl) (fun c => (body_obligation m c).loose)

/-- The frame claim: the program runs and its two argument arrays end unchanged. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_named m ρ)

end Cert.KernelIdeal.Hand

end
-- ==== Proof.Val.Blocks.lean ====
/-
  Where each window's block sits in its array, and the result array from its blocks.

  The grid has 8 x 4 points; the point (b, h) works on image b and on the band of 32 pixel rows 32h .. 32h + 31.
  There the first input window holds that band of the first cast array (all 128 channels, all 192 columns); the two
  windows on the padded array hold its rows 32h .. 32h + 31 and the 8 rows 32(h + 1) .. 32(h + 1) + 7 below them
  (all 128 channels, all 200 columns), so together the 40 padded rows the band's 9 x 9 neighbourhoods reach; and the
  output window holds the band of the result array (all 80 displacements, all 192 columns). An element of a block at
  coordinate y along an axis sits in the array at (block index) x (block size) + y along that axis.

  The 32 bands of the output window tile the result array, and every point writes its band back. So if what every
  point writes back is its band of one function G on the whole result array, the array ends holding G.
-/
import proofs.«122554_j9363028706363_2_alg».proof.Proof.KI.Base
import Idealize.ShloMosaic.Lib.Pipeline.Value
import Idealize.ShloMosaic.Lib.ValueIdx

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

/-! ## The point's coordinates and the windows' block indices -/

/-- The image the point works on. -/
def bOf (t : Fin cfg0.N) : Fin 8 := grid0.coords t 0
/-- The band of 32 pixel rows the point works on. -/
def hOf (t : Fin cfg0.N) : Fin 4 := grid0.coords t 1

/-- The block indices of the four windows at a point, decided over the grid: each window is at image `b` and takes all of
    the channel (or displacement) axis and all of the column axis; on the row axis the first input window, the window of 32
    padded rows and the output window are at block `h`, and the window of 8 padded rows is at block `4 (h + 1)`. -/
theorem index_facts : ∀ t : Fin cfg0.N,
    (win0_0.index t (0 : Fin 4) = (bOf t).val ∧ win0_0.index t (1 : Fin 4) = 0 ∧ win0_0.index t (2 : Fin 4) = (hOf t).val ∧ win0_0.index t (3 : Fin 4) = 0)
    ∧ (win0_1.index t (0 : Fin 4) = (bOf t).val ∧ win0_1.index t (1 : Fin 4) = 0 ∧ win0_1.index t (2 : Fin 4) = (hOf t).val ∧ win0_1.index t (3 : Fin 4) = 0)
    ∧ (win0_2.index t (0 : Fin 4) = (bOf t).val ∧ win0_2.index t (1 : Fin 4) = 0 ∧ win0_2.index t (2 : Fin 4) = ((hOf t).val + 1) * 4 ∧ win0_2.index t (3 : Fin 4) = 0)
    ∧ (win0_3.index t (0 : Fin 4) = (bOf t).val ∧ win0_3.index t (1 : Fin 4) = 0 ∧ win0_3.index t (2 : Fin 4) = (hOf t).val ∧ win0_3.index t (3 : Fin 4) = 0) :=
  (by decide +kernel : ∀ t : Fin grid0.N, _)

/-- Every image and band is some point's. -/
theorem point_onto : ∀ (b : Fin 8) (h : Fin 4), ∃ t : Fin cfg0.N, bOf t = b ∧ hOf t = h :=
  (by decide +kernel : ∀ (b : Fin 8) (h : Fin 4), ∃ t : Fin grid0.N, bOf t = b ∧ hOf t = h)

/-! ## Where a block's element sits in its array -/

/-- The first input window's block at a point is the point's band of the first cast array. -/
theorem iblk0_apply (c : Dev nD) (t : Fin cfg0.N) (ch : Fin 128) (r : Fin 32) (w : Fin 192) :
    (iblk m c 0 t : S1x128x32x192.Idx → Elt F .bf16) (ix4 (0 : Fin 1) ch r w)
      = (V m c main_v0 : S8x128x128x192.Idx → Elt F .bf16) (ix4 (bOf t) ch ⟨32 * (hOf t).val + r.val, by have := (hOf t).isLt; have := r.isLt; omega⟩ w) := by
  obtain ⟨⟨e0, e1, e2, e3⟩, -⟩ := index_facts t
  unfold iblk
  rw [View.read_apply]
  show V m c main_v0 _ = V m c main_v0 _
  congr 1
  funext a
  apply Fin.ext
  match a with
  | ⟨0, _⟩ => show win0_0.index t (0 : Fin 4) * 1 + 1 * 0 = (bOf t).val; omega
  | ⟨1, _⟩ => show win0_0.index t (1 : Fin 4) * 128 + 1 * ch.val = ch.val; omega
  | ⟨2, _⟩ => show win0_0.index t (2 : Fin 4) * 32 + 1 * r.val = 32 * (hOf t).val + r.val; omega
  | ⟨3, _⟩ => show win0_0.index t (3 : Fin 4) * 192 + 1 * w.val = w.val; omega

/-- The block of the window of 8 padded rows is the 8 rows just below the point's band of the padded array. -/
theorem iblk2_apply (c : Dev nD) (t : Fin cfg0.N) (ch : Fin 128) (y : Fin 8) (x : Fin 200) :
    (iblk m c 2 t : S1x128x8x200.Idx → Elt F .bf16) (ix4 (0 : Fin 1) ch y x)
      = (V m c main_v2 : S8x128x136x200.Idx → Elt F .bf16) (ix4 (bOf t) ch ⟨32 * ((hOf t).val + 1) + y.val, by have := (hOf t).isLt; have := y.isLt; omega⟩ x) := by
  obtain ⟨-, -, ⟨e0, e1, e2, e3⟩, -⟩ := index_facts t
  unfold iblk
  rw [View.read_apply]
  show V m c main_v2 _ = V m c main_v2 _
  congr 1
  funext a
  apply Fin.ext
  match a with
  | ⟨0, _⟩ => show win0_2.index t (0 : Fin 4) * 1 + 1 * 0 = (bOf t).val; omega
  | ⟨1, _⟩ => show win0_2.index t (1 : Fin 4) * 128 + 1 * ch.val = ch.val; omega
  | ⟨2, _⟩ => show win0_2.index t (2 : Fin 4) * 8 + 1 * y.val = 32 * ((hOf t).val + 1) + y.val; omega
  | ⟨3, _⟩ => show win0_2.index t (3 : Fin 4) * 200 + 1 * x.val = x.val; omega

/-- An element of the output window's block at a point sits in the point's band of the result array. -/
theorem oblk_emb (t : Fin cfg0.N) (k : Fin 80) (r : Fin 32) (w : Fin 192) :
    (((cfg0.win 3).blk t).view.emb (ix4 (0 : Fin 1) k r w : S1x80x32x192.Idx) : S8x80x128x192.Idx)
      = ix4 (bOf t) k ⟨32 * (hOf t).val + r.val, by have := (hOf t).isLt; have := r.isLt; omega⟩ w := by
  obtain ⟨-, -, -, ⟨e0, e1, e2, e3⟩⟩ := index_facts t
  funext a
  apply Fin.ext
  match a with
  | ⟨0, _⟩ => show win0_3.index t (0 : Fin 4) * 1 + 1 * 0 = (bOf t).val; omega
  | ⟨1, _⟩ => show win0_3.index t (1 : Fin 4) * 80 + 1 * k.val = k.val; omega
  | ⟨2, _⟩ => show win0_3.index t (2 : Fin 4) * 32 + 1 * r.val = 32 * (hOf t).val + r.val; omega
  | ⟨3, _⟩ => show win0_3.index t (3 : Fin 4) * 192 + 1 * w.val = w.val; omega

/-! ## The result array from its blocks -/

/-- An index of the result array is in the output window's block at a point iff each coordinate is in the block's range. -/
theorem mem_oblk (t : Fin cfg0.N) (i : S8x80x128x192.Idx) :
    i ∈ ((cfg0.win 3).blk t).view.set ↔ ∀ a : Fin 4, win0_3.index t a * S1x80x32x192.size a ≤ (i a).val ∧ (i a).val < win0_3.index t a * S1x80x32x192.size a + S1x80x32x192.size a := by
  show i ∈ ((View.whole main_v3).slice (win0_3.rect t)).set ↔ _
  rw [View.set_slice_whole, Rect.mem_set_unit]
  exact Iff.rfl

/-- Every index of the result array is in the block of the point of its image and of the band its row lies in, and that
    point writes back. -/
theorem oblk_cover (i : S8x80x128x192.Idx) :
    ∃ t : Fin cfg0.N, (cfg0.win 3).flush t = true ∧ i ∈ ((cfg0.win 3).blk t).view.set := by
  have hi0 : (i 0).val < 8 := (i 0).isLt
  have hi1 : (i 1).val < 80 := (i 1).isLt
  have hi2 : (i 2).val < 128 := (i 2).isLt
  have hi3 : (i 3).val < 192 := (i 3).isLt
  obtain ⟨t, hb, hh⟩ := point_onto ⟨(i 0).val, hi0⟩ ⟨(i 2).val / 32, by omega⟩
  have hb' : (bOf t).val = (i 0).val := congrArg Fin.val hb
  have hh' : (hOf t).val = (i 2).val / 32 := congrArg Fin.val hh
  obtain ⟨-, -, -, ⟨e0, e1, e2, e3⟩⟩ := index_facts t
  refine ⟨t, flush0_3 t, ?_⟩
  rw [mem_oblk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 80 ≤ (i 1).val ∧ (i 1).val < win0_3.index t (1 : Fin 4) * 80 + 80; omega
  | ⟨2, _⟩ => show win0_3.index t (2 : Fin 4) * 32 ≤ (i 2).val ∧ (i 2).val < win0_3.index t (2 : Fin 4) * 32 + 32; omega
  | ⟨3, _⟩ => show win0_3.index t (3 : Fin 4) * 192 ≤ (i 3).val ∧ (i 3).val < win0_3.index t (3 : Fin 4) * 192 + 192; omega

/-- THE RESULT ARRAY FROM ITS BLOCKS: for any proof data, if what every point writes back to the result array is its
    block of one function `G` on the whole array, then after all the write-backs the array holds `G`. -/
theorem arrAt3_eq_of_blocks (c : Dev nD) (dat : Dat τ (Elt F) Unit ℕ (UR sig nD τ) ℕ cfg0 c)
    (G : S8x80x128x192.Idx → Elt F .f32)
    (hG : ∀ t : Fin cfg0.N, dat.flushed 3 t = ((cfg0.win 3).blk t).view.read (Elt F) G) :
    dat.arrAt 3 cfg0.N = G :=
  dat.arrAt_eq_of_cover 3 G (fun t _ => hG t) oblk_cover

/-! ## The window of 32 padded rows: no block overhangs the padded array -/

/-- The padded array has 136 rows and the window's last block ends at row 128: no transfer of the window is cut. -/
theorem clip1_none : ∀ (t : Fin cfg0.N) (a : Fin 4), (cfg0.win 1).clip (grid0.coords t) a = none :=
  (by decide +kernel : ∀ (t : Fin grid0.N) (a : Fin 4), win0_1.clip (grid0.coords t) a = none)

/-- The same at every setting of the grid's coordinates. -/
theorem clip1_none_coords : ∀ (i : grid0.Coords) (a : Fin 4), (cfg0.win 1).clip i a = none :=
  (by decide +kernel : ∀ (i : grid0.Coords) (a : Fin 4), win0_1.clip i a = none)

/-- So what a transfer of the window moves has the block's sizes. -/
theorem xsize1 (t : Fin cfg0.N) (a : Fin 4) : (cfg0.win 1).xsize (grid0.coords t) a = S1x128x32x200.size a := by
  unfold Pipeline.Window.xsize; rw [clip1_none t a]

/-- The window's block at a point is the point's band of the padded array: rows `32 h .. 32 h + 31`. Stated over the
    index type of what the transfer moves, which is the block's only after the cut is known to be none. -/
theorem iblk1_apply (c : Dev nD) (t : Fin cfg0.N) (y : ((cfg0.win 1).xblock (grid0.coords t)).Idx) :
    iblk m c 1 t y = (V m c main_v2 : S8x128x136x200.Idx → Elt F .bf16)
      (ix4 (bOf t)
        ⟨(y 1).val, by have h := xsize1 t 1; have hy : (y 1).val < (cfg0.win 1).xsize (grid0.coords t) 1 := (y 1).isLt; rw [h] at hy; exact hy⟩
        ⟨32 * (hOf t).val + (y 2).val, by
          have h := xsize1 t 2; have hy : (y 2).val < (cfg0.win 1).xsize (grid0.coords t) 2 := (y 2).isLt; rw [h] at hy
          have hy' : (y 2).val < 32 := hy
          have := (hOf t).isLt; omega⟩
        ⟨(y 3).val, by have h := xsize1 t 3; have hy : (y 3).val < (cfg0.win 1).xsize (grid0.coords t) 3 := (y 3).isLt; rw [h] at hy; exact hy⟩) := by
  obtain ⟨-, ⟨e0, e1, e2, e3⟩, -⟩ := index_facts t
  have hy0 : (y 0).val < 1 := by
    have h := xsize1 t 0; have hy : (y 0).val < (cfg0.win 1).xsize (grid0.coords t) 0 := (y 0).isLt; rw [h] at hy; exact hy
  unfold iblk
  rw [View.read_apply]
  show V m c main_v2 _ = V m c main_v2 _
  congr 1
  funext a
  apply Fin.ext
  match a with
  | ⟨0, _⟩ => show win0_1.index t (0 : Fin 4) * 1 + 1 * (y 0).val = (bOf t).val; omega
  | ⟨1, _⟩ => show win0_1.index t (1 : Fin 4) * 128 + 1 * (y 1).val = (y 1).val; omega
  | ⟨2, _⟩ => show win0_1.index t (2 : Fin 4) * 32 + 1 * (y 2).val = 32 * (hOf t).val + (y 2).val; omega
  | ⟨3, _⟩ => show win0_1.index t (3 : Fin 4) * 200 + 1 * (y 3).val = (y 3).val; omega

/-- What the window's staging buffer holds once its block at a point is fetched into it, whatever it held before:
    at channel `ch`, row `y` and column `x` of the block, the padded array at image `b`, row `32 h + y`. -/
theorem fill1_apply (c : Dev nD) (t : Fin cfg0.N) (d : S1x128x32x200.Idx → Elt F .bf16) (ch : Fin 128) (y : Fin 32) (x : Fin 200) :
    (cfg0.win 1).fill (grid0.coords t) d (iblk m c 1 t) (ix4 (0 : Fin 1) ch y x : S1x128x32x200.Idx)
      = (V m c main_v2 : S8x128x136x200.Idx → Elt F .bf16) (ix4 (bOf t) ch ⟨32 * (hOf t).val + y.val, by have := (hOf t).isLt; have := y.isLt; omega⟩ x) := by
  have hm : (cfg0.win 1).moved (grid0.coords t) (ix4 (0 : Fin 1) ch y x : S1x128x32x200.Idx) = true :=
    ((cfg0.win 1).moved_iff _ _).mpr fun a => by
      have := ((ix4 (0 : Fin 1) ch y x : S1x128x32x200.Idx) a).isLt
      rw [xsize1 t a]; exact this
  unfold Pipeline.Window.fill
  rw [dif_pos hm, iblk1_apply]
  rfl

end Cert.KernelIdeal.Val

end
-- ==== Proof.Val.Entry.lean ====
/-
  What the region finds in the arrays its windows read. Before the call the host program casts both
  arguments to the narrower float format and pads the second with a border of four zeros on each side of
  its two pixel axes. So the first window's array is the first argument, cast, and the array the second and
  third windows share is the padded cast of the second argument.
-/
import proofs.«122554_j9363028706363_2_alg».proof.Proof.KI.Base
import Idealize.ShloMosaic.Lib.StableHlo.Run
import Idealize.ShloMosaic.Lib.ValueIdx

noncomputable section

namespace Cert.KernelIdeal.Val

open Cert.KernelIdeal Cert.KernelIdeal.Gen Cert.KernelIdeal.Hand Cert.KernelIdeal.Facts₀ Cert.KernelIdeal.Facts
open Idealize.ShloMosaic Idealize.ShloMosaic.TcCoe Idealize.ShloMosaic.ValueIdx
open Idealize.SL Idealize.SL.Sem Idealize.ShloMosaic.StableHlo

variable {F : FTy → Type} [FloatOps F]
variable (m : (ℓ : Loc nD τ sig) → Buf (Elt F) ℓ)

/-- The first window's array as the region finds it: the first argument, cast. -/
theorem V_main_v0 (c : Dev nD) :
    (V m c main_v0 : S8x128x128x192.Idx → Elt F .bf16)
      = truncf .bf16 (m ((c : Thread nD τ).loc main_arg0) : S8x128x128x192.Idx → Elt F .f32) Facts₀.bitsLt_bf16_f32 := by
  dsimp only [V]
  simp only [hostOps0, hostOps0_1, List.flatten_cons, List.flatten_nil, List.append_nil, List.cons_append, List.nil_append]
  after_results
  all_goals rfl

/-- The padded array as the region finds it: the second argument, cast, with a border of 4 zeros on its two pixel axes. -/
theorem V_main_v2 (c : Dev nD) :
    (V m c main_v2 : S8x128x136x200.Idx → Elt F .bf16)
      = pad S8x128x136x200 ![0, 0, 4, 4] ![0, 0, 4, 4] ![0, 0, 0, 0]
          (truncf .bf16 (m ((c : Thread nD τ).loc main_arg1) : S8x128x128x192.Idx → Elt F .f32) Facts₀.bitsLt_bf16_f32)
          (sitofp .bf16 (constantI S_ 32 0#32))
          Facts₀.pads_S8x128x128x192_S8x128x136x200_000_000_440_440 Facts₀.h_S_ := by
  dsimp only [V]
  simp only [hostOps0, hostOps0_1, List.flatten_cons, List.flatten_nil, List.append_nil, List.cons_append, List.nil_append]
  after_results
  all_goals rfl

end Cert.KernelIdeal.Val

end
-- ==== Proof.Val.Pad.lean ====
/-
  The two arrays the windows read, at the exact instance, as functions of the program's arguments. There a
  narrowing format change is the identity on the extended reals, so the first window's array is the first argument
  itself; and the padded array, the second argument with a border of four zeros on its two pixel axes, is the same
  function of the second argument as the array the reference program pads: the two programs pad alike, with the
  same zero, whichever float format the zero is named in.
-/
import proofs.«122554_j9363028706363_2_alg».proof.Proof.Val.Entry
import proofs.«122554_j9363028706363_2_alg».proof.Proof.Gen.ReferenceIdeal
import Idealize.ShloMosaic.PureOps.Ideal

noncomputable section

namespace Cert.KernelIdeal.Val

open Cert.KernelIdeal Cert.KernelIdeal.Gen Cert.KernelIdeal.Hand Cert.KernelIdeal.Facts₀ Cert.KernelIdeal.Facts
open Idealize.ShloMosaic Idealize.ShloMosaic.TcCoe Idealize.ShloMosaic.ValueIdx
open Idealize.SL Idealize.SL.Sem Idealize.ShloMosaic.StableHlo

variable (m : (ℓ : Loc nD τ sig) → Buf (Elt Ideal) ℓ)

/-- At the exact instance a narrowing format change is the identity. -/
theorem truncf_id (x : S8x128x128x192.Idx → Elt Ideal .f32) :
    (truncf (F := Ideal) .bf16 x Facts₀.bitsLt_bf16_f32 : S8x128x128x192.Idx → EReal) = x := rfl

/-- The kernel's padded array and the reference's are one function of the second argument: the same border of the
    same zero around the same values. -/
theorem pad_join (x2 : S8x128x128x192.Idx → Elt Ideal .f32) :
    (pad S8x128x136x200 ![0, 0, 4, 4] ![0, 0, 4, 4] ![0, 0, 0, 0]
        (truncf (F := Ideal) .bf16 x2 Facts₀.bitsLt_bf16_f32 : S8x128x128x192.Idx → Elt Ideal .bf16)
        (sitofp (F := Ideal) .bf16 (constantI S_ 32 0#32))
        Facts₀.pads_S8x128x128x192_S8x128x136x200_000_000_440_440 Facts₀.h_S_ : S8x128x136x200.Idx → EReal)
      = (pad Cert.ReferenceIdeal.S8x128x136x200 ![0, 0, 4, 4] ![0, 0, 4, 4] ![0, 0, 0, 0]
        (x2 : Cert.ReferenceIdeal.S8x128x128x192.Idx → Elt Ideal .f32)
        (sitofp (F := Ideal) .f32 (constantI Cert.ReferenceIdeal.S_ 32 0#32))
        Cert.ReferenceIdeal.Facts₀.pads_S8x128x128x192_S8x128x136x200_000_000_440_440 Cert.ReferenceIdeal.Facts₀.h_S_ : Cert.ReferenceIdeal.S8x128x136x200.Idx → EReal) := rfl

/-- The first window's array, at the exact instance, is the first argument. -/
theorem Vx1 (c : Dev nD) :
    (V (F := Ideal) m c main_v0 : S8x128x128x192.Idx → EReal) = (m ((c : Thread nD τ).loc main_arg0) : S8x128x128x192.Idx → EReal) :=
  (V_main_v0 (F := Ideal) m c).trans (truncf_id _)

/-- The padded array, at the exact instance, is the second argument padded as the reference pads it. -/
theorem Vx2_raw (c : Dev nD) :
    (V (F := Ideal) m c main_v2 : S8x128x136x200.Idx → EReal)
      = (pad Cert.ReferenceIdeal.S8x128x136x200 ![0, 0, 4, 4] ![0, 0, 4, 4] ![0, 0, 0, 0]
        (m ((c : Thread nD τ).loc main_arg1) : Cert.ReferenceIdeal.S8x128x128x192.Idx → Elt Ideal .f32)
        (sitofp (F := Ideal) .f32 (constantI Cert.ReferenceIdeal.S_ 32 0#32))
        Cert.ReferenceIdeal.Facts₀.pads_S8x128x128x192_S8x128x136x200_000_000_440_440 Cert.ReferenceIdeal.Facts₀.h_S_ : Cert.ReferenceIdeal.S8x128x136x200.Idx → EReal) :=
  (V_main_v2 (F := Ideal) m c).trans (pad_join _)

end Cert.KernelIdeal.Val

end
-- ==== Proof.Spec.lean ====
/-
  The correlation layer as one function of its two arrays.

  For a batch entry `b`, a pixel `(y, w)` and one of the 80 displacements of the 9×9 window with its
  centre left out, the result is the dot product along the 128 channels of `x1` at the pixel with the
  zero-padded `x2` at the displaced pixel, times a fixed scale `κ`:

      out b k y w = (∑ c, x1 b c y w * P b c (y + dRow k) (w + dCol k)) * κ

  where `P` is `x2` padded by 4 on each side of its two pixel axes (so the displaced pixel, offset by
  0…8, always lies inside `P`), and the 80 channels enumerate the window row by row: channel `k`
  is position `k` of the 81 when `k < 40` and position `k + 1` from there on (position 40, the
  centre, is skipped); its row offset is the position divided by 9 and its column offset the remainder.
  Nothing here needs the entries to be finite: the same sum and the same product stand on both sides.
-/
import Idealize.ShloMosaic.PureOps.Ideal
import Idealize.ShloMosaic.Lib.ValueIdx

noncomputable section

open scoped BigOperators

namespace Cert.Corr

open Idealize.ShloMosaic Idealize.ShloMosaic.ValueIdx

/-- The arrays' shapes, spelt with literal extents. -/
abbrev SX : Shape := ⟨4, ![8, 128, 128, 192]⟩
abbrev SP : Shape := ⟨4, ![8, 128, 136, 200]⟩
abbrev SO : Shape := ⟨4, ![8, 80, 128, 192]⟩

/-- Channel `k`'s position among the 81 displacements, the centre (position 40) skipped. -/
def pos (k : Fin 80) : Nat := if k.val < 40 then k.val else k.val + 1

theorem pos_lt (k : Fin 80) : pos k < 81 := by
  unfold pos; have := k.isLt; split <;> omega

/-- The displacement's row offset into the padded array, 0…8. -/
def dRow (k : Fin 80) : Nat := pos k / 9
/-- The displacement's column offset into the padded array, 0…8. -/
def dCol (k : Fin 80) : Nat := pos k % 9

theorem dRow_le (k : Fin 80) : dRow k ≤ 8 := by
  unfold dRow; have := pos_lt k; omega
theorem dCol_le (k : Fin 80) : dCol k ≤ 8 := by
  unfold dCol; omega

/-- The displaced row, inside the padded array's 136 rows. -/
def rowAt (y : Fin 128) (k : Fin 80) : Fin 136 := ⟨y.val + dRow k, by have := dRow_le k; have := y.isLt; omega⟩
/-- The displaced column, inside the padded array's 200 columns. -/
def colAt (w : Fin 192) (k : Fin 80) : Fin 200 := ⟨w.val + dCol k, by have := dCol_le k; have := w.isLt; omega⟩

/-- One entry of the correlation: the channel dot product at the displaced pixel, scaled. -/
def corrAt (x : SX.Idx → EReal) (P : SP.Idx → EReal) (κ : EReal) (b : Fin 8) (k : Fin 80) (y : Fin 128) (w : Fin 192) : EReal :=
  (∑ c : Fin 128, x (ix4 b c y w) * P (ix4 b c (rowAt y k) (colAt w k))) * κ

/-- The whole result array. -/
def corr (x : SX.Idx → EReal) (P : SP.Idx → EReal) (κ : EReal) : SO.Idx → EReal :=
  fun i => corrAt x P κ (i 0) (i 1) (i 2) (i 3)

theorem corr_ix4 (x : SX.Idx → EReal) (P : SP.Idx → EReal) (κ : EReal) (b : Fin 8) (k : Fin 80) (y : Fin 128) (w : Fin 192) :
    corr x P κ (ix4 b k y w) = corrAt x P κ b k y w := rfl

end Cert.Corr

end
-- ==== Proof.Val.Chan.lean ====
/-
  One displacement's block, read at a pixel.

  For a fixed column shift the body holds a window `v10` of the scratch — 128 channels, 40 rows, 192
  columns — and the first input's block `v12` — 128 channels, 32 rows, 192 columns. For a row shift `o`
  (0…8) it takes rows `o … o + 32` of the window, multiplies by `v12` entry by entry, sums over the 128
  channels and scales. Read on the extended reals (a change of float format is the identity, the
  reduction from its neutral word is the plain sum) the entry at row `r`, column `w` is

      (∑ c, v12 c r w * v10 c (r + o) w) * κ.
-/
import proofs.«122554_j9363028706363_2_alg».proof.Proof.Gen.KernelIdeal
import proofs.«122554_j9363028706363_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Val

open Cert.KernelIdeal Cert.KernelIdeal.Facts₀ Cert.KernelIdeal.Facts
open Idealize.ShloMosaic Idealize.ShloMosaic.ValueIdx

/-- The scale, the one float word both programs write. -/
abbrev κ : EReal := Ideal.ofBits .f32 0x3DB504F3#32

/-- One displacement's block from the scratch window `v10` and the first input's block `v12`, for the row shift `o`. -/
def chan (o : Nat) (hsl : S128x40x192.Slices ![0, o, 0] S128x32x192) (v10 : Vec Ideal S128x40x192 .bf16)
    (v12 : FVec Ideal S128x32x192 .bf16) : FVec Ideal S1x1x32x192 .f32 :=
  shapeCast S1x1x32x192
    (mulf (multiReduction .add [0] S32x192
        (extf .f32 (mulf v12 (extractStridedSlice S128x32x192 ![0, o, 0] v10 hsl)) bitsLt_bf16_f32)
        0x00000000#32 reduces_S128x32x192_S32x192 (.inl rfl) rfl)
      (broadcast S32x192 (Scalar.ofBits .f32 0x3DB504F3#32)))
    shapeCasts_S32x192_S1x1x32x192

/-- The block at row `r`, column `w`: the channel sum of the products at the shifted row, scaled. -/
theorem chan_apply (o : Nat) (ho : o ≤ 8) (hsl : S128x40x192.Slices ![0, o, 0] S128x32x192) (v10 : Vec Ideal S128x40x192 .bf16)
    (v12 : FVec Ideal S128x32x192 .bf16) (r : Fin 32) (w : Fin 192) :
    chan o hsl v10 v12 (ix4 (0 : Fin 1) (0 : Fin 1) r w)
      = (∑ c : Fin 128, v12 (ix3 c r w) * v10 (ix3 c (⟨r.val + o, by have := r.isLt; omega⟩ : Fin 40) w)) * κ := by
  unfold chan
  refine (shapeCast_apply _ shapeCasts_S32x192_S1x1x32x192 (ix4 (0 : Fin 1) (0 : Fin 1) r w) (ix2 r w) ?_).trans ?_
  · rw [Shape.rowMajor_val_two, Shape.rowMajor_val_four]
    show r.val * 192 + w.val = (((0 : Fin 1).val * 1 + (0 : Fin 1).val) * 32 + r.val) * 192 + w.val
    simp
  · show (multiReduction .add [0] S32x192
        (extf .f32 (mulf v12 (extractStridedSlice S128x32x192 ![0, o, 0] v10 hsl)) bitsLt_bf16_f32)
        0x00000000#32 reduces_S128x32x192_S32x192 (.inl rfl) rfl) (ix2 r w) * κ = _
    refine congrArg (· * κ) ?_
    refine (Ideal.multiReduction_add_single _ (0x00000000#32 : BitVec 32) reduces_S128x32x192_S32x192 (.inl rfl) rfl (ix2 r w)).trans ?_
    refine Finset.sum_congr rfl fun c _ => ?_
    show v12 (reduces_S128x32x192_S32x192.lift (ix2 r w) c) * extractStridedSlice S128x32x192 ![0, o, 0] v10 hsl (reduces_S128x32x192_S32x192.lift (ix2 r w) c) = _
    have e : reduces_S128x32x192_S32x192.lift (ix2 r w) c = ix3 (n0 := 128) (n1 := 32) (n2 := 192) c r w := by
      funext a; apply Fin.ext
      match a with
      | ⟨0, _⟩ => rfl
      | ⟨1, _⟩ => rfl
      | ⟨2, _⟩ => rfl
    rw [e]
    refine congrArg (v12 (ix3 c r w) * ·) ?_
    refine extractStridedSlice_apply _ v10 hsl (ix3 c r w) (ix3 c (⟨r.val + o, by have := r.isLt; omega⟩ : Fin 40) w) ?_
    intro a
    match a with
    | ⟨0, _⟩ => show c.val = 0 + c.val; omega
    | ⟨1, _⟩ => show r.val + o = o + r.val; omega
    | ⟨2, _⟩ => show w.val = 0 + w.val; omega

end Cert.KernelIdeal.Val

end
-- ==== Proof.Val.Scratch.lean ====
/-
  The scratch buffer as one function.

  The body copies the second window's block (128 channels, 32 rows, 200 columns) into rows 0…31 of the
  scratch and the third window's block (8 rows) into rows 32…39, each after dropping the leading unit
  axis, and only then reads the scratch. So at channel `c`, row `y`, column `x` the scratch holds the
  second block's entry when `y < 32` and the third block's entry at row `y - 32` otherwise; a load of the
  40-row, 192-column box at column offset `dx` reads it at column `x + dx`. The first window's block
  loses its unit axis the same way.
-/
import proofs.«122554_j9363028706363_2_alg».proof.Proof.Gen.KernelIdeal
import proofs.«122554_j9363028706363_2_alg».proof.Proof.Gen.KernelIdeal.Skeleton
import Idealize.ShloMosaic.Lib.ValueIdx
import Idealize.ShloMosaic.Lib.Pipeline.Value
import Idealize.ShloMosaic.Lib.Pipeline.FrameBody

noncomputable section

namespace Cert.KernelIdeal.Val

open Cert.KernelIdeal Cert.KernelIdeal.Gen
open Idealize.ShloMosaic Idealize.ShloMosaic.ValueIdx

/-- Dropping the leading unit axis of the first window's block. -/
theorem dropUnit_x1 (v : Vec Ideal S1x128x32x192 .bf16) (c : Fin 128) (r : Fin 32) (w : Fin 192) :
    shapeCast S128x32x192 v Facts₀.shapeCasts_S1x128x32x192_S128x32x192 (ix3 c r w) = v (ix4 (0 : Fin 1) c r w) := by
  refine (shapeCast_apply v _ (ix3 c r w) (ix4 (0 : Fin 1) c r w) ?_)
  rw [Shape.rowMajor_val_three, Shape.rowMajor_val_four]
  show (((0 : Fin 1).val * 128 + c.val) * 32 + r.val) * 192 + w.val = (c.val * 32 + r.val) * 192 + w.val
  simp

/-- The second window's block as the body stores it into the scratch. -/
theorem pay3_apply (v : Vec Ideal S1x128x32x200 .bf16) (c : Fin 128) (y : Fin 32) (x : Fin 200) :
    k0_pay3 (F := Ideal) v (ix3 c y x) = v (ix4 (0 : Fin 1) c y x) := by
  unfold k0_pay3
  rw [shapeCast_self]
  refine (shapeCast_apply v _ (ix3 c y x) (ix4 (0 : Fin 1) c y x) ?_)
  rw [Shape.rowMajor_val_three, Shape.rowMajor_val_four]
  show (((0 : Fin 1).val * 128 + c.val) * 32 + y.val) * 200 + x.val = (c.val * 32 + y.val) * 200 + x.val
  simp

/-- The third window's block as the body stores it into the scratch. -/
theorem pay4_apply (v : Vec Ideal S1x128x8x200 .bf16) (c : Fin 128) (y : Fin 8) (x : Fin 200) :
    k0_pay4 (F := Ideal) v (ix3 c y x) = v (ix4 (0 : Fin 1) c y x) := by
  unfold k0_pay4
  rw [shapeCast_self]
  refine (shapeCast_apply v _ (ix3 c y x) (ix4 (0 : Fin 1) c y x) ?_)
  rw [Shape.rowMajor_val_three, Shape.rowMajor_val_four]
  show (((0 : Fin 1).val * 128 + c.val) * 8 + y.val) * 200 + x.val = (c.val * 8 + y.val) * 200 + x.val
  simp

/-- What the scratch holds, from the two blocks copied into it. -/
def scr (x1 : Vec Ideal S1x128x32x200 .bf16) (x2 : Vec Ideal S1x128x8x200 .bf16) (c : Fin 128) (y : Fin 40) (x : Fin 200) : EReal :=
  if h : y.val < 32 then x1 (ix4 (0 : Fin 1) c (⟨y.val, h⟩ : Fin 32) x)
  else x2 (ix4 (0 : Fin 1) c (⟨y.val - 32, by have := y.isLt; omega⟩ : Fin 8) x)

/-- The two slice stores, the 8-row one last, read back as that one function. -/
theorem scratch_canon (p3 : FVec Ideal S128x32x200 .bf16) (p4 : FVec Ideal S128x8x200 .bf16)
    (inb0 : ∀ a, (![0, 0, 0] : Fin 3 → Nat) a + S128x32x200.size a ≤ S128x40x200.size a)
    (inb32 : ∀ a, (![0, 32, 0] : Fin 3 → Nat) a + S128x8x200.size a ≤ S128x40x200.size a)
    (c : Fin 128) (y : Fin 40) (x : Fin 200) :
    View.canon (Val := Elt Ideal) (s := S128x40x200) (e := .bf16)
        [⟨Rect.unit ![0, 32, 0] S128x8x200.size inb32, p4⟩, ⟨Rect.unit ![0, 0, 0] S128x32x200.size inb0, p3⟩] (ix3 c y x)
      = if h : y.val < 32 then p3 (ix3 c (⟨y.val, h⟩ : Fin 32) x)
        else p4 (ix3 c (⟨y.val - 32, by have := y.isLt; omega⟩ : Fin 8) x) := by
  by_cases h : y.val < 32
  · rw [dif_pos h]
    rw [View.canon_cons_of_not_mem]
    · have e : (Rect.unit (s := S128x40x200) ![0, 0, 0] S128x32x200.size inb0).emb (ix3 c (⟨y.val, h⟩ : Fin 32) x) = ix3 c y x := by
        funext a; apply Fin.ext
        match a with
        | ⟨0, _⟩ => show 0 + 1 * c.val = c.val; omega
        | ⟨1, _⟩ => show 0 + 1 * y.val = y.val; omega
        | ⟨2, _⟩ => show 0 + 1 * x.val = x.val; omega
      rw [← e]
      exact View.canon_cons_emb (Val := Elt Ideal) (e := EltTy.bf16) (Rect.unit (s := S128x40x200) ![0, 0, 0] S128x32x200.size inb0) p3 [] _
    · rw [Rect.mem_set_unit]
      intro hm
      have := (hm (1 : Fin 3)).1
      have h2 : (32 : Nat) ≤ y.val := this
      omega
  · rw [dif_neg h]
    have hy := y.isLt
    have e : (Rect.unit (s := S128x40x200) ![0, 32, 0] S128x8x200.size inb32).emb (ix3 c (⟨y.val - 32, by omega⟩ : Fin 8) x) = ix3 c y x := by
      funext a; apply Fin.ext
      match a with
      | ⟨0, _⟩ => show 0 + 1 * c.val = c.val; omega
      | ⟨1, _⟩ => show 32 + 1 * (y.val - 32) = y.val; omega
      | ⟨2, _⟩ => show 0 + 1 * x.val = x.val; omega
    rw [← e]
    exact View.canon_cons_emb (Val := Elt Ideal) (e := EltTy.bf16) (Rect.unit (s := S128x40x200) ![0, 32, 0] S128x8x200.size inb32) p4 _ _

end Cert.KernelIdeal.Val

end
-- ==== Proof.Val.Kernel.lean ====
/-
  The output block the body leaves, as one function of the three input blocks.

  The body's 80 stores tile the output block by channel; the store into channel `k` holds the
  displacement block for the row shift `o` and the column shift `dx` with `9 * o + dx` the channel's
  position in the 9×9 window. Read together they are one function of the block index: at channel `k`,
  row `r`, column `w`

      (∑ ch, x0 ch r w * S ch (r + dRow k) (w + dCol k)) * κ,

  `x0` the first window's block and `S` what the scratch holds — the second window's block on rows
  0…31, the third's on rows 32…39.
-/
import proofs.«122554_j9363028706363_2_alg».proof.Proof.KI.Frame
import proofs.«122554_j9363028706363_2_alg».proof.Proof.Val.Blocks
import proofs.«122554_j9363028706363_2_alg».proof.Proof.Val.Pad
import proofs.«122554_j9363028706363_2_alg».proof.Proof.Spec
import proofs.«122554_j9363028706363_2_alg».proof.Proof.Val.Chan
import proofs.«122554_j9363028706363_2_alg».proof.Proof.Val.Scratch

set_option maxRecDepth 65536

noncomputable section

open scoped BigOperators

namespace Cert.KernelIdeal.Val

open Cert.KernelIdeal Cert.KernelIdeal.Gen Cert.KernelIdeal.Hand Cert.Corr
open Idealize.ShloMosaic Idealize.ShloMosaic.TcCoe Idealize.ShloMosaic.ValueIdx
open Idealize.SL Idealize.SL.Sem
open Idealize.ShloMosaic.Pipeline (Dat)

/-- One entry of the output block, from the first window's block `X0` and the scratch's contents `S`. -/
def GblkAt (X0 : Vec Ideal S1x128x32x192 .bf16) (S : S128x40x200.Idx → EReal) (k : Fin 80) (r : Fin 32) (w : Fin 192) : EReal :=
  (∑ ch : Fin 128, X0 (ix4 (0 : Fin 1) ch r w)
      * S (ix3 ch (⟨r.val + dRow k, by have := dRow_le k; have := r.isLt; omega⟩ : Fin 40)
                  (⟨w.val + dCol k, by have := dCol_le k; have := w.isLt; omega⟩ : Fin 200))) * κ

/-- The output block as one function of its index. -/
def Gblk (X0 : Vec Ideal S1x128x32x192 .bf16) (S : S128x40x200.Idx → EReal) : S1x80x32x192.Idx → EReal :=
  fun y => GblkAt X0 S (y 1) (y 2) (y 3)

/-- The store into channel `k`: the displacement block for the shifts `o`, `dx` of the channel's position is
    the block function on the channel's rectangle. -/
theorem piece_ok (o dx : Nat) (ho : o ≤ 8) (hdx : dx ≤ 8) (k : Nat) (hk : k < 80) (hpos : 9 * o + dx = pos ⟨k, hk⟩)
    (hsl : S128x40x192.Slices ![0, o, 0] S128x32x192)
    (inbk : ∀ a, (![0, k, 0, 0] : Fin 4 → Nat) a + (![1, 1, 32, 192] : Fin 4 → Nat) a ≤ S1x80x32x192.size a)
    (inbdx : ∀ a, (![0, 0, dx] : Fin 3 → Nat) a + S128x40x192.size a ≤ S128x40x200.size a)
    {sig' : RefSig} {κ' : Kind} {sp' : Space} (v : View sig' κ' sp' S128x40x200 .bf16)
    (HS : List (View.Piece (Elt Ideal) S128x40x200 .bf16))
    (X0 : Vec Ideal S1x128x32x192 .bf16) (x12 : FVec Ideal S128x32x192 .bf16)
    (hx12 : ∀ (c : Fin 128) (r : Fin 32) (w : Fin 192), x12 (ix3 c r w) = X0 (ix4 (0 : Fin 1) c r w)) :
    ∀ x : (Rect.unit (s := S1x80x32x192) ![0, k, 0, 0] ![1, 1, 32, 192] inbk).shape.Idx,
      chan o hsl (v.readCov HS (Rect.unit (s := S128x40x200) ![0, 0, dx] S128x40x192.size inbdx).toLoadRect) x12 x
        = Gblk X0 (View.canon HS) ((Rect.unit (s := S1x80x32x192) ![0, k, 0, 0] ![1, 1, 32, 192] inbk).emb x) := by
  intro x
  obtain ⟨a0, a1, r, w, rfl⟩ : ∃ (a0 a1 : Fin 1) (r : Fin 32) (w : Fin 192), x = ix4 a0 a1 r w := ⟨x 0, x 1, x 2, x 3, eq_ix4 x⟩
  obtain rfl : a0 = 0 := Subsingleton.elim _ _
  obtain rfl : a1 = 0 := Subsingleton.elim _ _
  rw [chan_apply o ho hsl _ x12 r w]
  have e : (Rect.unit (s := S1x80x32x192) ![0, k, 0, 0] ![1, 1, 32, 192] inbk).emb (ix4 (0 : Fin 1) (0 : Fin 1) r w)
      = ix4 (0 : Fin 1) (⟨k, hk⟩ : Fin 80) r w := by
    funext a; apply Fin.ext
    match a with
    | ⟨0, _⟩ => show 0 + 1 * 0 = 0; omega
    | ⟨1, _⟩ => show k + 1 * 0 = k; omega
    | ⟨2, _⟩ => show 0 + 1 * r.val = r.val; omega
    | ⟨3, _⟩ => show 0 + 1 * w.val = w.val; omega
  rw [e]
  show _ = GblkAt X0 (View.canon HS) (⟨k, hk⟩ : Fin 80) r w
  unfold GblkAt
  refine congrArg (· * κ) (Finset.sum_congr rfl fun ch _ => ?_)
  rw [hx12, View.readCov_eq_canon']
  refine congrArg (X0 (ix4 (0 : Fin 1) ch r w) * View.canon HS ·) ?_
  funext a; apply Fin.ext
  have hp := pos_lt ⟨k, hk⟩
  match a with
  | ⟨0, _⟩ => show 0 + 1 * ch.val = ch.val; omega
  | ⟨1, _⟩ => show 0 + 1 * (r.val + o) = r.val + dRow ⟨k, hk⟩; unfold dRow; omega
  | ⟨2, _⟩ => show dx + 1 * w.val = w.val + dCol ⟨k, hk⟩; unfold dCol; omega

/-- A load of a whole staging buffer reads its contents. -/
theorem load_whole4 {sig' : RefSig} {κ' : Kind} {sp' : Space} {S : Shape} {e : EltTy} (M : Memref sig' κ' sp' S e) (hM : M.IsWhole)
    (off : Fin S.rank → Nat) (hz : off = fun _ => 0) (inb : ∀ a, off a + S.size a ≤ S.size a) (x : S.Idx → Elt Ideal e) :
    View.readAt (Elt Ideal) M.view (Rect.unit off S.size inb).toLoadRect (hM.unread x) = x := by
  rw [View.readAt_eq_ld, hM.read_unread, View.ld_unit_zero hz]

theorem hz4 : (![0, 0, 0, 0] : Fin 4 → Nat) = fun _ => 0 := funext fun a => by fin_cases a <;> rfl

/-- THE OUTPUT BLOCK: what the body's stores leave, read at channel `k`, row `r`, column `w`. -/
theorem out0_3_apply (c : Dev nD) (i : grid0.Coords) (arg2 : Memref sig .tc .vmem S1x128x32x192 .bf16) (harg2 : arg2.IsWhole) (arg3 : Memref sig .tc .vmem S1x128x32x200 .bf16) (harg3 : arg3.IsWhole) (arg4 : Memref sig .tc .vmem S1x128x8x200 .bf16) (harg4 : arg4.IsWhole) (arg5 : Memref sig .tc .vmem S1x80x32x192 .f32) (harg5 : arg5.IsWhole) (arg6 : Memref sig .tc .vmem S128x40x200 .bf16) (harg6 : arg6.IsWhole)
    (x0 : Vec Ideal S1x128x32x192 .bf16) (x1 : Vec Ideal S1x128x32x200 .bf16) (x2 : Vec Ideal S1x128x8x200 .bf16)
    (k : Fin 80) (r : Fin 32) (w : Fin 192) :
    out0_3 (F := Ideal) c i arg2 harg2 arg3 harg3 arg4 harg4 arg5 harg5 arg6 harg6 x0 x1 x2 (ix4 (0 : Fin 1) k r w)
      = GblkAt x0 (fun j => scr x1 x2 (j 0) (j 1) (j 2)) k r w := by
  unfold out0_3
  rw [View.read_writes_junk_eq_canon]
  have hcov := cover0_3 (F := Ideal) c i arg2 harg2 arg3 harg3 arg4 harg4 arg5 harg5 arg6 harg6 x0 x1 x2 (ix4 (0 : Fin 1) k r w)
  have hX0 : ldX0 (F := Ideal) arg2 harg2 x0 = x0 := load_whole4 arg2 harg2 _ hz4 _ x0
  refine (View.canon_apply_of_pieces (Gblk (ldX0 (F := Ideal) arg2 harg2 x0) (View.canon (kernelRun0.sl.HS0_2 (F := Ideal) c arg3 harg3 arg4 harg4 x1 x2))) _ ?_ _ hcov).trans ?_
  · intro p hp
    rw [kernelRun0_fst] at hp
    simp only [List.mem_cons, List.mem_nil_iff, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals
      exact piece_ok _ _ (by decide) (by decide) _ (by decide) (by decide) (by decide) (by decide) (by decide) _ _ _ _ (fun c r w => dropUnit_x1 (ldX0 (F := Ideal) arg2 harg2 x0) c r w)
  · show GblkAt _ _ k r w = _
    rw [hX0]
    unfold GblkAt
    refine congrArg (· * κ) (Finset.sum_congr rfl fun ch _ => ?_)
    refine congrArg (x0 (ix4 (0 : Fin 1) ch r w) * ·) ?_
    show View.canon (kernelRun0.sl.HS0_2 (F := Ideal) c arg3 harg3 arg4 harg4 x1 x2)
        (ix3 ch (⟨r.val + dRow k, by have := dRow_le k; have := r.isLt; omega⟩ : Fin 40)
                (⟨w.val + dCol k, by have := dCol_le k; have := w.isLt; omega⟩ : Fin 200))
      = scr x1 x2 ch ⟨r.val + dRow k, by have := dRow_le k; have := r.isLt; omega⟩ ⟨w.val + dCol k, by have := dCol_le k; have := w.isLt; omega⟩
    unfold kernelRun0.sl.HS0_2
    rw [scratch_canon]
    unfold scr
    by_cases h : r.val + dRow k < 32
    · rw [dif_pos h, dif_pos h, pay3_apply, load_whole4 arg3 harg3 _ hz4 _ x1]
    · rw [dif_neg h, dif_neg h, pay4_apply, load_whole4 arg4 harg4 _ hz4 _ x2]

/-! ## From the blocks to the whole result array

At the grid point `(b, h)` the first window's block is rows `32h … 32h + 31` of batch entry `b` of the cast
first argument, the scratch holds rows `32h … 32h + 39` of batch entry `b` of the padded array (32 rows from
the second window, the next 8 from the third), and the block written back is rows `32h … 32h + 31` of batch
entry `b` of the result. So what every point writes back is its block of ONE array, the correlation of the two
arrays the region finds; the 32 blocks tile the result. -/

variable (m : (ℓ : Loc nD τ sig) → Buf (Elt Ideal) ℓ)

/-- The correlation of the two arrays as the region finds them. -/
def Gk (c : Dev nD) : S8x80x128x192.Idx → EReal :=
  Cert.Corr.corr (V (F := Ideal) m c main_v0 : S8x128x128x192.Idx → EReal) (V (F := Ideal) m c main_v2 : S8x128x136x200.Idx → EReal) κ

/-- The second window's block at literal coordinates: rows `32h …` of the padded array. -/
theorem blk1_apply (c : Dev nD) (t : Fin cfg0.N) (ch : Fin 128) (y : Fin 32) (x : Fin 200) :
    (blk1 (F := Ideal) m c t : S1x128x32x200.Idx → EReal) (ix4 (0 : Fin 1) ch y x)
      = (V (F := Ideal) m c main_v2 : S8x128x136x200.Idx → EReal)
          (ix4 (bOf t) ch ⟨32 * (hOf t).val + y.val, by have := (hOf t).isLt; have := y.isLt; omega⟩ x) :=
  ((congrFun (fill1_eq (F := Ideal) m c t (fun _ => (0 : EReal))) (ix4 (0 : Fin 1) ch y x)).symm).trans
    (fill1_apply (F := Ideal) m c t (fun _ => (0 : EReal)) ch y x)

/-- What the scratch holds at point `t`: rows `32h … 32h + 39` of the padded array. -/
theorem scr_apply (c : Dev nD) (t : Fin cfg0.N) (ch : Fin 128) (y : Fin 40) (x : Fin 200) :
    scr (blk1 (F := Ideal) m c t) (iblk (F := Ideal) m c 2 t) ch y x
      = (V (F := Ideal) m c main_v2 : S8x128x136x200.Idx → EReal)
          (ix4 (bOf t) ch ⟨32 * (hOf t).val + y.val, by have := (hOf t).isLt; have := y.isLt; omega⟩ x) := by
  unfold scr
  by_cases h : y.val < 32
  · rw [dif_pos h, blk1_apply]
  · rw [dif_neg h, iblk2_apply]
    refine congrArg (V (F := Ideal) m c main_v2 : S8x128x136x200.Idx → EReal) ?_
    funext a; apply Fin.ext
    have hy := y.isLt
    match a with
    | ⟨0, _⟩ => rfl
    | ⟨1, _⟩ => rfl
    | ⟨2, _⟩ => show 32 * ((hOf t).val + 1) + (y.val - 32) = 32 * (hOf t).val + y.val; omega
    | ⟨3, _⟩ => rfl

/-- WHAT POINT `t` WRITES BACK is its block of the correlation of the arrays the region finds. -/
theorem flushed3_eq (c : Dev nD) (t : Fin cfg0.N) :
    (dats (F := Ideal) m 0 c).flushed 3 t = ((cfg0.win 3).blk t).view.read (Elt Ideal) (Gk m c) := by
  show (cfg0.win 3).cut (grid0.coords t) ((dats (F := Ideal) m 0 c).after 3 t) = _
  rw [after0_3]
  funext j
  obtain ⟨a0, k, r, w, rfl⟩ : ∃ (a0 : Fin 1) (k : Fin 80) (r : Fin 32) (w : Fin 192), j = (ix4 a0 k r w : S1x80x32x192.Idx) :=
    ⟨j 0, j 1, j 2, j 3, eq_ix4 j⟩
  obtain rfl : a0 = 0 := Subsingleton.elim _ _
  rw [View.read_apply]
  show out0_3 (F := Ideal) c (grid0.coords t) (ms0_0 t) (hs0_0 t) (ms0_1 t) (hs0_1 t) (ms0_2 t) (hs0_2 t) (ms0_3 t) (hs0_3 t) scM0_0
      (Memref.isWhole_whole _) (iblk m c 0 t) (blk1 m c t) (iblk m c 2 t) (ix4 (0 : Fin 1) k r w)
    = Gk m c (((cfg0.win 3).blk t).view.emb (ix4 (0 : Fin 1) k r w : S1x80x32x192.Idx))
  rw [out0_3_apply, oblk_emb]
  show GblkAt _ _ k r w = corrAt _ _ κ (bOf t) k ⟨32 * (hOf t).val + r.val, by have := (hOf t).isLt; have := r.isLt; omega⟩ w
  unfold GblkAt corrAt
  refine congrArg (· * κ) (Finset.sum_congr rfl fun ch _ => ?_)
  rw [iblk0_apply]
  congr 1
  show scr (blk1 (F := Ideal) m c t) (iblk (F := Ideal) m c 2 t) ch _ _ = _
  rw [scr_apply]
  refine congrArg (V (F := Ideal) m c main_v2 : S8x128x136x200.Idx → EReal) ?_
  funext a; apply Fin.ext
  match a with
  | ⟨0, _⟩ => rfl
  | ⟨1, _⟩ => rfl
  | ⟨2, _⟩ => show 32 * (hOf t).val + (r.val + dRow k) = 32 * (hOf t).val + r.val + dRow k; omega
  | ⟨3, _⟩ => rfl

/-- THE RESULT ARRAY after the run: the correlation of the arrays the region finds. -/
theorem arr3_final (c : Dev nD) : (dats (F := Ideal) m 0 c).arrAt 3 cfg0.N = Gk m c :=
  arrAt3_eq_of_blocks (F := Ideal) c (dats m 0 c) (Gk m c) (flushed3_eq m c)

/-- The second argument with a border of four zeros on each side of its two pixel axes, as the reference program forms it. -/
abbrev padded (x2 : Cert.ReferenceIdeal.S8x128x128x192.Idx → Elt Ideal .f32) : Cert.ReferenceIdeal.S8x128x136x200.Idx → EReal :=
  pad Cert.ReferenceIdeal.S8x128x136x200 ![0, 0, 4, 4] ![0, 0, 4, 4] ![0, 0, 0, 0] x2
    (sitofp (F := Ideal) .f32 (constantI Cert.ReferenceIdeal.S_ 32 0#32))
    Cert.ReferenceIdeal.Facts₀.pads_S8x128x128x192_S8x128x136x200_000_000_440_440 Cert.ReferenceIdeal.Facts₀.h_S_

/-- In terms of the program's arguments: the first array is the first argument and the padded array the padded second
    argument (format changes are the identity on the extended reals), so the result is their correlation. -/
theorem Gk_eq (c : Dev nD) :
    Gk m c = Cert.Corr.corr (m ((c : Thread nD τ).loc main_arg0) : S8x128x128x192.Idx → EReal)
        (padded (m ((c : Thread nD τ).loc main_arg1))) κ := by
  unfold Gk
  exact congrArg₂ (fun a b => Cert.Corr.corr a b κ) (Vx1 m c) (Vx2_raw m c)

/-- THE KERNEL'S RUN, its result named: every weakly fair execution ends with the result array at the correlation of
    the first argument with the padded second, the arguments unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3)
        = Cert.Corr.corr (m ((c.tc : Thread nD τ).loc main_arg0) : S8x128x128x192.Idx → EReal) (padded (m ((c.tc : Thread nD τ).loc main_arg1))) κ
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans ((arr3_final m c).trans (Gk_eq m c)), (h c).2⟩) (run_named (F := Ideal) m ρ)

end Cert.KernelIdeal.Val

end
-- ==== Proof.Ref.Ops.lean ====
/-
  The reference computes each of the 80 channels of the cost volume by the same array operations: cut a
  128×192 window out of the padded second image at a row and column offset, multiply it entry by entry
  with the first image, add up the 128 feature channels starting from zero, and multiply by one fixed
  scalar.  It then gives the channel a unit axis and lays the 80 channels side by side, sixteen at a time
  and then the five groups of sixteen.  This module names those array terms (one channel for arbitrary
  offsets; the two joins for arbitrary pieces; the padded image) and reads each at one entry, concluding
  that a channel built with the window at the offsets of displacement k is the specification's entry for k.
-/
import proofs.«122554_j9363028706363_2_alg».proof.Proof.Spec
import proofs.«122554_j9363028706363_2_alg».proof.Proof.Gen.ReferenceIdeal
import Idealize.ShloMosaic.Lib.Pipeline.Value
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Idealize.ShloMosaic Idealize.ShloMosaic.ValueIdx

/-- The arrays the reference handles, with exact entries: an image, the padded image, one plane per batch
    entry, a channel with its unit axis, sixteen channels, all eighty. -/
abbrev Img : Type := (⟨S8x128x128x192, .f32⟩ : BufTy).Contents (Elt Ideal)
abbrev Padded : Type := (⟨S8x128x136x200, .f32⟩ : BufTy).Contents (Elt Ideal)
abbrev Plane : Type := (⟨S8x128x192, .f32⟩ : BufTy).Contents (Elt Ideal)
abbrev Chan : Type := (⟨S8x1x128x192, .f32⟩ : BufTy).Contents (Elt Ideal)
abbrev Chan16 : Type := (⟨S8x16x128x192, .f32⟩ : BufTy).Contents (Elt Ideal)
abbrev Chan80 : Type := (⟨S8x80x128x192, .f32⟩ : BufTy).Contents (Elt Ideal)

/-- The second image with a border of four zero rows and columns on each side of its two pixel axes. -/
abbrev padded (x2 : Img) : Padded :=
  pad S8x128x136x200 ![0, 0, 4, 4] ![0, 0, 4, 4] ![0, 0, 0, 0] x2 (sitofp (F := Ideal) .f32 (constantI S_ 32 0#32))
    pads_S8x128x128x192_S8x128x136x200_000_000_440_440 h_S_

/-- A window of the padded image starting at row a and column b, read at a pixel, is the padded image at
    the pixel moved down by a and right by b. -/
theorem slice_at (a b : Nat) (hs : S8x128x136x200.Slices ![0, 0, a, b] S8x128x128x192) (P : Padded)
    (bt : Fin 8) (c : Fin 128) (y : Fin 128) (w : Fin 192) (h1 : y.val + a < 136) (h2 : w.val + b < 200) :
    extractStridedSlice S8x128x128x192 ![0, 0, a, b] P hs (ix4 bt c y w) = P (ix4 bt c ⟨y.val + a, h1⟩ ⟨w.val + b, h2⟩) :=
  extractStridedSlice_apply ![0, 0, a, b] P hs (ix4 bt c y w) _ (fun d => match d with
    | ⟨0, _⟩ => by show bt.val = 0 + bt.val; omega
    | ⟨1, _⟩ => by show c.val = 0 + c.val; omega
    | ⟨2, _⟩ => by show y.val + a = a + y.val; omega
    | ⟨3, _⟩ => by show w.val + b = b + w.val; omega)

/-- The sum over the feature axis, started from the zero word, read at a pixel: the plain sum of the 128
    entries above that pixel (the zero word is the real number zero, so the start contributes nothing). -/
theorem reduce_at (z : Img) (bt : Fin 8) (y : Fin 128) (w : Fin 192) :
    Host.reduceAdd (F := Ideal) z (constant (F := Ideal) S_ .f32 0x00000000#32) reducesTo_S8x128x128x192_S8x128x192_d1 h_S_ (ix3 bt y w)
      = ∑ c : Fin 128, z (ix4 bt c y w) := by
  simp only [Host.reduceAdd, Ideal.hostReduceAdd_def]
  rw [Ideal.hostReduceAdd_single reducesTo_S8x128x128x192_S8x128x192_d1 (by decide)]
  rw [show (constant (F := Ideal) S_ .f32 0x00000000#32) (Shape.Idx.first h_S_) = 0 from Ideal.ofBits_zero_f32, zero_add]
  refine Finset.sum_congr rfl fun c _ => ?_
  exact congrArg z (funext fun d => Fin.ext (by match d with | ⟨0, _⟩ => rfl | ⟨1, _⟩ => rfl | ⟨2, _⟩ => rfl | ⟨3, _⟩ => rfl))

/-- A scalar spread over a plane is that scalar at every pixel. -/
theorem scale_at (bits : BitVec 32) (i : S8x128x192.Idx) :
    broadcastInDim S8x128x192 ![] bcast_S_S8x128x192 (constant (F := Ideal) S_ .f32 bits) i = Ideal.ofBits .f32 bits :=
  broadcastInDim_apply _ bcast_S_S8x128x192 (constant (F := Ideal) S_ .f32 bits) i (fun a => a.elim0) (fun a => a.elim0)

/-- A plane given a unit channel axis. -/
abbrev unitAxis (z : Plane) : Chan :=
  broadcastInDim S8x1x128x192 ![0, 2, 3] bcast_S8x128x192_S8x1x128x192_0_2_3 z

/-- Read at channel coordinate 0 it is the plane at the same pixel. -/
theorem unit_axis_at (z : Plane) (bt : Fin 8) (y : Fin 128) (w : Fin 192) :
    unitAxis z (ix4 bt 0 y w) = z (ix3 bt y w) :=
  broadcastInDim_apply _ bcast_S8x128x192_S8x1x128x192_0_2_3 z (ix4 bt 0 y w) (ix3 bt y w) (fun a => match a with
    | ⟨0, _⟩ => by show bt.val = if (8 : Nat) = 1 then 0 else bt.val; rw [if_neg (by decide)]
    | ⟨1, _⟩ => by show y.val = if (128 : Nat) = 1 then 0 else y.val; rw [if_neg (by decide)]
    | ⟨2, _⟩ => by show w.val = if (192 : Nat) = 1 then 0 else w.val; rw [if_neg (by decide)])

/-- One displacement's plane as the reference builds it from the first image x and the padded second image
    P, with the window at row a and column b: window, product, feature sum from zero, scale. -/
def planeTerm (a b : Nat) (hs : S8x128x136x200.Slices ![0, 0, a, b] S8x128x128x192) (x : Img) (P : Padded) : Plane :=
  mulf (Host.reduceAdd (mulf x (extractStridedSlice S8x128x128x192 ![0, 0, a, b] P hs)) (constant (F := Ideal) S_ .f32 0x00000000#32)
      reducesTo_S8x128x128x192_S8x128x192_d1 h_S_)
    (broadcastInDim S8x128x192 ![] bcast_S_S8x128x192 (constant (F := Ideal) S_ .f32 0x3DB504F3#32))

/-- The same with its unit channel axis: one channel of the result. -/
def chanTerm (a b : Nat) (hs : S8x128x136x200.Slices ![0, 0, a, b] S8x128x128x192) (x : Img) (P : Padded) : Chan :=
  unitAxis (planeTerm a b hs x P)

/-- That channel at a pixel: the dot product along the features of x at the pixel with P at the pixel moved
    by (a, b), times the scalar. -/
theorem chanTerm_at (a b : Nat) (ha : a ≤ 8) (hb : b ≤ 8) (hs : S8x128x136x200.Slices ![0, 0, a, b] S8x128x128x192)
    (x : Img) (P : Padded) (bt : Fin 8) (y : Fin 128) (w : Fin 192) :
    chanTerm a b hs x P (ix4 bt 0 y w)
      = (∑ c : Fin 128, x (ix4 bt c y w) * P (ix4 bt c ⟨y.val + a, by have := y.isLt; omega⟩ ⟨w.val + b, by have := w.isLt; omega⟩))
          * Ideal.ofBits .f32 0x3DB504F3#32 := by
  unfold chanTerm planeTerm
  rw [unit_axis_at, mulf_apply, reduce_at, scale_at]
  refine congrArg (· * _) (Finset.sum_congr rfl fun c _ => ?_)
  rw [mulf_apply, slice_at]

/-- With the window at the offsets of displacement k, the channel is the specification's channel k. -/
theorem chanTerm_corr (k : Fin 80) (a b : Nat) (ha : Cert.Corr.dRow k = a) (hb : Cert.Corr.dCol k = b)
    (hs : S8x128x136x200.Slices ![0, 0, a, b] S8x128x128x192) (x : Img) (P : Padded) (bt : Fin 8) (y : Fin 128) (w : Fin 192) :
    chanTerm a b hs x P (ix4 bt 0 y w) = Cert.Corr.corrAt x P (Ideal.ofBits .f32 0x3DB504F3#32) bt k y w := by
  subst ha hb
  exact chanTerm_at _ _ (Cert.Corr.dRow_le k) (Cert.Corr.dCol_le k) hs x P bt y w

/-- Sixteen channels laid side by side along the channel axis. -/
def join16 (f0 f1 f2 f3 f4 f5 f6 f7 f8 f9 f10 f11 f12 f13 f14 f15 : Chan) : Chan16 :=
  concatenate S8x16x128x192 1 [⟨S8x1x128x192, f0⟩, ⟨S8x1x128x192, f1⟩, ⟨S8x1x128x192, f2⟩, ⟨S8x1x128x192, f3⟩, ⟨S8x1x128x192, f4⟩, ⟨S8x1x128x192, f5⟩, ⟨S8x1x128x192, f6⟩, ⟨S8x1x128x192, f7⟩, ⟨S8x1x128x192, f8⟩, ⟨S8x1x128x192, f9⟩, ⟨S8x1x128x192, f10⟩, ⟨S8x1x128x192, f11⟩, ⟨S8x1x128x192, f12⟩, ⟨S8x1x128x192, f13⟩, ⟨S8x1x128x192, f14⟩, ⟨S8x1x128x192, f15⟩]
    concatenates_S8x1x128x192_S8x1x128x192_S8x1x128x192_S8x1x128x192_S8x1x128x192_S8x1x128x192_S8x1x128x192_S8x1x128x192_S8x1x128x192_S8x1x128x192_S8x1x128x192_S8x1x128x192_S8x1x128x192_S8x1x128x192_S8x1x128x192_S8x1x128x192_S8x16x128x192_d1

/-- Read at channel r: the r-th of them at its one channel coordinate. -/
theorem cat16_at (f0 f1 f2 f3 f4 f5 f6 f7 f8 f9 f10 f11 f12 f13 f14 f15 : Chan) (bt : Fin 8) (r : Fin 16) (y : Fin 128) (w : Fin 192) :
    join16 f0 f1 f2 f3 f4 f5 f6 f7 f8 f9 f10 f11 f12 f13 f14 f15 (ix4 bt r y w) = (![f0, f1, f2, f3, f4, f5, f6, f7, f8, f9, f10, f11, f12, f13, f14, f15] : Fin 16 → Chan) r (ix4 bt 0 y w) :=
  concatenate_ofFn_unit_apply (t := S8x16x128x192) (s₁ := S8x1x128x192) 1 (![f0, f1, f2, f3, f4, f5, f6, f7, f8, f9, f10, f11, f12, f13, f14, f15] : Fin 16 → Chan)
    concatenates_S8x1x128x192_S8x1x128x192_S8x1x128x192_S8x1x128x192_S8x1x128x192_S8x1x128x192_S8x1x128x192_S8x1x128x192_S8x1x128x192_S8x1x128x192_S8x1x128x192_S8x1x128x192_S8x1x128x192_S8x1x128x192_S8x1x128x192_S8x1x128x192_S8x16x128x192_d1 rfl rfl (ix4 bt r y w) r rfl (ix4 bt 0 y w) (fun d hd => match d, hd with
      | ⟨0, _⟩, _ => rfl
      | ⟨1, _⟩, hd => absurd rfl hd
      | ⟨2, _⟩, _ => rfl
      | ⟨3, _⟩, _ => rfl)

/-- Five groups of sixteen channels laid side by side. -/
def join5 (f0 f1 f2 f3 f4 : Chan16) : Chan80 :=
  concatenate S8x80x128x192 1 [⟨S8x16x128x192, f0⟩, ⟨S8x16x128x192, f1⟩, ⟨S8x16x128x192, f2⟩, ⟨S8x16x128x192, f3⟩, ⟨S8x16x128x192, f4⟩]
    concatenates_S8x16x128x192_S8x16x128x192_S8x16x128x192_S8x16x128x192_S8x16x128x192_S8x80x128x192_d1

/-- Read at channel 16 g + r: group g at its channel r. -/
theorem cat5_at (f0 f1 f2 f3 f4 : Chan16) (bt : Fin 8) (g : Fin 5) (r : Fin 16) (y : Fin 128) (w : Fin 192) :
    join5 f0 f1 f2 f3 f4 (ix4 bt (⟨16 * g.val + r.val, by have := g.isLt; have := r.isLt; omega⟩ : Fin 80) y w)
      = (![f0, f1, f2, f3, f4] : Fin 5 → Chan16) g (ix4 bt r y w) :=
  concatenate_ofFn_apply (t := S8x80x128x192) (s₁ := S8x16x128x192) 1 (![f0, f1, f2, f3, f4] : Fin 5 → Chan16)
    concatenates_S8x16x128x192_S8x16x128x192_S8x16x128x192_S8x16x128x192_S8x16x128x192_S8x80x128x192_d1 rfl 16 rfl _ g
    (by show (16 * g.val + r.val) / 16 = g.val; have := r.isLt; omega) (ix4 bt r y w)
    (by show r.val = (16 * g.val + r.val) % 16; have := r.isLt; omega)
    (fun d hd => match d, hd with
      | ⟨0, _⟩, _ => rfl
      | ⟨1, _⟩, hd => absurd rfl hd
      | ⟨2, _⟩, _ => rfl
      | ⟨3, _⟩, _ => rfl)

end Cert.ReferenceIdeal.RefValue

end
-- ==== Proof.Ref.Grp.lean ====
/-
  The pieces the reference program is made of.  For one displacement, seven array operations produce its
  plane: the window of the padded second image, its product with the first image, the zero, the feature
  sum, the scale, its spreading over a plane, the scaling.  They are one function of the seven buffers they
  write and of the window's two offsets.  Besides them the program has the zero scalar and the padding at
  its head, one operation per plane giving it a unit channel axis, and six side-by-side joins at its end.
-/
import proofs.«122554_j9363028706363_2_alg».proof.Proof.Ref.Ops
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem
  Idealize.ShloMosaic.StableHlo

/-- The buffers one displacement's operations write, each with the type of the array it holds — the window,
    the product, the zero, the feature sum, the scale, the scale spread over a plane, the scaled sum — and
    the window's row and column offsets. -/
structure Grp where
  vs : TRef sig ⟨S8x128x128x192, .f32⟩
  vm : TRef sig ⟨S8x128x128x192, .f32⟩
  c0 : TRef sig ⟨S_, .f32⟩
  vr : TRef sig ⟨S8x128x192, .f32⟩
  c1 : TRef sig ⟨S_, .f32⟩
  vb : TRef sig ⟨S8x128x192, .f32⟩
  vo : TRef sig ⟨S8x128x192, .f32⟩
  a : Nat
  b : Nat
  hs : S8x128x136x200.Slices ![0, 0, a, b] S8x128x128x192

/-- The buffers a displacement's operations write, in order. -/
noncomputable def Grp.written (d : Grp) : List (Ref sig .tc) :=
  [d.vs.ref, d.vm.ref, d.c0.ref, d.vr.ref, d.c1.ref, d.vb.ref, d.vo.ref]

/-- A displacement's seven operations: they read the first image and the padded second image. -/
noncomputable def Grp.ops (d : Grp) : List (HloOp τ sig (Elt Ideal)) :=
  [ TRef.unary (TRef.of (T := ⟨S8x128x136x200, .f32⟩) main_v0) d.vs
      (fun P => extractStridedSlice S8x128x128x192 ![0, 0, d.a, d.b] P d.hs),
    TRef.binary (TRef.of (T := ⟨S8x128x128x192, .f32⟩) main_arg0) d.vs d.vm (mulf (F := Ideal) (s := S8x128x128x192) (φ := .f32)),
    TRef.nullary d.c0 (constant (F := Ideal) S_ .f32 0x00000000#32),
    TRef.binary d.vm d.c0 d.vr (fun x v => Host.reduceAdd (F := Ideal) (φ := .f32) x v reducesTo_S8x128x128x192_S8x128x192_d1 h_S_),
    TRef.nullary d.c1 (constant (F := Ideal) S_ .f32 0x3DB504F3#32),
    TRef.unary d.c1 d.vb (broadcastInDim S8x128x192 ![] bcast_S_S8x128x192),
    TRef.binary d.vr d.vb d.vo (mulf (F := Ideal) (s := S8x128x192) (φ := .f32)) ]

/-- The operation giving a plane its unit channel axis. -/
noncomputable def bcOp (p : TRef sig ⟨S8x128x192, .f32⟩ × TRef sig ⟨S8x1x128x192, .f32⟩) : HloOp τ sig (Elt Ideal) :=
  TRef.unary p.1 p.2 unitAxis

/-- The zero scalar, its reading as a float, and the padding of the second image by it. -/
noncomputable def headOps : List (HloOp τ sig (Elt Ideal)) :=
  [ nullary main_c (constantI S_ 32 0#32),
    TRef.unary (TRef.of (T := ⟨S_, .i32⟩) main_c) (TRef.of (T := ⟨S_, .f32⟩) main_call0_v0)
      (sitofp (F := Ideal) (s := S_) (w := 32) .f32),
    TRef.binary (TRef.of (T := ⟨S8x128x128x192, .f32⟩) main_arg1) (TRef.of (T := ⟨S_, .f32⟩) main_call0_v0)
      (TRef.of (T := ⟨S8x128x136x200, .f32⟩) main_v0)
      (fun x v => pad S8x128x136x200 ![0, 0, 4, 4] ![0, 0, 4, 4] ![0, 0, 0, 0] x v pads_S8x128x128x192_S8x128x136x200_000_000_440_440 h_S_) ]

/-- The six joins: five of sixteen channels each, then one of the five groups. -/
noncomputable def joinOps : List (HloOp τ sig (Elt Ideal)) :=
  [
    nary ![main_v401, main_v402, main_v403, main_v404, main_v405, main_v406, main_v407, main_v408, main_v409, main_v410, main_v411, main_v412, main_v413, main_v414, main_v415, main_v416] main_v481
      (fun u => join16 (u 0) (u 1) (u 2) (u 3) (u 4) (u 5) (u 6) (u 7) (u 8) (u 9) (u 10) (u 11) (u 12) (u 13) (u 14) (u 15)),
    nary ![main_v417, main_v418, main_v419, main_v420, main_v421, main_v422, main_v423, main_v424, main_v425, main_v426, main_v427, main_v428, main_v429, main_v430, main_v431, main_v432] main_v482
      (fun u => join16 (u 0) (u 1) (u 2) (u 3) (u 4) (u 5) (u 6) (u 7) (u 8) (u 9) (u 10) (u 11) (u 12) (u 13) (u 14) (u 15)),
    nary ![main_v433, main_v434, main_v435, main_v436, main_v437, main_v438, main_v439, main_v440, main_v441, main_v442, main_v443, main_v444, main_v445, main_v446, main_v447, main_v448] main_v483
      (fun u => join16 (u 0) (u 1) (u 2) (u 3) (u 4) (u 5) (u 6) (u 7) (u 8) (u 9) (u 10) (u 11) (u 12) (u 13) (u 14) (u 15)),
    nary ![main_v449, main_v450, main_v451, main_v452, main_v453, main_v454, main_v455, main_v456, main_v457, main_v458, main_v459, main_v460, main_v461, main_v462, main_v463, main_v464] main_v484
      (fun u => join16 (u 0) (u 1) (u 2) (u 3) (u 4) (u 5) (u 6) (u 7) (u 8) (u 9) (u 10) (u 11) (u 12) (u 13) (u 14) (u 15)),
    nary ![main_v465, main_v466, main_v467, main_v468, main_v469, main_v470, main_v471, main_v472, main_v473, main_v474, main_v475, main_v476, main_v477, main_v478, main_v479, main_v480] main_v485
      (fun u => join16 (u 0) (u 1) (u 2) (u 3) (u 4) (u 5) (u 6) (u 7) (u 8) (u 9) (u 10) (u 11) (u 12) (u 13) (u 14) (u 15)),
    nary ![main_v481, main_v482, main_v483, main_v484, main_v485] main_v486
      (fun u => join5 (u 0) (u 1) (u 2) (u 3) (u 4)) ]

end Cert.ReferenceIdeal.RefValue

end
-- ==== Proof.Ref.Table.lean ====
/-
  The reference program as a list of array operations, arranged the way its mathematics is: first the zero
  scalar and the padding of the second image; then, for each of the 80 displacements in window order (row
  by row, the centre left out), the seven operations that produce that displacement's plane; then the 80
  operations giving each plane a unit channel axis; then the six side-by-side joins.
-/
import proofs.«122554_j9363028706363_2_alg».proof.Proof.Ref.Grp

noncomputable section

namespace Cert.ReferenceIdeal.RefValue

open Cert.ReferenceIdeal Cert.ReferenceIdeal.Gen Idealize.ShloMosaic Idealize.ShloMosaic.TcCoe Idealize.SL.Sem
  Idealize.ShloMosaic.StableHlo

/-- The 80 displacements in window order (row by row, the centre left out): buffers and offsets. -/
noncomputable def groups : List Grp :=
  [
    ⟨.of main_v1, .of main_v2, .of main_cst, .of main_v3, .of main_cst_0, .of main_v4, .of main_v5, 0, 0, slices_S8x128x136x200_S8x128x128x192_0_0_0_0⟩,
    ⟨.of main_v6, .of main_v7, .of main_cst_1, .of main_v8, .of main_cst_2, .of main_v9, .of main_v10, 0, 1, slices_S8x128x136x200_S8x128x128x192_0_0_0_1⟩,
    ⟨.of main_v11, .of main_v12, .of main_cst_3, .of main_v13, .of main_cst_4, .of main_v14, .of main_v15, 0, 2, slices_S8x128x136x200_S8x128x128x192_0_0_0_2⟩,
    ⟨.of main_v16, .of main_v17, .of main_cst_5, .of main_v18, .of main_cst_6, .of main_v19, .of main_v20, 0, 3, slices_S8x128x136x200_S8x128x128x192_0_0_0_3⟩,
    ⟨.of main_v21, .of main_v22, .of main_cst_7, .of main_v23, .of main_cst_8, .of main_v24, .of main_v25, 0, 4, slices_S8x128x136x200_S8x128x128x192_0_0_0_4⟩,
    ⟨.of main_v26, .of main_v27, .of main_cst_9, .of main_v28, .of main_cst_10, .of main_v29, .of main_v30, 0, 5, slices_S8x128x136x200_S8x128x128x192_0_0_0_5⟩,
    ⟨.of main_v31, .of main_v32, .of main_cst_11, .of main_v33, .of main_cst_12, .of main_v34, .of main_v35, 0, 6, slices_S8x128x136x200_S8x128x128x192_0_0_0_6⟩,
    ⟨.of main_v36, .of main_v37, .of main_cst_13, .of main_v38, .of main_cst_14, .of main_v39, .of main_v40, 0, 7, slices_S8x128x136x200_S8x128x128x192_0_0_0_7⟩,
    ⟨.of main_v41, .of main_v42, .of main_cst_15, .of main_v43, .of main_cst_16, .of main_v44, .of main_v45, 0, 8, slices_S8x128x136x200_S8x128x128x192_0_0_0_8⟩,
    ⟨.of main_v46, .of main_v47, .of main_cst_17, .of main_v48, .of main_cst_18, .of main_v49, .of main_v50, 1, 0, slices_S8x128x136x200_S8x128x128x192_0_0_1_0⟩,
    ⟨.of main_v51, .of main_v52, .of main_cst_19, .of main_v53, .of main_cst_20, .of main_v54, .of main_v55, 1, 1, slices_S8x128x136x200_S8x128x128x192_0_0_1_1⟩,
    ⟨.of main_v56, .of main_v57, .of main_cst_21, .of main_v58, .of main_cst_22, .of main_v59, .of main_v60, 1, 2, slices_S8x128x136x200_S8x128x128x192_0_0_1_2⟩,
    ⟨.of main_v61, .of main_v62, .of main_cst_23, .of main_v63, .of main_cst_24, .of main_v64, .of main_v65, 1, 3, slices_S8x128x136x200_S8x128x128x192_0_0_1_3⟩,
    ⟨.of main_v66, .of main_v67, .of main_cst_25, .of main_v68, .of main_cst_26, .of main_v69, .of main_v70, 1, 4, slices_S8x128x136x200_S8x128x128x192_0_0_1_4⟩,
    ⟨.of main_v71, .of main_v72, .of main_cst_27, .of main_v73, .of main_cst_28, .of main_v74, .of main_v75, 1, 5, slices_S8x128x136x200_S8x128x128x192_0_0_1_5⟩,
    ⟨.of main_v76, .of main_v77, .of main_cst_29, .of main_v78, .of main_cst_30, .of main_v79, .of main_v80, 1, 6, slices_S8x128x136x200_S8x128x128x192_0_0_1_6⟩,
    ⟨.of main_v81, .of main_v82, .of main_cst_31, .of main_v83, .of main_cst_32, .of main_v84, .of main_v85, 1, 7, slices_S8x128x136x200_S8x128x128x192_0_0_1_7⟩,
    ⟨.of main_v86, .of main_v87, .of main_cst_33, .of main_v88, .of main_cst_34, .of main_v89, .of main_v90, 1, 8, slices_S8x128x136x200_S8x128x128x192_0_0_1_8⟩,
    ⟨.of main_v91, .of main_v92, .of main_cst_35, .of main_v93, .of main_cst_36, .of main_v94, .of main_v95, 2, 0, slices_S8x128x136x200_S8x128x128x192_0_0_2_0⟩,
    ⟨.of main_v96, .of main_v97, .of main_cst_37, .of main_v98, .of main_cst_38, .of main_v99, .of main_v100, 2, 1, slices_S8x128x136x200_S8x128x128x192_0_0_2_1⟩,
    ⟨.of main_v101, .of main_v102, .of main_cst_39, .of main_v103, .of main_cst_40, .of main_v104, .of main_v105, 2, 2, slices_S8x128x136x200_S8x128x128x192_0_0_2_2⟩,
    ⟨.of main_v106, .of main_v107, .of main_cst_41, .of main_v108, .of main_cst_42, .of main_v109, .of main_v110, 2, 3, slices_S8x128x136x200_S8x128x128x192_0_0_2_3⟩,
    ⟨.of main_v111, .of main_v112, .of main_cst_43, .of main_v113, .of main_cst_44, .of main_v114, .of main_v115, 2, 4, slices_S8x128x136x200_S8x128x128x192_0_0_2_4⟩,
    ⟨.of main_v116, .of main_v117, .of main_cst_45, .of main_v118, .of main_cst_46, .of main_v119, .of main_v120, 2, 5, slices_S8x128x136x200_S8x128x128x192_0_0_2_5⟩,
    ⟨.of main_v121, .of main_v122, .of main_cst_47, .of main_v123, .of main_cst_48, .of main_v124, .of main_v125, 2, 6, slices_S8x128x136x200_S8x128x128x192_0_0_2_6⟩,
    ⟨.of main_v126, .of main_v127, .of main_cst_49, .of main_v128, .of main_cst_50, .of main_v129, .of main_v130, 2, 7, slices_S8x128x136x200_S8x128x128x192_0_0_2_7⟩,
    ⟨.of main_v131, .of main_v132, .of main_cst_51, .of main_v133, .of main_cst_52, .of main_v134, .of main_v135, 2, 8, slices_S8x128x136x200_S8x128x128x192_0_0_2_8⟩,
    ⟨.of main_v136, .of main_v137, .of main_cst_53, .of main_v138, .of main_cst_54, .of main_v139, .of main_v140, 3, 0, slices_S8x128x136x200_S8x128x128x192_0_0_3_0⟩,
    ⟨.of main_v141, .of main_v142, .of main_cst_55, .of main_v143, .of main_cst_56, .of main_v144, .of main_v145, 3, 1, slices_S8x128x136x200_S8x128x128x192_0_0_3_1⟩,
    ⟨.of main_v146, .of main_v147, .of main_cst_57, .of main_v148, .of main_cst_58, .of main_v149, .of main_v150, 3, 2, slices_S8x128x136x200_S8x128x128x192_0_0_3_2⟩,
    ⟨.of main_v151, .of main_v152, .of main_cst_59, .of main_v153, .of main_cst_60, .of main_v154, .of main_v155, 3, 3, slices_S8x128x136x200_S8x128x128x192_0_0_3_3⟩,
    ⟨.of main_v156, .of main_v157, .of main_cst_61, .of main_v158, .of main_cst_62, .of main_v159, .of main_v160, 3, 4, slices_S8x128x136x200_S8x128x128x192_0_0_3_4⟩,
    ⟨.of main_v161, .of main_v162, .of main_cst_63, .of main_v163, .of main_cst_64, .of main_v164, .of main_v165, 3, 5, slices_S8x128x136x200_S8x128x128x192_0_0_3_5⟩,
    ⟨.of main_v166, .of main_v167, .of main_cst_65, .of main_v168, .of main_cst_66, .of main_v169, .of main_v170, 3, 6, slices_S8x128x136x200_S8x128x128x192_0_0_3_6⟩,
    ⟨.of main_v171, .of main_v172, .of main_cst_67, .of main_v173, .of main_cst_68, .of main_v174, .of main_v175, 3, 7, slices_S8x128x136x200_S8x128x128x192_0_0_3_7⟩,
    ⟨.of main_v176, .of main_v177, .of main_cst_69, .of main_v178, .of main_cst_70, .of main_v179, .of main_v180, 3, 8, slices_S8x128x136x200_S8x128x128x192_0_0_3_8⟩,
    ⟨.of main_v181, .of main_v182, .of main_cst_71, .of main_v183, .of main_cst_72, .of main_v184, .of main_v185, 4, 0, slices_S8x128x136x200_S8x128x128x192_0_0_4_0⟩,
    ⟨.of main_v186, .of main_v187, .of main_cst_73, .of main_v188, .of main_cst_74, .of main_v189, .of main_v190, 4, 1, slices_S8x128x136x200_S8x128x128x192_0_0_4_1⟩,
    ⟨.of main_v191, .of main_v192, .of main_cst_75, .of main_v193, .of main_cst_76, .of main_v194, .of main_v195, 4, 2, slices_S8x128x136x200_S8x128x128x192_0_0_4_2⟩,
    ⟨.of main_v196, .of main_v197, .of main_cst_77, .of main_v198, .of main_cst_78, .of main_v199, .of main_v200, 4, 3, slices_S8x128x136x200_S8x128x128x192_0_0_4_3⟩,
    ⟨.of main_v201, .of main_v202, .of main_cst_79, .of main_v203, .of main_cst_80, .of main_v204, .of main_v205, 4, 5, slices_S8x128x136x200_S8x128x128x192_0_0_4_5⟩,
    ⟨.of main_v206, .of main_v207, .of main_cst_81, .of main_v208, .of main_cst_82, .of main_v209, .of main_v210, 4, 6, slices_S8x128x136x200_S8x128x128x192_0_0_4_6⟩,
    ⟨.of main_v211, .of main_v212, .of main_cst_83, .of main_v213, .of main_cst_84, .of main_v214, .of main_v215, 4, 7, slices_S8x128x136x200_S8x128x128x192_0_0_4_7⟩,
    ⟨.of main_v216, .of main_v217, .of main_cst_85, .of main_v218, .of main_cst_86, .of main_v219, .of main_v220, 4, 8, slices_S8x128x136x200_S8x128x128x192_0_0_4_8⟩,
    ⟨.of main_v221, .of main_v222, .of main_cst_87, .of main_v223, .of main_cst_88, .of main_v224, .of main_v225, 5, 0, slices_S8x128x136x200_S8x128x128x192_0_0_5_0⟩,
    ⟨.of main_v226, .of main_v227, .of main_cst_89, .of main_v228, .of main_cst_90, .of main_v229, .of main_v230, 5, 1, slices_S8x128x136x200_S8x128x128x192_0_0_5_1⟩,
    ⟨.of main_v231, .of main_v232, .of main_cst_91, .of main_v233, .of main_cst_92, .of main_v234, .of main_v235, 5, 2, slices_S8x128x136x200_S8x128x128x192_0_0_5_2⟩,
    ⟨.of main_v236, .of main_v237, .of main_cst_93, .of main_v238, .of main_cst_94, .of main_v239, .of main_v240, 5, 3, slices_S8x128x136x200_S8x128x128x192_0_0_5_3⟩,
    ⟨.of main_v241, .of main_v242, .of main_cst_95, .of main_v243, .of main_cst_96, .of main_v244, .of main_v245, 5, 4, slices_S8x128x136x200_S8x128x128x192_0_0_5_4⟩,
    ⟨.of main_v246, .of main_v247, .of main_cst_97, .of main_v248, .of main_cst_98, .of main_v249, .of main_v250, 5, 5, slices_S8x128x136x200_S8x128x128x192_0_0_5_5⟩,
    ⟨.of main_v251, .of main_v252, .of main_cst_99, .of main_v253, .of main_cst_100, .of main_v254, .of main_v255, 5, 6, slices_S8x128x136x200_S8x128x128x192_0_0_5_6⟩,
    ⟨.of main_v256, .of main_v257, .of main_cst_101, .of main_v258, .of main_cst_102, .of main_v259, .of main_v260, 5, 7, slices_S8x128x136x200_S8x128x128x192_0_0_5_7⟩,
    ⟨.of main_v261, .of main_v262, .of main_cst_103, .of main_v263, .of main_cst_104, .of main_v264, .of main_v265, 5, 8, slices_S8x128x136x200_S8x128x128x192_0_0_5_8⟩,
    ⟨.of main_v266, .of main_v267, .of main_cst_105, .of main_v268, .of main_cst_106, .of main_v269, .of main_v270, 6, 0, slices_S8x128x136x200_S8x128x128x192_0_0_6_0⟩,
    ⟨.of main_v271, .of main_v272, .of main_cst_107, .of main_v273, .of main_cst_108, .of main_v274, .of main_v275, 6, 1, slices_S8x128x136x200_S8x128x128x192_0_0_6_1⟩,
    ⟨.of main_v276, .of main_v277, .of main_cst_109, .of main_v278, .of main_cst_110, .of main_v279, .of main_v280, 6, 2, slices_S8x128x136x200_S8x128x128x192_0_0_6_2⟩,
    ⟨.of main_v281, .of main_v282, .of main_cst_111, .of main_v283, .of main_cst_112, .of main_v284, .of main_v285, 6, 3, slices_S8x128x136x200_S8x128x128x192_0_0_6_3⟩,
    ⟨.of main_v286, .of main_v287, .of main_cst_113, .of main_v288, .of main_cst_114, .of main_v289, .of main_v290, 6, 4, slices_S8x128x136x200_S8x128x128x192_0_0_6_4⟩,
    ⟨.of main_v291, .of main_v292, .of main_cst_115, .of main_v293, .of main_cst_116, .of main_v294, .of main_v295, 6, 5, slices_S8x128x136x200_S8x128x128x192_0_0_6_5⟩,
    ⟨.of main_v296, .of main_v297, .of main_cst_117, .of main_v298, .of main_cst_118, .of main_v299, .of main_v300, 6, 6, slices_S8x128x136x200_S8x128x128x192_0_0_6_6⟩,
    ⟨.of main_v301, .of main_v302, .of main_cst_119, .of main_v303, .of main_cst_120, .of main_v304, .of main_v305, 6, 7, slices_S8x128x136x200_S8x128x128x192_0_0_6_7⟩,
    ⟨.of main_v306, .of main_v307, .of main_cst_121, .of main_v308, .of main_cst_122, .of main_v309, .of main_v310, 6, 8, slices_S8x128x136x200_S8x128x128x192_0_0_6_8⟩,
    ⟨.of main_v311, .of main_v312, .of main_cst_123, .of main_v313, .of main_cst_124, .of main_v314, .of main_v315, 7, 0, slices_S8x128x136x200_S8x128x128x192_0_0_7_0⟩,
    ⟨.of main_v316, .of main_v317, .of main_cst_125, .of main_v318, .of main_cst_126, .of main_v319, .of main_v320, 7, 1, slices_S8x128x136x200_S8x128x128x192_0_0_7_1⟩,
    ⟨.of main_v321, .of main_v322, .of main_cst_127, .of main_v323, .of main_cst_128, .of main_v324, .of main_v325, 7, 2, slices_S8x128x136x200_S8x128x128x192_0_0_7_2⟩,
    ⟨.of main_v326, .of main_v327, .of main_cst_129, .of main_v328, .of main_cst_130, .of main_v329, .of main_v330, 7, 3, slices_S8x128x136x200_S8x128x128x192_0_0_7_3⟩,
    ⟨.of main_v331, .of main_v332, .of main_cst_131, .of main_v333, .of main_cst_132, .of main_v334, .of main_v335, 7, 4, slices_S8x128x136x200_S8x128x128x192_0_0_7_4⟩,
    ⟨.of main_v336, .of main_v337, .of main_cst_133, .of main_v338, .of main_cst_134, .of main_v339, .of main_v340, 7, 5, slices_S8x128x136x200_S8x128x128x192_0_0_7_5⟩,
    ⟨.of main_v341, .of main_v342, .of main_cst_135, .of main_v343, .of main_cst_136, .of main_v344, .of main_v345, 7, 6, slices_S8x128x136x200_S8x128x128x192_0_0_7_6⟩,
    ⟨.of main_v346, .of main_v347, .of main_cst_137, .of main_v348, .of main_cst_138, .of main_v349, .of main_v350, 7, 7, slices_S8x128x136x200_S8x128x128x192_0_0_7_7⟩,
    ⟨.of main_v351, .of main_v352, .of main_cst_139, .of main_v353, .of main_cst_140, .of main_v354, .of main_v355, 7, 8, slices_S8x128x136x200_S8x128x128x192_0_0_7_8⟩,
    ⟨.of main_v356, .of main_v357, .of main_cst_141, .of main_v358, .of main_cst_142, .of main_v359, .of main_v360, 8, 0, slices_S8x128x136x200_S8x128x128x192_0_0_8_0⟩,
    ⟨.of main_v361, .of main_v362, .of main_cst_143, .of main_v363, .of main_cst_144, .of main_v364, .of main_v365, 8, 1, slices_S8x128x136x200_S8x128x128x192_0_0_8_1⟩,
    ⟨.of main_v366, .of main_v367, .of main_cst_145, .of main_v368, .of main_cst_146, .of main_v369, .of main_v370, 8, 2, slices_S8x128x136x200_S8x128x128x192_0_0_8_2⟩,
    ⟨.of main_v371, .of main_v372, .of main_cst_147, .of main_v373, .of main_cst_148, .of main_v374, .of main_v375, 8, 3, slices_S8x128x136x200_S8x128x128x192_0_0_8_3⟩,
    ⟨.of main_v376, .of main_v377, .of main_cst_149, .of main_v378, .of main_cst_150, .of main_v379, .of main_v380, 8, 4, slices_S8x128x136x200_S8x128x128x192_0_0_8_4⟩,
    ⟨.of main_v381, .of main_v382, .of main_cst_151, .of main_v383, .of main_cst_152, .of main_v384, .of main_v385, 8, 5, slices_S8x128x136x200_S8x128x128x192_0_0_8_5⟩,
    ⟨.of main_v386, .of main_v387, .of main_cst_153, .of main_v388, .of main_cst_154, .of main_v389, .of main_v390, 8, 6, slices_S8x128x136x200_S8x128x128x192_0_0_8_6⟩,
    ⟨.of main_v391, .of main_v392, .of main_cst_155, .of main_v393, .of main_cst_156, .of main_v394, .of main_v395, 8, 7, slices_S8x128x136x200_S8x128x128x192_0_0_8_7⟩,
    ⟨.of main_v396, .of main_v397, .of main_cst_157, .of main_v398, .of main_cst_158, .of main_v399, .of main_v400, 8, 8, slices_S8x128x136x200_S8x128x128x192_0_0_8_8⟩ ]

/-- The 80 channel buffers, in the same order. -/
noncomputable def chanBufs : List (TRef sig ⟨S8x1x128x192, .f32⟩) :=
  [
    .of main_v401,
    .of main_v402,
    .of main_v403,
    .of main_v404,
    .of main_v405,
    .of main_v406,
    .of main_v407,
    .of main_v408,
    .of main_v409,
    .of main_v410,
    .of main_v411,
    .of main_v412,
    .of main_v413,
    .of main_v414,
    .of main_v415,
    .of main_v416,
    .of main_v417,
    .of main_v418,
    .of main_v419,
    .of main_v420,
    .of main_v421,
    .of main_v422,
    .of main_v423,
    .of main_v424,
    .of main_v425,
    .of main_v426,
    .of main_v427,
    .of main_v428,
    .of main_v429,
    .of main_v430,
    .of main_v431,
    .of main_v432,
    .of main_v433,
    .of main_v434,
    .of main_v435,
    .of main_v436,
    .of main_v437,
    .of main_v438,
    .of main_v439,
    .of main_v440,
    .of main_v441,
    .of main_v442,
    .of main_v443,
    .of main_v444,
    .of main_v445,
    .of main_v446,
    .of main_v447,
    .of main_v448,
    .of main_v449,
    .of main_v450,
    .of main_v451,
    .of main_v452,
    .of main_v453,
    .of main_v454,
    .of main_v455,
    .of main_v456,
    .of main_v457,
    .of main_v458,
    .of main_v459,
    .of main_v460,
    .of main_v461,
    .of main_v462,
    .of main_v463,
    .of main_v464,
    .of main_v465,
    .of main_v466,
    .of main_v467,
    .of main_v468,
    .of main_v469,
    .of main_v470,
    .of main_v471,
    .of main_v472,
    .of main_v473,
    .of main_v474,
    .of main_v475,
    .of main_v476,
    .of main_v477,
    .of main_v478,
    .of main_v479,
    .of main_v480 ]

/-- Each unit-axis operation reads a displacement's plane and writes the channel buffer of the same rank. -/
noncomputable def unitPairs : List (TRef sig ⟨S8x128x192, .f32⟩ × TRef sig ⟨S8x1x128x192, .f32⟩) :=
  List.zipWith (fun d c => (d.vo, c)) groups chanBufs

/-- The whole program, in order. -/
noncomputable def ops : List (HloOp τ sig (Elt Ideal)) :=
  headOps ++ (groups.flatMap Grp.ops ++ (unitPairs.map bcOp ++ joinOps))

end Cert.ReferenceIdeal.RefValue

end
-- ==== Proof.Ref.After.lean ====
/-
  What the pieces of the reference program do to the contents of the device's buffers.  One displacement's
  seven operations leave, in the buffer of the scaled sum, that displacement's plane of the first image and
  the padded second image as they found them, and touch no buffer but the seven they write.  Run one
  displacement after another, each plane survives the later displacements (they write other buffers) and
  sees the two images the earlier ones left alone.  The unit-axis operations and the joins are read the
  same way: each writes one buffer from buffers no later operation of its kind overwrites.
-/
import proofs.«122554_j9363028706363_2_alg».proof.Proof.Ref.Grp
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem
  Idealize.ShloMosaic.StableHlo

/-- Contents for every buffer of one device. -/
abbrev Vals : Type := Valuation τ sig (Elt Ideal)

/-- Moving contents to a typed buffer's own type and back changes nothing. -/
theorem ofBuf_toBuf {T : BufTy} (x : TRef sig T) (v : T.Contents (Elt Ideal)) : x.ofBuf (x.toBuf v) = v := by
  unfold TRef.ofBuf TRef.toBuf
  simp

/-! ## One displacement -/

/-- A buffer that is none of the seven a displacement writes keeps its contents. -/
theorem grp_frame (d : Grp) (W : Vals) (r : Ref sig .tc) (hr : r ∉ d.written) :
    after d.ops W (Proc.devRef .tc r) = W (Proc.devRef .tc r) := by
  simp only [Grp.written, List.mem_cons, List.mem_nil_iff, or_false, not_or] at hr
  obtain ⟨h1, h2, h3, h4, h5, h6, h7⟩ := hr
  simp only [Grp.ops, after_cons, after_nil]
  rw [binary_result_ne (h := h7), unary_result_ne (h := h6), nullary_result_ne (h := h5), binary_result_ne (h := h4),
    nullary_result_ne (h := h3), binary_result_ne (h := h2), unary_result_ne (h := h1)]

/-- After a displacement's operations the buffer of its scaled sum holds the displacement's plane of the two
    images' contents before them (the seven buffers being distinct and neither image's among them). -/
theorem grp_vo (d : Grp) (hnd : d.written.Nodup) (hX : main_arg0 ∉ d.written) (hP : main_v0 ∉ d.written) (W : Vals) :
    d.vo.ofBuf (after d.ops W (Proc.devRef .tc d.vo.ref))
      = planeTerm d.a d.b d.hs (W (Proc.devRef .tc main_arg0)) (W (Proc.devRef .tc main_v0)) := by
  simp only [Grp.written, List.nodup_cons, List.mem_cons, List.mem_nil_iff, or_false, not_or, List.nodup_nil, and_true,
    not_false_eq_true] at hnd hX hP
  obtain ⟨⟨s_m, s_c0, s_r, s_c1, s_b, s_o⟩, ⟨m_c0, m_r, m_c1, m_b, m_o⟩, ⟨c0_r, c0_c1, c0_b, c0_o⟩, ⟨r_c1, r_b, r_o⟩, ⟨c1_b, c1_o⟩, b_o⟩ := hnd
  obtain ⟨X_s, X_m, X_c0, X_r, X_c1, X_b, X_o⟩ := hX
  simp (disch := assumption) only [Grp.ops, after_cons, after_nil, nullary_result', unary_result', binary_result',
    nullary_result_ne', unary_result_ne', binary_result_ne', ofBuf_toBuf]
  rfl

/-! ## The displacements one after another -/

/-- A buffer none of the displacements writes keeps its contents through all of them. -/
theorem grps_frame (ds : List Grp) (r : Ref sig .tc) (hr : ∀ d ∈ ds, r ∉ d.written) (W : Vals) :
    after (ds.flatMap Grp.ops) W (Proc.devRef .tc r) = W (Proc.devRef .tc r) := by
  induction ds generalizing W with
  | nil => rfl
  | cons d ds ih =>
    rw [List.flatMap_cons, StableHlo.after_append, ih (fun e he => hr e (List.mem_cons_of_mem _ he)),
      grp_frame d W r (hr d List.mem_cons_self)]

/-- After all of them the i-th displacement's buffer holds its plane of the two images' contents before them:
    no later displacement writes it, and no earlier one writes either image. -/
theorem grps_vo (ds : List Grp) (hok : ∀ d ∈ ds, d.written.Nodup ∧ main_arg0 ∉ d.written ∧ main_v0 ∉ d.written)
    (hpw : ds.Pairwise fun d e => d.vo.ref ∉ e.written) (i : Nat) (hi : i < ds.length) (W : Vals) :
    (ds[i]).vo.ofBuf (after (ds.flatMap Grp.ops) W (Proc.devRef .tc (ds[i]).vo.ref))
      = planeTerm (ds[i]).a (ds[i]).b (ds[i]).hs (W (Proc.devRef .tc main_arg0)) (W (Proc.devRef .tc main_v0)) := by
  induction ds generalizing i W with
  | nil => exact absurd hi (Nat.not_lt_zero _)
  | cons d ds ih =>
    have hokd := hok d List.mem_cons_self
    rw [List.pairwise_cons] at hpw
    rw [List.flatMap_cons, StableHlo.after_append]
    cases i with
    | zero =>
      show d.vo.ofBuf (after (ds.flatMap Grp.ops) (after d.ops W) (Proc.devRef .tc d.vo.ref)) = planeTerm d.a d.b d.hs _ _
      rw [grps_frame ds d.vo.ref hpw.1]
      exact grp_vo d hokd.1 hokd.2.1 hokd.2.2 W
    | succ i =>
      have hi' : i < ds.length := Nat.lt_of_succ_lt_succ hi
      show (ds[i]).vo.ofBuf (after (ds.flatMap Grp.ops) (after d.ops W) (Proc.devRef .tc (ds[i]).vo.ref))
        = planeTerm (ds[i]).a (ds[i]).b (ds[i]).hs _ _
      rw [ih (fun e he => hok e (List.mem_cons_of_mem _ he)) hpw.2 i (Nat.lt_of_succ_lt_succ hi),
        grp_frame d W main_arg0 hokd.2.1, grp_frame d W main_v0 hokd.2.2]

/-! ## The unit-axis operations -/

/-- A buffer none of them writes keeps its contents. -/
theorem bc_frame (ps : List (TRef sig ⟨S8x128x192, .f32⟩ × TRef sig ⟨S8x1x128x192, .f32⟩)) (r : Ref sig .tc)
    (hr : ∀ p ∈ ps, r ≠ p.2.ref) (W : Vals) :
    after (ps.map bcOp) W (Proc.devRef .tc r) = W (Proc.devRef .tc r) := by
  induction ps generalizing W with
  | nil => rfl
  | cons p ps ih =>
    rw [List.map_cons, after_cons, ih (fun q hq => hr q (List.mem_cons_of_mem _ hq))]
    unfold bcOp
    rw [unary_result_ne (h := hr p List.mem_cons_self)]

/-- After all of them the i-th one's channel buffer holds the plane it read, with its unit axis: no later one
    writes that buffer, and none writes a plane's buffer. -/
theorem bc_out (ps : List (TRef sig ⟨S8x128x192, .f32⟩ × TRef sig ⟨S8x1x128x192, .f32⟩))
    (hsrc : ∀ p ∈ ps, ∀ q ∈ ps, p.1.ref ≠ q.2.ref) (hpw : ps.Pairwise fun p q => p.2.ref ≠ q.2.ref)
    (i : Nat) (hi : i < ps.length) (W : Vals) :
    (ps[i]).2.ofBuf (after (ps.map bcOp) W (Proc.devRef .tc (ps[i]).2.ref))
      = unitAxis ((ps[i]).1.ofBuf (W (Proc.devRef .tc (ps[i]).1.ref))) := by
  induction ps generalizing i W with
  | nil => exact absurd hi (Nat.not_lt_zero _)
  | cons p ps ih =>
    rw [List.pairwise_cons] at hpw
    rw [List.map_cons, after_cons]
    cases i with
    | zero =>
      show p.2.ofBuf (after (ps.map bcOp) ((bcOp p).result W) (Proc.devRef .tc p.2.ref)) = unitAxis (p.1.ofBuf (W (Proc.devRef .tc p.1.ref)))
      rw [bc_frame ps p.2.ref hpw.1]
      unfold bcOp
      rw [unary_result, ofBuf_toBuf]
    | succ i =>
      have hi' : i < ps.length := Nat.lt_of_succ_lt_succ hi
      show (ps[i]).2.ofBuf (after (ps.map bcOp) ((bcOp p).result W) (Proc.devRef .tc (ps[i]).2.ref))
        = unitAxis ((ps[i]).1.ofBuf (W (Proc.devRef .tc (ps[i]).1.ref)))
      have hmem : ps[i] ∈ p :: ps := List.mem_cons_of_mem _ (List.getElem_mem _)
      rw [ih (fun a ha b hb => hsrc a (List.mem_cons_of_mem _ ha) b (List.mem_cons_of_mem _ hb)) hpw.2 i (Nat.lt_of_succ_lt_succ hi)]
      unfold bcOp
      rw [unary_result_ne (h := hsrc _ hmem p List.mem_cons_self)]

end Cert.ReferenceIdeal.RefValue

end
-- ==== Proof.Ref.Chans.lean ====
/-
  The reference's result, entry by entry.  Channel k of the result is built from the window of the padded
  second image whose row and column offsets are those of displacement k: the 81 positions of the 9×9 window
  are taken row by row, the centre is left out, so channel k sits at position k before the centre and at
  position k + 1 after it, and its offsets are that position's quotient and remainder by 9.  Each channel
  is therefore the specification's channel (all by the same general fact), and the two layers of
  side-by-side joins only route channel 16 g + r to piece r of group g.
-/
import proofs.«122554_j9363028706363_2_alg».proof.Proof.Ref.Ops

noncomputable section

open scoped BigOperators

namespace Cert.ReferenceIdeal.RefValue

open Cert.ReferenceIdeal Cert.ReferenceIdeal.Gen Idealize.ShloMosaic Idealize.ShloMosaic.ValueIdx

/-! ## The result as one term: five groups of sixteen channels, each channel at its window's offsets -/

/-- Channels 0 to 15, joined. -/
def refGroup0 (x : Img) (P : Padded) : Chan16 :=
  join16
    (chanTerm 0 0 slices_S8x128x136x200_S8x128x128x192_0_0_0_0 x P)
    (chanTerm 0 1 slices_S8x128x136x200_S8x128x128x192_0_0_0_1 x P)
    (chanTerm 0 2 slices_S8x128x136x200_S8x128x128x192_0_0_0_2 x P)
    (chanTerm 0 3 slices_S8x128x136x200_S8x128x128x192_0_0_0_3 x P)
    (chanTerm 0 4 slices_S8x128x136x200_S8x128x128x192_0_0_0_4 x P)
    (chanTerm 0 5 slices_S8x128x136x200_S8x128x128x192_0_0_0_5 x P)
    (chanTerm 0 6 slices_S8x128x136x200_S8x128x128x192_0_0_0_6 x P)
    (chanTerm 0 7 slices_S8x128x136x200_S8x128x128x192_0_0_0_7 x P)
    (chanTerm 0 8 slices_S8x128x136x200_S8x128x128x192_0_0_0_8 x P)
    (chanTerm 1 0 slices_S8x128x136x200_S8x128x128x192_0_0_1_0 x P)
    (chanTerm 1 1 slices_S8x128x136x200_S8x128x128x192_0_0_1_1 x P)
    (chanTerm 1 2 slices_S8x128x136x200_S8x128x128x192_0_0_1_2 x P)
    (chanTerm 1 3 slices_S8x128x136x200_S8x128x128x192_0_0_1_3 x P)
    (chanTerm 1 4 slices_S8x128x136x200_S8x128x128x192_0_0_1_4 x P)
    (chanTerm 1 5 slices_S8x128x136x200_S8x128x128x192_0_0_1_5 x P)
    (chanTerm 1 6 slices_S8x128x136x200_S8x128x128x192_0_0_1_6 x P)

/-- Channels 16 to 31, joined. -/
def refGroup1 (x : Img) (P : Padded) : Chan16 :=
  join16
    (chanTerm 1 7 slices_S8x128x136x200_S8x128x128x192_0_0_1_7 x P)
    (chanTerm 1 8 slices_S8x128x136x200_S8x128x128x192_0_0_1_8 x P)
    (chanTerm 2 0 slices_S8x128x136x200_S8x128x128x192_0_0_2_0 x P)
    (chanTerm 2 1 slices_S8x128x136x200_S8x128x128x192_0_0_2_1 x P)
    (chanTerm 2 2 slices_S8x128x136x200_S8x128x128x192_0_0_2_2 x P)
    (chanTerm 2 3 slices_S8x128x136x200_S8x128x128x192_0_0_2_3 x P)
    (chanTerm 2 4 slices_S8x128x136x200_S8x128x128x192_0_0_2_4 x P)
    (chanTerm 2 5 slices_S8x128x136x200_S8x128x128x192_0_0_2_5 x P)
    (chanTerm 2 6 slices_S8x128x136x200_S8x128x128x192_0_0_2_6 x P)
    (chanTerm 2 7 slices_S8x128x136x200_S8x128x128x192_0_0_2_7 x P)
    (chanTerm 2 8 slices_S8x128x136x200_S8x128x128x192_0_0_2_8 x P)
    (chanTerm 3 0 slices_S8x128x136x200_S8x128x128x192_0_0_3_0 x P)
    (chanTerm 3 1 slices_S8x128x136x200_S8x128x128x192_0_0_3_1 x P)
    (chanTerm 3 2 slices_S8x128x136x200_S8x128x128x192_0_0_3_2 x P)
    (chanTerm 3 3 slices_S8x128x136x200_S8x128x128x192_0_0_3_3 x P)
    (chanTerm 3 4 slices_S8x128x136x200_S8x128x128x192_0_0_3_4 x P)

/-- Channels 32 to 47, joined. -/
def refGroup2 (x : Img) (P : Padded) : Chan16 :=
  join16
    (chanTerm 3 5 slices_S8x128x136x200_S8x128x128x192_0_0_3_5 x P)
    (chanTerm 3 6 slices_S8x128x136x200_S8x128x128x192_0_0_3_6 x P)
    (chanTerm 3 7 slices_S8x128x136x200_S8x128x128x192_0_0_3_7 x P)
    (chanTerm 3 8 slices_S8x128x136x200_S8x128x128x192_0_0_3_8 x P)
    (chanTerm 4 0 slices_S8x128x136x200_S8x128x128x192_0_0_4_0 x P)
    (chanTerm 4 1 slices_S8x128x136x200_S8x128x128x192_0_0_4_1 x P)
    (chanTerm 4 2 slices_S8x128x136x200_S8x128x128x192_0_0_4_2 x P)
    (chanTerm 4 3 slices_S8x128x136x200_S8x128x128x192_0_0_4_3 x P)
    (chanTerm 4 5 slices_S8x128x136x200_S8x128x128x192_0_0_4_5 x P)
    (chanTerm 4 6 slices_S8x128x136x200_S8x128x128x192_0_0_4_6 x P)
    (chanTerm 4 7 slices_S8x128x136x200_S8x128x128x192_0_0_4_7 x P)
    (chanTerm 4 8 slices_S8x128x136x200_S8x128x128x192_0_0_4_8 x P)
    (chanTerm 5 0 slices_S8x128x136x200_S8x128x128x192_0_0_5_0 x P)
    (chanTerm 5 1 slices_S8x128x136x200_S8x128x128x192_0_0_5_1 x P)
    (chanTerm 5 2 slices_S8x128x136x200_S8x128x128x192_0_0_5_2 x P)
    (chanTerm 5 3 slices_S8x128x136x200_S8x128x128x192_0_0_5_3 x P)

/-- Channels 48 to 63, joined. -/
def refGroup3 (x : Img) (P : Padded) : Chan16 :=
  join16
    (chanTerm 5 4 slices_S8x128x136x200_S8x128x128x192_0_0_5_4 x P)
    (chanTerm 5 5 slices_S8x128x136x200_S8x128x128x192_0_0_5_5 x P)
    (chanTerm 5 6 slices_S8x128x136x200_S8x128x128x192_0_0_5_6 x P)
    (chanTerm 5 7 slices_S8x128x136x200_S8x128x128x192_0_0_5_7 x P)
    (chanTerm 5 8 slices_S8x128x136x200_S8x128x128x192_0_0_5_8 x P)
    (chanTerm 6 0 slices_S8x128x136x200_S8x128x128x192_0_0_6_0 x P)
    (chanTerm 6 1 slices_S8x128x136x200_S8x128x128x192_0_0_6_1 x P)
    (chanTerm 6 2 slices_S8x128x136x200_S8x128x128x192_0_0_6_2 x P)
    (chanTerm 6 3 slices_S8x128x136x200_S8x128x128x192_0_0_6_3 x P)
    (chanTerm 6 4 slices_S8x128x136x200_S8x128x128x192_0_0_6_4 x P)
    (chanTerm 6 5 slices_S8x128x136x200_S8x128x128x192_0_0_6_5 x P)
    (chanTerm 6 6 slices_S8x128x136x200_S8x128x128x192_0_0_6_6 x P)
    (chanTerm 6 7 slices_S8x128x136x200_S8x128x128x192_0_0_6_7 x P)
    (chanTerm 6 8 slices_S8x128x136x200_S8x128x128x192_0_0_6_8 x P)
    (chanTerm 7 0 slices_S8x128x136x200_S8x128x128x192_0_0_7_0 x P)
    (chanTerm 7 1 slices_S8x128x136x200_S8x128x128x192_0_0_7_1 x P)

/-- Channels 64 to 79, joined. -/
def refGroup4 (x : Img) (P : Padded) : Chan16 :=
  join16
    (chanTerm 7 2 slices_S8x128x136x200_S8x128x128x192_0_0_7_2 x P)
    (chanTerm 7 3 slices_S8x128x136x200_S8x128x128x192_0_0_7_3 x P)
    (chanTerm 7 4 slices_S8x128x136x200_S8x128x128x192_0_0_7_4 x P)
    (chanTerm 7 5 slices_S8x128x136x200_S8x128x128x192_0_0_7_5 x P)
    (chanTerm 7 6 slices_S8x128x136x200_S8x128x128x192_0_0_7_6 x P)
    (chanTerm 7 7 slices_S8x128x136x200_S8x128x128x192_0_0_7_7 x P)
    (chanTerm 7 8 slices_S8x128x136x200_S8x128x128x192_0_0_7_8 x P)
    (chanTerm 8 0 slices_S8x128x136x200_S8x128x128x192_0_0_8_0 x P)
    (chanTerm 8 1 slices_S8x128x136x200_S8x128x128x192_0_0_8_1 x P)
    (chanTerm 8 2 slices_S8x128x136x200_S8x128x128x192_0_0_8_2 x P)
    (chanTerm 8 3 slices_S8x128x136x200_S8x128x128x192_0_0_8_3 x P)
    (chanTerm 8 4 slices_S8x128x136x200_S8x128x128x192_0_0_8_4 x P)
    (chanTerm 8 5 slices_S8x128x136x200_S8x128x128x192_0_0_8_5 x P)
    (chanTerm 8 6 slices_S8x128x136x200_S8x128x128x192_0_0_8_6 x P)
    (chanTerm 8 7 slices_S8x128x136x200_S8x128x128x192_0_0_8_7 x P)
    (chanTerm 8 8 slices_S8x128x136x200_S8x128x128x192_0_0_8_8 x P)

/-- The reference's result as a function of its two arguments. -/
def refTerm (x1 x2 : Img) : Chan80 :=
  join5 (refGroup0 x1 (padded x2)) (refGroup1 x1 (padded x2)) (refGroup2 x1 (padded x2)) (refGroup3 x1 (padded x2))
    (refGroup4 x1 (padded x2))

/-! ## Sixteen channels joined: piece r is channel 16 g + r -/

theorem group0_at (x : Img) (P : Padded) (bt : Fin 8) (r : Fin 16) (y : Fin 128) (w : Fin 192) :
    refGroup0 x P (ix4 bt r y w)
      = Cert.Corr.corrAt x P (Ideal.ofBits .f32 0x3DB504F3#32) bt ⟨16 * 0 + r.val, by have := r.isLt; omega⟩ y w := by
  unfold refGroup0
  rw [cat16_at]
  match r with
  | ⟨0, _⟩ => exact chanTerm_corr ⟨0, by decide⟩ 0 0 (by decide) (by decide) slices_S8x128x136x200_S8x128x128x192_0_0_0_0 x P bt y w
  | ⟨1, _⟩ => exact chanTerm_corr ⟨1, by decide⟩ 0 1 (by decide) (by decide) slices_S8x128x136x200_S8x128x128x192_0_0_0_1 x P bt y w
  | ⟨2, _⟩ => exact chanTerm_corr ⟨2, by decide⟩ 0 2 (by decide) (by decide) slices_S8x128x136x200_S8x128x128x192_0_0_0_2 x P bt y w
  | ⟨3, _⟩ => exact chanTerm_corr ⟨3, by decide⟩ 0 3 (by decide) (by decide) slices_S8x128x136x200_S8x128x128x192_0_0_0_3 x P bt y w
  | ⟨4, _⟩ => exact chanTerm_corr ⟨4, by decide⟩ 0 4 (by decide) (by decide) slices_S8x128x136x200_S8x128x128x192_0_0_0_4 x P bt y w
  | ⟨5, _⟩ => exact chanTerm_corr ⟨5, by decide⟩ 0 5 (by decide) (by decide) slices_S8x128x136x200_S8x128x128x192_0_0_0_5 x P bt y w
  | ⟨6, _⟩ => exact chanTerm_corr ⟨6, by decide⟩ 0 6 (by decide) (by decide) slices_S8x128x136x200_S8x128x128x192_0_0_0_6 x P bt y w
  | ⟨7, _⟩ => exact chanTerm_corr ⟨7, by decide⟩ 0 7 (by decide) (by decide) slices_S8x128x136x200_S8x128x128x192_0_0_0_7 x P bt y w
  | ⟨8, _⟩ => exact chanTerm_corr ⟨8, by decide⟩ 0 8 (by decide) (by decide) slices_S8x128x136x200_S8x128x128x192_0_0_0_8 x P bt y w
  | ⟨9, _⟩ => exact chanTerm_corr ⟨9, by decide⟩ 1 0 (by decide) (by decide) slices_S8x128x136x200_S8x128x128x192_0_0_1_0 x P bt y w
  | ⟨10, _⟩ => exact chanTerm_corr ⟨10, by decide⟩ 1 1 (by decide) (by decide) slices_S8x128x136x200_S8x128x128x192_0_0_1_1 x P bt y w
  | ⟨11, _⟩ => exact chanTerm_corr ⟨11, by decide⟩ 1 2 (by decide) (by decide) slices_S8x128x136x200_S8x128x128x192_0_0_1_2 x P bt y w
  | ⟨12, _⟩ => exact chanTerm_corr ⟨12, by decide⟩ 1 3 (by decide) (by decide) slices_S8x128x136x200_S8x128x128x192_0_0_1_3 x P bt y w
  | ⟨13, _⟩ => exact chanTerm_corr ⟨13, by decide⟩ 1 4 (by decide) (by decide) slices_S8x128x136x200_S8x128x128x192_0_0_1_4 x P bt y w
  | ⟨14, _⟩ => exact chanTerm_corr ⟨14, by decide⟩ 1 5 (by decide) (by decide) slices_S8x128x136x200_S8x128x128x192_0_0_1_5 x P bt y w
  | ⟨15, _⟩ => exact chanTerm_corr ⟨15, by decide⟩ 1 6 (by decide) (by decide) slices_S8x128x136x200_S8x128x128x192_0_0_1_6 x P bt y w
  | ⟨n + 16, h⟩ => exact absurd h (by omega)

theorem group1_at (x : Img) (P : Padded) (bt : Fin 8) (r : Fin 16) (y : Fin 128) (w : Fin 192) :
    refGroup1 x P (ix4 bt r y w)
      = Cert.Corr.corrAt x P (Ideal.ofBits .f32 0x3DB504F3#32) bt ⟨16 * 1 + r.val, by have := r.isLt; omega⟩ y w := by
  unfold refGroup1
  rw [cat16_at]
  match r with
  | ⟨0, _⟩ => exact chanTerm_corr ⟨16, by decide⟩ 1 7 (by decide) (by decide) slices_S8x128x136x200_S8x128x128x192_0_0_1_7 x P bt y w
  | ⟨1, _⟩ => exact chanTerm_corr ⟨17, by decide⟩ 1 8 (by decide) (by decide) slices_S8x128x136x200_S8x128x128x192_0_0_1_8 x P bt y w
  | ⟨2, _⟩ => exact chanTerm_corr ⟨18, by decide⟩ 2 0 (by decide) (by decide) slices_S8x128x136x200_S8x128x128x192_0_0_2_0 x P bt y w
  | ⟨3, _⟩ => exact chanTerm_corr ⟨19, by decide⟩ 2 1 (by decide) (by decide) slices_S8x128x136x200_S8x128x128x192_0_0_2_1 x P bt y w
  | ⟨4, _⟩ => exact chanTerm_corr ⟨20, by decide⟩ 2 2 (by decide) (by decide) slices_S8x128x136x200_S8x128x128x192_0_0_2_2 x P bt y w
  | ⟨5, _⟩ => exact chanTerm_corr ⟨21, by decide⟩ 2 3 (by decide) (by decide) slices_S8x128x136x200_S8x128x128x192_0_0_2_3 x P bt y w
  | ⟨6, _⟩ => exact chanTerm_corr ⟨22, by decide⟩ 2 4 (by decide) (by decide) slices_S8x128x136x200_S8x128x128x192_0_0_2_4 x P bt y w
  | ⟨7, _⟩ => exact chanTerm_corr ⟨23, by decide⟩ 2 5 (by decide) (by decide) slices_S8x128x136x200_S8x128x128x192_0_0_2_5 x P bt y w
  | ⟨8, _⟩ => exact chanTerm_corr ⟨24, by decide⟩ 2 6 (by decide) (by decide) slices_S8x128x136x200_S8x128x128x192_0_0_2_6 x P bt y w
  | ⟨9, _⟩ => exact chanTerm_corr ⟨25, by decide⟩ 2 7 (by decide) (by decide) slices_S8x128x136x200_S8x128x128x192_0_0_2_7 x P bt y w
  | ⟨10, _⟩ => exact chanTerm_corr ⟨26, by decide⟩ 2 8 (by decide) (by decide) slices_S8x128x136x200_S8x128x128x192_0_0_2_8 x P bt y w
  | ⟨11, _⟩ => exact chanTerm_corr ⟨27, by decide⟩ 3 0 (by decide) (by decide) slices_S8x128x136x200_S8x128x128x192_0_0_3_0 x P bt y w
  | ⟨12, _⟩ => exact chanTerm_corr ⟨28, by decide⟩ 3 1 (by decide) (by decide) slices_S8x128x136x200_S8x128x128x192_0_0_3_1 x P bt y w
  | ⟨13, _⟩ => exact chanTerm_corr ⟨29, by decide⟩ 3 2 (by decide) (by decide) slices_S8x128x136x200_S8x128x128x192_0_0_3_2 x P bt y w
  | ⟨14, _⟩ => exact chanTerm_corr ⟨30, by decide⟩ 3 3 (by decide) (by decide) slices_S8x128x136x200_S8x128x128x192_0_0_3_3 x P bt y w
  | ⟨15, _⟩ => exact chanTerm_corr ⟨31, by decide⟩ 3 4 (by decide) (by decide) slices_S8x128x136x200_S8x128x128x192_0_0_3_4 x P bt y w
  | ⟨n + 16, h⟩ => exact absurd h (by omega)

theorem group2_at (x : Img) (P : Padded) (bt : Fin 8) (r : Fin 16) (y : Fin 128) (w : Fin 192) :
    refGroup2 x P (ix4 bt r y w)
      = Cert.Corr.corrAt x P (Ideal.ofBits .f32 0x3DB504F3#32) bt ⟨16 * 2 + r.val, by have := r.isLt; omega⟩ y w := by
  unfold refGroup2
  rw [cat16_at]
  match r with
  | ⟨0, _⟩ => exact chanTerm_corr ⟨32, by decide⟩ 3 5 (by decide) (by decide) slices_S8x128x136x200_S8x128x128x192_0_0_3_5 x P bt y w
  | ⟨1, _⟩ => exact chanTerm_corr ⟨33, by decide⟩ 3 6 (by decide) (by decide) slices_S8x128x136x200_S8x128x128x192_0_0_3_6 x P bt y w
  | ⟨2, _⟩ => exact chanTerm_corr ⟨34, by decide⟩ 3 7 (by decide) (by decide) slices_S8x128x136x200_S8x128x128x192_0_0_3_7 x P bt y w
  | ⟨3, _⟩ => exact chanTerm_corr ⟨35, by decide⟩ 3 8 (by decide) (by decide) slices_S8x128x136x200_S8x128x128x192_0_0_3_8 x P bt y w
  | ⟨4, _⟩ => exact chanTerm_corr ⟨36, by decide⟩ 4 0 (by decide) (by decide) slices_S8x128x136x200_S8x128x128x192_0_0_4_0 x P bt y w
  | ⟨5, _⟩ => exact chanTerm_corr ⟨37, by decide⟩ 4 1 (by decide) (by decide) slices_S8x128x136x200_S8x128x128x192_0_0_4_1 x P bt y w
  | ⟨6, _⟩ => exact chanTerm_corr ⟨38, by decide⟩ 4 2 (by decide) (by decide) slices_S8x128x136x200_S8x128x128x192_0_0_4_2 x P bt y w
  | ⟨7, _⟩ => exact chanTerm_corr ⟨39, by decide⟩ 4 3 (by decide) (by decide) slices_S8x128x136x200_S8x128x128x192_0_0_4_3 x P bt y w
  | ⟨8, _⟩ => exact chanTerm_corr ⟨40, by decide⟩ 4 5 (by decide) (by decide) slices_S8x128x136x200_S8x128x128x192_0_0_4_5 x P bt y w
  | ⟨9, _⟩ => exact chanTerm_corr ⟨41, by decide⟩ 4 6 (by decide) (by decide) slices_S8x128x136x200_S8x128x128x192_0_0_4_6 x P bt y w
  | ⟨10, _⟩ => exact chanTerm_corr ⟨42, by decide⟩ 4 7 (by decide) (by decide) slices_S8x128x136x200_S8x128x128x192_0_0_4_7 x P bt y w
  | ⟨11, _⟩ => exact chanTerm_corr ⟨43, by decide⟩ 4 8 (by decide) (by decide) slices_S8x128x136x200_S8x128x128x192_0_0_4_8 x P bt y w
  | ⟨12, _⟩ => exact chanTerm_corr ⟨44, by decide⟩ 5 0 (by decide) (by decide) slices_S8x128x136x200_S8x128x128x192_0_0_5_0 x P bt y w
  | ⟨13, _⟩ => exact chanTerm_corr ⟨45, by decide⟩ 5 1 (by decide) (by decide) slices_S8x128x136x200_S8x128x128x192_0_0_5_1 x P bt y w
  | ⟨14, _⟩ => exact chanTerm_corr ⟨46, by decide⟩ 5 2 (by decide) (by decide) slices_S8x128x136x200_S8x128x128x192_0_0_5_2 x P bt y w
  | ⟨15, _⟩ => exact chanTerm_corr ⟨47, by decide⟩ 5 3 (by decide) (by decide) slices_S8x128x136x200_S8x128x128x192_0_0_5_3 x P bt y w
  | ⟨n + 16, h⟩ => exact absurd h (by omega)

theorem group3_at (x : Img) (P : Padded) (bt : Fin 8) (r : Fin 16) (y : Fin 128) (w : Fin 192) :
    refGroup3 x P (ix4 bt r y w)
      = Cert.Corr.corrAt x P (Ideal.ofBits .f32 0x3DB504F3#32) bt ⟨16 * 3 + r.val, by have := r.isLt; omega⟩ y w := by
  unfold refGroup3
  rw [cat16_at]
  match r with
  | ⟨0, _⟩ => exact chanTerm_corr ⟨48, by decide⟩ 5 4 (by decide) (by decide) slices_S8x128x136x200_S8x128x128x192_0_0_5_4 x P bt y w
  | ⟨1, _⟩ => exact chanTerm_corr ⟨49, by decide⟩ 5 5 (by decide) (by decide) slices_S8x128x136x200_S8x128x128x192_0_0_5_5 x P bt y w
  | ⟨2, _⟩ => exact chanTerm_corr ⟨50, by decide⟩ 5 6 (by decide) (by decide) slices_S8x128x136x200_S8x128x128x192_0_0_5_6 x P bt y w
  | ⟨3, _⟩ => exact chanTerm_corr ⟨51, by decide⟩ 5 7 (by decide) (by decide) slices_S8x128x136x200_S8x128x128x192_0_0_5_7 x P bt y w
  | ⟨4, _⟩ => exact chanTerm_corr ⟨52, by decide⟩ 5 8 (by decide) (by decide) slices_S8x128x136x200_S8x128x128x192_0_0_5_8 x P bt y w
  | ⟨5, _⟩ => exact chanTerm_corr ⟨53, by decide⟩ 6 0 (by decide) (by decide) slices_S8x128x136x200_S8x128x128x192_0_0_6_0 x P bt y w
  | ⟨6, _⟩ => exact chanTerm_corr ⟨54, by decide⟩ 6 1 (by decide) (by decide) slices_S8x128x136x200_S8x128x128x192_0_0_6_1 x P bt y w
  | ⟨7, _⟩ => exact chanTerm_corr ⟨55, by decide⟩ 6 2 (by decide) (by decide) slices_S8x128x136x200_S8x128x128x192_0_0_6_2 x P bt y w
  | ⟨8, _⟩ => exact chanTerm_corr ⟨56, by decide⟩ 6 3 (by decide) (by decide) slices_S8x128x136x200_S8x128x128x192_0_0_6_3 x P bt y w
  | ⟨9, _⟩ => exact chanTerm_corr ⟨57, by decide⟩ 6 4 (by decide) (by decide) slices_S8x128x136x200_S8x128x128x192_0_0_6_4 x P bt y w
  | ⟨10, _⟩ => exact chanTerm_corr ⟨58, by decide⟩ 6 5 (by decide) (by decide) slices_S8x128x136x200_S8x128x128x192_0_0_6_5 x P bt y w
  | ⟨11, _⟩ => exact chanTerm_corr ⟨59, by decide⟩ 6 6 (by decide) (by decide) slices_S8x128x136x200_S8x128x128x192_0_0_6_6 x P bt y w
  | ⟨12, _⟩ => exact chanTerm_corr ⟨60, by decide⟩ 6 7 (by decide) (by decide) slices_S8x128x136x200_S8x128x128x192_0_0_6_7 x P bt y w
  | ⟨13, _⟩ => exact chanTerm_corr ⟨61, by decide⟩ 6 8 (by decide) (by decide) slices_S8x128x136x200_S8x128x128x192_0_0_6_8 x P bt y w
  | ⟨14, _⟩ => exact chanTerm_corr ⟨62, by decide⟩ 7 0 (by decide) (by decide) slices_S8x128x136x200_S8x128x128x192_0_0_7_0 x P bt y w
  | ⟨15, _⟩ => exact chanTerm_corr ⟨63, by decide⟩ 7 1 (by decide) (by decide) slices_S8x128x136x200_S8x128x128x192_0_0_7_1 x P bt y w
  | ⟨n + 16, h⟩ => exact absurd h (by omega)

theorem group4_at (x : Img) (P : Padded) (bt : Fin 8) (r : Fin 16) (y : Fin 128) (w : Fin 192) :
    refGroup4 x P (ix4 bt r y w)
      = Cert.Corr.corrAt x P (Ideal.ofBits .f32 0x3DB504F3#32) bt ⟨16 * 4 + r.val, by have := r.isLt; omega⟩ y w := by
  unfold refGroup4
  rw [cat16_at]
  match r with
  | ⟨0, _⟩ => exact chanTerm_corr ⟨64, by decide⟩ 7 2 (by decide) (by decide) slices_S8x128x136x200_S8x128x128x192_0_0_7_2 x P bt y w
  | ⟨1, _⟩ => exact chanTerm_corr ⟨65, by decide⟩ 7 3 (by decide) (by decide) slices_S8x128x136x200_S8x128x128x192_0_0_7_3 x P bt y w
  | ⟨2, _⟩ => exact chanTerm_corr ⟨66, by decide⟩ 7 4 (by decide) (by decide) slices_S8x128x136x200_S8x128x128x192_0_0_7_4 x P bt y w
  | ⟨3, _⟩ => exact chanTerm_corr ⟨67, by decide⟩ 7 5 (by decide) (by decide) slices_S8x128x136x200_S8x128x128x192_0_0_7_5 x P bt y w
  | ⟨4, _⟩ => exact chanTerm_corr ⟨68, by decide⟩ 7 6 (by decide) (by decide) slices_S8x128x136x200_S8x128x128x192_0_0_7_6 x P bt y w
  | ⟨5, _⟩ => exact chanTerm_corr ⟨69, by decide⟩ 7 7 (by decide) (by decide) slices_S8x128x136x200_S8x128x128x192_0_0_7_7 x P bt y w
  | ⟨6, _⟩ => exact chanTerm_corr ⟨70, by decide⟩ 7 8 (by decide) (by decide) slices_S8x128x136x200_S8x128x128x192_0_0_7_8 x P bt y w
  | ⟨7, _⟩ => exact chanTerm_corr ⟨71, by decide⟩ 8 0 (by decide) (by decide) slices_S8x128x136x200_S8x128x128x192_0_0_8_0 x P bt y w
  | ⟨8, _⟩ => exact chanTerm_corr ⟨72, by decide⟩ 8 1 (by decide) (by decide) slices_S8x128x136x200_S8x128x128x192_0_0_8_1 x P bt y w
  | ⟨9, _⟩ => exact chanTerm_corr ⟨73, by decide⟩ 8 2 (by decide) (by decide) slices_S8x128x136x200_S8x128x128x192_0_0_8_2 x P bt y w
  | ⟨10, _⟩ => exact chanTerm_corr ⟨74, by decide⟩ 8 3 (by decide) (by decide) slices_S8x128x136x200_S8x128x128x192_0_0_8_3 x P bt y w
  | ⟨11, _⟩ => exact chanTerm_corr ⟨75, by decide⟩ 8 4 (by decide) (by decide) slices_S8x128x136x200_S8x128x128x192_0_0_8_4 x P bt y w
  | ⟨12, _⟩ => exact chanTerm_corr ⟨76, by decide⟩ 8 5 (by decide) (by decide) slices_S8x128x136x200_S8x128x128x192_0_0_8_5 x P bt y w
  | ⟨13, _⟩ => exact chanTerm_corr ⟨77, by decide⟩ 8 6 (by decide) (by decide) slices_S8x128x136x200_S8x128x128x192_0_0_8_6 x P bt y w
  | ⟨14, _⟩ => exact chanTerm_corr ⟨78, by decide⟩ 8 7 (by decide) (by decide) slices_S8x128x136x200_S8x128x128x192_0_0_8_7 x P bt y w
  | ⟨15, _⟩ => exact chanTerm_corr ⟨79, by decide⟩ 8 8 (by decide) (by decide) slices_S8x128x136x200_S8x128x128x192_0_0_8_8 x P bt y w
  | ⟨n + 16, h⟩ => exact absurd h (by omega)

/-! ## The five groups joined: the whole result -/

/-- The result at batch entry bt, channel k and pixel (y, w) is the specification's entry there. -/
theorem ref_at (x1 x2 : Img) (bt : Fin 8) (k : Fin 80) (y : Fin 128) (w : Fin 192) :
    refTerm x1 x2 (ix4 bt k y w) = Cert.Corr.corrAt x1 (padded x2) (Ideal.ofBits .f32 0x3DB504F3#32) bt k y w := by
  obtain ⟨g, r, rfl⟩ : ∃ (g : Fin 5) (r : Fin 16), k = ⟨16 * g.val + r.val, by have := g.isLt; have := r.isLt; omega⟩ :=
    ⟨⟨k.val / 16, by have := k.isLt; omega⟩, ⟨k.val % 16, Nat.mod_lt _ (by decide)⟩,
      Fin.ext (by show k.val = 16 * (k.val / 16) + k.val % 16; omega)⟩
  unfold refTerm
  rw [cat5_at]
  match g with
  | ⟨0, _⟩ => exact group0_at x1 (padded x2) bt r y w
  | ⟨1, _⟩ => exact group1_at x1 (padded x2) bt r y w
  | ⟨2, _⟩ => exact group2_at x1 (padded x2) bt r y w
  | ⟨3, _⟩ => exact group3_at x1 (padded x2) bt r y w
  | ⟨4, _⟩ => exact group4_at x1 (padded x2) bt r y w
  | ⟨n + 5, h⟩ => exact absurd h (by omega)

/-- So the reference's result is the specification of the first argument, the padded second argument and the scale. -/
theorem ref_eq (x1 x2 : Img) : refTerm x1 x2 = Cert.Corr.corr x1 (padded x2) (Ideal.ofBits .f32 0x3DB504F3#32) := by
  funext i
  obtain ⟨bt, k, y, w, rfl⟩ : ∃ (bt : Fin 8) (k : Fin 80) (y : Fin 128) (w : Fin 192), i = ix4 bt k y w :=
    ⟨i 0, i 1, i 2, i 3, eq_ix4 i⟩
  exact ref_at x1 x2 bt k y w

end Cert.ReferenceIdeal.RefValue

end
-- ==== Proof.Ref.Result.lean ====
/-
  The contents of the reference's buffers after the whole program, read off its arrangement: the head leaves
  the padded second image and does not touch the first; every displacement then leaves its plane (later
  displacements write other buffers, earlier ones leave both images alone); every unit-axis operation leaves
  its channel; the joins lay the 80 channels side by side.  So the result buffer holds the result term of the
  two arguments' launch contents, and no operation writes an argument's buffer.
-/
import proofs.«122554_j9363028706363_2_alg».proof.Proof.Ref.Table
import proofs.«122554_j9363028706363_2_alg».proof.Proof.Ref.After
import proofs.«122554_j9363028706363_2_alg».proof.Proof.Ref.Chans

noncomputable section

namespace Cert.ReferenceIdeal.RefValue

open Cert.ReferenceIdeal Cert.ReferenceIdeal.Gen Idealize.ShloMosaic Idealize.ShloMosaic.TcCoe Idealize.SL.Sem
  Idealize.ShloMosaic.StableHlo

/-! ## The buffers are told apart -/

/-- Each displacement writes seven distinct buffers, neither image's among them. -/
theorem groups_ok : ∀ d ∈ groups, d.written.Nodup ∧ main_arg0 ∉ d.written ∧ main_v0 ∉ d.written := by decide +kernel
/-- Nor the second argument's. -/
theorem groups_arg1 : ∀ d ∈ groups, main_arg1 ∉ d.written := by decide +kernel
/-- No later displacement writes an earlier one's plane. -/
theorem groups_pw : groups.Pairwise (fun d e => d.vo.ref ∉ e.written) := by decide +kernel
/-- No unit-axis operation writes a plane's buffer. -/
theorem pairs_src : ∀ p ∈ unitPairs, ∀ q ∈ unitPairs, p.1.ref ≠ q.2.ref := by decide +kernel
/-- The channel buffers are distinct. -/
theorem pairs_pw : unitPairs.Pairwise (fun p q => p.2.ref ≠ q.2.ref) := by decide +kernel
/-- Neither argument's buffer is a channel buffer. -/
theorem pairs_arg0 : ∀ p ∈ unitPairs, main_arg0 ≠ p.2.ref := by decide +kernel
theorem pairs_arg1 : ∀ p ∈ unitPairs, main_arg1 ≠ p.2.ref := by decide +kernel
theorem pairs_len : unitPairs.length = 80 := by decide +kernel
theorem groups_len : groups.length = 80 := by decide +kernel

/-! ## The head and the joins -/

theorem head_v0 (V : Vals) : after headOps V (Proc.devRef .tc main_v0) = padded (V (Proc.devRef .tc main_arg1)) := by
  unfold headOps; after_results; rfl
theorem head_arg0 (V : Vals) : after headOps V (Proc.devRef .tc main_arg0) = V (Proc.devRef .tc main_arg0) := by
  unfold headOps; after_results
theorem head_arg1 (V : Vals) : after headOps V (Proc.devRef .tc main_arg1) = V (Proc.devRef .tc main_arg1) := by
  unfold headOps; after_results

theorem joins_arg0 (W : Vals) : after joinOps W (Proc.devRef .tc main_arg0) = W (Proc.devRef .tc main_arg0) := by
  unfold joinOps; after_results
theorem joins_arg1 (W : Vals) : after joinOps W (Proc.devRef .tc main_arg1) = W (Proc.devRef .tc main_arg1) := by
  unfold joinOps; after_results

/-- After the joins the result buffer holds the 80 channel buffers' contents laid side by side. -/
theorem joins_out (W : Vals) :
    after joinOps W (Proc.devRef .tc main_v486)
      = join5 (join16 (W (Proc.devRef .tc main_v401)) (W (Proc.devRef .tc main_v402)) (W (Proc.devRef .tc main_v403)) (W (Proc.devRef .tc main_v404)) (W (Proc.devRef .tc main_v405)) (W (Proc.devRef .tc main_v406)) (W (Proc.devRef .tc main_v407)) (W (Proc.devRef .tc main_v408)) (W (Proc.devRef .tc main_v409)) (W (Proc.devRef .tc main_v410)) (W (Proc.devRef .tc main_v411)) (W (Proc.devRef .tc main_v412)) (W (Proc.devRef .tc main_v413)) (W (Proc.devRef .tc main_v414)) (W (Proc.devRef .tc main_v415)) (W (Proc.devRef .tc main_v416)))
          (join16 (W (Proc.devRef .tc main_v417)) (W (Proc.devRef .tc main_v418)) (W (Proc.devRef .tc main_v419)) (W (Proc.devRef .tc main_v420)) (W (Proc.devRef .tc main_v421)) (W (Proc.devRef .tc main_v422)) (W (Proc.devRef .tc main_v423)) (W (Proc.devRef .tc main_v424)) (W (Proc.devRef .tc main_v425)) (W (Proc.devRef .tc main_v426)) (W (Proc.devRef .tc main_v427)) (W (Proc.devRef .tc main_v428)) (W (Proc.devRef .tc main_v429)) (W (Proc.devRef .tc main_v430)) (W (Proc.devRef .tc main_v431)) (W (Proc.devRef .tc main_v432)))
          (join16 (W (Proc.devRef .tc main_v433)) (W (Proc.devRef .tc main_v434)) (W (Proc.devRef .tc main_v435)) (W (Proc.devRef .tc main_v436)) (W (Proc.devRef .tc main_v437)) (W (Proc.devRef .tc main_v438)) (W (Proc.devRef .tc main_v439)) (W (Proc.devRef .tc main_v440)) (W (Proc.devRef .tc main_v441)) (W (Proc.devRef .tc main_v442)) (W (Proc.devRef .tc main_v443)) (W (Proc.devRef .tc main_v444)) (W (Proc.devRef .tc main_v445)) (W (Proc.devRef .tc main_v446)) (W (Proc.devRef .tc main_v447)) (W (Proc.devRef .tc main_v448)))
          (join16 (W (Proc.devRef .tc main_v449)) (W (Proc.devRef .tc main_v450)) (W (Proc.devRef .tc main_v451)) (W (Proc.devRef .tc main_v452)) (W (Proc.devRef .tc main_v453)) (W (Proc.devRef .tc main_v454)) (W (Proc.devRef .tc main_v455)) (W (Proc.devRef .tc main_v456)) (W (Proc.devRef .tc main_v457)) (W (Proc.devRef .tc main_v458)) (W (Proc.devRef .tc main_v459)) (W (Proc.devRef .tc main_v460)) (W (Proc.devRef .tc main_v461)) (W (Proc.devRef .tc main_v462)) (W (Proc.devRef .tc main_v463)) (W (Proc.devRef .tc main_v464)))
          (join16 (W (Proc.devRef .tc main_v465)) (W (Proc.devRef .tc main_v466)) (W (Proc.devRef .tc main_v467)) (W (Proc.devRef .tc main_v468)) (W (Proc.devRef .tc main_v469)) (W (Proc.devRef .tc main_v470)) (W (Proc.devRef .tc main_v471)) (W (Proc.devRef .tc main_v472)) (W (Proc.devRef .tc main_v473)) (W (Proc.devRef .tc main_v474)) (W (Proc.devRef .tc main_v475)) (W (Proc.devRef .tc main_v476)) (W (Proc.devRef .tc main_v477)) (W (Proc.devRef .tc main_v478)) (W (Proc.devRef .tc main_v479)) (W (Proc.devRef .tc main_v480))) := by
  unfold joinOps; after_results_simp <;> rfl

/-! ## A channel buffer after the displacements and the unit-axis operations -/

/-- The n-th channel buffer then holds the n-th displacement's channel of the two images' contents before. -/
theorem chan_val (n : Nat) (hn : n < unitPairs.length) (hn' : n < groups.length) (W : Vals) :
    (unitPairs[n]'hn).2.ofBuf (after (unitPairs.map bcOp) (after (groups.flatMap Grp.ops) W) (Proc.devRef .tc (unitPairs[n]'hn).2.ref))
      = chanTerm (groups[n]'hn').a (groups[n]'hn').b (groups[n]'hn').hs (W (Proc.devRef .tc main_arg0)) (W (Proc.devRef .tc main_v0)) := by
  rw [bc_out unitPairs pairs_src pairs_pw n hn]
  have e : (unitPairs[n]'hn).1 = (groups[n]'hn').vo := by simp only [unitPairs, List.getElem_zipWith]
  rw [e]
  unfold chanTerm
  exact congrArg unitAxis (grps_vo groups groups_ok groups_pw n hn' W)

end Cert.ReferenceIdeal.RefValue

end
-- ==== Proof.Ref.Whole.lean ====
/-
  The whole program's effect on the three buffers the claims speak of: the result buffer ends holding the
  result term of the two arguments' launch contents, and the arguments' buffers end as they began.
-/
import proofs.«122554_j9363028706363_2_alg».proof.Proof.Ref.Result

noncomputable section

namespace Cert.ReferenceIdeal.RefValue

open Cert.ReferenceIdeal Cert.ReferenceIdeal.Gen Idealize.ShloMosaic Idealize.ShloMosaic.TcCoe Idealize.SL.Sem
  Idealize.ShloMosaic.StableHlo

/-- No operation writes the first argument's buffer. -/
theorem arg0_eq (V : Vals) : after ops V (Proc.devRef .tc main_arg0) = V (Proc.devRef .tc main_arg0) := by
  unfold ops
  rw [StableHlo.after_append, StableHlo.after_append, StableHlo.after_append, joins_arg0,
    bc_frame unitPairs main_arg0 pairs_arg0, grps_frame groups main_arg0 (fun d hd => (groups_ok d hd).2.1), head_arg0]

/-- Nor the second argument's. -/
theorem arg1_eq (V : Vals) : after ops V (Proc.devRef .tc main_arg1) = V (Proc.devRef .tc main_arg1) := by
  unfold ops
  rw [StableHlo.after_append, StableHlo.after_append, StableHlo.after_append, joins_arg1,
    bc_frame unitPairs main_arg1 pairs_arg1, grps_frame groups main_arg1 groups_arg1, head_arg1]

set_option maxRecDepth 8192 in
set_option maxHeartbeats 8000000 in
/-- The result buffer ends holding the result term of the arguments' launch contents. -/
theorem result_eq (V : Vals) :
    after ops V (Proc.devRef .tc main_v486) = refTerm (V (Proc.devRef .tc main_arg0)) (V (Proc.devRef .tc main_arg1)) := by
  unfold ops
  rw [StableHlo.after_append, StableHlo.after_append, StableHlo.after_append, joins_out]
  have e0 := head_arg0 V
  have e1 := head_v0 V
  generalize after headOps V = W1 at e0 e1 ⊢
  have key : ∀ (n : Nat) (hn : n < unitPairs.length) (hn' : n < groups.length),
      (unitPairs[n]'hn).2.ofBuf (after (unitPairs.map bcOp) (after (groups.flatMap Grp.ops) W1) (Proc.devRef .tc (unitPairs[n]'hn).2.ref))
        = chanTerm (groups[n]'hn').a (groups[n]'hn').b (groups[n]'hn').hs (W1 (Proc.devRef .tc main_arg0)) (W1 (Proc.devRef .tc main_v0)) :=
    fun n hn hn' => chan_val n hn hn' W1
  generalize after (unitPairs.map bcOp) (after (groups.flatMap Grp.ops) W1) = W3 at key ⊢
  have h0 : W3 (Proc.devRef .tc main_v401) = chanTerm (groups[0]'(by rw [groups_len]; decide)).a (groups[0]'(by rw [groups_len]; decide)).b (groups[0]'(by rw [groups_len]; decide)).hs (W1 (Proc.devRef .tc main_arg0)) (W1 (Proc.devRef .tc main_v0)) :=
    key 0 (by rw [pairs_len]; decide) (by rw [groups_len]; decide)
  have h1 : W3 (Proc.devRef .tc main_v402) = chanTerm (groups[1]'(by rw [groups_len]; decide)).a (groups[1]'(by rw [groups_len]; decide)).b (groups[1]'(by rw [groups_len]; decide)).hs (W1 (Proc.devRef .tc main_arg0)) (W1 (Proc.devRef .tc main_v0)) :=
    key 1 (by rw [pairs_len]; decide) (by rw [groups_len]; decide)
  have h2 : W3 (Proc.devRef .tc main_v403) = chanTerm (groups[2]'(by rw [groups_len]; decide)).a (groups[2]'(by rw [groups_len]; decide)).b (groups[2]'(by rw [groups_len]; decide)).hs (W1 (Proc.devRef .tc main_arg0)) (W1 (Proc.devRef .tc main_v0)) :=
    key 2 (by rw [pairs_len]; decide) (by rw [groups_len]; decide)
  have h3 : W3 (Proc.devRef .tc main_v404) = chanTerm (groups[3]'(by rw [groups_len]; decide)).a (groups[3]'(by rw [groups_len]; decide)).b (groups[3]'(by rw [groups_len]; decide)).hs (W1 (Proc.devRef .tc main_arg0)) (W1 (Proc.devRef .tc main_v0)) :=
    key 3 (by rw [pairs_len]; decide) (by rw [groups_len]; decide)
  have h4 : W3 (Proc.devRef .tc main_v405) = chanTerm (groups[4]'(by rw [groups_len]; decide)).a (groups[4]'(by rw [groups_len]; decide)).b (groups[4]'(by rw [groups_len]; decide)).hs (W1 (Proc.devRef .tc main_arg0)) (W1 (Proc.devRef .tc main_v0)) :=
    key 4 (by rw [pairs_len]; decide) (by rw [groups_len]; decide)
  have h5 : W3 (Proc.devRef .tc main_v406) = chanTerm (groups[5]'(by rw [groups_len]; decide)).a (groups[5]'(by rw [groups_len]; decide)).b (groups[5]'(by rw [groups_len]; decide)).hs (W1 (Proc.devRef .tc main_arg0)) (W1 (Proc.devRef .tc main_v0)) :=
    key 5 (by rw [pairs_len]; decide) (by rw [groups_len]; decide)
  have h6 : W3 (Proc.devRef .tc main_v407) = chanTerm (groups[6]'(by rw [groups_len]; decide)).a (groups[6]'(by rw [groups_len]; decide)).b (groups[6]'(by rw [groups_len]; decide)).hs (W1 (Proc.devRef .tc main_arg0)) (W1 (Proc.devRef .tc main_v0)) :=
    key 6 (by rw [pairs_len]; decide) (by rw [groups_len]; decide)
  have h7 : W3 (Proc.devRef .tc main_v408) = chanTerm (groups[7]'(by rw [groups_len]; decide)).a (groups[7]'(by rw [groups_len]; decide)).b (groups[7]'(by rw [groups_len]; decide)).hs (W1 (Proc.devRef .tc main_arg0)) (W1 (Proc.devRef .tc main_v0)) :=
    key 7 (by rw [pairs_len]; decide) (by rw [groups_len]; decide)
  have h8 : W3 (Proc.devRef .tc main_v409) = chanTerm (groups[8]'(by rw [groups_len]; decide)).a (groups[8]'(by rw [groups_len]; decide)).b (groups[8]'(by rw [groups_len]; decide)).hs (W1 (Proc.devRef .tc main_arg0)) (W1 (Proc.devRef .tc main_v0)) :=
    key 8 (by rw [pairs_len]; decide) (by rw [groups_len]; decide)
  have h9 : W3 (Proc.devRef .tc main_v410) = chanTerm (groups[9]'(by rw [groups_len]; decide)).a (groups[9]'(by rw [groups_len]; decide)).b (groups[9]'(by rw [groups_len]; decide)).hs (W1 (Proc.devRef .tc main_arg0)) (W1 (Proc.devRef .tc main_v0)) :=
    key 9 (by rw [pairs_len]; decide) (by rw [groups_len]; decide)
  have h10 : W3 (Proc.devRef .tc main_v411) = chanTerm (groups[10]'(by rw [groups_len]; decide)).a (groups[10]'(by rw [groups_len]; decide)).b (groups[10]'(by rw [groups_len]; decide)).hs (W1 (Proc.devRef .tc main_arg0)) (W1 (Proc.devRef .tc main_v0)) :=
    key 10 (by rw [pairs_len]; decide) (by rw [groups_len]; decide)
  have h11 : W3 (Proc.devRef .tc main_v412) = chanTerm (groups[11]'(by rw [groups_len]; decide)).a (groups[11]'(by rw [groups_len]; decide)).b (groups[11]'(by rw [groups_len]; decide)).hs (W1 (Proc.devRef .tc main_arg0)) (W1 (Proc.devRef .tc main_v0)) :=
    key 11 (by rw [pairs_len]; decide) (by rw [groups_len]; decide)
  have h12 : W3 (Proc.devRef .tc main_v413) = chanTerm (groups[12]'(by rw [groups_len]; decide)).a (groups[12]'(by rw [groups_len]; decide)).b (groups[12]'(by rw [groups_len]; decide)).hs (W1 (Proc.devRef .tc main_arg0)) (W1 (Proc.devRef .tc main_v0)) :=
    key 12 (by rw [pairs_len]; decide) (by rw [groups_len]; decide)
  have h13 : W3 (Proc.devRef .tc main_v414) = chanTerm (groups[13]'(by rw [groups_len]; decide)).a (groups[13]'(by rw [groups_len]; decide)).b (groups[13]'(by rw [groups_len]; decide)).hs (W1 (Proc.devRef .tc main_arg0)) (W1 (Proc.devRef .tc main_v0)) :=
    key 13 (by rw [pairs_len]; decide) (by rw [groups_len]; decide)
  have h14 : W3 (Proc.devRef .tc main_v415) = chanTerm (groups[14]'(by rw [groups_len]; decide)).a (groups[14]'(by rw [groups_len]; decide)).b (groups[14]'(by rw [groups_len]; decide)).hs (W1 (Proc.devRef .tc main_arg0)) (W1 (Proc.devRef .tc main_v0)) :=
    key 14 (by rw [pairs_len]; decide) (by rw [groups_len]; decide)
  have h15 : W3 (Proc.devRef .tc main_v416) = chanTerm (groups[15]'(by rw [groups_len]; decide)).a (groups[15]'(by rw [groups_len]; decide)).b (groups[15]'(by rw [groups_len]; decide)).hs (W1 (Proc.devRef .tc main_arg0)) (W1 (Proc.devRef .tc main_v0)) :=
    key 15 (by rw [pairs_len]; decide) (by rw [groups_len]; decide)
  have h16 : W3 (Proc.devRef .tc main_v417) = chanTerm (groups[16]'(by rw [groups_len]; decide)).a (groups[16]'(by rw [groups_len]; decide)).b (groups[16]'(by rw [groups_len]; decide)).hs (W1 (Proc.devRef .tc main_arg0)) (W1 (Proc.devRef .tc main_v0)) :=
    key 16 (by rw [pairs_len]; decide) (by rw [groups_len]; decide)
  have h17 : W3 (Proc.devRef .tc main_v418) = chanTerm (groups[17]'(by rw [groups_len]; decide)).a (groups[17]'(by rw [groups_len]; decide)).b (groups[17]'(by rw [groups_len]; decide)).hs (W1 (Proc.devRef .tc main_arg0)) (W1 (Proc.devRef .tc main_v0)) :=
    key 17 (by rw [pairs_len]; decide) (by rw [groups_len]; decide)
  have h18 : W3 (Proc.devRef .tc main_v419) = chanTerm (groups[18]'(by rw [groups_len]; decide)).a (groups[18]'(by rw [groups_len]; decide)).b (groups[18]'(by rw [groups_len]; decide)).hs (W1 (Proc.devRef .tc main_arg0)) (W1 (Proc.devRef .tc main_v0)) :=
    key 18 (by rw [pairs_len]; decide) (by rw [groups_len]; decide)
  have h19 : W3 (Proc.devRef .tc main_v420) = chanTerm (groups[19]'(by rw [groups_len]; decide)).a (groups[19]'(by rw [groups_len]; decide)).b (groups[19]'(by rw [groups_len]; decide)).hs (W1 (Proc.devRef .tc main_arg0)) (W1 (Proc.devRef .tc main_v0)) :=
    key 19 (by rw [pairs_len]; decide) (by rw [groups_len]; decide)
  have h20 : W3 (Proc.devRef .tc main_v421) = chanTerm (groups[20]'(by rw [groups_len]; decide)).a (groups[20]'(by rw [groups_len]; decide)).b (groups[20]'(by rw [groups_len]; decide)).hs (W1 (Proc.devRef .tc main_arg0)) (W1 (Proc.devRef .tc main_v0)) :=
    key 20 (by rw [pairs_len]; decide) (by rw [groups_len]; decide)
  have h21 : W3 (Proc.devRef .tc main_v422) = chanTerm (groups[21]'(by rw [groups_len]; decide)).a (groups[21]'(by rw [groups_len]; decide)).b (groups[21]'(by rw [groups_len]; decide)).hs (W1 (Proc.devRef .tc main_arg0)) (W1 (Proc.devRef .tc main_v0)) :=
    key 21 (by rw [pairs_len]; decide) (by rw [groups_len]; decide)
  have h22 : W3 (Proc.devRef .tc main_v423) = chanTerm (groups[22]'(by rw [groups_len]; decide)).a (groups[22]'(by rw [groups_len]; decide)).b (groups[22]'(by rw [groups_len]; decide)).hs (W1 (Proc.devRef .tc main_arg0)) (W1 (Proc.devRef .tc main_v0)) :=
    key 22 (by rw [pairs_len]; decide) (by rw [groups_len]; decide)
  have h23 : W3 (Proc.devRef .tc main_v424) = chanTerm (groups[23]'(by rw [groups_len]; decide)).a (groups[23]'(by rw [groups_len]; decide)).b (groups[23]'(by rw [groups_len]; decide)).hs (W1 (Proc.devRef .tc main_arg0)) (W1 (Proc.devRef .tc main_v0)) :=
    key 23 (by rw [pairs_len]; decide) (by rw [groups_len]; decide)
  have h24 : W3 (Proc.devRef .tc main_v425) = chanTerm (groups[24]'(by rw [groups_len]; decide)).a (groups[24]'(by rw [groups_len]; decide)).b (groups[24]'(by rw [groups_len]; decide)).hs (W1 (Proc.devRef .tc main_arg0)) (W1 (Proc.devRef .tc main_v0)) :=
    key 24 (by rw [pairs_len]; decide) (by rw [groups_len]; decide)
  have h25 : W3 (Proc.devRef .tc main_v426) = chanTerm (groups[25]'(by rw [groups_len]; decide)).a (groups[25]'(by rw [groups_len]; decide)).b (groups[25]'(by rw [groups_len]; decide)).hs (W1 (Proc.devRef .tc main_arg0)) (W1 (Proc.devRef .tc main_v0)) :=
    key 25 (by rw [pairs_len]; decide) (by rw [groups_len]; decide)
  have h26 : W3 (Proc.devRef .tc main_v427) = chanTerm (groups[26]'(by rw [groups_len]; decide)).a (groups[26]'(by rw [groups_len]; decide)).b (groups[26]'(by rw [groups_len]; decide)).hs (W1 (Proc.devRef .tc main_arg0)) (W1 (Proc.devRef .tc main_v0)) :=
    key 26 (by rw [pairs_len]; decide) (by rw [groups_len]; decide)
  have h27 : W3 (Proc.devRef .tc main_v428) = chanTerm (groups[27]'(by rw [groups_len]; decide)).a (groups[27]'(by rw [groups_len]; decide)).b (groups[27]'(by rw [groups_len]; decide)).hs (W1 (Proc.devRef .tc main_arg0)) (W1 (Proc.devRef .tc main_v0)) :=
    key 27 (by rw [pairs_len]; decide) (by rw [groups_len]; decide)
  have h28 : W3 (Proc.devRef .tc main_v429) = chanTerm (groups[28]'(by rw [groups_len]; decide)).a (groups[28]'(by rw [groups_len]; decide)).b (groups[28]'(by rw [groups_len]; decide)).hs (W1 (Proc.devRef .tc main_arg0)) (W1 (Proc.devRef .tc main_v0)) :=
    key 28 (by rw [pairs_len]; decide) (by rw [groups_len]; decide)
  have h29 : W3 (Proc.devRef .tc main_v430) = chanTerm (groups[29]'(by rw [groups_len]; decide)).a (groups[29]'(by rw [groups_len]; decide)).b (groups[29]'(by rw [groups_len]; decide)).hs (W1 (Proc.devRef .tc main_arg0)) (W1 (Proc.devRef .tc main_v0)) :=
    key 29 (by rw [pairs_len]; decide) (by rw [groups_len]; decide)
  have h30 : W3 (Proc.devRef .tc main_v431) = chanTerm (groups[30]'(by rw [groups_len]; decide)).a (groups[30]'(by rw [groups_len]; decide)).b (groups[30]'(by rw [groups_len]; decide)).hs (W1 (Proc.devRef .tc main_arg0)) (W1 (Proc.devRef .tc main_v0)) :=
    key 30 (by rw [pairs_len]; decide) (by rw [groups_len]; decide)
  have h31 : W3 (Proc.devRef .tc main_v432) = chanTerm (groups[31]'(by rw [groups_len]; decide)).a (groups[31]'(by rw [groups_len]; decide)).b (groups[31]'(by rw [groups_len]; decide)).hs (W1 (Proc.devRef .tc main_arg0)) (W1 (Proc.devRef .tc main_v0)) :=
    key 31 (by rw [pairs_len]; decide) (by rw [groups_len]; decide)
  have h32 : W3 (Proc.devRef .tc main_v433) = chanTerm (groups[32]'(by rw [groups_len]; decide)).a (groups[32]'(by rw [groups_len]; decide)).b (groups[32]'(by rw [groups_len]; decide)).hs (W1 (Proc.devRef .tc main_arg0)) (W1 (Proc.devRef .tc main_v0)) :=
    key 32 (by rw [pairs_len]; decide) (by rw [groups_len]; decide)
  have h33 : W3 (Proc.devRef .tc main_v434) = chanTerm (groups[33]'(by rw [groups_len]; decide)).a (groups[33]'(by rw [groups_len]; decide)).b (groups[33]'(by rw [groups_len]; decide)).hs (W1 (Proc.devRef .tc main_arg0)) (W1 (Proc.devRef .tc main_v0)) :=
    key 33 (by rw [pairs_len]; decide) (by rw [groups_len]; decide)
  have h34 : W3 (Proc.devRef .tc main_v435) = chanTerm (groups[34]'(by rw [groups_len]; decide)).a (groups[34]'(by rw [groups_len]; decide)).b (groups[34]'(by rw [groups_len]; decide)).hs (W1 (Proc.devRef .tc main_arg0)) (W1 (Proc.devRef .tc main_v0)) :=
    key 34 (by rw [pairs_len]; decide) (by rw [groups_len]; decide)
  have h35 : W3 (Proc.devRef .tc main_v436) = chanTerm (groups[35]'(by rw [groups_len]; decide)).a (groups[35]'(by rw [groups_len]; decide)).b (groups[35]'(by rw [groups_len]; decide)).hs (W1 (Proc.devRef .tc main_arg0)) (W1 (Proc.devRef .tc main_v0)) :=
    key 35 (by rw [pairs_len]; decide) (by rw [groups_len]; decide)
  have h36 : W3 (Proc.devRef .tc main_v437) = chanTerm (groups[36]'(by rw [groups_len]; decide)).a (groups[36]'(by rw [groups_len]; decide)).b (groups[36]'(by rw [groups_len]; decide)).hs (W1 (Proc.devRef .tc main_arg0)) (W1 (Proc.devRef .tc main_v0)) :=
    key 36 (by rw [pairs_len]; decide) (by rw [groups_len]; decide)
  have h37 : W3 (Proc.devRef .tc main_v438) = chanTerm (groups[37]'(by rw [groups_len]; decide)).a (groups[37]'(by rw [groups_len]; decide)).b (groups[37]'(by rw [groups_len]; decide)).hs (W1 (Proc.devRef .tc main_arg0)) (W1 (Proc.devRef .tc main_v0)) :=
    key 37 (by rw [pairs_len]; decide) (by rw [groups_len]; decide)
  have h38 : W3 (Proc.devRef .tc main_v439) = chanTerm (groups[38]'(by rw [groups_len]; decide)).a (groups[38]'(by rw [groups_len]; decide)).b (groups[38]'(by rw [groups_len]; decide)).hs (W1 (Proc.devRef .tc main_arg0)) (W1 (Proc.devRef .tc main_v0)) :=
    key 38 (by rw [pairs_len]; decide) (by rw [groups_len]; decide)
  have h39 : W3 (Proc.devRef .tc main_v440) = chanTerm (groups[39]'(by rw [groups_len]; decide)).a (groups[39]'(by rw [groups_len]; decide)).b (groups[39]'(by rw [groups_len]; decide)).hs (W1 (Proc.devRef .tc main_arg0)) (W1 (Proc.devRef .tc main_v0)) :=
    key 39 (by rw [pairs_len]; decide) (by rw [groups_len]; decide)
  have h40 : W3 (Proc.devRef .tc main_v441) = chanTerm (groups[40]'(by rw [groups_len]; decide)).a (groups[40]'(by rw [groups_len]; decide)).b (groups[40]'(by rw [groups_len]; decide)).hs (W1 (Proc.devRef .tc main_arg0)) (W1 (Proc.devRef .tc main_v0)) :=
    key 40 (by rw [pairs_len]; decide) (by rw [groups_len]; decide)
  have h41 : W3 (Proc.devRef .tc main_v442) = chanTerm (groups[41]'(by rw [groups_len]; decide)).a (groups[41]'(by rw [groups_len]; decide)).b (groups[41]'(by rw [groups_len]; decide)).hs (W1 (Proc.devRef .tc main_arg0)) (W1 (Proc.devRef .tc main_v0)) :=
    key 41 (by rw [pairs_len]; decide) (by rw [groups_len]; decide)
  have h42 : W3 (Proc.devRef .tc main_v443) = chanTerm (groups[42]'(by rw [groups_len]; decide)).a (groups[42]'(by rw [groups_len]; decide)).b (groups[42]'(by rw [groups_len]; decide)).hs (W1 (Proc.devRef .tc main_arg0)) (W1 (Proc.devRef .tc main_v0)) :=
    key 42 (by rw [pairs_len]; decide) (by rw [groups_len]; decide)
  have h43 : W3 (Proc.devRef .tc main_v444) = chanTerm (groups[43]'(by rw [groups_len]; decide)).a (groups[43]'(by rw [groups_len]; decide)).b (groups[43]'(by rw [groups_len]; decide)).hs (W1 (Proc.devRef .tc main_arg0)) (W1 (Proc.devRef .tc main_v0)) :=
    key 43 (by rw [pairs_len]; decide) (by rw [groups_len]; decide)
  have h44 : W3 (Proc.devRef .tc main_v445) = chanTerm (groups[44]'(by rw [groups_len]; decide)).a (groups[44]'(by rw [groups_len]; decide)).b (groups[44]'(by rw [groups_len]; decide)).hs (W1 (Proc.devRef .tc main_arg0)) (W1 (Proc.devRef .tc main_v0)) :=
    key 44 (by rw [pairs_len]; decide) (by rw [groups_len]; decide)
  have h45 : W3 (Proc.devRef .tc main_v446) = chanTerm (groups[45]'(by rw [groups_len]; decide)).a (groups[45]'(by rw [groups_len]; decide)).b (groups[45]'(by rw [groups_len]; decide)).hs (W1 (Proc.devRef .tc main_arg0)) (W1 (Proc.devRef .tc main_v0)) :=
    key 45 (by rw [pairs_len]; decide) (by rw [groups_len]; decide)
  have h46 : W3 (Proc.devRef .tc main_v447) = chanTerm (groups[46]'(by rw [groups_len]; decide)).a (groups[46]'(by rw [groups_len]; decide)).b (groups[46]'(by rw [groups_len]; decide)).hs (W1 (Proc.devRef .tc main_arg0)) (W1 (Proc.devRef .tc main_v0)) :=
    key 46 (by rw [pairs_len]; decide) (by rw [groups_len]; decide)
  have h47 : W3 (Proc.devRef .tc main_v448) = chanTerm (groups[47]'(by rw [groups_len]; decide)).a (groups[47]'(by rw [groups_len]; decide)).b (groups[47]'(by rw [groups_len]; decide)).hs (W1 (Proc.devRef .tc main_arg0)) (W1 (Proc.devRef .tc main_v0)) :=
    key 47 (by rw [pairs_len]; decide) (by rw [groups_len]; decide)
  have h48 : W3 (Proc.devRef .tc main_v449) = chanTerm (groups[48]'(by rw [groups_len]; decide)).a (groups[48]'(by rw [groups_len]; decide)).b (groups[48]'(by rw [groups_len]; decide)).hs (W1 (Proc.devRef .tc main_arg0)) (W1 (Proc.devRef .tc main_v0)) :=
    key 48 (by rw [pairs_len]; decide) (by rw [groups_len]; decide)
  have h49 : W3 (Proc.devRef .tc main_v450) = chanTerm (groups[49]'(by rw [groups_len]; decide)).a (groups[49]'(by rw [groups_len]; decide)).b (groups[49]'(by rw [groups_len]; decide)).hs (W1 (Proc.devRef .tc main_arg0)) (W1 (Proc.devRef .tc main_v0)) :=
    key 49 (by rw [pairs_len]; decide) (by rw [groups_len]; decide)
  have h50 : W3 (Proc.devRef .tc main_v451) = chanTerm (groups[50]'(by rw [groups_len]; decide)).a (groups[50]'(by rw [groups_len]; decide)).b (groups[50]'(by rw [groups_len]; decide)).hs (W1 (Proc.devRef .tc main_arg0)) (W1 (Proc.devRef .tc main_v0)) :=
    key 50 (by rw [pairs_len]; decide) (by rw [groups_len]; decide)
  have h51 : W3 (Proc.devRef .tc main_v452) = chanTerm (groups[51]'(by rw [groups_len]; decide)).a (groups[51]'(by rw [groups_len]; decide)).b (groups[51]'(by rw [groups_len]; decide)).hs (W1 (Proc.devRef .tc main_arg0)) (W1 (Proc.devRef .tc main_v0)) :=
    key 51 (by rw [pairs_len]; decide) (by rw [groups_len]; decide)
  have h52 : W3 (Proc.devRef .tc main_v453) = chanTerm (groups[52]'(by rw [groups_len]; decide)).a (groups[52]'(by rw [groups_len]; decide)).b (groups[52]'(by rw [groups_len]; decide)).hs (W1 (Proc.devRef .tc main_arg0)) (W1 (Proc.devRef .tc main_v0)) :=
    key 52 (by rw [pairs_len]; decide) (by rw [groups_len]; decide)
  have h53 : W3 (Proc.devRef .tc main_v454) = chanTerm (groups[53]'(by rw [groups_len]; decide)).a (groups[53]'(by rw [groups_len]; decide)).b (groups[53]'(by rw [groups_len]; decide)).hs (W1 (Proc.devRef .tc main_arg0)) (W1 (Proc.devRef .tc main_v0)) :=
    key 53 (by rw [pairs_len]; decide) (by rw [groups_len]; decide)
  have h54 : W3 (Proc.devRef .tc main_v455) = chanTerm (groups[54]'(by rw [groups_len]; decide)).a (groups[54]'(by rw [groups_len]; decide)).b (groups[54]'(by rw [groups_len]; decide)).hs (W1 (Proc.devRef .tc main_arg0)) (W1 (Proc.devRef .tc main_v0)) :=
    key 54 (by rw [pairs_len]; decide) (by rw [groups_len]; decide)
  have h55 : W3 (Proc.devRef .tc main_v456) = chanTerm (groups[55]'(by rw [groups_len]; decide)).a (groups[55]'(by rw [groups_len]; decide)).b (groups[55]'(by rw [groups_len]; decide)).hs (W1 (Proc.devRef .tc main_arg0)) (W1 (Proc.devRef .tc main_v0)) :=
    key 55 (by rw [pairs_len]; decide) (by rw [groups_len]; decide)
  have h56 : W3 (Proc.devRef .tc main_v457) = chanTerm (groups[56]'(by rw [groups_len]; decide)).a (groups[56]'(by rw [groups_len]; decide)).b (groups[56]'(by rw [groups_len]; decide)).hs (W1 (Proc.devRef .tc main_arg0)) (W1 (Proc.devRef .tc main_v0)) :=
    key 56 (by rw [pairs_len]; decide) (by rw [groups_len]; decide)
  have h57 : W3 (Proc.devRef .tc main_v458) = chanTerm (groups[57]'(by rw [groups_len]; decide)).a (groups[57]'(by rw [groups_len]; decide)).b (groups[57]'(by rw [groups_len]; decide)).hs (W1 (Proc.devRef .tc main_arg0)) (W1 (Proc.devRef .tc main_v0)) :=
    key 57 (by rw [pairs_len]; decide) (by rw [groups_len]; decide)
  have h58 : W3 (Proc.devRef .tc main_v459) = chanTerm (groups[58]'(by rw [groups_len]; decide)).a (groups[58]'(by rw [groups_len]; decide)).b (groups[58]'(by rw [groups_len]; decide)).hs (W1 (Proc.devRef .tc main_arg0)) (W1 (Proc.devRef .tc main_v0)) :=
    key 58 (by rw [pairs_len]; decide) (by rw [groups_len]; decide)
  have h59 : W3 (Proc.devRef .tc main_v460) = chanTerm (groups[59]'(by rw [groups_len]; decide)).a (groups[59]'(by rw [groups_len]; decide)).b (groups[59]'(by rw [groups_len]; decide)).hs (W1 (Proc.devRef .tc main_arg0)) (W1 (Proc.devRef .tc main_v0)) :=
    key 59 (by rw [pairs_len]; decide) (by rw [groups_len]; decide)
  have h60 : W3 (Proc.devRef .tc main_v461) = chanTerm (groups[60]'(by rw [groups_len]; decide)).a (groups[60]'(by rw [groups_len]; decide)).b (groups[60]'(by rw [groups_len]; decide)).hs (W1 (Proc.devRef .tc main_arg0)) (W1 (Proc.devRef .tc main_v0)) :=
    key 60 (by rw [pairs_len]; decide) (by rw [groups_len]; decide)
  have h61 : W3 (Proc.devRef .tc main_v462) = chanTerm (groups[61]'(by rw [groups_len]; decide)).a (groups[61]'(by rw [groups_len]; decide)).b (groups[61]'(by rw [groups_len]; decide)).hs (W1 (Proc.devRef .tc main_arg0)) (W1 (Proc.devRef .tc main_v0)) :=
    key 61 (by rw [pairs_len]; decide) (by rw [groups_len]; decide)
  have h62 : W3 (Proc.devRef .tc main_v463) = chanTerm (groups[62]'(by rw [groups_len]; decide)).a (groups[62]'(by rw [groups_len]; decide)).b (groups[62]'(by rw [groups_len]; decide)).hs (W1 (Proc.devRef .tc main_arg0)) (W1 (Proc.devRef .tc main_v0)) :=
    key 62 (by rw [pairs_len]; decide) (by rw [groups_len]; decide)
  have h63 : W3 (Proc.devRef .tc main_v464) = chanTerm (groups[63]'(by rw [groups_len]; decide)).a (groups[63]'(by rw [groups_len]; decide)).b (groups[63]'(by rw [groups_len]; decide)).hs (W1 (Proc.devRef .tc main_arg0)) (W1 (Proc.devRef .tc main_v0)) :=
    key 63 (by rw [pairs_len]; decide) (by rw [groups_len]; decide)
  have h64 : W3 (Proc.devRef .tc main_v465) = chanTerm (groups[64]'(by rw [groups_len]; decide)).a (groups[64]'(by rw [groups_len]; decide)).b (groups[64]'(by rw [groups_len]; decide)).hs (W1 (Proc.devRef .tc main_arg0)) (W1 (Proc.devRef .tc main_v0)) :=
    key 64 (by rw [pairs_len]; decide) (by rw [groups_len]; decide)
  have h65 : W3 (Proc.devRef .tc main_v466) = chanTerm (groups[65]'(by rw [groups_len]; decide)).a (groups[65]'(by rw [groups_len]; decide)).b (groups[65]'(by rw [groups_len]; decide)).hs (W1 (Proc.devRef .tc main_arg0)) (W1 (Proc.devRef .tc main_v0)) :=
    key 65 (by rw [pairs_len]; decide) (by rw [groups_len]; decide)
  have h66 : W3 (Proc.devRef .tc main_v467) = chanTerm (groups[66]'(by rw [groups_len]; decide)).a (groups[66]'(by rw [groups_len]; decide)).b (groups[66]'(by rw [groups_len]; decide)).hs (W1 (Proc.devRef .tc main_arg0)) (W1 (Proc.devRef .tc main_v0)) :=
    key 66 (by rw [pairs_len]; decide) (by rw [groups_len]; decide)
  have h67 : W3 (Proc.devRef .tc main_v468) = chanTerm (groups[67]'(by rw [groups_len]; decide)).a (groups[67]'(by rw [groups_len]; decide)).b (groups[67]'(by rw [groups_len]; decide)).hs (W1 (Proc.devRef .tc main_arg0)) (W1 (Proc.devRef .tc main_v0)) :=
    key 67 (by rw [pairs_len]; decide) (by rw [groups_len]; decide)
  have h68 : W3 (Proc.devRef .tc main_v469) = chanTerm (groups[68]'(by rw [groups_len]; decide)).a (groups[68]'(by rw [groups_len]; decide)).b (groups[68]'(by rw [groups_len]; decide)).hs (W1 (Proc.devRef .tc main_arg0)) (W1 (Proc.devRef .tc main_v0)) :=
    key 68 (by rw [pairs_len]; decide) (by rw [groups_len]; decide)
  have h69 : W3 (Proc.devRef .tc main_v470) = chanTerm (groups[69]'(by rw [groups_len]; decide)).a (groups[69]'(by rw [groups_len]; decide)).b (groups[69]'(by rw [groups_len]; decide)).hs (W1 (Proc.devRef .tc main_arg0)) (W1 (Proc.devRef .tc main_v0)) :=
    key 69 (by rw [pairs_len]; decide) (by rw [groups_len]; decide)
  have h70 : W3 (Proc.devRef .tc main_v471) = chanTerm (groups[70]'(by rw [groups_len]; decide)).a (groups[70]'(by rw [groups_len]; decide)).b (groups[70]'(by rw [groups_len]; decide)).hs (W1 (Proc.devRef .tc main_arg0)) (W1 (Proc.devRef .tc main_v0)) :=
    key 70 (by rw [pairs_len]; decide) (by rw [groups_len]; decide)
  have h71 : W3 (Proc.devRef .tc main_v472) = chanTerm (groups[71]'(by rw [groups_len]; decide)).a (groups[71]'(by rw [groups_len]; decide)).b (groups[71]'(by rw [groups_len]; decide)).hs (W1 (Proc.devRef .tc main_arg0)) (W1 (Proc.devRef .tc main_v0)) :=
    key 71 (by rw [pairs_len]; decide) (by rw [groups_len]; decide)
  have h72 : W3 (Proc.devRef .tc main_v473) = chanTerm (groups[72]'(by rw [groups_len]; decide)).a (groups[72]'(by rw [groups_len]; decide)).b (groups[72]'(by rw [groups_len]; decide)).hs (W1 (Proc.devRef .tc main_arg0)) (W1 (Proc.devRef .tc main_v0)) :=
    key 72 (by rw [pairs_len]; decide) (by rw [groups_len]; decide)
  have h73 : W3 (Proc.devRef .tc main_v474) = chanTerm (groups[73]'(by rw [groups_len]; decide)).a (groups[73]'(by rw [groups_len]; decide)).b (groups[73]'(by rw [groups_len]; decide)).hs (W1 (Proc.devRef .tc main_arg0)) (W1 (Proc.devRef .tc main_v0)) :=
    key 73 (by rw [pairs_len]; decide) (by rw [groups_len]; decide)
  have h74 : W3 (Proc.devRef .tc main_v475) = chanTerm (groups[74]'(by rw [groups_len]; decide)).a (groups[74]'(by rw [groups_len]; decide)).b (groups[74]'(by rw [groups_len]; decide)).hs (W1 (Proc.devRef .tc main_arg0)) (W1 (Proc.devRef .tc main_v0)) :=
    key 74 (by rw [pairs_len]; decide) (by rw [groups_len]; decide)
  have h75 : W3 (Proc.devRef .tc main_v476) = chanTerm (groups[75]'(by rw [groups_len]; decide)).a (groups[75]'(by rw [groups_len]; decide)).b (groups[75]'(by rw [groups_len]; decide)).hs (W1 (Proc.devRef .tc main_arg0)) (W1 (Proc.devRef .tc main_v0)) :=
    key 75 (by rw [pairs_len]; decide) (by rw [groups_len]; decide)
  have h76 : W3 (Proc.devRef .tc main_v477) = chanTerm (groups[76]'(by rw [groups_len]; decide)).a (groups[76]'(by rw [groups_len]; decide)).b (groups[76]'(by rw [groups_len]; decide)).hs (W1 (Proc.devRef .tc main_arg0)) (W1 (Proc.devRef .tc main_v0)) :=
    key 76 (by rw [pairs_len]; decide) (by rw [groups_len]; decide)
  have h77 : W3 (Proc.devRef .tc main_v478) = chanTerm (groups[77]'(by rw [groups_len]; decide)).a (groups[77]'(by rw [groups_len]; decide)).b (groups[77]'(by rw [groups_len]; decide)).hs (W1 (Proc.devRef .tc main_arg0)) (W1 (Proc.devRef .tc main_v0)) :=
    key 77 (by rw [pairs_len]; decide) (by rw [groups_len]; decide)
  have h78 : W3 (Proc.devRef .tc main_v479) = chanTerm (groups[78]'(by rw [groups_len]; decide)).a (groups[78]'(by rw [groups_len]; decide)).b (groups[78]'(by rw [groups_len]; decide)).hs (W1 (Proc.devRef .tc main_arg0)) (W1 (Proc.devRef .tc main_v0)) :=
    key 78 (by rw [pairs_len]; decide) (by rw [groups_len]; decide)
  have h79 : W3 (Proc.devRef .tc main_v480) = chanTerm (groups[79]'(by rw [groups_len]; decide)).a (groups[79]'(by rw [groups_len]; decide)).b (groups[79]'(by rw [groups_len]; decide)).hs (W1 (Proc.devRef .tc main_arg0)) (W1 (Proc.devRef .tc main_v0)) :=
    key 79 (by rw [pairs_len]; decide) (by rw [groups_len]; decide)
  rw [h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62, h63, h64, h65, h66, h67, h68, h69, h70, h71, h72, h73, h74, h75, h76, h77, h78, h79, e0, e1]
  rfl

end Cert.ReferenceIdeal.RefValue

end
-- ==== Proof.Ref.Sub.lean ====
/-
  Two facts about the whole list of the reference program's operations, each from the same fact about its four
  parts: every operation touches only array buffers of the tensor core, and every operation determines what it
  writes. Each part is a fixed pattern of the basic array operations, for which both facts hold by construction,
  whatever buffers and offsets a displacement's record names; so nothing is split over the eighty records.
-/
import proofs.«122554_j9363028706363_2_alg».proof.Proof.Ref.Table

noncomputable section

namespace Cert.ReferenceIdeal.RefValue

open Cert.ReferenceIdeal Cert.ReferenceIdeal.Gen Idealize.ShloMosaic Idealize.ShloMosaic.TcCoe Idealize.SL.Sem
  Idealize.ShloMosaic.StableHlo

/-! ## Every operation touches tensor-core buffers only -/

/-- A displacement's seven operations, whatever its record. -/
theorem Grp.ops_sub (d : Grp) : (d.ops).Forall fun op => op.bufs ⊆ tcRefs τ sig := by
  unfold Grp.ops
  exact ⟨unary_bufs_sub .., binary_bufs_sub .., nullary_bufs_sub .., binary_bufs_sub .., nullary_bufs_sub ..,
    unary_bufs_sub .., binary_bufs_sub ..⟩

/-- The operation giving a plane its unit channel axis. -/
theorem bcOp_sub (p : TRef sig ⟨S8x128x192, .f32⟩ × TRef sig ⟨S8x1x128x192, .f32⟩) : (bcOp p).bufs ⊆ tcRefs τ sig := by
  unfold bcOp; exact unary_bufs_sub ..

/-- The three operations at the head. -/
theorem headOps_sub : (headOps).Forall fun op => op.bufs ⊆ tcRefs τ sig := by
  unfold headOps
  exact ⟨nullary_bufs_sub .., unary_bufs_sub .., binary_bufs_sub ..⟩

/-- The six joins. -/
theorem joinOps_sub : (joinOps).Forall fun op => op.bufs ⊆ tcRefs τ sig := by
  unfold joinOps
  exact ⟨nary_bufs_sub .., nary_bufs_sub .., nary_bufs_sub .., nary_bufs_sub .., nary_bufs_sub .., nary_bufs_sub ..⟩

/-- The whole list: an operation of it is in one of the four parts. -/
theorem ops_sub : (ops : List (HloOp τ sig (Elt Ideal))).Forall fun op => op.bufs ⊆ tcRefs τ sig := by
  rw [List.forall_iff_forall_mem]
  intro op hop
  unfold ops at hop
  rcases List.mem_append.mp hop with h | h
  · exact List.forall_iff_forall_mem.mp headOps_sub op h
  rcases List.mem_append.mp h with h | h
  · obtain ⟨d, _, hd⟩ := List.mem_flatMap.mp h
    exact List.forall_iff_forall_mem.mp (Grp.ops_sub d) op hd
  rcases List.mem_append.mp h with h | h
  · obtain ⟨p, _, rfl⟩ := List.mem_map.mp h
    exact bcOp_sub p
  · exact List.forall_iff_forall_mem.mp joinOps_sub op h

/-! ## Every operation determines what it writes -/

/-- A displacement's seven operations, whatever its record. -/
theorem Grp.ops_fresh (d : Grp) : ∀ op ∈ d.ops, op.fresh = ∅ := by
  intro op h
  unfold Grp.ops at h
  (repeat (cases h with | head => rfl | tail _ h => ?_)); exact nomatch h

/-- The operation giving a plane its unit channel axis. -/
theorem bcOp_fresh (p : TRef sig ⟨S8x128x192, .f32⟩ × TRef sig ⟨S8x1x128x192, .f32⟩) : (bcOp p).fresh = ∅ := rfl

/-- The three operations at the head. -/
theorem headOps_fresh : ∀ op ∈ headOps, op.fresh = ∅ := by
  intro op h
  unfold headOps at h
  (repeat (cases h with | head => rfl | tail _ h => ?_)); exact nomatch h

/-- The six joins. -/
theorem joinOps_fresh : ∀ op ∈ joinOps, op.fresh = ∅ := by
  intro op h
  unfold joinOps at h
  (repeat (cases h with | head => rfl | tail _ h => ?_)); exact nomatch h

/-- The whole list. -/
theorem ops_fresh : ∀ op ∈ (ops : List (HloOp τ sig (Elt Ideal))), op.fresh = ∅ := by
  intro op hop
  unfold ops at hop
  rcases List.mem_append.mp hop with h | h
  · exact headOps_fresh op h
  rcases List.mem_append.mp h with h | h
  · obtain ⟨d, _, hd⟩ := List.mem_flatMap.mp h
    exact Grp.ops_fresh d op hd
  rcases List.mem_append.mp h with h | h
  · obtain ⟨p, _, rfl⟩ := List.mem_map.mp h
    exact bcOp_fresh p
  · exact joinOps_fresh op h

end Cert.ReferenceIdeal.RefValue

end
-- ==== Proof.Ref.Main.lean ====
/-
  The reference program is the listed operations run in order.

  The printed program is eleven consecutive stretches of array operations run one after another. The list of its
  operations, cut at the ends of those stretches, gives eleven consecutive sublists; each stretch is its sublist run
  in order, and sublists run one after another are their concatenation run in order.
-/
import proofs.«122554_j9363028706363_2_alg».proof.Proof.Ref.Table

noncomputable section

namespace Cert.ReferenceIdeal.RefValue

open Cert.ReferenceIdeal Cert.ReferenceIdeal.Gen Idealize.ShloMosaic Idealize.ShloMosaic.TcCoe Idealize.SL.Sem
  Idealize.ShloMosaic.StableHlo

/-- The sublist of the program's operations that starts after the first `i` and has `n` operations. -/
def seg (i n : Nat) : List (HloOp τ sig (Elt Ideal)) := (ops.drop i).take n

set_option maxRecDepth 8192 in
set_option maxHeartbeats 4000000 in
/-- Stretch 0 is the 61 operations after the first 0. -/
theorem part0_eq (c : Dev nD) : main_part0 (F := Ideal) c = seq (seg 0 61) := rfl

set_option maxRecDepth 8192 in
set_option maxHeartbeats 4000000 in
/-- Stretch 1 is the 60 operations after the first 61. -/
theorem part1_eq (c : Dev nD) : main_part1 (F := Ideal) c = seq (seg 61 60) := rfl

set_option maxRecDepth 8192 in
set_option maxHeartbeats 4000000 in
/-- Stretch 2 is the 60 operations after the first 121. -/
theorem part2_eq (c : Dev nD) : main_part2 (F := Ideal) c = seq (seg 121 60) := rfl

set_option maxRecDepth 8192 in
set_option maxHeartbeats 4000000 in
/-- Stretch 3 is the 60 operations after the first 181. -/
theorem part3_eq (c : Dev nD) : main_part3 (F := Ideal) c = seq (seg 181 60) := rfl

set_option maxRecDepth 8192 in
set_option maxHeartbeats 4000000 in
/-- Stretch 4 is the 60 operations after the first 241. -/
theorem part4_eq (c : Dev nD) : main_part4 (F := Ideal) c = seq (seg 241 60) := rfl

set_option maxRecDepth 8192 in
set_option maxHeartbeats 4000000 in
/-- Stretch 5 is the 60 operations after the first 301. -/
theorem part5_eq (c : Dev nD) : main_part5 (F := Ideal) c = seq (seg 301 60) := rfl

set_option maxRecDepth 8192 in
set_option maxHeartbeats 4000000 in
/-- Stretch 6 is the 60 operations after the first 361. -/
theorem part6_eq (c : Dev nD) : main_part6 (F := Ideal) c = seq (seg 361 60) := rfl

set_option maxRecDepth 8192 in
set_option maxHeartbeats 4000000 in
/-- Stretch 7 is the 60 operations after the first 421. -/
theorem part7_eq (c : Dev nD) : main_part7 (F := Ideal) c = seq (seg 421 60) := rfl

set_option maxRecDepth 8192 in
set_option maxHeartbeats 4000000 in
/-- Stretch 8 is the 60 operations after the first 481. -/
theorem part8_eq (c : Dev nD) : main_part8 (F := Ideal) c = seq (seg 481 60) := rfl

set_option maxRecDepth 8192 in
set_option maxHeartbeats 4000000 in
/-- Stretch 9 is the 60 operations after the first 541. -/
theorem part9_eq (c : Dev nD) : main_part9 (F := Ideal) c = seq (seg 541 60) := rfl

set_option maxRecDepth 8192 in
set_option maxHeartbeats 4000000 in
/-- The last stretch is everything after the first 601 operations. -/
theorem part10_eq (c : Dev nD) : main_part10 (F := Ideal) c = seq (ops.drop 601) := rfl

/-- A list run from its `i`-th operation on is its next `n` operations run, then the rest run. -/
theorem seq_step {Λ : Labels} (i n j : Nat) (h : i + n = j) :
    (seq (ops.drop i) : Prog (TpuEff nD τ sig (Elt Ideal) Λ .tc) PUnit) = seq (seg i n) >>= fun _ => seq (ops.drop j) := by
  subst h
  unfold seg
  rw [← seq_append, ← List.drop_drop, List.take_append_drop]

/-- THE PROGRAM IS ITS LIST: the printed reference program, on any device, is the listed operations run in order. -/
theorem main_eq (c : Dev nD) : main (F := Ideal) c = seq ops := by
  show (main_part0 c >>= fun _ => main_part1 c >>= fun _ => main_part2 c >>= fun _ => main_part3 c >>= fun _ => main_part4 c >>= fun _ =>
      main_part5 c >>= fun _ => main_part6 c >>= fun _ => main_part7 c >>= fun _ => main_part8 c >>= fun _ => main_part9 c >>= fun _ =>
      main_part10 c) = seq (ops.drop 0)
  rw [seq_step 0 61 61 rfl, seq_step 61 60 121 rfl, seq_step 121 60 181 rfl, seq_step 181 60 241 rfl, seq_step 241 60 301 rfl,
    seq_step 301 60 361 rfl, seq_step 361 60 421 rfl, seq_step 421 60 481 rfl, seq_step 481 60 541 rfl, seq_step 541 60 601 rfl,
    part0_eq, part1_eq, part2_eq, part3_eq, part4_eq, part5_eq, part6_eq, part7_eq, part8_eq, part9_eq, part10_eq]

/-- The program has no scoped buffer and no scoped semaphore. -/
theorem scopedRefs_eq : (Finset.univ.filter fun b : Ref sig .tc => b.isScoped) = ∅ := by decide
theorem scopedSems_eq : (Finset.univ.filter fun sm : SemLoc sig => sm.isScoped .tc) = ∅ := by decide

end Cert.ReferenceIdeal.RefValue

end
-- ==== Proof.Ref.Run.lean ====
/-
  The reference's run, stated with the specification: from any memory, the reference ends with its result
  array equal to the correlation of its first argument with its zero-padded second argument under the fixed
  scale, and its two arguments as they were.  The program is a straight line of array operations, so every
  execution ends with each buffer at the operations' composed effect on the launch contents; that effect on
  the result buffer is the result term of the two arguments, which is the specification entry by entry.
-/
import proofs.«122554_j9363028706363_2_alg».proof.Proof.Ref.Whole
import proofs.«122554_j9363028706363_2_alg».proof.Proof.Ref.Sub
import proofs.«122554_j9363028706363_2_alg».proof.Proof.Ref.Main

noncomputable section

namespace Cert.ReferenceIdeal.RefValue

open Cert.ReferenceIdeal Cert.ReferenceIdeal.Gen Idealize.ShloMosaic Idealize.ShloMosaic.TcCoe Idealize.SL.Sem
  Idealize.ShloMosaic.StableHlo

/-- Every weakly fair execution of the reference terminates, faults nowhere, and leaves the result at the
    specification of the launch contents of its arguments (the second one padded) and the arguments unchanged. -/
theorem ref_run [Cert.ReferenceIdeal.Facts]
    (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v486)
            = Cert.Corr.corr (m' ((c.tc : Thread Cert.ReferenceIdeal.nD Cert.ReferenceIdeal.τ).loc Cert.ReferenceIdeal.main_arg0))
                (pad Cert.ReferenceIdeal.S8x128x136x200 ![0, 0, 4, 4] ![0, 0, 4, 4] ![0, 0, 0, 0]
                  (m' ((c.tc : Thread Cert.ReferenceIdeal.nD Cert.ReferenceIdeal.τ).loc Cert.ReferenceIdeal.main_arg1))
                  (sitofp (F := Ideal) .f32 (constantI Cert.ReferenceIdeal.S_ 32 0#32))
                  Cert.ReferenceIdeal.Facts₀.pads_S8x128x128x192_S8x128x136x200_000_000_440_440 Cert.ReferenceIdeal.Facts₀.h_S_)
                (Ideal.ofBits .f32 0x3DB504F3#32)
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)) :=
  (θ_run (Cert.ReferenceIdeal.defs (F := Ideal)) _ _).mono
    (fun _ h c => ⟨(h c main_v486).trans ((result_eq _).trans (ref_eq _ _)),
      (h c main_arg0).trans (arg0_eq _), (h c main_arg1).trans (arg1_eq _)⟩)
    (run_seq scopedRefs_eq scopedSems_eq (Cert.ReferenceIdeal.defs (F := Ideal)) (Cert.ReferenceIdeal.main (F := Ideal))
      (fun _ => ops) main_eq (fun _ => ops_sub) m' ρ' (fun _ => ops_fresh))

end Cert.ReferenceIdeal.RefValue

end
-- ==== Proof.lean ====
/-
  A correlation layer (cost volume) against its reference.

  Both programs compute, for a batch entry, a pixel and one of the 80 displacements of a 9×9 window without its
  centre, the dot product along 128 channels of the first argument at the pixel with the zero-padded second
  argument at the displaced pixel, times one fixed float word: Spec.lean's `corr`. On the extended reals a change
  of float format is the identity and both programs form the same sum and the same product in the same order, so
  the two results are equal entry by entry with no appeal to finiteness; the precondition is never opened.

  The kernel tiles the result in 32 blocks of 32 rows. At each block it gathers 40 padded rows in a scratch buffer
  from two windows on the one padded array, and its 80 stores fill the output block channel by channel; read back
  they are the block of `corr` (Val/Kernel.lean), the 32 blocks cover the result, and the run of the whole call
  from proof data and a body obligation is the library's launch theorem for windows that share an array
  (LibFrameShared.lean, KI/ and K/). The reference is read one displacement at a time (Ref/). Nothing was rewritten
  between the kernel and its idealization, so that conjunct is trivial.
-/
import proofs.«122554_j9363028706363_2_alg».proof.Defs
import proofs.«122554_j9363028706363_2_alg».proof.Proof.Gen.Kernel
import proofs.«122554_j9363028706363_2_alg».proof.Proof.Gen.KernelIdeal
import proofs.«122554_j9363028706363_2_alg».proof.Proof.Gen.ReferenceIdeal
import proofs.«122554_j9363028706363_2_alg».proof.Proof.Gen.Pre_finite_inputs
import proofs.«122554_j9363028706363_2_alg».proof.Proof.K.Frame
import proofs.«122554_j9363028706363_2_alg».proof.Proof.KI.Frame
import proofs.«122554_j9363028706363_2_alg».proof.Proof.Val.Kernel
import proofs.«122554_j9363028706363_2_alg».proof.Proof.Ref.Run
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its arguments as they were. -/
theorem frame_k : Cert.frame_Kernel := fun m ρ _ => Cert.Kernel.Hand.frame m ρ

/-- So does its reading on the extended reals. -/
theorem frame_ki : Cert.frame_KernelIdeal := fun m ρ _ => Cert.KernelIdeal.Hand.frame m ρ

/-- So does the reference: its run with the result forgotten. -/
theorem frame_ri : Cert.frame_ReferenceIdeal := fun m ρ _ =>
  (θ_run Cert.ReferenceIdeal.defs _ _).mono (fun _ h c => (h c).2) (Cert.ReferenceIdeal.RefValue.ref_run m ρ)

/-- Nothing was rewritten between the kernel and its reading on the extended reals. -/
theorem preserves : Cert.preserves_Kernel_KernelIdeal := trivial

/-- From memories that agree on the two arguments both programs end with the result array at the correlation of the
    first argument with the padded second. -/
theorem algebraic : Cert.algebraic_KernelIdeal_ReferenceIdeal := by
  intro m ρ m' ρ' _ hagree
  refine ⟨fun c => Cert.Corr.corr (m ((c.tc : Thread Cert.KernelIdeal.nD Cert.KernelIdeal.τ).loc Cert.KernelIdeal.main_arg0))
      (Cert.KernelIdeal.Val.padded (m ((c.tc : Thread Cert.KernelIdeal.nD Cert.KernelIdeal.τ).loc Cert.KernelIdeal.main_arg1))) Cert.KernelIdeal.Val.κ,
    Cert.KernelIdeal.Val.kernel_run m ρ, ?_⟩
  refine (θ_run Cert.ReferenceIdeal.defs _ _).mono (fun r h c => ⟨(h c).1.trans ?_, (h c).2⟩) (Cert.ReferenceIdeal.RefValue.ref_run m' ρ')
  rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
